-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v139) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S_ : Shape := ⟨0, ![]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  reducesTo_S_S_d : S_.ReducesTo [] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part6 {F : FTy → Type} [FloatOps F] (main_arg23 : FVec F S64x10 .f32) (main_arg24 : FVec F S10 .f32) (main_v100 : IVec S_ 1) (main_v101 : FVec F S64 .f32) : IVec S_ 1 :=
  let main_cst_40 : FVec F S_ .f32 := constant S_ .f32 0x7F800000#32
  let main_v102 : FVec F S64 .f32 := broadcastInDim S64 ![] bcast_S_S64 main_cst_40
  let main_v103 : IVec S64 1 := cmpf .olt main_v101 main_v102
  let main_c_41 : IVec S_ 1 := constantI S_ 1 1#1
  let main_v104 : IVec S_ 1 := (fun x v => Host.reduce IntOp.andi x v reducesTo_S64_S_d0 h_S_) main_v103 main_c_41
  let main_v105 : IVec S_ 1 := andi main_v100 main_v104
  let main_v106 : FVec F S64x10 .f32 := Host.absf main_arg23
  let main_cst_42 : FVec F S_ .f32 := constant S_ .f32 0x7F800000#32
  let main_v107 : FVec F S64x10 .f32 := broadcastInDim S64x10 ![] bcast_S_S64x10 main_cst_42
  let main_v108 : IVec S64x10 1 := cmpf .olt main_v106 main_v107
  let main_c_43 : IVec S_ 1 := constantI S_ 1 1#1
  let main_v109 : IVec S_ 1 := (fun x v => Host.reduce IntOp.andi x v reducesTo_S64x10_S_d0_1 h_S_) main_v108 main_c_43
  let main_v110 : IVec S_ 1 := andi main_v105 main_v109
  let main_v111 : FVec F S10 .f32 := Host.absf main_arg24
  let main_cst_44 : FVec F S_ .f32 := constant S_ .f32 0x7F800000#32
  let main_v112 : FVec F S10 .f32 := broadcastInDim S10 ![] bcast_S_S10 main_cst_44
  let main_v113 : IVec S10 1 := cmpf .olt main_v111 main_v112
  let main_c_45 : IVec S_ 1 := constantI S_ 1 1#1
  let main_v114 : IVec S_ 1 := (fun x v => Host.reduce IntOp.andi x v reducesTo_S10_S_d0 h_S_) main_v113 main_c_45
  let main_v115 : IVec S_ 1 := andi main_v110 main_v114
  main_v115

def fn_part5 {F : FTy → Type} [FloatOps F] (main_arg19 : FVec F S64x64 .f32) (main_arg20 : FVec F S64 .f32) (main_arg21 : FVec F S64 .f32) (main_arg22 : FVec F S64 .f32) (main_arg23 : FVec F S64x10 .f32) (main_arg24 : FVec F S10 .f32) (main_v80 : IVec S_ 1) (main_v83 : IVec S64 1) (main_c_33 : IVec S_ 1) : IVec S_ 1 :=
  let main_v84 : IVec S_ 1 := (fun x v => Host.reduce IntOp.andi x v reducesTo_S64_S_d0 h_S_) main_v83 main_c_33
  let main_v85 : IVec S_ 1 := andi main_v80 main_v84
  let main_v86 : FVec F S64x64 .f32 := Host.absf main_arg19
  let main_cst_34 : FVec F S_ .f32 := constant S_ .f32 0x7F800000#32
  let main_v87 : FVec F S64x64 .f32 := broadcastInDim S64x64 ![] bcast_S_S64x64 main_cst_34
  let main_v88 : IVec S64x64 1 := cmpf .olt main_v86 main_v87
  let main_c_35 : IVec S_ 1 := constantI S_ 1 1#1
  let main_v89 : IVec S_ 1 := (fun x v => Host.reduce IntOp.andi x v reducesTo_S64x64_S_d0_1 h_S_) main_v88 main_c_35
  let main_v90 : IVec S_ 1 := andi main_v85 main_v89
  let main_v91 : FVec F S64 .f32 := Host.absf main_arg20
  let main_cst_36 : FVec F S_ .f32 := constant S_ .f32 0x7F800000#32
  let main_v92 : FVec F S64 .f32 := broadcastInDim S64 ![] bcast_S_S64 main_cst_36
  let main_v93 : IVec S64 1 := cmpf .olt main_v91 main_v92
  let main_c_37 : IVec S_ 1 := constantI S_ 1 1#1
  let main_v94 : IVec S_ 1 := (fun x v => Host.reduce IntOp.andi x v reducesTo_S64_S_d0 h_S_) main_v93 main_c_37
  let main_v95 : IVec S_ 1 := andi main_v90 main_v94
  let main_v96 : FVec F S64 .f32 := Host.absf main_arg21
  let main_cst_38 : FVec F S_ .f32 := constant S_ .f32 0x7F800000#32
  let main_v97 : FVec F S64 .f32 := broadcastInDim S64 ![] bcast_S_S64 main_cst_38
  let main_v98 : IVec S64 1 := cmpf .olt main_v96 main_v97
  let main_c_39 : IVec S_ 1 := constantI S_ 1 1#1
  let main_v99 : IVec S_ 1 := (fun x v => Host.reduce IntOp.andi x v reducesTo_S64_S_d0 h_S_) main_v98 main_c_39
  let main_v100 : IVec S_ 1 := andi main_v95 main_v99
  let main_v101 : FVec F S64 .f32 := Host.absf main_arg22
  fn_part6 (F := F) main_arg23 main_arg24 main_v100 main_v101

def fn_part4 {F : FTy → Type} [FloatOps F] (main_arg16 : FVec F S_ .f32) (main_arg17 : FVec F S64x64 .f32) (main_arg18 : FVec F S64 .f32) (main_arg19 : FVec F S64x64 .f32) (main_arg20 : FVec F S64 .f32) (main_arg21 : FVec F S64 .f32) (main_arg22 : FVec F S64 .f32) (main_arg23 : FVec F S64x10 .f32) (main_arg24 : FVec F S10 .f32) (main_v66 : IVec S_ 1) (main_v67 : FVec F S64 .f32) : IVec S_ 1 :=
  let main_cst_26 : FVec F S_ .f32 := constant S_ .f32 0x7F800000#32
  let main_v68 : FVec F S64 .f32 := broadcastInDim S64 ![] bcast_S_S64 main_cst_26
  let main_v69 : IVec S64 1 := cmpf .olt main_v67 main_v68
  let main_c_27 : IVec S_ 1 := constantI S_ 1 1#1
  let main_v70 : IVec S_ 1 := (fun x v => Host.reduce IntOp.andi x v reducesTo_S64_S_d0 h_S_) main_v69 main_c_27
  let main_v71 : IVec S_ 1 := andi main_v66 main_v70
  let main_v72 : FVec F S_ .f32 := Host.absf main_arg16
  let main_cst_28 : FVec F S_ .f32 := constant S_ .f32 0x7F800000#32
  let main_v73 : IVec S_ 1 := cmpf .olt main_v72 main_cst_28
  let main_c_29 : IVec S_ 1 := constantI S_ 1 1#1
  let main_v74 : IVec S_ 1 := (fun x v => Host.reduce IntOp.andi x v reducesTo_S_S_d h_S_) main_v73 main_c_29
  let main_v75 : IVec S_ 1 := andi main_v71 main_v74
  let main_v76 : FVec F S64x64 .f32 := Host.absf main_arg17
  let main_cst_30 : FVec F S_ .f32 := constant S_ .f32 0x7F800000#32
  let main_v77 : FVec F S64x64 .f32 := broadcastInDim S64x64 ![] bcast_S_S64x64 main_cst_30
  let main_v78 : IVec S64x64 1 := cmpf .olt main_v76 main_v77
  let main_c_31 : IVec S_ 1 := constantI S_ 1 1#1
  let main_v79 : IVec S_ 1 := (fun x v => Host.reduce IntOp.andi x v reducesTo_S64x64_S_d0_1 h_S_) main_v78 main_c_31
  let main_v80 : IVec S_ 1 := andi main_v75 main_v79
  let main_v81 : FVec F S64 .f32 := Host.absf main_arg18
  let main_cst_32 : FVec F S_ .f32 := constant S_ .f32 0x7F800000#32
  let main_v82 : FVec F S64 .f32 := broadcastInDim S64 ![] bcast_S_S64 main_cst_32
  let main_v83 : IVec S64 1 := cmpf .olt main_v81 main_v82
  let main_c_33 : IVec S_ 1 := constantI S_ 1 1#1
  fn_part5 (F := F) main_arg19 main_arg20 main_arg21 main_arg22 main_arg23 main_arg24 main_v80 main_v83 main_c_33

def fn_part3 {F : FTy → Type} [FloatOps F] (main_arg12 : FVec F S64x64 .f32) (main_arg13 : FVec F S64 .f32) (main_arg14 : FVec F S64 .f32) (main_arg15 : FVec F S64 .f32) (main_arg16 : FVec F S_ .f32) (main_arg17 : FVec F S64x64 .f32) (main_arg18 : FVec F S64 .f32) (main_arg19 : FVec F S64x64 .f32) (main_arg20 : FVec F S64 .f32) (main_arg21 : FVec F S64 .f32) (main_arg22 : FVec F S64 .f32) (main_arg23 : FVec F S64x10 .f32) (main_arg24 : FVec F S10 .f32) (main_v46 : IVec S_ 1) (main_v49 : IVec S64 1) (main_c_19 : IVec S_ 1) : IVec S_ 1 :=
  let main_v50 : IVec S_ 1 := (fun x v => Host.reduce IntOp.andi x v reducesTo_S64_S_d0 h_S_) main_v49 main_c_19
  let main_v51 : IVec S_ 1 := andi main_v46 main_v50
  let main_v52 : FVec F S64x64 .f32 := Host.absf main_arg12
  let main_cst_20 : FVec F S_ .f32 := constant S_ .f32 0x7F800000#32
  let main_v53 : FVec F S64x64 .f32 := broadcastInDim S64x64 ![] bcast_S_S64x64 main_cst_20
  let main_v54 : IVec S64x64 1 := cmpf .olt main_v52 main_v53
  let main_c_21 : IVec S_ 1 := constantI S_ 1 1#1
  let main_v55 : IVec S_ 1 := (fun x v => Host.reduce IntOp.andi x v reducesTo_S64x64_S_d0_1 h_S_) main_v54 main_c_21
  let main_v56 : IVec S_ 1 := andi main_v51 main_v55
  let main_v57 : FVec F S64 .f32 := Host.absf main_arg13
  let main_cst_22 : FVec F S_ .f32 := constant S_ .f32 0x7F800000#32
  let main_v58 : FVec F S64 .f32 := broadcastInDim S64 ![] bcast_S_S64 main_cst_22
  let main_v59 : IVec S64 1 := cmpf .olt main_v57 main_v58
  let main_c_23 : IVec S_ 1 := constantI S_ 1 1#1
  let main_v60 : IVec S_ 1 := (fun x v => Host.reduce IntOp.andi x v reducesTo_S64_S_d0 h_S_) main_v59 main_c_23
  let main_v61 : IVec S_ 1 := andi main_v56 main_v60
  let main_v62 : FVec F S64 .f32 := Host.absf main_arg14
  let main_cst_24 : FVec F S_ .f32 := constant S_ .f32 0x7F800000#32
  let main_v63 : FVec F S64 .f32 := broadcastInDim S64 ![] bcast_S_S64 main_cst_24
  let main_v64 : IVec S64 1 := cmpf .olt main_v62 main_v63
  let main_c_25 : IVec S_ 1 := constantI S_ 1 1#1
  let main_v65 : IVec S_ 1 := (fun x v => Host.reduce IntOp.andi x v reducesTo_S64_S_d0 h_S_) main_v64 main_c_25
  let main_v66 : IVec S_ 1 := andi main_v61 main_v65
  let main_v67 : FVec F S64 .f32 := Host.absf main_arg15
  fn_part4 (F := F) main_arg16 main_arg17 main_arg18 main_arg19 main_arg20 main_arg21 main_arg22 main_arg23 main_arg24 main_v66 main_v67

def fn_part2 {F : FTy → Type} [FloatOps F] (main_arg9 : FVec F S_ .f32) (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S_ .f32) (main_arg17 : FVec F S64x64 .f32) (main_arg18 : FVec F S64 .f32) (main_arg19 : FVec F S64x64 .f32) (main_arg20 : FVec F S64 .f32) (main_arg21 : FVec F S64 .f32) (main_arg22 : FVec F S64 .f32) (main_arg23 : FVec F S64x10 .f32) (main_arg24 : FVec F S10 .f32) (main_v32 : IVec S_ 1) (main_v33 : FVec F S64 .f32) : IVec S_ 1 :=
  let main_cst_12 : FVec F S_ .f32 := constant S_ .f32 0x7F800000#32
  let main_v34 : FVec F S64 .f32 := broadcastInDim S64 ![] bcast_S_S64 main_cst_12
  let main_v35 : IVec S64 1 := cmpf .olt main_v33 main_v34
  let main_c_13 : IVec S_ 1 := constantI S_ 1 1#1
  let main_v36 : IVec S_ 1 := (fun x v => Host.reduce IntOp.andi x v reducesTo_S64_S_d0 h_S_) main_v35 main_c_13
  let main_v37 : IVec S_ 1 := andi main_v32 main_v36
  let main_v38 : FVec F S_ .f32 := Host.absf main_arg9
  let main_cst_14 : FVec F S_ .f32 := constant S_ .f32 0x7F800000#32
  let main_v39 : IVec S_ 1 := cmpf .olt main_v38 main_cst_14
  let main_c_15 : IVec S_ 1 := constantI S_ 1 1#1
  let main_v40 : IVec S_ 1 := (fun x v => Host.reduce IntOp.andi x v reducesTo_S_S_d h_S_) main_v39 main_c_15
  let main_v41 : IVec S_ 1 := andi main_v37 main_v40
  let main_v42 : FVec F S64x64 .f32 := Host.absf main_arg10
  let main_cst_16 : FVec F S_ .f32 := constant S_ .f32 0x7F800000#32
  let main_v43 : FVec F S64x64 .f32 := broadcastInDim S64x64 ![] bcast_S_S64x64 main_cst_16
  let main_v44 : IVec S64x64 1 := cmpf .olt main_v42 main_v43
  let main_c_17 : IVec S_ 1 := constantI S_ 1 1#1
  let main_v45 : IVec S_ 1 := (fun x v => Host.reduce IntOp.andi x v reducesTo_S64x64_S_d0_1 h_S_) main_v44 main_c_17
  let main_v46 : IVec S_ 1 := andi main_v41 main_v45
  let main_v47 : FVec F S64 .f32 := Host.absf main_arg11
  let main_cst_18 : FVec F S_ .f32 := constant S_ .f32 0x7F800000#32
  let main_v48 : FVec F S64 .f32 := broadcastInDim S64 ![] bcast_S_S64 main_cst_18
  let main_v49 : IVec S64 1 := cmpf .olt main_v47 main_v48
  let main_c_19 : IVec S_ 1 := constantI S_ 1 1#1
  fn_part3 (F := F) main_arg12 main_arg13 main_arg14 main_arg15 main_arg16 main_arg17 main_arg18 main_arg19 main_arg20 main_arg21 main_arg22 main_arg23 main_arg24 main_v46 main_v49 main_c_19

def fn_part1 {F : FTy → Type} [FloatOps F] (main_arg5 : FVec F S64x64 .f32) (main_arg6 : FVec F S64 .f32) (main_arg7 : FVec F S64 .f32) (main_arg8 : FVec F S64 .f32) (main_arg9 : FVec F S_ .f32) (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S_ .f32) (main_arg17 : FVec F S64x64 .f32) (main_arg18 : FVec F S64 .f32) (main_arg19 : FVec F S64x64 .f32) (main_arg20 : FVec F S64 .f32) (main_arg21 : FVec F S64 .f32) (main_arg22 : FVec F S64 .f32) (main_arg23 : FVec F S64x10 .f32) (main_arg24 : FVec F S10 .f32) (main_v12 : IVec S_ 1) (main_v15 : IVec S64 1) (main_c_5 : IVec S_ 1) : IVec S_ 1 :=
  let main_v16 : IVec S_ 1 := (fun x v => Host.reduce IntOp.andi x v reducesTo_S64_S_d0 h_S_) main_v15 main_c_5
  let main_v17 : IVec S_ 1 := andi main_v12 main_v16
  let main_v18 : FVec F S64x64 .f32 := Host.absf main_arg5
  let main_cst_6 : FVec F S_ .f32 := constant S_ .f32 0x7F800000#32
  let main_v19 : FVec F S64x64 .f32 := broadcastInDim S64x64 ![] bcast_S_S64x64 main_cst_6
  let main_v20 : IVec S64x64 1 := cmpf .olt main_v18 main_v19
  let main_c_7 : IVec S_ 1 := constantI S_ 1 1#1
  let main_v21 : IVec S_ 1 := (fun x v => Host.reduce IntOp.andi x v reducesTo_S64x64_S_d0_1 h_S_) main_v20 main_c_7
  let main_v22 : IVec S_ 1 := andi main_v17 main_v21
  let main_v23 : FVec F S64 .f32 := Host.absf main_arg6
  let main_cst_8 : FVec F S_ .f32 := constant S_ .f32 0x7F800000#32
  let main_v24 : FVec F S64 .f32 := broadcastInDim S64 ![] bcast_S_S64 main_cst_8
  let main_v25 : IVec S64 1 := cmpf .olt main_v23 main_v24
  let main_c_9 : IVec S_ 1 := constantI S_ 1 1#1
  let main_v26 : IVec S_ 1 := (fun x v => Host.reduce IntOp.andi x v reducesTo_S64_S_d0 h_S_) main_v25 main_c_9
  let main_v27 : IVec S_ 1 := andi main_v22 main_v26
  let main_v28 : FVec F S64 .f32 := Host.absf main_arg7
  let main_cst_10 : FVec F S_ .f32 := constant S_ .f32 0x7F800000#32
  let main_v29 : FVec F S64 .f32 := broadcastInDim S64 ![] bcast_S_S64 main_cst_10
  let main_v30 : IVec S64 1 := cmpf .olt main_v28 main_v29
  let main_c_11 : IVec S_ 1 := constantI S_ 1 1#1
  let main_v31 : IVec S_ 1 := (fun x v => Host.reduce IntOp.andi x v reducesTo_S64_S_d0 h_S_) main_v30 main_c_11
  let main_v32 : IVec S_ 1 := andi main_v27 main_v31
  let main_v33 : FVec F S64 .f32 := Host.absf main_arg8
  fn_part2 (F := F) main_arg9 main_arg10 main_arg11 main_arg12 main_arg13 main_arg14 main_arg15 main_arg16 main_arg17 main_arg18 main_arg19 main_arg20 main_arg21 main_arg22 main_arg23 main_arg24 main_v32 main_v33

def fn {F : FTy → Type} [FloatOps F] (main_arg0 : FVec F S50000x128 .f32) (main_arg1 : IVec S2x800000 32) (main_arg2 : FVec F S_ .f32) (main_arg3 : FVec F S128x64 .f32) (main_arg4 : FVec F S64 .f32) (main_arg5 : FVec F S64x64 .f32) (main_arg6 : FVec F S64 .f32) (main_arg7 : FVec F S64 .f32) (main_arg8 : FVec F S64 .f32) (main_arg9 : FVec F S_ .f32) (main_arg10 : FVec F S64x64 .f32) (main_arg11 : FVec F S64 .f32) (main_arg12 : FVec F S64x64 .f32) (main_arg13 : FVec F S64 .f32) (main_arg14 : FVec F S64 .f32) (main_arg15 : FVec F S64 .f32) (main_arg16 : FVec F S_ .f32) (main_arg17 : FVec F S64x64 .f32) (main_arg18 : FVec F S64 .f32) (main_arg19 : FVec F S64x64 .f32) (main_arg20 : FVec F S64 .f32) (main_arg21 : FVec F S64 .f32) (main_arg22 : FVec F S64 .f32) (main_arg23 : FVec F S64x10 .f32) (main_arg24 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S_ .f32 := Host.absf main_arg2
  let main_cst_0 : FVec F S_ .f32 := constant S_ .f32 0x7F800000#32
  let main_v5 : IVec S_ 1 := cmpf .olt main_v4 main_cst_0
  let main_c_1 : IVec S_ 1 := constantI S_ 1 1#1
  let main_v6 : IVec S_ 1 := (fun x v => Host.reduce IntOp.andi x v reducesTo_S_S_d h_S_) main_v5 main_c_1
  let main_v7 : IVec S_ 1 := andi main_v3 main_v6
  let main_v8 : FVec F S128x64 .f32 := Host.absf main_arg3
  let main_cst_2 : FVec F S_ .f32 := constant S_ .f32 0x7F800000#32
  let main_v9 : FVec F S128x64 .f32 := broadcastInDim S128x64 ![] bcast_S_S128x64 main_cst_2
  let main_v10 : IVec S128x64 1 := cmpf .olt main_v8 main_v9
  let main_c_3 : IVec S_ 1 := constantI S_ 1 1#1
  let main_v11 : IVec S_ 1 := (fun x v => Host.reduce IntOp.andi x v reducesTo_S128x64_S_d0_1 h_S_) main_v10 main_c_3
  let main_v12 : IVec S_ 1 := andi main_v7 main_v11
  let main_v13 : FVec F S64 .f32 := Host.absf main_arg4
  let main_cst_4 : FVec F S_ .f32 := constant S_ .f32 0x7F800000#32
  let main_v14 : FVec F S64 .f32 := broadcastInDim S64 ![] bcast_S_S64 main_cst_4
  let main_v15 : IVec S64 1 := cmpf .olt main_v13 main_v14
  let main_c_5 : IVec S_ 1 := constantI S_ 1 1#1
  fn_part1 (F := F) main_arg5 main_arg6 main_arg7 main_arg8 main_arg9 main_arg10 main_arg11 main_arg12 main_arg13 main_arg14 main_arg15 main_arg16 main_arg17 main_arg18 main_arg19 main_arg20 main_arg21 main_arg22 main_arg23 main_arg24 main_v12 main_v15 main_c_5
-- ==== Kernel.lean ====
abbrev S50000x128 : Shape := ⟨2, ![50000, 128]⟩
abbrev S2x800000 : Shape := ⟨2, ![2, 800000]⟩
abbrev S_ : Shape := ⟨0, ![]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S1x1 : Shape := ⟨2, ![1, 1]⟩
abbrev S1x64 : Shape := ⟨2, ![1, 64]⟩
abbrev S50000x64 : Shape := ⟨2, ![50000, 64]⟩
abbrev S5000x128 : Shape := ⟨2, ![5000, 128]⟩
abbrev S5000x64 : Shape := ⟨2, ![5000, 64]⟩
abbrev S800000x64 : Shape := ⟨2, ![800000, 64]⟩
abbrev S1x10 : Shape := ⟨2, ![1, 10]⟩
abbrev S50000x10 : Shape := ⟨2, ![50000, 10]⟩
abbrev S5000x10 : Shape := ⟨2, ![5000, 10]⟩

abbrev nBuf : Space → Nat
  | .hbm => 181
  | .vmem => 63
  | .smem => 0
  | _ => 0

abbrev hbmTy0_0 (i : Nat) : BufTy := match i % 128 with
  | 0 => ⟨S50000x128, .f32⟩
  | 1 => ⟨S2x800000, .i32⟩
  | 2 => ⟨S_, .f32⟩
  | 3 => ⟨S128x64, .f32⟩
  | 4 => ⟨S64, .f32⟩
  | 5 => ⟨S64x64, .f32⟩
  | 6 => ⟨S64, .f32⟩
  | 7 => ⟨S64, .f32⟩
  | 8 => ⟨S64, .f32⟩
  | 9 => ⟨S_, .f32⟩
  | 10 => ⟨S64x64, .f32⟩
  | 11 => ⟨S64, .f32⟩
  | 12 => ⟨S64x64, .f32⟩
  | 13 => ⟨S64, .f32⟩
  | 14 => ⟨S64, .f32⟩
  | 15 => ⟨S64, .f32⟩
  | 16 => ⟨S_, .f32⟩
  | 17 => ⟨S64x64, .f32⟩
  | 18 => ⟨S64, .f32⟩
  | 19 => ⟨S64x64, .f32⟩
  | 20 => ⟨S64, .f32⟩
  | 21 => ⟨S64, .f32⟩
  | 22 => ⟨S64, .f32⟩
  | 23 => ⟨S64x10, .f32⟩
  | 24 => ⟨S10, .f32⟩
  | 25 => ⟨S1x800000, .i32⟩
  | 26 => ⟨S800000, .i32⟩
  | 27 => ⟨S1x800000, .i32⟩
  | 28 => ⟨S800000, .i32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S1x1, .f32⟩
  | 43 => ⟨S1x64, .f32⟩
  | 44 => ⟨S1x64, .f32⟩
  | 45 => ⟨S50000x64, .f32⟩
  | 46 => ⟨S_, .f32⟩
  | 47 => ⟨S64, .f32⟩
  | 48 => ⟨S_, .f32⟩
  | 49 => ⟨S64, .f32⟩
  | 50 => ⟨S64, .f32⟩
  | 51 => ⟨S_, .i32⟩
  | 52 => ⟨S_, .f32⟩
  | 53 => ⟨S64, .f32⟩
  | 54 => ⟨S1x64, .f32⟩
  | 55 => ⟨S_, .f32⟩
  | 56 => ⟨S1x64, .f32⟩
  | 57 => ⟨S1x64, .f32⟩
  | 58 => ⟨S50000x64, .f32⟩
  | 59 => ⟨S50000x64, .f32⟩
  | 60 => ⟨S50000x64, .f32⟩
  | 61 => ⟨S_, .f32⟩
  | 62 => ⟨S_, .f32⟩
  | 63 => ⟨S_, .f32⟩
  | 64 => ⟨S_, .f32⟩
  | 65 => ⟨S64, .f32⟩
  | 66 => ⟨S64, .f32⟩
  | 67 => ⟨S64, .f32⟩
  | 68 => ⟨S_, .f32⟩
  | 69 => ⟨S_, .i1⟩
  | 70 => ⟨S_, .f32⟩
  | 71 => ⟨S_, .f32⟩
  | 72 => ⟨S64, .f32⟩
  | 73 => ⟨S64, .f32⟩
  | 74 => ⟨S1x64, .f32⟩
  | 75 => ⟨S1x64, .f32⟩
  | 76 => ⟨S1x64, .f32⟩
  | 77 => ⟨S1x64, .f32⟩
  | 78 => ⟨S50000x64, .f32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x64, .f32⟩
  | 88 => ⟨S_, .f32⟩
  | 89 => ⟨S50000x64, .f32⟩
  | 90 => ⟨S800000x1, .i32⟩
  | 91 => ⟨S50000x64, .f32⟩
  | 92 => ⟨S1x1, .f32⟩
  | 93 => ⟨S1x64, .f32⟩
  | 94 => ⟨S1x64, .f32⟩
  | 95 => ⟨S50000x64, .f32⟩
  | 96 => ⟨S_, .f32⟩
  | 97 => ⟨S64, .f32⟩
  | 98 => ⟨S_, .f32⟩
  | 99 => ⟨S64, .f32⟩
  | 100 => ⟨S64, .f32⟩
  | 101 => ⟨S_, .i32⟩
  | 102 => ⟨S_, .f32⟩
  | 103 => ⟨S64, .f32⟩
  | 104 => ⟨S1x64, .f32⟩
  | 105 => ⟨S_, .f32⟩
  | 106 => ⟨S1x64, .f32⟩
  | 107 => ⟨S1x64, .f32⟩
  | 108 => ⟨S50000x64, .f32⟩
  | 109 => ⟨S50000x64, .f32⟩
  | 110 => ⟨S50000x64, .f32⟩
  | 111 => ⟨S_, .f32⟩
  | 112 => ⟨S_, .f32⟩
  | 113 => ⟨S_, .f32⟩
  | 114 => ⟨S_, .f32⟩
  | 115 => ⟨S64, .f32⟩
  | 116 => ⟨S64, .f32⟩
  | 117 => ⟨S64, .f32⟩
  | 118 => ⟨S_, .f32⟩
  | 119 => ⟨S_, .i1⟩
  | 120 => ⟨S_, .f32⟩
  | 121 => ⟨S_, .f32⟩
  | 122 => ⟨S64, .f32⟩
  | 123 => ⟨S64, .f32⟩
  | 124 => ⟨S1x64, .f32⟩
  | 125 => ⟨S1x64, .f32⟩
  | 126 => ⟨S1x64, .f32⟩
  | 127 => ⟨S1x64, .f32⟩
  | _ => ⟨S50000x128, .f32⟩

abbrev hbmTy0_1 (i : Nat) : BufTy := match i % 128 with
  | 0 => ⟨S50000x64, .f32⟩
  | 1 => ⟨S_, .i32⟩
  | 2 => ⟨S800000, .i32⟩
  | 3 => ⟨S800000, .i1⟩
  | 4 => ⟨S_, .i32⟩
  | 5 => ⟨S800000, .i32⟩
  | 6 => ⟨S800000, .i32⟩
  | 7 => ⟨S800000, .i32⟩
  | 8 => ⟨S800000x1, .i32⟩
  | 9 => ⟨S800000x64, .f32⟩
  | 10 => ⟨S_, .f32⟩
  | 11 => ⟨S50000x64, .f32⟩
  | 12 => ⟨S800000x1, .i32⟩
  | 13 => ⟨S50000x64, .f32⟩
  | 14 => ⟨S1x1, .f32⟩
  | 15 => ⟨S1x64, .f32⟩
  | 16 => ⟨S1x64, .f32⟩
  | 17 => ⟨S50000x64, .f32⟩
  | 18 => ⟨S_, .f32⟩
  | 19 => ⟨S64, .f32⟩
  | 20 => ⟨S_, .f32⟩
  | 21 => ⟨S64, .f32⟩
  | 22 => ⟨S64, .f32⟩
  | 23 => ⟨S_, .i32⟩
  | 24 => ⟨S_, .f32⟩
  | 25 => ⟨S64, .f32⟩
  | 26 => ⟨S1x64, .f32⟩
  | 27 => ⟨S_, .f32⟩
  | 28 => ⟨S1x64, .f32⟩
  | 29 => ⟨S1x64, .f32⟩
  | 30 => ⟨S50000x64, .f32⟩
  | 31 => ⟨S50000x64, .f32⟩
  | 32 => ⟨S50000x64, .f32⟩
  | 33 => ⟨S_, .f32⟩
  | 34 => ⟨S_, .f32⟩
  | 35 => ⟨S_, .f32⟩
  | 36 => ⟨S_, .f32⟩
  | 37 => ⟨S64, .f32⟩
  | 38 => ⟨S64, .f32⟩
  | 39 => ⟨S64, .f32⟩
  | 40 => ⟨S_, .f32⟩
  | 41 => ⟨S_, .i1⟩
  | 42 => ⟨S_, .f32⟩
  | 43 => ⟨S_, .f32⟩
  | 44 => ⟨S64, .f32⟩
  | 45 => ⟨S64, .f32⟩
  | 46 => ⟨S1x64, .f32⟩
  | 47 => ⟨S1x64, .f32⟩
  | 48 => ⟨S1x64, .f32⟩
  | 49 => ⟨S1x64, .f32⟩
  | 50 => ⟨S50000x64, .f32⟩
  | 51 => ⟨S1x10, .f32⟩
  | 52 => ⟨S50000x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S1x1, .f32⟩
  | .local _ .vmem, ⟨5, _⟩ => ⟨S128x64, .f32⟩
  | .local _ .vmem, ⟨6, _⟩ => ⟨S1x64, .f32⟩
  | .local _ .vmem, ⟨7, _⟩ => ⟨S64x64, .f32⟩
  | .local _ .vmem, ⟨8, _⟩ => ⟨S1x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S1x1, .f32⟩
  | .local _ .vmem, ⟨24, _⟩ => ⟨S64x64, .f32⟩
  | .local _ .vmem, ⟨25, _⟩ => ⟨S1x64, .f32⟩
  | .local _ .vmem, ⟨26, _⟩ => ⟨S64x64, .f32⟩
  | .local _ .vmem, ⟨27, _⟩ => ⟨S1x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S1x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S5000x64, .f32⟩
  | .local _ .vmem, ⟨41, _⟩ => ⟨S5000x64, .f32⟩
  | .local _ .vmem, ⟨42, _⟩ => ⟨S1x1, .f32⟩
  | .local _ .vmem, ⟨43, _⟩ => ⟨S64x64, .f32⟩
  | .local _ .vmem, ⟨44, _⟩ => ⟨S1x64, .f32⟩
  | .local _ .vmem, ⟨45, _⟩ => ⟨S64x64, .f32⟩
  | .local _ .vmem, ⟨46, _⟩ => ⟨S1x64, .f32⟩
  | .local _ .vmem, ⟨47, _⟩ => ⟨S5000x64, .f32⟩
  | .local _ .vmem, ⟨48, _⟩ => ⟨S5000x64, .f32⟩
  | .local _ .vmem, ⟨49, _⟩ => ⟨S5000x64, .f32⟩
  | .local _ .vmem, ⟨50, _⟩ => ⟨S5000x64, .f32⟩
  | .local _ .vmem, ⟨51, _⟩ => ⟨S1x64, .f32⟩
  | .local _ .vmem, ⟨52, _⟩ => ⟨S1x64, .f32⟩
  | .local _ .vmem, ⟨53, _⟩ => ⟨S1x64, .f32⟩
  | .local _ .vmem, ⟨54, _⟩ => ⟨S1x64, .f32⟩
  | .local _ .vmem, ⟨55, _⟩ => ⟨S5000x64, .f32⟩
  | .local _ .vmem, ⟨56, _⟩ => ⟨S5000x64, .f32⟩
  | .local _ .vmem, ⟨57, _⟩ => ⟨S5000x64, .f32⟩
  | .local _ .vmem, ⟨58, _⟩ => ⟨S5000x64, .f32⟩
  | .local _ .vmem, ⟨59, _⟩ => ⟨S64x10, .f32⟩
  | .local _ .vmem, ⟨60, _⟩ => ⟨S1x10, .f32⟩
  | .local _ .vmem, ⟨61, _⟩ => ⟨S5000x10, .f32⟩
  | .local _ .vmem, ⟨62, _⟩ => ⟨S5000x10, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | _, _ => false

abbrev semScoped : Fin 0 → Bool
  | ⟨_, h⟩ => absurd h (Nat.not_lt_zero _)

abbrev dmaSemScoped : Fin 63 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | _ => false

abbrev sig : RefSig :=
  ofTc nBuf bufTy 0 63 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_1 : Ref sig .tc := ⟨.hbm, 46, rfl⟩
abbrev main_v18 : Ref sig .tc := ⟨.hbm, 47, rfl⟩
abbrev main_cst_2 : Ref sig .tc := ⟨.hbm, 48, rfl⟩
abbrev main_v19 : Ref sig .tc := ⟨.hbm, 49, rfl⟩
abbrev main_v20 : Ref sig .tc := ⟨.hbm, 50, rfl⟩
abbrev main_c_3 : Ref sig .tc := ⟨.hbm, 51, rfl⟩
abbrev main_call0_cst : Ref sig .tc := ⟨.hbm, 52, rfl⟩
abbrev main_call0_v0 : Ref sig .tc := ⟨.hbm, 53, rfl⟩
abbrev main_call0_v1 : Ref sig .tc := ⟨.hbm, 54, rfl⟩
abbrev main_call0_cst_0 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_cst_1 : Ref sig .tc := ⟨.hbm, 62, rfl⟩
abbrev main_call0_v8 : Ref sig .tc := ⟨.hbm, 63, rfl⟩
abbrev main_call0_cst_2 : Ref sig .tc := ⟨.hbm, 64, rfl⟩
abbrev main_call0_v9 : Ref sig .tc := ⟨.hbm, 65, rfl⟩
abbrev main_call0_v10 : Ref sig .tc := ⟨.hbm, 66, rfl⟩
abbrev main_call0_v11 : Ref sig .tc := ⟨.hbm, 67, rfl⟩
abbrev main_call0_cst_3 : Ref sig .tc := ⟨.hbm, 68, rfl⟩
abbrev main_call0_v12 : Ref sig .tc := ⟨.hbm, 69, rfl⟩
abbrev main_call0_cst_4 : Ref sig .tc := ⟨.hbm, 70, rfl⟩
abbrev main_call0_call0_v0 : Ref sig .tc := ⟨.hbm, 71, rfl⟩
abbrev main_call0_call0_v1 : Ref sig .tc := ⟨.hbm, 72, rfl⟩
abbrev main_v21 : Ref sig .tc := ⟨.hbm, 73, rfl⟩
abbrev main_v22 : Ref sig .tc := ⟨.hbm, 74, rfl⟩
abbrev main_v23 : Ref sig .tc := ⟨.hbm, 75, rfl⟩
abbrev main_v24 : Ref sig .tc := ⟨.hbm, 76, rfl⟩
abbrev main_v25 : Ref sig .tc := ⟨.hbm, 77, rfl⟩
abbrev main_v26 : Ref sig .tc := ⟨.hbm, 78, rfl⟩
abbrev main_c_4 : Ref sig .tc := ⟨.hbm, 79, rfl⟩
abbrev main_v27 : Ref sig .tc := ⟨.hbm, 80, rfl⟩
abbrev main_v28 : Ref sig .tc := ⟨.hbm, 81, rfl⟩
abbrev main_c_5 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_cst_6 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_v37 : Ref sig .tc := ⟨.hbm, 92, rfl⟩
abbrev main_v38 : Ref sig .tc := ⟨.hbm, 93, rfl⟩
abbrev main_v39 : Ref sig .tc := ⟨.hbm, 94, rfl⟩
abbrev main_v40 : Ref sig .tc := ⟨.hbm, 95, rfl⟩
abbrev main_cst_7 : Ref sig .tc := ⟨.hbm, 96, rfl⟩
abbrev main_v41 : Ref sig .tc := ⟨.hbm, 97, rfl⟩
abbrev main_cst_8 : Ref sig .tc := ⟨.hbm, 98, rfl⟩
abbrev main_v42 : Ref sig .tc := ⟨.hbm, 99, rfl⟩
abbrev main_v43 : Ref sig .tc := ⟨.hbm, 100, rfl⟩
abbrev main_c_9 : Ref sig .tc := ⟨.hbm, 101, rfl⟩
abbrev main_call1_cst : Ref sig .tc := ⟨.hbm, 102, rfl⟩
abbrev main_call1_v0 : Ref sig .tc := ⟨.hbm, 103, rfl⟩
abbrev main_call1_v1 : Ref sig .tc := ⟨.hbm, 104, rfl⟩
abbrev main_call1_cst_0 : Ref sig .tc := ⟨.hbm, 105, rfl⟩
abbrev main_call1_v2 : Ref sig .tc := ⟨.hbm, 106, rfl⟩
abbrev main_call1_v3 : Ref sig .tc := ⟨.hbm, 107, rfl⟩
abbrev main_call1_v4 : Ref sig .tc := ⟨.hbm, 108, rfl⟩
abbrev main_call1_v5 : Ref sig .tc := ⟨.hbm, 109, rfl⟩
abbrev main_call1_v6 : Ref sig .tc := ⟨.hbm, 110, rfl⟩
abbrev main_call1_v7 : Ref sig .tc := ⟨.hbm, 111, rfl⟩
abbrev main_call1_cst_1 : Ref sig .tc := ⟨.hbm, 112, rfl⟩
abbrev main_call1_v8 : Ref sig .tc := ⟨.hbm, 113, rfl⟩
abbrev main_call1_cst_2 : Ref sig .tc := ⟨.hbm, 114, rfl⟩
abbrev main_call1_v9 : Ref sig .tc := ⟨.hbm, 115, rfl⟩
abbrev main_call1_v10 : Ref sig .tc := ⟨.hbm, 116, rfl⟩
abbrev main_call1_v11 : Ref sig .tc := ⟨.hbm, 117, rfl⟩
abbrev main_call1_cst_3 : Ref sig .tc := ⟨.hbm, 118, rfl⟩
abbrev main_call1_v12 : Ref sig .tc := ⟨.hbm, 119, rfl⟩
abbrev main_call1_cst_4 : Ref sig .tc := ⟨.hbm, 120, rfl⟩
abbrev main_call1_call0_v0 : Ref sig .tc := ⟨.hbm, 121, rfl⟩
abbrev main_call1_call0_v1 : Ref sig .tc := ⟨.hbm, 122, rfl⟩
abbrev main_v44 : Ref sig .tc := ⟨.hbm, 123, rfl⟩
abbrev main_v45 : Ref sig .tc := ⟨.hbm, 124, rfl⟩
abbrev main_v46 : Ref sig .tc := ⟨.hbm, 125, rfl⟩
abbrev main_v47 : Ref sig .tc := ⟨.hbm, 126, rfl⟩
abbrev main_v48 : Ref sig .tc := ⟨.hbm, 127, rfl⟩
abbrev main_v49 : Ref sig .tc := ⟨.hbm, 128, rfl⟩
abbrev main_c_10 : Ref sig .tc := ⟨.hbm, 129, rfl⟩
abbrev main_v50 : Ref sig .tc := ⟨.hbm, 130, rfl⟩
abbrev main_v51 : Ref sig .tc := ⟨.hbm, 131, rfl⟩
abbrev main_c_11 : Ref sig .tc := ⟨.hbm, 132, rfl⟩
abbrev main_v52 : Ref sig .tc := ⟨.hbm, 133, rfl⟩
abbrev main_v53 : Ref sig .tc := ⟨.hbm, 134, rfl⟩
abbrev main_v54 : Ref sig .tc := ⟨.hbm, 135, rfl⟩
abbrev main_v55 : Ref sig .tc := ⟨.hbm, 136, rfl⟩
abbrev main_v56 : Ref sig .tc := ⟨.hbm, 137, rfl⟩
abbrev main_cst_12 : Ref sig .tc := ⟨.hbm, 138, rfl⟩
abbrev main_v57 : Ref sig .tc := ⟨.hbm, 139, rfl⟩
abbrev main_v58 : Ref sig .tc := ⟨.hbm, 140, rfl⟩
abbrev main_v59 : Ref sig .tc := ⟨.hbm, 141, rfl⟩
abbrev main_v60 : Ref sig .tc := ⟨.hbm, 142, rfl⟩
abbrev main_v61 : Ref sig .tc := ⟨.hbm, 143, rfl⟩
abbrev main_v62 : Ref sig .tc := ⟨.hbm, 144, rfl⟩
abbrev main_v63 : Ref sig .tc := ⟨.hbm, 145, rfl⟩
abbrev main_cst_13 : Ref sig .tc := ⟨.hbm, 146, rfl⟩
abbrev main_v64 : Ref sig .tc := ⟨.hbm, 147, rfl⟩
abbrev main_cst_14 : Ref sig .tc := ⟨.hbm, 148, rfl⟩
abbrev main_v65 : Ref sig .tc := ⟨.hbm, 149, rfl⟩
abbrev main_v66 : Ref sig .tc := ⟨.hbm, 150, rfl⟩
abbrev main_c_15 : Ref sig .tc := ⟨.hbm, 151, rfl⟩
abbrev main_call2_cst : Ref sig .tc := ⟨.hbm, 152, rfl⟩
abbrev main_call2_v0 : Ref sig .tc := ⟨.hbm, 153, rfl⟩
abbrev main_call2_v1 : Ref sig .tc := ⟨.hbm, 154, rfl⟩
abbrev main_call2_cst_0 : Ref sig .tc := ⟨.hbm, 155, rfl⟩
abbrev main_call2_v2 : Ref sig .tc := ⟨.hbm, 156, rfl⟩
abbrev main_call2_v3 : Ref sig .tc := ⟨.hbm, 157, rfl⟩
abbrev main_call2_v4 : Ref sig .tc := ⟨.hbm, 158, rfl⟩
abbrev main_call2_v5 : Ref sig .tc := ⟨.hbm, 159, rfl⟩
abbrev main_call2_v6 : Ref sig .tc := ⟨.hbm, 160, rfl⟩
abbrev main_call2_v7 : Ref sig .tc := ⟨.hbm, 161, rfl⟩
abbrev main_call2_cst_1 : Ref sig .tc := ⟨.hbm, 162, rfl⟩
abbrev main_call2_v8 : Ref sig .tc := ⟨.hbm, 163, rfl⟩
abbrev main_call2_cst_2 : Ref sig .tc := ⟨.hbm, 164, rfl⟩
abbrev main_call2_v9 : Ref sig .tc := ⟨.hbm, 165, rfl⟩
abbrev main_call2_v10 : Ref sig .tc := ⟨.hbm, 166, rfl⟩
abbrev main_call2_v11 : Ref sig .tc := ⟨.hbm, 167, rfl⟩
abbrev main_call2_cst_3 : Ref sig .tc := ⟨.hbm, 168, rfl⟩
abbrev main_call2_v12 : Ref sig .tc := ⟨.hbm, 169, rfl⟩
abbrev main_call2_cst_4 : Ref sig .tc := ⟨.hbm, 170, rfl⟩
abbrev main_call2_call0_v0 : Ref sig .tc := ⟨.hbm, 171, rfl⟩
abbrev main_call2_call0_v1 : Ref sig .tc := ⟨.hbm, 172, rfl⟩
abbrev main_v67 : Ref sig .tc := ⟨.hbm, 173, rfl⟩
abbrev main_v68 : Ref sig .tc := ⟨.hbm, 174, rfl⟩
abbrev main_v69 : Ref sig .tc := ⟨.hbm, 175, rfl⟩
abbrev main_v70 : Ref sig .tc := ⟨.hbm, 176, rfl⟩
abbrev main_v71 : Ref sig .tc := ⟨.hbm, 177, rfl⟩
abbrev main_v72 : Ref sig .tc := ⟨.hbm, 178, rfl⟩
abbrev main_v73 : Ref sig .tc := ⟨.hbm, 179, rfl⟩
abbrev main_v74 : Ref sig .tc := ⟨.hbm, 180, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg5_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg5_0 : Ref sig .tc := ⟨.vmem, 26, rfl⟩
abbrev cc2_stg6_0 : Ref sig .tc := ⟨.vmem, 27, rfl⟩
abbrev cc2_stg7_0 : Ref sig .tc := ⟨.vmem, 28, rfl⟩
abbrev cc2_stg7_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg2_0 : Ref sig .tc := ⟨.vmem, 33, rfl⟩
abbrev cc3_stg3_0 : Ref sig .tc := ⟨.vmem, 34, rfl⟩
abbrev cc3_stg4_0 : Ref sig .tc := ⟨.vmem, 35, rfl⟩
abbrev cc3_stg5_0 : Ref sig .tc := ⟨.vmem, 36, rfl⟩
abbrev cc3_stg5_1 : Ref sig .tc := ⟨.vmem, 37, rfl⟩
abbrev cc4_stg0_0 : Ref sig .tc := ⟨.vmem, 38, rfl⟩
abbrev cc4_stg0_1 : Ref sig .tc := ⟨.vmem, 39, rfl⟩
abbrev cc4_stg1_0 : Ref sig .tc := ⟨.vmem, 40, rfl⟩
abbrev cc4_stg1_1 : Ref sig .tc := ⟨.vmem, 41, rfl⟩
abbrev cc4_stg2_0 : Ref sig .tc := ⟨.vmem, 42, rfl⟩
abbrev cc4_stg3_0 : Ref sig .tc := ⟨.vmem, 43, rfl⟩
abbrev cc4_stg4_0 : Ref sig .tc := ⟨.vmem, 44, rfl⟩
abbrev cc4_stg5_0 : Ref sig .tc := ⟨.vmem, 45, rfl⟩
abbrev cc4_stg6_0 : Ref sig .tc := ⟨.vmem, 46, rfl⟩
abbrev cc4_stg7_0 : Ref sig .tc := ⟨.vmem, 47, rfl⟩
abbrev cc4_stg7_1 : Ref sig .tc := ⟨.vmem, 48, rfl⟩
abbrev cc5_stg0_0 : Ref sig .tc := ⟨.vmem, 49, rfl⟩
abbrev cc5_stg0_1 : Ref sig .tc := ⟨.vmem, 50, rfl⟩
abbrev cc5_stg1_0 : Ref sig .tc := ⟨.vmem, 51, rfl⟩
abbrev cc5_stg2_0 : Ref sig .tc := ⟨.vmem, 52, rfl⟩
abbrev cc5_stg3_0 : Ref sig .tc := ⟨.vmem, 53, rfl⟩
abbrev cc5_stg4_0 : Ref sig .tc := ⟨.vmem, 54, rfl⟩
abbrev cc5_stg5_0 : Ref sig .tc := ⟨.vmem, 55, rfl⟩
abbrev cc5_stg5_1 : Ref sig .tc := ⟨.vmem, 56, rfl⟩
abbrev cc6_stg0_0 : Ref sig .tc := ⟨.vmem, 57, rfl⟩
abbrev cc6_stg0_1 : Ref sig .tc := ⟨.vmem, 58, rfl⟩
abbrev cc6_stg1_0 : Ref sig .tc := ⟨.vmem, 59, rfl⟩
abbrev cc6_stg2_0 : Ref sig .tc := ⟨.vmem, 60, rfl⟩
abbrev cc6_stg3_0 : Ref sig .tc := ⟨.vmem, 61, rfl⟩
abbrev cc6_stg3_1 : Ref sig .tc := ⟨.vmem, 62, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem5_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem3_0 : DmaSem sig := 24
abbrev cc2_sem4_0 : DmaSem sig := 25
abbrev cc2_sem5_0 : DmaSem sig := 26
abbrev cc2_sem6_0 : DmaSem sig := 27
abbrev cc2_sem7_0 : DmaSem sig := 28
abbrev cc2_sem7_1 : DmaSem sig := 29
abbrev cc3_sem0_0 : DmaSem sig := 30
abbrev cc3_sem0_1 : DmaSem sig := 31
abbrev cc3_sem1_0 : DmaSem sig := 32
abbrev cc3_sem2_0 : DmaSem sig := 33
abbrev cc3_sem3_0 : DmaSem sig := 34
abbrev cc3_sem4_0 : DmaSem sig := 35
abbrev cc3_sem5_0 : DmaSem sig := 36
abbrev cc3_sem5_1 : DmaSem sig := 37
abbrev cc4_sem0_0 : DmaSem sig := 38
abbrev cc4_sem0_1 : DmaSem sig := 39
abbrev cc4_sem1_0 : DmaSem sig := 40
abbrev cc4_sem1_1 : DmaSem sig := 41
abbrev cc4_sem2_0 : DmaSem sig := 42
abbrev cc4_sem3_0 : DmaSem sig := 43
abbrev cc4_sem4_0 : DmaSem sig := 44
abbrev cc4_sem5_0 : DmaSem sig := 45
abbrev cc4_sem6_0 : DmaSem sig := 46
abbrev cc4_sem7_0 : DmaSem sig := 47
abbrev cc4_sem7_1 : DmaSem sig := 48
abbrev cc5_sem0_0 : DmaSem sig := 49
abbrev cc5_sem0_1 : DmaSem sig := 50
abbrev cc5_sem1_0 : DmaSem sig := 51
abbrev cc5_sem2_0 : DmaSem sig := 52
abbrev cc5_sem3_0 : DmaSem sig := 53
abbrev cc5_sem4_0 : DmaSem sig := 54
abbrev cc5_sem5_0 : DmaSem sig := 55
abbrev cc5_sem5_1 : DmaSem sig := 56
abbrev cc6_sem0_0 : DmaSem sig := 57
abbrev cc6_sem0_1 : DmaSem sig := 58
abbrev cc6_sem1_0 : DmaSem sig := 59
abbrev cc6_sem2_0 : DmaSem sig := 60
abbrev cc6_sem3_0 : DmaSem sig := 61
abbrev cc6_sem3_1 : DmaSem sig := 62

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S5000x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S5000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S64x64 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x64 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x64 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x64 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x1 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S64x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S64x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x64 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S5000x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x64 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x64 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x10 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x10 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x10 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  shapeCasts_S_S1x1 : S_.ShapeCasts S1x1
  shapeCasts_S64_S1x64 : S64.ShapeCasts S1x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S5000x128_S5000x128_0_0 : ∀ a, (![0, 0] : Fin 2 → Nat) a + S5000x128.size a ≤ S5000x128.size a
  h_S5000x128 : 0 < S5000x128.numel
  broadcasts_S1x1_S5000x128 : S1x1.Broadcasts S5000x128
  shapeCasts_S5000x128_S5000x128 : S5000x128.ShapeCasts S5000x128
  bitsLt_bf16_f32 : FTy.bits .bf16 < FTy.bits .f32
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S64x64_S64x64_0_0 : ∀ a, (![0, 0] : Fin 2 → Nat) a + S64x64.size a ≤ S64x64.size a
  h_S64x64 : 0 < S64x64.numel
  inb_S5000x64_S5000x64_0_0 : ∀ a, (![0, 0] : Fin 2 → Nat) a + S5000x64.size a ≤ S5000x64.size a
  h_S5000x64 : 0 < S5000x64.numel
  reducesTo_S50000x64_S64_d0 : S50000x64.ReducesTo [0] S64
  h_S_ : 0 < S_.numel
  bcast_S_S64 : S_.BroadcastsInDim S64 (![] : Fin 0 → Fin S64.rank)
  bcast_S64_S1x64_1 : S64.BroadcastsInDim S1x64 (![1] : Fin 1 → Fin S1x64.rank)
  bcast_S_S1x64 : S_.BroadcastsInDim S1x64 (![] : Fin 0 → Fin S1x64.rank)
  bcast_S1x64_S50000x64_0_1 : S1x64.BroadcastsInDim S50000x64 (![0, 1] : Fin 2 → Fin S50000x64.rank)
  shapeCasts_S5000x64_S5000x64 : S5000x64.ShapeCasts S5000x64
  bcast_S_S50000x64 : S_.BroadcastsInDim S50000x64 (![] : Fin 0 → Fin S50000x64.rank)
  broadcasts_S1x1_S5000x64 : S1x1.Broadcasts S5000x64
  shapeCasts_S10_S1x10 : S10.ShapeCasts S1x10
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S5000x10 : S1x10.Broadcasts S5000x10
  inb_S5000x10_S5000x10_0_0 : ∀ a, (![0, 0] : Fin 2 → Nat) a + S5000x10.size a ≤ S5000x10.size a
  h_S5000x10 : 0 < S5000x10.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x64_S5000x64_1_0_0_1_n_n_wf : DotDims.WF S5000x128 S128x64 S5000x64 [1] [0] [0] [1] [] []
  dot_S5000x64_S64x64_S5000x64_1_0_0_1_n_n_wf : DotDims.WF S5000x64 S64x64 S5000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S5000x64_S64x10_S5000x10_1_0_0_1_n_n_wf : DotDims.WF S5000x64 S64x10 S5000x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S128x64.size a
  hwx0_3 : ∀ i : grid0.Coords, EltTy.bits .f32 = 32 ∨ (Rect.block (s := S128x64) S128x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x64.size a ≤ S64x64.size a
  hwx0_5 : ∀ i : grid0.Coords, EltTy.bits .f32 = 32 ∨ (Rect.block (s := S64x64) S64x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S5000x64.size a ≤ S50000x64.size a
  hwx0_7 : ∀ i : grid0.Coords, EltTy.bits .f32 = 32 ∨ (Rect.block (s := S50000x64) S5000x64.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S50000x64.size a
  hwx1_5 : ∀ i : grid1.Coords, EltTy.bits .f32 = 32 ∨ (Rect.block (s := S50000x64) S5000x64.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S50000x64.size a
  hwx2_0 : ∀ i : grid2.Coords, EltTy.bits .f32 = 32 ∨ (Rect.block (s := S50000x64) S5000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S5000x64.size a ≤ S50000x64.size a
  hwx2_1 : ∀ i : grid2.Coords, EltTy.bits .f32 = 32 ∨ (Rect.block (s := S50000x64) S5000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x64.size a ≤ S64x64.size a
  hwx2_3 : ∀ i : grid2.Coords, EltTy.bits .f32 = 32 ∨ (Rect.block (s := S64x64) S64x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S64x64.size a ≤ S64x64.size a
  hwx2_5 : ∀ i : grid2.Coords, EltTy.bits .f32 = 32 ∨ (Rect.block (s := S64x64) S64x64.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x64.size a ≤ S1x64.size a
  hwx2_6 : ∀ i : grid2.Coords, EltTy.bits .f32 = 32 ∨ (Rect.block (s := S1x64) S1x64.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x64.size a ≤ S50000x64.size a
  hwx2_7 : ∀ i : grid2.Coords, EltTy.bits .f32 = 32 ∨ (Rect.block (s := S50000x64) S5000x64.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x64.size a ≤ S1x64.size a
  hwx3_2 : ∀ i : grid3.Coords, EltTy.bits .f32 = 32 ∨ (Rect.block (s := S1x64) S1x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x64.size a ≤ S50000x64.size a
  hwx3_5 : ∀ i : grid3.Coords, EltTy.bits .f32 = 32 ∨ (Rect.block (s := S50000x64) S5000x64.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S50000x64.size a
  hwx4_0 : ∀ i : grid4.Coords, EltTy.bits .f32 = 32 ∨ (Rect.block (s := S50000x64) S5000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x64.size a ≤ S50000x64.size a
  hwx4_1 : ∀ i : grid4.Coords, EltTy.bits .f32 = 32 ∨ (Rect.block (s := S50000x64) S5000x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x1.size a ≤ S1x1.size a
  hwx4_2 : ∀ i : grid4.Coords, EltTy.bits .f32 = 32 ∨ (Rect.block (s := S1x1) S1x1.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S64x64.size a ≤ S64x64.size a
  hwx4_3 : ∀ i : grid4.Coords, EltTy.bits .f32 = 32 ∨ (Rect.block (s := S64x64) S64x64.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S64x64.size a ≤ S64x64.size a
  hwx4_5 : ∀ i : grid4.Coords, EltTy.bits .f32 = 32 ∨ (Rect.block (s := S64x64) S64x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x64.size a ≤ S1x64.size a
  hwx4_6 : ∀ i : grid4.Coords, EltTy.bits .f32 = 32 ∨ (Rect.block (s := S1x64) S1x64.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S5000x64.size a ≤ S50000x64.size a
  hwx4_7 : ∀ i : grid4.Coords, EltTy.bits .f32 = 32 ∨ (Rect.block (s := S50000x64) S5000x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x64.size a ≤ S1x64.size a
  hwx5_4 : ∀ i : grid5.Coords, EltTy.bits .f32 = 32 ∨ (Rect.block (s := S1x64) S1x64.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x64.size a ≤ S50000x64.size a
  hwx5_5 : ∀ i : grid5.Coords, EltTy.bits .f32 = 32 ∨ (Rect.block (s := S50000x64) S5000x64.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S50000x64.size a
  hwx6_0 : ∀ i : grid6.Coords, EltTy.bits .f32 = 32 ∨ (Rect.block (s := S50000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x10.size a ≤ S64x10.size a
  hwx6_1 : ∀ i : grid6.Coords, EltTy.bits .f32 = 32 ∨ (Rect.block (s := S64x10) S64x10.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x10.size a ≤ S1x10.size a
  hwx6_2 : ∀ i : grid6.Coords, EltTy.bits .f32 = 32 ∨ (Rect.block (s := S1x10) S1x10.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x10.size a ≤ S50000x10.size a
  hwx6_3 : ∀ i : grid6.Coords, EltTy.bits .f32 = 32 ∨ (Rect.block (s := S50000x10) S5000x10.size (cc6_transform_3 i) (hinb6_3 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S5000x64_S64x10_S5000x10_1_0_0_1_n_n : DotDims S5000x64 S64x10 S5000x10 where
  lhsContracting := [1]
  rhsContracting := [0]
  lhsNonContracting := [0]
  rhsNonContracting := [1]
  lhsBatch := []
  rhsBatch := []
  wf := dot_S5000x64_S64x10_S5000x10_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v14) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v15) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S5000x64.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v17) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v23) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v26) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v26) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v36) S5000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v37) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg10) S64x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg12) S64x64.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v39) S1x64.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v40) S5000x64.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v40) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v45) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S1x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v47) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v48) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v49) S5000x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v49) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v59) S5000x64.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v60) S1x1.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_arg17) S64x64.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v61) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_arg19) S64x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v62) S1x64.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v63) S5000x64.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v63) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v68) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v69) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v70) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v71) S1x64.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v72) S5000x64.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v72) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg23) S64x10.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v73) S1x10.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v74) S5000x10.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S_ : Shape := ⟨0, ![]⟩
abbrev S128x64 : Shape := ⟨2, ![128, 64]⟩
abbrev S64 : Shape := ⟨1, ![64]⟩
abbrev S64x64 : Shape := ⟨2, ![64, 64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S800000x1 : Shape := ⟨2, ![800000, 1]⟩
abbrev S800000x128 : Shape := ⟨2, ![800000, 128]⟩
abbrev S50000x64 : Shape := ⟨2, ![50000, 64]⟩
abbrev S1x64 : Shape := ⟨2, ![1, 64]⟩
abbrev S800000x64 : Shape := ⟨2, ![800000, 64]⟩
abbrev S50000x10 : Shape := ⟨2, ![50000, 10]⟩
abbrev S1x10 : Shape := ⟨2, ![1, 10]⟩

abbrev nBuf : Space → Nat
  | .hbm => 270
  | .vmem => 0
  | .smem => 0
  | _ => 0

abbrev hbmTy0_0 (i : Nat) : BufTy := match i % 128 with
  | 0 => ⟨S50000x128, .f32⟩
  | 1 => ⟨S2x800000, .i32⟩
  | 2 => ⟨S_, .f32⟩
  | 3 => ⟨S128x64, .f32⟩
  | 4 => ⟨S64, .f32⟩
  | 5 => ⟨S64x64, .f32⟩
  | 6 => ⟨S64, .f32⟩
  | 7 => ⟨S64, .f32⟩
  | 8 => ⟨S64, .f32⟩
  | 9 => ⟨S_, .f32⟩
  | 10 => ⟨S64x64, .f32⟩
  | 11 => ⟨S64, .f32⟩
  | 12 => ⟨S64x64, .f32⟩
  | 13 => ⟨S64, .f32⟩
  | 14 => ⟨S64, .f32⟩
  | 15 => ⟨S64, .f32⟩
  | 16 => ⟨S_, .f32⟩
  | 17 => ⟨S64x64, .f32⟩
  | 18 => ⟨S64, .f32⟩
  | 19 => ⟨S64x64, .f32⟩
  | 20 => ⟨S64, .f32⟩
  | 21 => ⟨S64, .f32⟩
  | 22 => ⟨S64, .f32⟩
  | 23 => ⟨S64x10, .f32⟩
  | 24 => ⟨S10, .f32⟩
  | 25 => ⟨S1x800000, .i32⟩
  | 26 => ⟨S800000, .i32⟩
  | 27 => ⟨S1x800000, .i32⟩
  | 28 => ⟨S800000, .i32⟩
  | 29 => ⟨S_, .i32⟩
  | 30 => ⟨S800000, .i32⟩
  | 31 => ⟨S800000, .i1⟩
  | 32 => ⟨S_, .i32⟩
  | 33 => ⟨S800000, .i32⟩
  | 34 => ⟨S800000, .i32⟩
  | 35 => ⟨S800000, .i32⟩
  | 36 => ⟨S800000x1, .i32⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S_, .f32⟩
  | 43 => ⟨S_, .f32⟩
  | 44 => ⟨S50000x128, .f32⟩
  | 45 => ⟨S50000x128, .f32⟩
  | 46 => ⟨S50000x128, .f32⟩
  | 47 => ⟨S50000x64, .f32⟩
  | 48 => ⟨S1x64, .f32⟩
  | 49 => ⟨S50000x64, .f32⟩
  | 50 => ⟨S50000x64, .f32⟩
  | 51 => ⟨S_, .f32⟩
  | 52 => ⟨S50000x64, .f32⟩
  | 53 => ⟨S50000x64, .f32⟩
  | 54 => ⟨S50000x64, .f32⟩
  | 55 => ⟨S1x64, .f32⟩
  | 56 => ⟨S50000x64, .f32⟩
  | 57 => ⟨S50000x64, .f32⟩
  | 58 => ⟨S_, .f32⟩
  | 59 => ⟨S50000x64, .f32⟩
  | 60 => ⟨S50000x64, .f32⟩
  | 61 => ⟨S_, .f32⟩
  | 62 => ⟨S64, .f32⟩
  | 63 => ⟨S_, .f32⟩
  | 64 => ⟨S64, .f32⟩
  | 65 => ⟨S64, .f32⟩
  | 66 => ⟨S_, .i32⟩
  | 67 => ⟨S_, .f32⟩
  | 68 => ⟨S64, .f32⟩
  | 69 => ⟨S1x64, .f32⟩
  | 70 => ⟨S_, .f32⟩
  | 71 => ⟨S1x64, .f32⟩
  | 72 => ⟨S1x64, .f32⟩
  | 73 => ⟨S50000x64, .f32⟩
  | 74 => ⟨S50000x64, .f32⟩
  | 75 => ⟨S50000x64, .f32⟩
  | 76 => ⟨S_, .f32⟩
  | 77 => ⟨S_, .f32⟩
  | 78 => ⟨S_, .f32⟩
  | 79 => ⟨S_, .f32⟩
  | 80 => ⟨S64, .f32⟩
  | 81 => ⟨S64, .f32⟩
  | 82 => ⟨S64, .f32⟩
  | 83 => ⟨S_, .f32⟩
  | 84 => ⟨S_, .i1⟩
  | 85 => ⟨S_, .f32⟩
  | 86 => ⟨S_, .f32⟩
  | 87 => ⟨S64, .f32⟩
  | 88 => ⟨S64, .f32⟩
  | 89 => ⟨S1x64, .f32⟩
  | 90 => ⟨S50000x64, .f32⟩
  | 91 => ⟨S50000x64, .f32⟩
  | 92 => ⟨S_, .f32⟩
  | 93 => ⟨S64, .f32⟩
  | 94 => ⟨S64, .f32⟩
  | 95 => ⟨S64, .f32⟩
  | 96 => ⟨S1x64, .f32⟩
  | 97 => ⟨S50000x64, .f32⟩
  | 98 => ⟨S50000x64, .f32⟩
  | 99 => ⟨S1x64, .f32⟩
  | 100 => ⟨S50000x64, .f32⟩
  | 101 => ⟨S50000x64, .f32⟩
  | 102 => ⟨S1x64, .f32⟩
  | 103 => ⟨S50000x64, .f32⟩
  | 104 => ⟨S50000x64, .f32⟩
  | 105 => ⟨S_, .f32⟩
  | 106 => ⟨S50000x64, .f32⟩
  | 107 => ⟨S50000x64, .f32⟩
  | 108 => ⟨S_, .i32⟩
  | 109 => ⟨S800000, .i32⟩
  | 110 => ⟨S800000, .i1⟩
  | 111 => ⟨S_, .i32⟩
  | 112 => ⟨S800000, .i32⟩
  | 113 => ⟨S800000, .i32⟩
  | 114 => ⟨S800000, .i32⟩
  | 115 => ⟨S800000x1, .i32⟩
  | 116 => ⟨S800000x64, .f32⟩
  | 117 => ⟨S_, .f32⟩
  | 118 => ⟨S50000x64, .f32⟩
  | 119 => ⟨S800000x1, .i32⟩
  | 120 => ⟨S50000x64, .f32⟩
  | 121 => ⟨S_, .f32⟩
  | 122 => ⟨S_, .f32⟩
  | 123 => ⟨S50000x64, .f32⟩
  | 124 => ⟨S50000x64, .f32⟩
  | 125 => ⟨S50000x64, .f32⟩
  | 126 => ⟨S50000x64, .f32⟩
  | 127 => ⟨S1x64, .f32⟩
  | _ => ⟨S50000x128, .f32⟩

abbrev hbmTy0_1 (i : Nat) : BufTy := match i % 128 with
  | 0 => ⟨S50000x64, .f32⟩
  | 1 => ⟨S50000x64, .f32⟩
  | 2 => ⟨S_, .f32⟩
  | 3 => ⟨S50000x64, .f32⟩
  | 4 => ⟨S50000x64, .f32⟩
  | 5 => ⟨S50000x64, .f32⟩
  | 6 => ⟨S1x64, .f32⟩
  | 7 => ⟨S50000x64, .f32⟩
  | 8 => ⟨S50000x64, .f32⟩
  | 9 => ⟨S_, .f32⟩
  | 10 => ⟨S50000x64, .f32⟩
  | 11 => ⟨S50000x64, .f32⟩
  | 12 => ⟨S_, .f32⟩
  | 13 => ⟨S64, .f32⟩
  | 14 => ⟨S_, .f32⟩
  | 15 => ⟨S64, .f32⟩
  | 16 => ⟨S64, .f32⟩
  | 17 => ⟨S_, .i32⟩
  | 18 => ⟨S_, .f32⟩
  | 19 => ⟨S64, .f32⟩
  | 20 => ⟨S1x64, .f32⟩
  | 21 => ⟨S_, .f32⟩
  | 22 => ⟨S1x64, .f32⟩
  | 23 => ⟨S1x64, .f32⟩
  | 24 => ⟨S50000x64, .f32⟩
  | 25 => ⟨S50000x64, .f32⟩
  | 26 => ⟨S50000x64, .f32⟩
  | 27 => ⟨S_, .f32⟩
  | 28 => ⟨S_, .f32⟩
  | 29 => ⟨S_, .f32⟩
  | 30 => ⟨S_, .f32⟩
  | 31 => ⟨S64, .f32⟩
  | 32 => ⟨S64, .f32⟩
  | 33 => ⟨S64, .f32⟩
  | 34 => ⟨S_, .f32⟩
  | 35 => ⟨S_, .i1⟩
  | 36 => ⟨S_, .f32⟩
  | 37 => ⟨S_, .f32⟩
  | 38 => ⟨S64, .f32⟩
  | 39 => ⟨S64, .f32⟩
  | 40 => ⟨S1x64, .f32⟩
  | 41 => ⟨S50000x64, .f32⟩
  | 42 => ⟨S50000x64, .f32⟩
  | 43 => ⟨S_, .f32⟩
  | 44 => ⟨S64, .f32⟩
  | 45 => ⟨S64, .f32⟩
  | 46 => ⟨S64, .f32⟩
  | 47 => ⟨S1x64, .f32⟩
  | 48 => ⟨S50000x64, .f32⟩
  | 49 => ⟨S50000x64, .f32⟩
  | 50 => ⟨S1x64, .f32⟩
  | 51 => ⟨S50000x64, .f32⟩
  | 52 => ⟨S50000x64, .f32⟩
  | 53 => ⟨S1x64, .f32⟩
  | 54 => ⟨S50000x64, .f32⟩
  | 55 => ⟨S50000x64, .f32⟩
  | 56 => ⟨S_, .f32⟩
  | 57 => ⟨S50000x64, .f32⟩
  | 58 => ⟨S50000x64, .f32⟩
  | 59 => ⟨S_, .i32⟩
  | 60 => ⟨S800000, .i32⟩
  | 61 => ⟨S800000, .i1⟩
  | 62 => ⟨S_, .i32⟩
  | 63 => ⟨S800000, .i32⟩
  | 64 => ⟨S800000, .i32⟩
  | 65 => ⟨S800000, .i32⟩
  | 66 => ⟨S800000x1, .i32⟩
  | 67 => ⟨S800000x64, .f32⟩
  | 68 => ⟨S_, .f32⟩
  | 69 => ⟨S50000x64, .f32⟩
  | 70 => ⟨S800000x1, .i32⟩
  | 71 => ⟨S50000x64, .f32⟩
  | 72 => ⟨S_, .f32⟩
  | 73 => ⟨S_, .f32⟩
  | 74 => ⟨S50000x64, .f32⟩
  | 75 => ⟨S50000x64, .f32⟩
  | 76 => ⟨S50000x64, .f32⟩
  | 77 => ⟨S50000x64, .f32⟩
  | 78 => ⟨S1x64, .f32⟩
  | 79 => ⟨S50000x64, .f32⟩
  | 80 => ⟨S50000x64, .f32⟩
  | 81 => ⟨S_, .f32⟩
  | 82 => ⟨S50000x64, .f32⟩
  | 83 => ⟨S50000x64, .f32⟩
  | 84 => ⟨S50000x64, .f32⟩
  | 85 => ⟨S1x64, .f32⟩
  | 86 => ⟨S50000x64, .f32⟩
  | 87 => ⟨S50000x64, .f32⟩
  | 88 => ⟨S_, .f32⟩
  | 89 => ⟨S50000x64, .f32⟩
  | 90 => ⟨S50000x64, .f32⟩
  | 91 => ⟨S_, .f32⟩
  | 92 => ⟨S64, .f32⟩
  | 93 => ⟨S_, .f32⟩
  | 94 => ⟨S64, .f32⟩
  | 95 => ⟨S64, .f32⟩
  | 96 => ⟨S_, .i32⟩
  | 97 => ⟨S_, .f32⟩
  | 98 => ⟨S64, .f32⟩
  | 99 => ⟨S1x64, .f32⟩
  | 100 => ⟨S_, .f32⟩
  | 101 => ⟨S1x64, .f32⟩
  | 102 => ⟨S1x64, .f32⟩
  | 103 => ⟨S50000x64, .f32⟩
  | 104 => ⟨S50000x64, .f32⟩
  | 105 => ⟨S50000x64, .f32⟩
  | 106 => ⟨S_, .f32⟩
  | 107 => ⟨S_, .f32⟩
  | 108 => ⟨S_, .f32⟩
  | 109 => ⟨S_, .f32⟩
  | 110 => ⟨S64, .f32⟩
  | 111 => ⟨S64, .f32⟩
  | 112 => ⟨S64, .f32⟩
  | 113 => ⟨S_, .f32⟩
  | 114 => ⟨S_, .i1⟩
  | 115 => ⟨S_, .f32⟩
  | 116 => ⟨S_, .f32⟩
  | 117 => ⟨S64, .f32⟩
  | 118 => ⟨S64, .f32⟩
  | 119 => ⟨S1x64, .f32⟩
  | 120 => ⟨S50000x64, .f32⟩
  | 121 => ⟨S50000x64, .f32⟩
  | 122 => ⟨S_, .f32⟩
  | 123 => ⟨S64, .f32⟩
  | 124 => ⟨S64, .f32⟩
  | 125 => ⟨S64, .f32⟩
  | 126 => ⟨S1x64, .f32⟩
  | 127 => ⟨S50000x64, .f32⟩
  | _ => ⟨S50000x128, .f32⟩

abbrev hbmTy0_2 (i : Nat) : BufTy := match i % 128 with
  | 0 => ⟨S50000x64, .f32⟩
  | 1 => ⟨S1x64, .f32⟩
  | 2 => ⟨S50000x64, .f32⟩
  | 3 => ⟨S50000x64, .f32⟩
  | 4 => ⟨S1x64, .f32⟩
  | 5 => ⟨S50000x64, .f32⟩
  | 6 => ⟨S50000x64, .f32⟩
  | 7 => ⟨S_, .f32⟩
  | 8 => ⟨S50000x64, .f32⟩
  | 9 => ⟨S50000x64, .f32⟩
  | 10 => ⟨S50000x10, .f32⟩
  | 11 => ⟨S1x10, .f32⟩
  | 12 => ⟨S50000x10, .f32⟩
  | 13 => ⟨S50000x10, .f32⟩
  | _ => ⟨S50000x128, .f32⟩

abbrev hbmTy (i : Nat) : BufTy := match i / 128 with
  | 0 => hbmTy0_0 i
  | 1 => hbmTy0_1 i
  | 2 => hbmTy0_2 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_c : Ref sig .tc := ⟨.hbm, 29, rfl⟩
abbrev main_v4 : Ref sig .tc := ⟨.hbm, 30, rfl⟩
abbrev main_v5 : Ref sig .tc := ⟨.hbm, 31, rfl⟩
abbrev main_c_0 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_cst : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_1 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_call0_cst : Ref sig .tc := ⟨.hbm, 51, rfl⟩
abbrev main_call0_v0 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_call1_cst : Ref sig .tc := ⟨.hbm, 58, rfl⟩
abbrev main_call1_v0 : Ref sig .tc := ⟨.hbm, 59, rfl⟩
abbrev main_v27 : Ref sig .tc := ⟨.hbm, 60, rfl⟩
abbrev main_cst_2 : Ref sig .tc := ⟨.hbm, 61, rfl⟩
abbrev main_v28 : Ref sig .tc := ⟨.hbm, 62, rfl⟩
abbrev main_cst_3 : Ref sig .tc := ⟨.hbm, 63, rfl⟩
abbrev main_v29 : Ref sig .tc := ⟨.hbm, 64, rfl⟩
abbrev main_v30 : Ref sig .tc := ⟨.hbm, 65, rfl⟩
abbrev main_c_4 : Ref sig .tc := ⟨.hbm, 66, rfl⟩
abbrev main_call2_cst : Ref sig .tc := ⟨.hbm, 67, rfl⟩
abbrev main_call2_v0 : Ref sig .tc := ⟨.hbm, 68, rfl⟩
abbrev main_call2_v1 : Ref sig .tc := ⟨.hbm, 69, rfl⟩
abbrev main_call2_cst_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_v6 : Ref sig .tc := ⟨.hbm, 75, rfl⟩
abbrev main_call2_v7 : Ref sig .tc := ⟨.hbm, 76, rfl⟩
abbrev main_call2_cst_1 : Ref sig .tc := ⟨.hbm, 77, rfl⟩
abbrev main_call2_v8 : Ref sig .tc := ⟨.hbm, 78, rfl⟩
abbrev main_call2_cst_2 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_cst_3 : Ref sig .tc := ⟨.hbm, 83, rfl⟩
abbrev main_call2_v12 : Ref sig .tc := ⟨.hbm, 84, rfl⟩
abbrev main_call2_cst_4 : Ref sig .tc := ⟨.hbm, 85, rfl⟩
abbrev main_call2_call0_v0 : Ref sig .tc := ⟨.hbm, 86, rfl⟩
abbrev main_call2_call0_v1 : Ref sig .tc := ⟨.hbm, 87, rfl⟩
abbrev main_v31 : Ref sig .tc := ⟨.hbm, 88, rfl⟩
abbrev main_v32 : Ref sig .tc := ⟨.hbm, 89, rfl⟩
abbrev main_v33 : Ref sig .tc := ⟨.hbm, 90, rfl⟩
abbrev main_v34 : Ref sig .tc := ⟨.hbm, 91, rfl⟩
abbrev main_cst_5 : Ref sig .tc := ⟨.hbm, 92, rfl⟩
abbrev main_v35 : Ref sig .tc := ⟨.hbm, 93, rfl⟩
abbrev main_v36 : Ref sig .tc := ⟨.hbm, 94, rfl⟩
abbrev main_v37 : Ref sig .tc := ⟨.hbm, 95, rfl⟩
abbrev main_v38 : Ref sig .tc := ⟨.hbm, 96, rfl⟩
abbrev main_v39 : Ref sig .tc := ⟨.hbm, 97, rfl⟩
abbrev main_v40 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_call3_cst : Ref sig .tc := ⟨.hbm, 105, rfl⟩
abbrev main_call3_v0 : Ref sig .tc := ⟨.hbm, 106, rfl⟩
abbrev main_v47 : Ref sig .tc := ⟨.hbm, 107, rfl⟩
abbrev main_c_6 : Ref sig .tc := ⟨.hbm, 108, rfl⟩
abbrev main_v48 : Ref sig .tc := ⟨.hbm, 109, rfl⟩
abbrev main_v49 : Ref sig .tc := ⟨.hbm, 110, rfl⟩
abbrev main_c_7 : Ref sig .tc := ⟨.hbm, 111, rfl⟩
abbrev main_v50 : Ref sig .tc := ⟨.hbm, 112, rfl⟩
abbrev main_v51 : Ref sig .tc := ⟨.hbm, 113, rfl⟩
abbrev main_v52 : Ref sig .tc := ⟨.hbm, 114, rfl⟩
abbrev main_v53 : Ref sig .tc := ⟨.hbm, 115, rfl⟩
abbrev main_v54 : Ref sig .tc := ⟨.hbm, 116, rfl⟩
abbrev main_cst_8 : Ref sig .tc := ⟨.hbm, 117, rfl⟩
abbrev main_v55 : Ref sig .tc := ⟨.hbm, 118, rfl⟩
abbrev main_v56 : Ref sig .tc := ⟨.hbm, 119, rfl⟩
abbrev main_v57 : Ref sig .tc := ⟨.hbm, 120, rfl⟩
abbrev main_cst_9 : Ref sig .tc := ⟨.hbm, 121, rfl⟩
abbrev main_v58 : Ref sig .tc := ⟨.hbm, 122, rfl⟩
abbrev main_v59 : Ref sig .tc := ⟨.hbm, 123, rfl⟩
abbrev main_v60 : Ref sig .tc := ⟨.hbm, 124, rfl⟩
abbrev main_v61 : Ref sig .tc := ⟨.hbm, 125, rfl⟩
abbrev main_v62 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_call4_cst : Ref sig .tc := ⟨.hbm, 130, rfl⟩
abbrev main_call4_v0 : Ref sig .tc := ⟨.hbm, 131, rfl⟩
abbrev main_v66 : Ref sig .tc := ⟨.hbm, 132, rfl⟩
abbrev main_v67 : Ref sig .tc := ⟨.hbm, 133, rfl⟩
abbrev main_v68 : Ref sig .tc := ⟨.hbm, 134, rfl⟩
abbrev main_v69 : Ref sig .tc := ⟨.hbm, 135, rfl⟩
abbrev main_v70 : Ref sig .tc := ⟨.hbm, 136, rfl⟩
abbrev main_call5_cst : Ref sig .tc := ⟨.hbm, 137, rfl⟩
abbrev main_call5_v0 : Ref sig .tc := ⟨.hbm, 138, rfl⟩
abbrev main_v71 : Ref sig .tc := ⟨.hbm, 139, rfl⟩
abbrev main_cst_10 : Ref sig .tc := ⟨.hbm, 140, rfl⟩
abbrev main_v72 : Ref sig .tc := ⟨.hbm, 141, rfl⟩
abbrev main_cst_11 : Ref sig .tc := ⟨.hbm, 142, rfl⟩
abbrev main_v73 : Ref sig .tc := ⟨.hbm, 143, rfl⟩
abbrev main_v74 : Ref sig .tc := ⟨.hbm, 144, rfl⟩
abbrev main_c_12 : Ref sig .tc := ⟨.hbm, 145, rfl⟩
abbrev main_call6_cst : Ref sig .tc := ⟨.hbm, 146, rfl⟩
abbrev main_call6_v0 : Ref sig .tc := ⟨.hbm, 147, rfl⟩
abbrev main_call6_v1 : Ref sig .tc := ⟨.hbm, 148, rfl⟩
abbrev main_call6_cst_0 : Ref sig .tc := ⟨.hbm, 149, rfl⟩
abbrev main_call6_v2 : Ref sig .tc := ⟨.hbm, 150, rfl⟩
abbrev main_call6_v3 : Ref sig .tc := ⟨.hbm, 151, rfl⟩
abbrev main_call6_v4 : Ref sig .tc := ⟨.hbm, 152, rfl⟩
abbrev main_call6_v5 : Ref sig .tc := ⟨.hbm, 153, rfl⟩
abbrev main_call6_v6 : Ref sig .tc := ⟨.hbm, 154, rfl⟩
abbrev main_call6_v7 : Ref sig .tc := ⟨.hbm, 155, rfl⟩
abbrev main_call6_cst_1 : Ref sig .tc := ⟨.hbm, 156, rfl⟩
abbrev main_call6_v8 : Ref sig .tc := ⟨.hbm, 157, rfl⟩
abbrev main_call6_cst_2 : Ref sig .tc := ⟨.hbm, 158, rfl⟩
abbrev main_call6_v9 : Ref sig .tc := ⟨.hbm, 159, rfl⟩
abbrev main_call6_v10 : Ref sig .tc := ⟨.hbm, 160, rfl⟩
abbrev main_call6_v11 : Ref sig .tc := ⟨.hbm, 161, rfl⟩
abbrev main_call6_cst_3 : Ref sig .tc := ⟨.hbm, 162, rfl⟩
abbrev main_call6_v12 : Ref sig .tc := ⟨.hbm, 163, rfl⟩
abbrev main_call6_cst_4 : Ref sig .tc := ⟨.hbm, 164, rfl⟩
abbrev main_call6_call0_v0 : Ref sig .tc := ⟨.hbm, 165, rfl⟩
abbrev main_call6_call0_v1 : Ref sig .tc := ⟨.hbm, 166, rfl⟩
abbrev main_v75 : Ref sig .tc := ⟨.hbm, 167, rfl⟩
abbrev main_v76 : Ref sig .tc := ⟨.hbm, 168, rfl⟩
abbrev main_v77 : Ref sig .tc := ⟨.hbm, 169, rfl⟩
abbrev main_v78 : Ref sig .tc := ⟨.hbm, 170, rfl⟩
abbrev main_cst_13 : Ref sig .tc := ⟨.hbm, 171, rfl⟩
abbrev main_v79 : Ref sig .tc := ⟨.hbm, 172, rfl⟩
abbrev main_v80 : Ref sig .tc := ⟨.hbm, 173, rfl⟩
abbrev main_v81 : Ref sig .tc := ⟨.hbm, 174, rfl⟩
abbrev main_v82 : Ref sig .tc := ⟨.hbm, 175, rfl⟩
abbrev main_v83 : Ref sig .tc := ⟨.hbm, 176, rfl⟩
abbrev main_v84 : Ref sig .tc := ⟨.hbm, 177, rfl⟩
abbrev main_v85 : Ref sig .tc := ⟨.hbm, 178, rfl⟩
abbrev main_v86 : Ref sig .tc := ⟨.hbm, 179, rfl⟩
abbrev main_v87 : Ref sig .tc := ⟨.hbm, 180, rfl⟩
abbrev main_v88 : Ref sig .tc := ⟨.hbm, 181, rfl⟩
abbrev main_v89 : Ref sig .tc := ⟨.hbm, 182, rfl⟩
abbrev main_v90 : Ref sig .tc := ⟨.hbm, 183, rfl⟩
abbrev main_call7_cst : Ref sig .tc := ⟨.hbm, 184, rfl⟩
abbrev main_call7_v0 : Ref sig .tc := ⟨.hbm, 185, rfl⟩
abbrev main_v91 : Ref sig .tc := ⟨.hbm, 186, rfl⟩
abbrev main_c_14 : Ref sig .tc := ⟨.hbm, 187, rfl⟩
abbrev main_v92 : Ref sig .tc := ⟨.hbm, 188, rfl⟩
abbrev main_v93 : Ref sig .tc := ⟨.hbm, 189, rfl⟩
abbrev main_c_15 : Ref sig .tc := ⟨.hbm, 190, rfl⟩
abbrev main_v94 : Ref sig .tc := ⟨.hbm, 191, rfl⟩
abbrev main_v95 : Ref sig .tc := ⟨.hbm, 192, rfl⟩
abbrev main_v96 : Ref sig .tc := ⟨.hbm, 193, rfl⟩
abbrev main_v97 : Ref sig .tc := ⟨.hbm, 194, rfl⟩
abbrev main_v98 : Ref sig .tc := ⟨.hbm, 195, rfl⟩
abbrev main_cst_16 : Ref sig .tc := ⟨.hbm, 196, rfl⟩
abbrev main_v99 : Ref sig .tc := ⟨.hbm, 197, rfl⟩
abbrev main_v100 : Ref sig .tc := ⟨.hbm, 198, rfl⟩
abbrev main_v101 : Ref sig .tc := ⟨.hbm, 199, rfl⟩
abbrev main_cst_17 : Ref sig .tc := ⟨.hbm, 200, rfl⟩
abbrev main_v102 : Ref sig .tc := ⟨.hbm, 201, rfl⟩
abbrev main_v103 : Ref sig .tc := ⟨.hbm, 202, rfl⟩
abbrev main_v104 : Ref sig .tc := ⟨.hbm, 203, rfl⟩
abbrev main_v105 : Ref sig .tc := ⟨.hbm, 204, rfl⟩
abbrev main_v106 : Ref sig .tc := ⟨.hbm, 205, rfl⟩
abbrev main_v107 : Ref sig .tc := ⟨.hbm, 206, rfl⟩
abbrev main_v108 : Ref sig .tc := ⟨.hbm, 207, rfl⟩
abbrev main_v109 : Ref sig .tc := ⟨.hbm, 208, rfl⟩
abbrev main_call8_cst : Ref sig .tc := ⟨.hbm, 209, rfl⟩
abbrev main_call8_v0 : Ref sig .tc := ⟨.hbm, 210, rfl⟩
abbrev main_v110 : Ref sig .tc := ⟨.hbm, 211, rfl⟩
abbrev main_v111 : Ref sig .tc := ⟨.hbm, 212, rfl⟩
abbrev main_v112 : Ref sig .tc := ⟨.hbm, 213, rfl⟩
abbrev main_v113 : Ref sig .tc := ⟨.hbm, 214, rfl⟩
abbrev main_v114 : Ref sig .tc := ⟨.hbm, 215, rfl⟩
abbrev main_call9_cst : Ref sig .tc := ⟨.hbm, 216, rfl⟩
abbrev main_call9_v0 : Ref sig .tc := ⟨.hbm, 217, rfl⟩
abbrev main_v115 : Ref sig .tc := ⟨.hbm, 218, rfl⟩
abbrev main_cst_18 : Ref sig .tc := ⟨.hbm, 219, rfl⟩
abbrev main_v116 : Ref sig .tc := ⟨.hbm, 220, rfl⟩
abbrev main_cst_19 : Ref sig .tc := ⟨.hbm, 221, rfl⟩
abbrev main_v117 : Ref sig .tc := ⟨.hbm, 222, rfl⟩
abbrev main_v118 : Ref sig .tc := ⟨.hbm, 223, rfl⟩
abbrev main_c_20 : Ref sig .tc := ⟨.hbm, 224, rfl⟩
abbrev main_call10_cst : Ref sig .tc := ⟨.hbm, 225, rfl⟩
abbrev main_call10_v0 : Ref sig .tc := ⟨.hbm, 226, rfl⟩
abbrev main_call10_v1 : Ref sig .tc := ⟨.hbm, 227, rfl⟩
abbrev main_call10_cst_0 : Ref sig .tc := ⟨.hbm, 228, rfl⟩
abbrev main_call10_v2 : Ref sig .tc := ⟨.hbm, 229, rfl⟩
abbrev main_call10_v3 : Ref sig .tc := ⟨.hbm, 230, rfl⟩
abbrev main_call10_v4 : Ref sig .tc := ⟨.hbm, 231, rfl⟩
abbrev main_call10_v5 : Ref sig .tc := ⟨.hbm, 232, rfl⟩
abbrev main_call10_v6 : Ref sig .tc := ⟨.hbm, 233, rfl⟩
abbrev main_call10_v7 : Ref sig .tc := ⟨.hbm, 234, rfl⟩
abbrev main_call10_cst_1 : Ref sig .tc := ⟨.hbm, 235, rfl⟩
abbrev main_call10_v8 : Ref sig .tc := ⟨.hbm, 236, rfl⟩
abbrev main_call10_cst_2 : Ref sig .tc := ⟨.hbm, 237, rfl⟩
abbrev main_call10_v9 : Ref sig .tc := ⟨.hbm, 238, rfl⟩
abbrev main_call10_v10 : Ref sig .tc := ⟨.hbm, 239, rfl⟩
abbrev main_call10_v11 : Ref sig .tc := ⟨.hbm, 240, rfl⟩
abbrev main_call10_cst_3 : Ref sig .tc := ⟨.hbm, 241, rfl⟩
abbrev main_call10_v12 : Ref sig .tc := ⟨.hbm, 242, rfl⟩
abbrev main_call10_cst_4 : Ref sig .tc := ⟨.hbm, 243, rfl⟩
abbrev main_call10_call0_v0 : Ref sig .tc := ⟨.hbm, 244, rfl⟩
abbrev main_call10_call0_v1 : Ref sig .tc := ⟨.hbm, 245, rfl⟩
abbrev main_v119 : Ref sig .tc := ⟨.hbm, 246, rfl⟩
abbrev main_v120 : Ref sig .tc := ⟨.hbm, 247, rfl⟩
abbrev main_v121 : Ref sig .tc := ⟨.hbm, 248, rfl⟩
abbrev main_v122 : Ref sig .tc := ⟨.hbm, 249, rfl⟩
abbrev main_cst_21 : Ref sig .tc := ⟨.hbm, 250, rfl⟩
abbrev main_v123 : Ref sig .tc := ⟨.hbm, 251, rfl⟩
abbrev main_v124 : Ref sig .tc := ⟨.hbm, 252, rfl⟩
abbrev main_v125 : Ref sig .tc := ⟨.hbm, 253, rfl⟩
abbrev main_v126 : Ref sig .tc := ⟨.hbm, 254, rfl⟩
abbrev main_v127 : Ref sig .tc := ⟨.hbm, 255, rfl⟩
abbrev main_v128 : Ref sig .tc := ⟨.hbm, 256, rfl⟩
abbrev main_v129 : Ref sig .tc := ⟨.hbm, 257, rfl⟩
abbrev main_v130 : Ref sig .tc := ⟨.hbm, 258, rfl⟩
abbrev main_v131 : Ref sig .tc := ⟨.hbm, 259, rfl⟩
abbrev main_v132 : Ref sig .tc := ⟨.hbm, 260, rfl⟩
abbrev main_v133 : Ref sig .tc := ⟨.hbm, 261, rfl⟩
abbrev main_v134 : Ref sig .tc := ⟨.hbm, 262, rfl⟩
abbrev main_call11_cst : Ref sig .tc := ⟨.hbm, 263, rfl⟩
abbrev main_call11_v0 : Ref sig .tc := ⟨.hbm, 264, rfl⟩
abbrev main_v135 : Ref sig .tc := ⟨.hbm, 265, rfl⟩
abbrev main_v136 : Ref sig .tc := ⟨.hbm, 266, rfl⟩
abbrev main_v137 : Ref sig .tc := ⟨.hbm, 267, rfl⟩
abbrev main_v138 : Ref sig .tc := ⟨.hbm, 268, rfl⟩
abbrev main_v139 : Ref sig .tc := ⟨.hbm, 269, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S50000x64 : S_.BroadcastsInDim S50000x64 (![] : Fin 0 → Fin S50000x64.rank)
  reducesTo_S50000x64_S64_d0 : S50000x64.ReducesTo [0] S64
  h_S_ : 0 < S_.numel
  bcast_S_S64 : S_.BroadcastsInDim S64 (![] : Fin 0 → Fin S64.rank)
  bcast_S_S1x64 : S_.BroadcastsInDim S1x64 (![] : Fin 0 → Fin S1x64.rank)
  bcast_S10_S1x10_1 : S10.BroadcastsInDim S1x10 (![1] : Fin 1 → Fin S1x10.rank)
  bcast_S1x10_S50000x10_0_1 : S1x10.BroadcastsInDim S50000x10 (![0, 1] : Fin 2 → Fin S50000x10.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S50000x64_S64x10_S50000x10_1_0_0_1_n_n_wf : DotDims.WF S50000x64 S64x10 S50000x10 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x64_S64x10_S50000x10_1_0_0_1_n_n : DotDims S50000x64 S64x10 S50000x10 where
  lhsContracting := [1]
  rhsContracting := [0]
  lhsNonContracting := [0]
  rhsNonContracting := [1]
  lhsBatch := []
  rhsBatch := []
  wf := dot_S50000x64_S64x10_S50000x10_1_0_0_1_n_n_wf

class Facts : Prop extends Facts₀ where

variable [Facts]
-- ==== Proof.KerRun.lean ====
/-
  The idealized kernel's run with its result named.

  The program is twenty segments: stretches of host operations and seven pipelined regions. The contents of every
  unscoped buffer after each segment are a fold from the launch memory (`W0` … `W20` of the frame module). The frame
  theorem reads only the argument arrays off the last boundary; read the result array off it as well and the same run
  says: every weakly fair execution terminates, faults nowhere, leaves the arguments as launched and the result buffer
  at `W20` — the value the other modules compute.
-/
import proofs.«179991_j80487687127440_1_alg».proof.Proof.Gen.KernelIdeal.Frame

set_option maxRecDepth 16384

noncomputable section

namespace Cert.KernelIdeal.KerRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run of @main: the result buffer ends at the last boundary's contents, the arguments as launched. -/
theorem run_value : θ_run defs (onTc (τ := τ) (main (F := F))) ⟨m, fun _ => 0, ρ⟩ (fun r => ∀ c : Dev nD,
      r.2.mem ((c.tc : Thread nD τ).loc main_v74) = W20 m ρ c (Proc.devRef .tc main_v74)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v74 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c),
       (h c _ (mem_uc main_arg4 (by decide))).trans (W20_main_arg4 m ρ c),
       (h c _ (mem_uc main_arg5 (by decide))).trans (W20_main_arg5 m ρ c),
       (h c _ (mem_uc main_arg6 (by decide))).trans (W20_main_arg6 m ρ c),
       (h c _ (mem_uc main_arg7 (by decide))).trans (W20_main_arg7 m ρ c),
       (h c _ (mem_uc main_arg8 (by decide))).trans (W20_main_arg8 m ρ c),
       (h c _ (mem_uc main_arg9 (by decide))).trans (W20_main_arg9 m ρ c),
       (h c _ (mem_uc main_arg10 (by decide))).trans (W20_main_arg10 m ρ c),
       (h c _ (mem_uc main_arg11 (by decide))).trans (W20_main_arg11 m ρ c),
       (h c _ (mem_uc main_arg12 (by decide))).trans (W20_main_arg12 m ρ c),
       (h c _ (mem_uc main_arg13 (by decide))).trans (W20_main_arg13 m ρ c),
       (h c _ (mem_uc main_arg14 (by decide))).trans (W20_main_arg14 m ρ c),
       (h c _ (mem_uc main_arg15 (by decide))).trans (W20_main_arg15 m ρ c),
       (h c _ (mem_uc main_arg16 (by decide))).trans (W20_main_arg16 m ρ c),
       (h c _ (mem_uc main_arg17 (by decide))).trans (W20_main_arg17 m ρ c),
       (h c _ (mem_uc main_arg18 (by decide))).trans (W20_main_arg18 m ρ c),
       (h c _ (mem_uc main_arg19 (by decide))).trans (W20_main_arg19 m ρ c),
       (h c _ (mem_uc main_arg20 (by decide))).trans (W20_main_arg20 m ρ c),
       (h c _ (mem_uc main_arg21 (by decide))).trans (W20_main_arg21 m ρ c),
       (h c _ (mem_uc main_arg22 (by decide))).trans (W20_main_arg22 m ρ c),
       (h c _ (mem_uc main_arg23 (by decide))).trans (W20_main_arg23 m ρ c),
       (h c _ (mem_uc main_arg24 (by decide))).trans (W20_main_arg24 m ρ c)⟩)

end Cert.KernelIdeal.KerRun

end
-- ==== Proof.LibMatmulRows.lean ====
/-
  GENERAL LEMMAS: the product of an [R, K] matrix with a [K, N] matrix — (A * B)(p, q) = sum over k of A(p, k) * B(k, q) —
  read at an index on extended reals, in the two spellings a kernel and a host program give it. Nothing here mentions a
  program; the extents R, K (the contracted axis: the lanes of A, the rows of B) and N are arbitrary.

  * idx2_ext: two rank-2 indices with the same coordinates are one index.
  * contraction_rows: a contraction of axis 1 of an [R, K] array with axis 0 of a [K, N] array (no batch axes), read at
    (p, q), is the sum over k : Fin K of l (p, k) * r (k, q); the dimension record enters only through four coordinate facts
    about its operand indices and the rank and extent of its contraction shape.
  * matmul_rows: the kernel's spelling — the matrix unit's product into a zero accumulator — at (p, q).
  * hostdot_rows: the host's spelling — dot_general — at (p, q).
  No law of extended-real arithmetic beyond reindexing a finite sum is used, so none of these needs finite inputs.
-/
import Idealize.ShloMosaic.PureOps.Ideal
import Idealize.ShloMosaic.PureOps.Ideal.Laws
import Idealize.ShloMosaic.Lib.ValueIdx

noncomputable section

namespace Cert.LibMatmulRows

open Idealize.ShloMosaic Idealize.ShloMosaic.ValueIdx
open scoped BigOperators

/-- Two rank-2 indices with the same coordinates are one index. -/
theorem idx2_ext {n0 n1 : ℕ} (f g : (⟨2, ![n0, n1]⟩ : Shape).Idx) (h0 : (f 0).val = (g 0).val) (h1 : (f 1).val = (g 1).val) :
    f = g :=
  funext fun d => Fin.ext (by
    match d with
    | ⟨0, _⟩ => exact h0
    | ⟨1, _⟩ => exact h1)

/-- A contraction of the lanes of an [R, K] array with the rows of a [K, N] array, read at (p, q): the sum over k of
    l(p, k) * r(k, q). The dimension record enters through four coordinate facts and the extent of its one contracted
    axis. -/
theorem contraction_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : (⟨2, ![R, K]⟩ : Shape).Idx → EReal) (r : (⟨2, ![K, N]⟩ : Shape).Idx → EReal) (p : Fin R) (q : Fin N) :
    ∑ s : d.contr.Idx, l (d.lhsIdx (ix2 p q) s) * r (d.rhsIdx (ix2 p q) s) = ∑ k : Fin K, l (ix2 p k) * r (ix2 k q) := by
  rw [← Equiv.sum_comp (contrEquiv1 d K hrank hsize).symm]
  refine Finset.sum_congr rfl fun k _ => ?_
  have hk := contrEquiv1_symm_val d K hrank hsize k
  have el : d.lhsIdx (ix2 p q) ((contrEquiv1 d K hrank hsize).symm k) = ix2 p k :=
    idx2_ext _ _ (hl0 _ _) ((hl1 _ _).trans hk)
  have er : d.rhsIdx (ix2 p q) ((contrEquiv1 d K hrank hsize).symm k) = ix2 k q :=
    idx2_ext _ _ ((hr0 _ _).trans hk) (hr1 _ _)
  rw [el, er]

/-- The matrix unit's product into a zero accumulator, read at (p, q). -/
theorem matmul_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    {φ₁ φ₂ : FTy} (l : FVec Ideal ⟨2, ![R, K]⟩ φ₁) (r : FVec Ideal ⟨2, ![K, N]⟩ φ₂) (p : Fin R) (q : Fin N) :
    matmul d none l r (constant (F := Ideal) ⟨2, ![R, N]⟩ .f32 0x00000000#32) (ix2 p q)
      = ∑ k : Fin K, l (ix2 p k) * r (ix2 k q) :=
  (Ideal.matmul_constant_zero_apply d none l r (ix2 p q)).trans
    (contraction_rows d hrank hsize hl0 hl1 hr0 hr1 l r p q)

/-- The host's dot_general, read at (p, q). -/
theorem hostdot_rows {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (l : FVec Ideal ⟨2, ![R, K]⟩ .f32) (r : FVec Ideal ⟨2, ![K, N]⟩ .f32) (p : Fin R) (q : Fin N) :
    Host.dotGeneral d none l r (ix2 p q) = ∑ k : Fin K, l (ix2 p k) * r (ix2 k q) :=
  (Ideal.dotGeneral_apply d none .single l r (ix2 p q)).trans
    (contraction_rows d hrank hsize hl0 hl1 hr0 hr1 l r p q)

end Cert.LibMatmulRows

end
-- ==== Proof.LibBiasRows.lean ====
/-
  GENERAL LEMMAS: a bias vector laid along the rows of a matrix, read at an entry, in the two spellings a kernel and a
  host program give it. Nothing here mentions a program; the number of rows R and the bias's length n are arbitrary.

  * bias_rows: the kernel's spelling — a length-n vector cast to one row [1, n] and broadcast to [R, n] — at (p, c) is the
    vector at c.
  * bias_host: the host's spelling — a length-n vector broadcast along axis 1 to [1, n] and then along both axes to [R, n]
    — at (r, c) is the vector at c, for n other than 1 (a length-1 axis is the one that a broadcast stretches).
  Both hold for entries of any type: no arithmetic is involved.
-/
import Idealize.ShloMosaic.Lib.Pipeline.Value
import Idealize.ShloMosaic.Lib.ValueLayout
import Idealize.ShloMosaic.Lib.ValueIdx

noncomputable section

namespace Cert.LibBiasRows

open Idealize.ShloMosaic Idealize.ShloMosaic.ValueIdx

variable {α : Type}

/-- A vector of length n cast to one row and laid along R rows reads, at (p, c), the vector at c. -/
theorem bias_rows {R n : ℕ} (b : (⟨1, ![n]⟩ : Shape).Idx → α) (hc : (⟨1, ![n]⟩ : Shape).ShapeCasts ⟨2, ![1, n]⟩)
    (hb : (⟨2, ![1, n]⟩ : Shape).Broadcasts ⟨2, ![R, n]⟩) (p : Fin R) (c : Fin n) :
    broadcastTo ⟨2, ![R, n]⟩ (shapeCast ⟨2, ![1, n]⟩ b hc) hb (ix2 p c) = b (ix1 c) :=
  (broadcastTo_1b_ab_apply _ hb p c).trans (shapeCast_a_1a_apply b hc 0 c)

/-- A vector of length n (n not 1) broadcast to one row and then along R rows reads, at (r, c), the vector at c. -/
theorem bias_host {R n : ℕ} (hn : n ≠ 1) (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ => show c.val = if n = 1 then 0 else c.val; rw [if_neg hn]
  · match a with
    | ⟨0, _⟩ => show c.val = if n = 1 then 0 else c.val; rw [if_neg hn]

end Cert.LibBiasRows

end
-- ==== Proof.LibDenseLayers.lean ====
/-
  GENERAL LEMMAS: dense layers as functions on extended reals. Nothing here mentions a program; every extent is arbitrary.

  An affine layer sends a matrix h of R rows and K columns to h · W + b: entry (p, q) is the sum over k of
  h(p, k) * W(k, q), plus b(q). The rectifier replaces every entry by the larger of it and zero. Two compositions
  are named: stage1 = rectifier ∘ affine, and stage2 = affine ∘ affine ∘ rectifier ∘ affine.

  Two facts are proved here, for any extents.
  * ROW-LOCALITY: row p of an affine layer's result depends only on row p of h. So a stage applied to a block of
    consecutive rows of a matrix is that block of rows of the stage applied to the whole matrix: this is what lets a
    computation tiled over blocks of rows be read as one computation on the whole matrix.
  * THE TWO SPELLINGS: a matrix product into a zero accumulator plus a vector cast to one row and laid along the rows,
    and a dot_general plus a vector broadcast twice, are both the affine layer.
  No law of extended-real arithmetic is used beyond re-indexing a finite sum, so nothing here needs finite entries.
-/
import Idealize.ShloMosaic.PureOps.Ideal
import Idealize.ShloMosaic.PureOps.Ideal.Laws
import Idealize.ShloMosaic.Lib.ValueIdx
import proofs.«179991_j80487687127440_1_alg».proof.Proof.LibMatmulRows
import proofs.«179991_j80487687127440_1_alg».proof.Proof.LibBiasRows

noncomputable section

namespace Cert.LibDenseLayers

open Idealize.ShloMosaic Idealize.ShloMosaic.ValueIdx
open scoped BigOperators

/-- Entry (p, q) of the affine layer h · W + b: row p of h against column q of W, plus the bias at q. -/
def affineAt {R K N : ℕ} (h : (⟨2, ![R, K]⟩ : Shape).Idx → EReal) (W : (⟨2, ![K, N]⟩ : Shape).Idx → EReal)
    (b : (⟨1, ![N]⟩ : Shape).Idx → EReal) (p : Fin R) (q : Fin N) : EReal :=
  (∑ k : Fin K, h (ix2 p k) * W (ix2 k q)) + b (ix1 q)

/-- The affine layer h · W + b as a matrix of R rows and N columns. -/
def affine {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  fun i => affineAt h W b (i 0) (i 1)

/-- The rectifier: every entry replaced by the larger of it and the single-precision zero. -/
def relu {s : Shape} (a : s.Idx → EReal) : s.Idx → EReal :=
  fun i => max (a i) (Ideal.ofBits .f32 0x00000000#32)

/-- The first dense stage: rectified affine layer. -/
def stage1 {R K N : ℕ} (h : (⟨2, ![R, K]⟩ : Shape).Idx → EReal) (W : (⟨2, ![K, N]⟩ : Shape).Idx → EReal)
    (b : (⟨1, ![N]⟩ : Shape).Idx → EReal) : (⟨2, ![R, N]⟩ : Shape).Idx → EReal :=
  relu (affine h W b)

/-- The second dense stage: a rectified affine layer followed by two affine layers. -/
def stage2 {R K N M L : ℕ} (h : (⟨2, ![R, K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) :
    (⟨2, ![R, L]⟩ : Shape).Idx → EReal :=
  affine (affine (relu (affine h W2 b2)) W3 b3) W4 b4

/-! ## Row-locality -/

/-- Row p of an affine layer of h is row p' of the affine layer of h' when row p of h is row p' of h'. -/
theorem affineAt_congr {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    affineAt h W b p q = affineAt h' W b p' q := by
  unfold affineAt
  exact congrArg (· + b (ix1 q)) (Finset.sum_congr rfl fun k _ => by rw [hh k])

/-- The first stage on a matrix whose row p is row p' of another: the same row of results. -/
theorem stage1_row {R R' K N : ℕ} (h : (⟨2, ![R, K]⟩ : Shape).Idx → EReal) (h' : (⟨2, ![R', K]⟩ : Shape).Idx → EReal)
    (W : (⟨2, ![K, N]⟩ : Shape).Idx → EReal) (b : (⟨1, ![N]⟩ : Shape).Idx → EReal) (p : Fin R) (p' : Fin R')
    (hh : ∀ k : Fin K, h (ix2 p k) = h' (ix2 p' k)) (q : Fin N) :
    stage1 h W b (ix2 p q) = stage1 h' W b (ix2 p' q) := by
  show max (affineAt h W b p q) _ = max (affineAt h' W b p' q) _
  rw [affineAt_congr h h' W b p p' hh q]

/-- The second stage on a matrix whose row p is row p' of another: the same row of results. -/
theorem stage2_row {R R' K N M L : ℕ} (h : (⟨2, ![R, K]⟩ : Shape).Idx → EReal) (h' : (⟨2, ![R', K]⟩ : Shape).Idx → EReal)
    (W2 : (⟨2, ![K, N]⟩ : Shape).Idx → EReal) (b2 : (⟨1, ![N]⟩ : Shape).Idx → EReal)
    (W3 : (⟨2, ![N, M]⟩ : Shape).Idx → EReal) (b3 : (⟨1, ![M]⟩ : Shape).Idx → EReal)
    (W4 : (⟨2, ![M, L]⟩ : Shape).Idx → EReal) (b4 : (⟨1, ![L]⟩ : Shape).Idx → EReal) (p : Fin R) (p' : Fin R')
    (hh : ∀ k : Fin K, h (ix2 p k) = h' (ix2 p' k)) (q : Fin L) :
    stage2 h W2 b2 W3 b3 W4 b4 (ix2 p q) = stage2 h' W2 b2 W3 b3 W4 b4 (ix2 p' q) := by
  show affineAt (affine (relu (affine h W2 b2)) W3 b3) W4 b4 p q
     = affineAt (affine (relu (affine h' W2 b2)) W3 b3) W4 b4 p' q
  refine affineAt_congr _ _ W4 b4 p p' (fun k => ?_) q
  show affineAt (relu (affine h W2 b2)) W3 b3 p k = affineAt (relu (affine h' W2 b2)) W3 b3 p' k
  refine affineAt_congr _ _ W3 b3 p p' (fun k' => ?_) k
  show max (affineAt h W2 b2 p k') _ = max (affineAt h' W2 b2 p' k') _
  rw [affineAt_congr h h' W2 b2 p p' hh k']

/-! ## The two spellings of an affine layer -/

/-- The matrix unit's product into a zero accumulator, plus a vector cast to one row and laid along the rows, is the
    affine layer. The operands of the product may carry any float format: on extended reals a format is no change. -/
theorem affine_of_matmul {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨1, ![N]⟩ : Shape).ShapeCasts ⟨2, ![1, N]⟩) (hb : (⟨2, ![1, N]⟩ : Shape).Broadcasts ⟨2, ![R, N]⟩)
    {φ₁ φ₂ : FTy} (h : FVec Ideal ⟨2, ![R, K]⟩ φ₁) (W : FVec Ideal ⟨2, ![K, N]⟩ φ₂) (b : FVec Ideal ⟨1, ![N]⟩ .f32) :
    addf (matmul d none h W (constant (F := Ideal) ⟨2, ![R, N]⟩ .f32 0x00000000#32))
      (broadcastTo ⟨2, ![R, N]⟩ (shapeCast ⟨2, ![1, N]⟩ b hc) hb) = affine h W b := by
  funext j
  obtain ⟨p, q, rfl⟩ : ∃ (p : Fin R) (q : Fin N), j = ix2 p q := ⟨j 0, j 1, eq_ix2 j⟩
  show matmul d none h W (constant (F := Ideal) ⟨2, ![R, N]⟩ .f32 0x00000000#32) (ix2 p q)
      + broadcastTo ⟨2, ![R, N]⟩ (shapeCast ⟨2, ![1, N]⟩ b hc) hb (ix2 p q) = affineAt h W b p q
  rw [Cert.LibMatmulRows.matmul_rows d hrank hsize hl0 hl1 hr0 hr1 h W p q, Cert.LibBiasRows.bias_rows b hc hb p q]
  rfl

/-- The host's dot_general, plus a vector broadcast to one row and then along the rows, is the affine layer. -/
theorem affine_of_dot {R K N : ℕ} (hN : N ≠ 1) (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (h : FVec Ideal ⟨2, ![R, K]⟩ .f32) (W : FVec Ideal ⟨2, ![K, N]⟩ .f32) (b : FVec Ideal ⟨1, ![N]⟩ .f32) :
    addf (Host.dotGeneral d none h W)
      (broadcastInDim ⟨2, ![R, N]⟩ ![0, 1] h2 (broadcastInDim ⟨2, ![1, N]⟩ ![1] h1 b)) = affine h W b := by
  funext j
  obtain ⟨p, q, rfl⟩ : ∃ (p : Fin R) (q : Fin N), j = ix2 p q := ⟨j 0, j 1, eq_ix2 j⟩
  show Host.dotGeneral d none h W (ix2 p q)
      + broadcastInDim ⟨2, ![R, N]⟩ ![0, 1] h2 (broadcastInDim ⟨2, ![1, N]⟩ ![1] h1 b) (ix2 p q) = affineAt h W b p q
  rw [Cert.LibMatmulRows.hostdot_rows d hrank hsize hl0 hl1 hr0 hr1 h W p q, Cert.LibBiasRows.bias_host hN b h1 h2 p q]
  rfl

end Cert.LibDenseLayers

end
-- ==== Proof.LibGinLayers.lean ====
/-
  What the network computes, stated once on extended reals with no program in sight.

  One graph-isomorphism layer takes node features x (R rows, K columns) and the neighbour sums agg of the
  same shape, and forms (1 + ε)·x + agg entry by entry; two rectified affine layers follow (K → H → H);
  then every column is normalised with a mean vector and a variance vector that are GIVEN here (the
  programs compute them from the rectified output; this file does not care how), scaled by g, shifted by
  be and rectified. The network is three such layers and one last affine layer. Each stage below is a
  function of whole arrays, read at an index (row p, column q).
-/
import Idealize.ShloMosaic.PureOps.Ideal
import Idealize.ShloMosaic.PureOps.Ideal.Laws
import Idealize.ShloMosaic.Lib.ValueIdx
import proofs.«179991_j80487687127440_1_alg».proof.Proof.LibDenseLayers

noncomputable section

namespace Cert.Gin

open Idealize.ShloMosaic Idealize.ShloMosaic.ValueIdx Cert.LibDenseLayers
open scoped BigOperators

/-- A matrix of R rows and K columns of extended reals. -/
abbrev Mat (R K : ℕ) : Type := (⟨2, ![R, K]⟩ : Shape).Idx → EReal
/-- A vector of N extended reals. -/
abbrev Vc (N : ℕ) : Type := (⟨1, ![N]⟩ : Shape).Idx → EReal

/-- (1 + ε)·x + agg, entry by entry; 1 is the single-precision one. -/
def combine {R K : ℕ} (e : EReal) (x agg : Mat R K) : Mat R K :=
  fun i => (Ideal.ofBits .f32 0x3F800000#32 + e) * x i + agg i

/-- The layer's two rectified affine stages after the combination. -/
def mlp {R K H : ℕ} (e : EReal) (x agg : Mat R K) (wa : Mat K H) (ba : Vc H) (wb : Mat H H) (bb : Vc H) : Mat R H :=
  stage1 (stage1 (combine e x agg) wa ba) wb bb

/-- One normalised entry before the rectifier: (h − mean)·rsqrt(var + 1e-5)·g + be at column q. -/
def bnAt (hpq mean var g be : EReal) : EReal :=
  (hpq - mean) * Ideal.rsqrt (var + Ideal.ofBits .f32 0x3727C5AC#32) * g + be

/-- Column-wise normalisation with given mean and variance, affine, rectified. -/
def bnrelu {R H : ℕ} (h : Mat R H) (mean var g be : Vc H) : Mat R H :=
  relu fun i => bnAt (h i) (mean (ix1 (i 1))) (var (ix1 (i 1))) (g (ix1 (i 1))) (be (ix1 (i 1)))

/-- Entry (p, q) of `combine` reads entry (p, q) of x and of agg only. -/
theorem combine_apply {R K : ℕ} (e : EReal) (x agg : Mat R K) (i : (⟨2, ![R, K]⟩ : Shape).Idx) :
    combine e x agg i = (Ideal.ofBits .f32 0x3F800000#32 + e) * x i + agg i := rfl

/-- Row p of `mlp` of (x, agg) is row p' of `mlp` of (x', agg') when row p of x is row p' of x' and likewise for agg:
    a block of rows of the result is the result of the block of rows. -/
theorem mlp_row {R R' K H : ℕ} (e : EReal) (x agg : Mat R K) (x' agg' : Mat R' K) (wa : Mat K H) (ba : Vc H)
    (wb : Mat H H) (bb : Vc H) (p : Fin R) (p' : Fin R')
    (hx : ∀ k : Fin K, x (ix2 p k) = x' (ix2 p' k)) (ha : ∀ k : Fin K, agg (ix2 p k) = agg' (ix2 p' k)) (q : Fin H) :
    mlp e x agg wa ba wb bb (ix2 p q) = mlp e x' agg' wa ba wb bb (ix2 p' q) := by
  unfold mlp
  refine stage1_row _ _ wb bb p p' (fun k => ?_) q
  refine stage1_row _ _ wa ba p p' (fun k' => ?_) k
  rw [combine_apply, combine_apply, hx k', ha k']

/-- Entry (p, q) of `bnrelu` reads entry (p, q) of h and column q of the four vectors. -/
theorem bnrelu_apply {R H : ℕ} (h : Mat R H) (mean var g be : Vc H) (p : Fin R) (q : Fin H) :
    bnrelu h mean var g be (ix2 p q)
      = max (bnAt (h (ix2 p q)) (mean (ix1 q)) (var (ix1 q)) (g (ix1 q)) (be (ix1 q))) (Ideal.ofBits .f32 0x00000000#32) := rfl

/-- One layer: the neighbour sums are `AGG x`; the mean and variance vectors are `MEAN` and `VAR` of the rectified
    two-stage output. The three maps are parameters: both programs compute them by the same host operations, and
    nothing below looks inside them. -/
def layer {R K H : ℕ} (AGG : Mat R K → Mat R K) (MEAN VAR : Mat R H → Vc H) (e : EReal) (x : Mat R K)
    (wa : Mat K H) (ba : Vc H) (wb : Mat H H) (bb : Vc H) (g be : Vc H) : Mat R H :=
  bnrelu (mlp e x (AGG x) wa ba wb bb) (MEAN (mlp e x (AGG x) wa ba wb bb)) (VAR (mlp e x (AGG x) wa ba wb bb)) g be

/-- The network: three layers and a last affine layer. -/
def net {R K H C : ℕ} (AGG1 : Mat R K → Mat R K) (AGG2 AGG3 : Mat R H → Mat R H) (MEAN VAR : Mat R H → Vc H)
    (x : Mat R K)
    (e1 : EReal) (w1a : Mat K H) (b1a : Vc H) (w1b : Mat H H) (b1b g1 be1 : Vc H)
    (e2 : EReal) (w2a : Mat H H) (b2a : Vc H) (w2b : Mat H H) (b2b g2 be2 : Vc H)
    (e3 : EReal) (w3a : Mat H H) (b3a : Vc H) (w3b : Mat H H) (b3b g3 be3 : Vc H)
    (lw : Mat H C) (lb : Vc C) : Mat R C :=
  affine
    (layer AGG3 MEAN VAR e3
      (layer AGG2 MEAN VAR e2
        (layer AGG1 MEAN VAR e1 x w1a b1a w1b b1b g1 be1)
        w2a b2a w2b b2b g2 be2)
      w3a b3a w3b b3b g3 be3)
    lw lb

end Cert.Gin

end
-- ==== Proof.LibRowBias.lean ====
/-
  GENERAL LEMMAS: a bias vector kept as a matrix of ONE row, [1, N]. Nothing here mentions a program; the number of rows R,
  the contracted extent K and the bias's length N are arbitrary.

  * rowOf: the one row of a [1, N] matrix as a vector of length N; a vector cast to [1, N] has itself as that row.
  * bias_block: a [1, N] matrix cast to its own shape and laid along R rows reads, at (p, q), its row at q.
  * affineAt_of_matmul_row: the matrix unit's product into a zero accumulator plus such a one-row bias, read at (p, q), is
    the entry (p, q) of the affine layer h · W + b with b the row.
  Entries of any type for the layout facts; the affine fact is on extended reals and needs no finiteness.
-/
import Idealize.ShloMosaic.PureOps.Ideal
import Idealize.ShloMosaic.PureOps.Ideal.Laws
import Idealize.ShloMosaic.Lib.Pipeline.Value
import Idealize.ShloMosaic.Lib.ValueLayout
import Idealize.ShloMosaic.Lib.ValueIdx
import proofs.«179991_j80487687127440_1_alg».proof.Proof.LibMatmulRows
import proofs.«179991_j80487687127440_1_alg».proof.Proof.LibDenseLayers

noncomputable section

namespace Cert.LibRowBias

open Idealize.ShloMosaic Idealize.ShloMosaic.ValueIdx Cert.LibDenseLayers
open scoped BigOperators

variable {α : Type}

/-- The one row of a [1, N] matrix, as a vector of length N. -/
def rowOf {N : ℕ} (B : (⟨2, ![1, N]⟩ : Shape).Idx → α) : (⟨1, ![N]⟩ : Shape).Idx → α :=
  fun j => B (ix2 (0 : Fin 1) (j 0))

/-- The row at q is the matrix at (0, q). -/
theorem rowOf_ix1 {N : ℕ} (B : (⟨2, ![1, N]⟩ : Shape).Idx → α) (q : Fin N) : rowOf B (ix1 q) = B (ix2 (0 : Fin 1) q) := rfl

/-- A vector cast to a one-row matrix has that vector as its row. -/
theorem rowOf_shapeCast {N : ℕ} (b : (⟨1, ![N]⟩ : Shape).Idx → α) (hc : (⟨1, ![N]⟩ : Shape).ShapeCasts ⟨2, ![1, N]⟩) :
    rowOf (shapeCast ⟨2, ![1, N]⟩ b hc) = b := by
  funext j
  obtain ⟨q, rfl⟩ : ∃ q : Fin N, j = ix1 q := ⟨j 0, eq_ix1 j⟩
  exact shapeCast_a_1a_apply b hc 0 q

/-- A one-row matrix, cast to its own shape and laid along R rows, reads at (p, q) its row at q. -/
theorem bias_block {R N : ℕ} (B : (⟨2, ![1, N]⟩ : Shape).Idx → α) (hc : (⟨2, ![1, N]⟩ : Shape).ShapeCasts ⟨2, ![1, N]⟩)
    (hb : (⟨2, ![1, N]⟩ : Shape).Broadcasts ⟨2, ![R, N]⟩) (p : Fin R) (q : Fin N) :
    broadcastTo ⟨2, ![R, N]⟩ (shapeCast ⟨2, ![1, N]⟩ B hc) hb (ix2 p q) = B (ix2 (0 : Fin 1) q) := by
  rw [shapeCast_self]
  exact broadcastTo_1b_ab_apply B hb p q

/-- The matrix unit's product into a zero accumulator plus a one-row bias laid along the rows, read at (p, q): row p of
    h against column q of W, plus the bias row at q. -/
theorem affineAt_of_matmul_row {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (hc : (⟨2, ![1, N]⟩ : Shape).ShapeCasts ⟨2, ![1, N]⟩) (hb : (⟨2, ![1, N]⟩ : Shape).Broadcasts ⟨2, ![R, N]⟩)
    {φ₁ φ₂ : FTy} (h : FVec Ideal ⟨2, ![R, K]⟩ φ₁) (W : FVec Ideal ⟨2, ![K, N]⟩ φ₂) (B : FVec Ideal ⟨2, ![1, N]⟩ .f32)
    (p : Fin R) (q : Fin N) :
    matmul d none h W (constant (F := Ideal) ⟨2, ![R, N]⟩ .f32 0x00000000#32) (ix2 p q)
      + broadcastTo ⟨2, ![R, N]⟩ (shapeCast ⟨2, ![1, N]⟩ B hc) hb (ix2 p q) = affineAt h W (rowOf B) p q := by
  rw [Cert.LibMatmulRows.matmul_rows d hrank hsize hl0 hl1 hr0 hr1 h W p q, bias_block B hc hb p q]
  rfl

end Cert.LibRowBias

end
-- ==== Proof.KerChains.lean ====
/-
  The host computations both programs share, as plain functions.

  Around its regions the kernel's program computes, on the host, exactly what the reference computes: the two index
  vectors cut out of the edge list; for node features x the neighbour sums — row src(e) of x gathered for every edge e
  (a negative index first wrapped by the row count, as array indexing does) and added into row dst(e) of a zero
  matrix; the column means of a matrix (column sums divided by the row count 50000); and its column variances as the
  variance routine spells them (centre by the mean, square, sum, divide by 50000 − 0, and keep the quotient where
  that divisor is positive — else the not-a-number word). Nothing downstream looks inside these functions: they are
  named so that both programs' results can be stated with the same terms.
-/
import proofs.«179991_j80487687127440_1_alg».proof.Proof.Gen.KernelIdeal
import Idealize.ShloMosaic.PureOps.Ideal

noncomputable section

namespace Cert.KernelIdeal.KerChains

open Cert.KernelIdeal Idealize.ShloMosaic Idealize.ShloMosaic.TcCoe
open Facts₀ Facts

/-- An integer array of shape `s` with 32-bit words. -/
abbrev IArr (s : Shape) : Type := (⟨s, .i32⟩ : BufTy).Contents (Elt Ideal)
/-- A float array of shape `s`. -/
abbrev FArr (s : Shape) : Type := FVec Ideal s .f32

/-- Row 0 of the edge list: the source node of every edge. -/
def src (ei : IArr S2x800000) : IArr S800000 :=
  shapeCast S800000 (extractStridedSlice S1x800000 ![0, 0] ei slices_S2x800000_S1x800000_0_0) shapeCasts_S1x800000_S800000

/-- Row 1 of the edge list: the destination node of every edge. -/
def dst (ei : IArr S2x800000) : IArr S800000 :=
  shapeCast S800000 (extractStridedSlice S1x800000 ![1, 0] ei slices_S2x800000_S1x800000_1_0) shapeCasts_S1x800000_S800000

/-- A negative node index counted from the end: s + 50000 where s < 0, else s. -/
def wrap (s : IArr S800000) : IArr S800000 :=
  select (cmpi .slt s (broadcastInDim S800000 ![] bcast_S_S800000 (constantI S_ 32 0#32)))
    (addi s (broadcastInDim S800000 ![] bcast_S_S800000 (constantI S_ 32 50000#32))) s

/-- Neighbour sums of 128-wide features: gather rows at the sources, add them into rows at the destinations. -/
def agg128 (s d : IArr S800000) (x : FArr S50000x128) : FArr S50000x128 :=
  Host.scatterAdd scatter_S50000x128_S800000x1_S800000x128_1_0_0_1
    (broadcastInDim S50000x128 ![] bcast_S_S50000x128 (constant (F := Ideal) S_ .f32 0x00000000#32))
    (broadcastInDim S800000x1 ![0] bcast_S800000_S800000x1_0 d)
    (Host.gather gather_S50000x128_S800000x1_S800000x128_1_0_n_n_0_1_1128 x
      (broadcastInDim S800000x1 ![0] bcast_S800000_S800000x1_0 (wrap s)))

/-- Neighbour sums of 64-wide features. -/
def agg64 (s d : IArr S800000) (x : FArr S50000x64) : FArr S50000x64 :=
  Host.scatterAdd scatter_S50000x64_S800000x1_S800000x64_1_0_0_1
    (broadcastInDim S50000x64 ![] bcast_S_S50000x64 (constant (F := Ideal) S_ .f32 0x00000000#32))
    (broadcastInDim S800000x1 ![0] bcast_S800000_S800000x1_0 d)
    (Host.gather gather_S50000x64_S800000x1_S800000x64_1_0_n_n_0_1_164 x
      (broadcastInDim S800000x1 ![0] bcast_S800000_S800000x1_0 (wrap s)))

/-- Column sums of a 50000 × 64 matrix, from zero. -/
def colsum (h : FArr S50000x64) : FArr S64 :=
  Host.reduceAdd h (constant (F := Ideal) S_ .f32 0x00000000#32) reducesTo_S50000x64_S64_d0 h_S_

/-- Column means: the column sums over 50000. -/
def mean (h : FArr S50000x64) : FArr S64 :=
  Host.divf (colsum h) (broadcastInDim S64 ![] bcast_S_S64 (constant (F := Ideal) S_ .f32 0x47435000#32))

/-- The variance routine's divisor 50000 − 0, the zero converted from an integer. -/
def dof : FArr S_ :=
  subf (constant (F := Ideal) S_ .f32 0x47435000#32) (sitofp .f32 (constantI S_ 32 0#32))

/-- The matrix centred by its column means, the means laid out as one row first. -/
def centred (h : FArr S50000x64) : FArr S50000x64 :=
  subf h (broadcastInDim S50000x64 ![0, 1] bcast_S1x64_S50000x64_0_1
    (Host.divf (broadcastInDim S1x64 ![1] bcast_S64_S1x64_1 (colsum h))
      (broadcastInDim S1x64 ![] bcast_S_S1x64 (constant (F := Ideal) S_ .f32 0x47435000#32))))

/-- Column variances as the variance routine computes them. -/
def var (h : FArr S50000x64) : FArr S64 :=
  select (broadcastInDim S64 ![] bcast_S_S64 (cmpf .ogt dof (constant (F := Ideal) S_ .f32 0x00000000#32)))
    (Host.divf (colsum (mulf (centred h) (centred h))) (broadcastInDim S64 ![] bcast_S_S64 dof) : FVec Ideal S64 .f32)
    (broadcastInDim S64 ![] bcast_S_S64 (constant (F := Ideal) S_ .f32 0x7FC00000#32))

/-- A vector of 64 laid out as one row. -/
def row64 (b : FArr S64) : FArr S1x64 := shapeCast S1x64 b shapeCasts_S64_S1x64
/-- A vector of 10 laid out as one row. -/
def row10 (b : FArr S10) : FArr S1x10 := shapeCast S1x10 b shapeCasts_S10_S1x10
/-- A scalar laid out as a 1 × 1 block. -/
def cell (e : FArr S_) : FArr S1x1 := shapeCast S1x1 e shapeCasts_S_S1x1

end Cert.KernelIdeal.KerChains

end
-- ==== Proof.LibTypedRefs.lean ====
/-
  GENERAL lemma on typed buffer references (the references a module-local function's operations are stated over): contents
  stored through a typed reference and read back through the same reference are the contents. Storing transports the
  contents along the reference's type equation and reading transports them back.
-/
import Idealize.ShloMosaic.Lib.StableHlo

namespace Cert.LibTypedRefs

open Idealize.ShloMosaic Idealize.ShloMosaic.StableHlo

/-- Contents stored through a typed reference and read back through it are the contents. -/
theorem ofBuf_toBuf {sg : RefSig} {Val : EltTy → Type} {T : BufTy} (x : TRef sg T) (v : T.Contents Val) :
    x.ofBuf (x.toBuf v) = v := by
  obtain ⟨r, rfl, _, _⟩ := x
  rfl

end Cert.LibTypedRefs
-- ==== Proof.KerHost.lean ====
/-
  What each stretch of host operations of the kernel's program leaves, from ANY contents `W` it starts from.

  Every stretch is a short straight line of operations; evaluated symbolically it leaves, in each buffer a later region
  reads, a named function of the contents it started from: the index vectors, the neighbour sums, the column mean and
  variance of the previous region's output (each reshaped to one row), and the scalar and the bias vectors reshaped to
  1 × 1 and 1 × n blocks. Buffers it does not write it leaves alone.
-/
import proofs.«179991_j80487687127440_1_alg».proof.Proof.Gen.KernelIdeal.Launch
import proofs.«179991_j80487687127440_1_alg».proof.Proof.KerChains
import proofs.«179991_j80487687127440_1_alg».proof.Proof.LibTypedRefs
import Idealize.ShloMosaic.Lib.StableHlo.Run

set_option maxRecDepth 16384

noncomputable section

namespace Cert.KernelIdeal.KerHost

open Cert.KernelIdeal Cert.KernelIdeal.Gen Cert.KernelIdeal.KerChains
open Idealize.ShloMosaic Idealize.ShloMosaic.TcCoe Idealize.SL.Sem Idealize.ShloMosaic.StableHlo

variable (W : Valuation τ sig (Elt Ideal))

/-! ## Before the first region -/
theorem pre1_src : StableHlo.after (hostOps0 (F := Ideal)) W (Proc.devRef .tc main_v1) = src (W (Proc.devRef .tc main_arg1)) := by dsimp only [hostOps0]; after_results_simp; rfl
theorem pre1_dst : StableHlo.after (hostOps0 (F := Ideal)) W (Proc.devRef .tc main_v3) = dst (W (Proc.devRef .tc main_arg1)) := by dsimp only [hostOps0]; after_results_simp; rfl
theorem pre1_agg : StableHlo.after (hostOps0 (F := Ideal)) W (Proc.devRef .tc main_v13)
    = agg128 (src (W (Proc.devRef .tc main_arg1))) (dst (W (Proc.devRef .tc main_arg1))) (W (Proc.devRef .tc main_arg0)) := by dsimp only [hostOps0]; after_results_simp; rfl
theorem pre1_eps : StableHlo.after (hostOps0 (F := Ideal)) W (Proc.devRef .tc main_v14) = cell (W (Proc.devRef .tc main_arg2)) := by dsimp only [hostOps0]; after_results_simp; rfl
theorem pre1_ba : StableHlo.after (hostOps0 (F := Ideal)) W (Proc.devRef .tc main_v15) = row64 (W (Proc.devRef .tc main_arg4)) := by dsimp only [hostOps0]; after_results_simp; rfl
theorem pre1_bb : StableHlo.after (hostOps0 (F := Ideal)) W (Proc.devRef .tc main_v16) = row64 (W (Proc.devRef .tc main_arg6)) := by dsimp only [hostOps0]; after_results_simp; rfl

/-! ## Between the two regions of layer 1: the column statistics of the first region's output -/
set_option maxHeartbeats 4000000 in
theorem stats1_mean : StableHlo.after (hostOps1_2 (F := Ideal)) (StableHlo.after (hostOps1_1 (F := Ideal)) (StableHlo.after (hostOps1 (F := Ideal)) W)) (Proc.devRef .tc main_v22) = row64 (mean (W (Proc.devRef .tc main_v17))) := by dsimp only [hostOps1, hostOps1_1, hostOps1_2]; after_results_simp; (try simp only [Cert.LibTypedRefs.ofBuf_toBuf]); rfl
set_option maxHeartbeats 4000000 in
theorem stats1_var : StableHlo.after (hostOps1_2 (F := Ideal)) (StableHlo.after (hostOps1_1 (F := Ideal)) (StableHlo.after (hostOps1 (F := Ideal)) W)) (Proc.devRef .tc main_v23) = row64 (var (W (Proc.devRef .tc main_v17))) := by dsimp only [hostOps1, hostOps1_1, hostOps1_2]; after_results_simp; (try simp only [Cert.LibTypedRefs.ofBuf_toBuf]); rfl
set_option maxHeartbeats 4000000 in
theorem stats1_g : StableHlo.after (hostOps1_2 (F := Ideal)) (StableHlo.after (hostOps1_1 (F := Ideal)) (StableHlo.after (hostOps1 (F := Ideal)) W)) (Proc.devRef .tc main_v24) = row64 (W (Proc.devRef .tc main_arg7)) := by dsimp only [hostOps1, hostOps1_1, hostOps1_2]; after_results_simp; (try simp only [Cert.LibTypedRefs.ofBuf_toBuf]); rfl
set_option maxHeartbeats 4000000 in
theorem stats1_be : StableHlo.after (hostOps1_2 (F := Ideal)) (StableHlo.after (hostOps1_1 (F := Ideal)) (StableHlo.after (hostOps1 (F := Ideal)) W)) (Proc.devRef .tc main_v25) = row64 (W (Proc.devRef .tc main_arg8)) := by dsimp only [hostOps1, hostOps1_1, hostOps1_2]; after_results_simp; (try simp only [Cert.LibTypedRefs.ofBuf_toBuf]); rfl
set_option maxHeartbeats 4000000 in
theorem stats1_h : StableHlo.after (hostOps1_2 (F := Ideal)) (StableHlo.after (hostOps1_1 (F := Ideal)) (StableHlo.after (hostOps1 (F := Ideal)) W)) (Proc.devRef .tc main_v17) = W (Proc.devRef .tc main_v17) := by dsimp only [hostOps1, hostOps1_1, hostOps1_2]; after_results_simp

/-! ## Between the two regions of layer 2: the column statistics of the first region's output -/
set_option maxHeartbeats 4000000 in
theorem stats2_mean : StableHlo.after (hostOps3_2 (F := Ideal)) (StableHlo.after (hostOps3_1 (F := Ideal)) (StableHlo.after (hostOps3 (F := Ideal)) W)) (Proc.devRef .tc main_v45) = row64 (mean (W (Proc.devRef .tc main_v40))) := by dsimp only [hostOps3, hostOps3_1, hostOps3_2]; after_results_simp; (try simp only [Cert.LibTypedRefs.ofBuf_toBuf]); rfl
set_option maxHeartbeats 4000000 in
theorem stats2_var : StableHlo.after (hostOps3_2 (F := Ideal)) (StableHlo.after (hostOps3_1 (F := Ideal)) (StableHlo.after (hostOps3 (F := Ideal)) W)) (Proc.devRef .tc main_v46) = row64 (var (W (Proc.devRef .tc main_v40))) := by dsimp only [hostOps3, hostOps3_1, hostOps3_2]; after_results_simp; (try simp only [Cert.LibTypedRefs.ofBuf_toBuf]); rfl
set_option maxHeartbeats 4000000 in
theorem stats2_g : StableHlo.after (hostOps3_2 (F := Ideal)) (StableHlo.after (hostOps3_1 (F := Ideal)) (StableHlo.after (hostOps3 (F := Ideal)) W)) (Proc.devRef .tc main_v47) = row64 (W (Proc.devRef .tc main_arg14)) := by dsimp only [hostOps3, hostOps3_1, hostOps3_2]; after_results_simp; (try simp only [Cert.LibTypedRefs.ofBuf_toBuf]); rfl
set_option maxHeartbeats 4000000 in
theorem stats2_be : StableHlo.after (hostOps3_2 (F := Ideal)) (StableHlo.after (hostOps3_1 (F := Ideal)) (StableHlo.after (hostOps3 (F := Ideal)) W)) (Proc.devRef .tc main_v48) = row64 (W (Proc.devRef .tc main_arg15)) := by dsimp only [hostOps3, hostOps3_1, hostOps3_2]; after_results_simp; (try simp only [Cert.LibTypedRefs.ofBuf_toBuf]); rfl
set_option maxHeartbeats 4000000 in
theorem stats2_h : StableHlo.after (hostOps3_2 (F := Ideal)) (StableHlo.after (hostOps3_1 (F := Ideal)) (StableHlo.after (hostOps3 (F := Ideal)) W)) (Proc.devRef .tc main_v40) = W (Proc.devRef .tc main_v40) := by dsimp only [hostOps3, hostOps3_1, hostOps3_2]; after_results_simp

/-! ## Between the two regions of layer 3: the column statistics of the first region's output -/
set_option maxHeartbeats 4000000 in
theorem stats3_mean : StableHlo.after (hostOps5_2 (F := Ideal)) (StableHlo.after (hostOps5_1 (F := Ideal)) (StableHlo.after (hostOps5 (F := Ideal)) W)) (Proc.devRef .tc main_v68) = row64 (mean (W (Proc.devRef .tc main_v63))) := by dsimp only [hostOps5, hostOps5_1, hostOps5_2]; after_results_simp; (try simp only [Cert.LibTypedRefs.ofBuf_toBuf]); rfl
set_option maxHeartbeats 4000000 in
theorem stats3_var : StableHlo.after (hostOps5_2 (F := Ideal)) (StableHlo.after (hostOps5_1 (F := Ideal)) (StableHlo.after (hostOps5 (F := Ideal)) W)) (Proc.devRef .tc main_v69) = row64 (var (W (Proc.devRef .tc main_v63))) := by dsimp only [hostOps5, hostOps5_1, hostOps5_2]; after_results_simp; (try simp only [Cert.LibTypedRefs.ofBuf_toBuf]); rfl
set_option maxHeartbeats 4000000 in
theorem stats3_g : StableHlo.after (hostOps5_2 (F := Ideal)) (StableHlo.after (hostOps5_1 (F := Ideal)) (StableHlo.after (hostOps5 (F := Ideal)) W)) (Proc.devRef .tc main_v70) = row64 (W (Proc.devRef .tc main_arg21)) := by dsimp only [hostOps5, hostOps5_1, hostOps5_2]; after_results_simp; (try simp only [Cert.LibTypedRefs.ofBuf_toBuf]); rfl
set_option maxHeartbeats 4000000 in
theorem stats3_be : StableHlo.after (hostOps5_2 (F := Ideal)) (StableHlo.after (hostOps5_1 (F := Ideal)) (StableHlo.after (hostOps5 (F := Ideal)) W)) (Proc.devRef .tc main_v71) = row64 (W (Proc.devRef .tc main_arg22)) := by dsimp only [hostOps5, hostOps5_1, hostOps5_2]; after_results_simp; (try simp only [Cert.LibTypedRefs.ofBuf_toBuf]); rfl
set_option maxHeartbeats 4000000 in
theorem stats3_h : StableHlo.after (hostOps5_2 (F := Ideal)) (StableHlo.after (hostOps5_1 (F := Ideal)) (StableHlo.after (hostOps5 (F := Ideal)) W)) (Proc.devRef .tc main_v63) = W (Proc.devRef .tc main_v63) := by dsimp only [hostOps5, hostOps5_1, hostOps5_2]; after_results_simp

/-! ## Before the first region of layer 2 -/
theorem pre2_agg : StableHlo.after (hostOps2 (F := Ideal)) W (Proc.devRef .tc main_v36) = agg64 (W (Proc.devRef .tc main_v1)) (W (Proc.devRef .tc main_v3)) (W (Proc.devRef .tc main_v26)) := by dsimp only [hostOps2]; after_results_simp; rfl
theorem pre2_eps : StableHlo.after (hostOps2 (F := Ideal)) W (Proc.devRef .tc main_v37) = cell (W (Proc.devRef .tc main_arg9)) := by dsimp only [hostOps2]; after_results_simp; rfl
theorem pre2_ba : StableHlo.after (hostOps2 (F := Ideal)) W (Proc.devRef .tc main_v38) = row64 (W (Proc.devRef .tc main_arg11)) := by dsimp only [hostOps2]; after_results_simp; rfl
theorem pre2_bb : StableHlo.after (hostOps2 (F := Ideal)) W (Proc.devRef .tc main_v39) = row64 (W (Proc.devRef .tc main_arg13)) := by dsimp only [hostOps2]; after_results_simp; rfl
theorem pre2_h : StableHlo.after (hostOps2 (F := Ideal)) W (Proc.devRef .tc main_v26) = W (Proc.devRef .tc main_v26) := by dsimp only [hostOps2]; after_results_simp
theorem pre2_wa : StableHlo.after (hostOps2 (F := Ideal)) W (Proc.devRef .tc main_arg10) = W (Proc.devRef .tc main_arg10) := by dsimp only [hostOps2]; after_results_simp
theorem pre2_wb : StableHlo.after (hostOps2 (F := Ideal)) W (Proc.devRef .tc main_arg12) = W (Proc.devRef .tc main_arg12) := by dsimp only [hostOps2]; after_results_simp

/-! ## Before the first region of layer 3 -/
theorem pre3_agg : StableHlo.after (hostOps4 (F := Ideal)) W (Proc.devRef .tc main_v59) = agg64 (W (Proc.devRef .tc main_v1)) (W (Proc.devRef .tc main_v3)) (W (Proc.devRef .tc main_v49)) := by dsimp only [hostOps4]; after_results_simp; rfl
theorem pre3_eps : StableHlo.after (hostOps4 (F := Ideal)) W (Proc.devRef .tc main_v60) = cell (W (Proc.devRef .tc main_arg16)) := by dsimp only [hostOps4]; after_results_simp; rfl
theorem pre3_ba : StableHlo.after (hostOps4 (F := Ideal)) W (Proc.devRef .tc main_v61) = row64 (W (Proc.devRef .tc main_arg18)) := by dsimp only [hostOps4]; after_results_simp; rfl
theorem pre3_bb : StableHlo.after (hostOps4 (F := Ideal)) W (Proc.devRef .tc main_v62) = row64 (W (Proc.devRef .tc main_arg20)) := by dsimp only [hostOps4]; after_results_simp; rfl
theorem pre3_h : StableHlo.after (hostOps4 (F := Ideal)) W (Proc.devRef .tc main_v49) = W (Proc.devRef .tc main_v49) := by dsimp only [hostOps4]; after_results_simp
theorem pre3_wa : StableHlo.after (hostOps4 (F := Ideal)) W (Proc.devRef .tc main_arg17) = W (Proc.devRef .tc main_arg17) := by dsimp only [hostOps4]; after_results_simp
theorem pre3_wb : StableHlo.after (hostOps4 (F := Ideal)) W (Proc.devRef .tc main_arg19) = W (Proc.devRef .tc main_arg19) := by dsimp only [hostOps4]; after_results_simp

/-! ## Before the last region -/
theorem pre4_b : StableHlo.after (hostOps6 (F := Ideal)) W (Proc.devRef .tc main_v73) = row10 (W (Proc.devRef .tc main_arg24)) := by dsimp only [hostOps6]; after_results_simp; rfl
theorem pre4_h : StableHlo.after (hostOps6 (F := Ideal)) W (Proc.devRef .tc main_v72) = W (Proc.devRef .tc main_v72) := by dsimp only [hostOps6]; after_results_simp
theorem pre4_w : StableHlo.after (hostOps6 (F := Ideal)) W (Proc.devRef .tc main_arg23) = W (Proc.devRef .tc main_arg23) := by dsimp only [hostOps6]; after_results_simp

end Cert.KernelIdeal.KerHost

end
-- ==== Proof.KerArgs.lean ====
/-
  Buffers that no segment in between writes keep their contents.

  The contents at each boundary of the program are a fold from the launch memory (`W0` … `W20`). An argument array is
  written by no host operation and by no region (a region only reads it, through an input window or not at all), so at
  any boundary it still holds what was launched; the two index vectors cut out of the edge list before the first region
  are likewise written once and only read afterwards. Each statement below walks the fold back, one segment at a time:
  a host stretch leaves alone every buffer outside its operations' results, a region every buffer that is not one of its
  output windows' arrays.
-/
import proofs.«179991_j80487687127440_1_alg».proof.Proof.Gen.KernelIdeal.Frame

set_option maxRecDepth 16384

noncomputable section

namespace Cert.KernelIdeal.KerArgs

open Cert.KernelIdeal Cert.KernelIdeal.Gen
open Idealize.ShloMosaic Idealize.ShloMosaic.TcCoe Idealize.ShloMosaic.Tactic
open Idealize.SL.Sem
open Idealize.ShloMosaic.Pipeline (Dat Cfg Window BodyObligation cellOf)

variable {F : FTy → Type} [FloatOps F]
variable (m : (ℓ : Loc nD τ sig) → Buf (Elt F) ℓ) (ρ : Dev nD → PrngReg)

theorem W1_main_arg0 (c : Dev nD) : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W1_main_arg3 (c : Dev nD) : W1 m ρ c (Proc.devRef .tc main_arg3) = m ((c : Thread nD τ).loc main_arg3) :=
  calc W1 m ρ c (Proc.devRef .tc main_arg3)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem W1_main_arg5 (c : Dev nD) : W1 m ρ c (Proc.devRef .tc main_arg5) = m ((c : Thread nD τ).loc main_arg5) :=
  calc W1 m ρ c (Proc.devRef .tc main_arg5)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem W2_main_arg7 (c : Dev nD) : W2 m ρ c (Proc.devRef .tc main_arg7) = m ((c : Thread nD τ).loc main_arg7) :=
  calc W2 m ρ c (Proc.devRef .tc main_arg7)
    _ = W1 m ρ c (Proc.devRef .tc main_arg7) := W2_of_ne m ρ c main_arg7 (by decide)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem W2_main_arg8 (c : Dev nD) : W2 m ρ c (Proc.devRef .tc main_arg8) = m ((c : Thread nD τ).loc main_arg8) :=
  calc W2 m ρ c (Proc.devRef .tc main_arg8)
    _ = W1 m ρ c (Proc.devRef .tc main_arg8) := W2_of_ne m ρ c main_arg8 (by decide)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem W6_main_arg9 (c : Dev nD) : W6 m ρ c (Proc.devRef .tc main_arg9) = m ((c : Thread nD τ).loc main_arg9) :=
  calc W6 m ρ c (Proc.devRef .tc main_arg9)
    _ = W5 m ρ c (Proc.devRef .tc main_arg9) := W6_of_ne m ρ c main_arg9 (by decide)
    _ = W4 m ρ c (Proc.devRef .tc main_arg9) := StableHlo.after_of_forall_not_mem (b := Proc.devRef .tc main_arg9) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg9) := StableHlo.after_of_forall_not_mem (b := Proc.devRef .tc main_arg9) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg9) := StableHlo.after_of_forall_not_mem (b := Proc.devRef .tc main_arg9) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg9) := W2_of_ne m ρ c main_arg9 (by decide)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem W6_main_arg10 (c : Dev nD) : W6 m ρ c (Proc.devRef .tc main_arg10) = m ((c : Thread nD τ).loc main_arg10) :=
  calc W6 m ρ c (Proc.devRef .tc main_arg10)
    _ = W5 m ρ c (Proc.devRef .tc main_arg10) := W6_of_ne m ρ c main_arg10 (by decide)
    _ = W4 m ρ c (Proc.devRef .tc main_arg10) := StableHlo.after_of_forall_not_mem (b := Proc.devRef .tc main_arg10) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg10) := StableHlo.after_of_forall_not_mem (b := Proc.devRef .tc main_arg10) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg10) := StableHlo.after_of_forall_not_mem (b := Proc.devRef .tc main_arg10) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg10) := W2_of_ne m ρ c main_arg10 (by decide)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem W6_main_arg11 (c : Dev nD) : W6 m ρ c (Proc.devRef .tc main_arg11) = m ((c : Thread nD τ).loc main_arg11) :=
  calc W6 m ρ c (Proc.devRef .tc main_arg11)
    _ = W5 m ρ c (Proc.devRef .tc main_arg11) := W6_of_ne m ρ c main_arg11 (by decide)
    _ = W4 m ρ c (Proc.devRef .tc main_arg11) := StableHlo.after_of_forall_not_mem (b := Proc.devRef .tc main_arg11) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg11) := StableHlo.after_of_forall_not_mem (b := Proc.devRef .tc main_arg11) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg11) := StableHlo.after_of_forall_not_mem (b := Proc.devRef .tc main_arg11) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg11) := W2_of_ne m ρ c main_arg11 (by decide)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem W6_main_arg12 (c : Dev nD) : W6 m ρ c (Proc.devRef .tc main_arg12) = m ((c : Thread nD τ).loc main_arg12) :=
  calc W6 m ρ c (Proc.devRef .tc main_arg12)
    _ = W5 m ρ c (Proc.devRef .tc main_arg12) := W6_of_ne m ρ c main_arg12 (by decide)
    _ = W4 m ρ c (Proc.devRef .tc main_arg12) := StableHlo.after_of_forall_not_mem (b := Proc.devRef .tc main_arg12) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := StableHlo.after_of_forall_not_mem (b := Proc.devRef .tc main_arg12) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem W6_main_arg13 (c : Dev nD) : W6 m ρ c (Proc.devRef .tc main_arg13) = m ((c : Thread nD τ).loc main_arg13) :=
  calc W6 m ρ c (Proc.devRef .tc main_arg13)
    _ = W5 m ρ c (Proc.devRef .tc main_arg13) := W6_of_ne m ρ c main_arg13 (by decide)
    _ = W4 m ρ c (Proc.devRef .tc main_arg13) := StableHlo.after_of_forall_not_mem (b := Proc.devRef .tc main_arg13) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := StableHlo.after_of_forall_not_mem (b := Proc.devRef .tc main_arg13) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem W8_main_arg14 (c : Dev nD) : W8 m ρ c (Proc.devRef .tc main_arg14) = m ((c : Thread nD τ).loc main_arg14) :=
  calc W8 m ρ c (Proc.devRef .tc main_arg14)
    _ = W7 m ρ c (Proc.devRef .tc main_arg14) := W8_of_ne m ρ c main_arg14 (by decide)
    _ = W6 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg14) := W6_of_ne m ρ c main_arg14 (by decide)
    _ = W4 m ρ c (Proc.devRef .tc main_arg14) := StableHlo.after_of_forall_not_mem (b := Proc.devRef .tc main_arg14) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := StableHlo.after_of_forall_not_mem (b := Proc.devRef .tc main_arg14) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

theorem W8_main_arg15 (c : Dev nD) : W8 m ρ c (Proc.devRef .tc main_arg15) = m ((c : Thread nD τ).loc main_arg15) :=
  calc W8 m ρ c (Proc.devRef .tc main_arg15)
    _ = W7 m ρ c (Proc.devRef .tc main_arg15) := W8_of_ne m ρ c main_arg15 (by decide)
    _ = W6 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg15) := W6_of_ne m ρ c main_arg15 (by decide)
    _ = W4 m ρ c (Proc.devRef .tc main_arg15) := StableHlo.after_of_forall_not_mem (b := Proc.devRef .tc main_arg15) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := StableHlo.after_of_forall_not_mem (b := Proc.devRef .tc main_arg15) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

theorem W12_main_arg16 (c : Dev nD) : W12 m ρ c (Proc.devRef .tc main_arg16) = m ((c : Thread nD τ).loc main_arg16) :=
  calc W12 m ρ c (Proc.devRef .tc main_arg16)
    _ = W11 m ρ c (Proc.devRef .tc main_arg16) := W12_of_ne m ρ c main_arg16 (by decide)
    _ = W10 m ρ c (Proc.devRef .tc main_arg16) := StableHlo.after_of_forall_not_mem (b := Proc.devRef .tc main_arg16) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg16) := StableHlo.after_of_forall_not_mem (b := Proc.devRef .tc main_arg16) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg16) := StableHlo.after_of_forall_not_mem (b := Proc.devRef .tc main_arg16) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg16) := W8_of_ne m ρ c main_arg16 (by decide)
    _ = W6 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg16) := W6_of_ne m ρ c main_arg16 (by decide)
    _ = W4 m ρ c (Proc.devRef .tc main_arg16) := StableHlo.after_of_forall_not_mem (b := Proc.devRef .tc main_arg16) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := StableHlo.after_of_forall_not_mem (b := Proc.devRef .tc main_arg16) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

theorem W12_main_arg17 (c : Dev nD) : W12 m ρ c (Proc.devRef .tc main_arg17) = m ((c : Thread nD τ).loc main_arg17) :=
  calc W12 m ρ c (Proc.devRef .tc main_arg17)
    _ = W11 m ρ c (Proc.devRef .tc main_arg17) := W12_of_ne m ρ c main_arg17 (by decide)
    _ = W10 m ρ c (Proc.devRef .tc main_arg17) := StableHlo.after_of_forall_not_mem (b := Proc.devRef .tc main_arg17) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg17) := StableHlo.after_of_forall_not_mem (b := Proc.devRef .tc main_arg17) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg17) := StableHlo.after_of_forall_not_mem (b := Proc.devRef .tc main_arg17) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg17) := W8_of_ne m ρ c main_arg17 (by decide)
    _ = W6 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg17) := W6_of_ne m ρ c main_arg17 (by decide)
    _ = W4 m ρ c (Proc.devRef .tc main_arg17) := StableHlo.after_of_forall_not_mem (b := Proc.devRef .tc main_arg17) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg17) := StableHlo.after_of_forall_not_mem (b := Proc.devRef .tc main_arg17) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl

theorem W12_main_arg18 (c : Dev nD) : W12 m ρ c (Proc.devRef .tc main_arg18) = m ((c : Thread nD τ).loc main_arg18) :=
  calc W12 m ρ c (Proc.devRef .tc main_arg18)
    _ = W11 m ρ c (Proc.devRef .tc main_arg18) := W12_of_ne m ρ c main_arg18 (by decide)
    _ = W10 m ρ c (Proc.devRef .tc main_arg18) := StableHlo.after_of_forall_not_mem (b := Proc.devRef .tc main_arg18) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg18) := StableHlo.after_of_forall_not_mem (b := Proc.devRef .tc main_arg18) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg18) := StableHlo.after_of_forall_not_mem (b := Proc.devRef .tc main_arg18) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg18) := W8_of_ne m ρ c main_arg18 (by decide)
    _ = W6 m ρ c (Proc.devRef .tc main_arg18) := StableHlo.after_of_forall_not_mem (b := Proc.devRef .tc main_arg18) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg18) := W6_of_ne m ρ c main_arg18 (by decide)
    _ = W4 m ρ c (Proc.devRef .tc main_arg18) := StableHlo.after_of_forall_not_mem (b := Proc.devRef .tc main_arg18) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg18) := StableHlo.after_of_forall_not_mem (b := Proc.devRef .tc main_arg18) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg18) := StableHlo.after_of_forall_not_mem (b := Proc.devRef .tc main_arg18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg18) := rfl

theorem W12_main_arg19 (c : Dev nD) : W12 m ρ c (Proc.devRef .tc main_arg19) = m ((c : Thread nD τ).loc main_arg19) :=
  calc W12 m ρ c (Proc.devRef .tc main_arg19)
    _ = W11 m ρ c (Proc.devRef .tc main_arg19) := W12_of_ne m ρ c main_arg19 (by decide)
    _ = W10 m ρ c (Proc.devRef .tc main_arg19) := StableHlo.after_of_forall_not_mem (b := Proc.devRef .tc main_arg19) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg19) := StableHlo.after_of_forall_not_mem (b := Proc.devRef .tc main_arg19) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg19) := StableHlo.after_of_forall_not_mem (b := Proc.devRef .tc main_arg19) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg19) := W8_of_ne m ρ c main_arg19 (by decide)
    _ = W6 m ρ c (Proc.devRef .tc main_arg19) := StableHlo.after_of_forall_not_mem (b := Proc.devRef .tc main_arg19) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg19) := W6_of_ne m ρ c main_arg19 (by decide)
    _ = W4 m ρ c (Proc.devRef .tc main_arg19) := StableHlo.after_of_forall_not_mem (b := Proc.devRef .tc main_arg19) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg19) := StableHlo.after_of_forall_not_mem (b := Proc.devRef .tc main_arg19) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg19) := StableHlo.after_of_forall_not_mem (b := Proc.devRef .tc main_arg19) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg19) := rfl

theorem W12_main_arg20 (c : Dev nD) : W12 m ρ c (Proc.devRef .tc main_arg20) = m ((c : Thread nD τ).loc main_arg20) :=
  calc W12 m ρ c (Proc.devRef .tc main_arg20)
    _ = W11 m ρ c (Proc.devRef .tc main_arg20) := W12_of_ne m ρ c main_arg20 (by decide)
    _ = W10 m ρ c (Proc.devRef .tc main_arg20) := StableHlo.after_of_forall_not_mem (b := Proc.devRef .tc main_arg20) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg20) := StableHlo.after_of_forall_not_mem (b := Proc.devRef .tc main_arg20) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg20) := StableHlo.after_of_forall_not_mem (b := Proc.devRef .tc main_arg20) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg20) := W8_of_ne m ρ c main_arg20 (by decide)
    _ = W6 m ρ c (Proc.devRef .tc main_arg20) := StableHlo.after_of_forall_not_mem (b := Proc.devRef .tc main_arg20) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg20) := W6_of_ne m ρ c main_arg20 (by decide)
    _ = W4 m ρ c (Proc.devRef .tc main_arg20) := StableHlo.after_of_forall_not_mem (b := Proc.devRef .tc main_arg20) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg20) := StableHlo.after_of_forall_not_mem (b := Proc.devRef .tc main_arg20) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg20) := StableHlo.after_of_forall_not_mem (b := Proc.devRef .tc main_arg20) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg20) := W2_of_ne m ρ c main_arg20 (by decide)
    _ = W0 m ρ c (Proc.devRef .tc main_arg20) := StableHlo.after_of_forall_not_mem (b := Proc.devRef .tc main_arg20) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg20) := rfl

theorem W14_main_arg21 (c : Dev nD) : W14 m ρ c (Proc.devRef .tc main_arg21) = m ((c : Thread nD τ).loc main_arg21) :=
  calc W14 m ρ c (Proc.devRef .tc main_arg21)
    _ = W13 m ρ c (Proc.devRef .tc main_arg21) := W14_of_ne m ρ c main_arg21 (by decide)
    _ = W12 m ρ c (Proc.devRef .tc main_arg21) := StableHlo.after_of_forall_not_mem (b := Proc.devRef .tc main_arg21) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg21) := W12_of_ne m ρ c main_arg21 (by decide)
    _ = W10 m ρ c (Proc.devRef .tc main_arg21) := StableHlo.after_of_forall_not_mem (b := Proc.devRef .tc main_arg21) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg21) := StableHlo.after_of_forall_not_mem (b := Proc.devRef .tc main_arg21) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg21) := StableHlo.after_of_forall_not_mem (b := Proc.devRef .tc main_arg21) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg21) := W8_of_ne m ρ c main_arg21 (by decide)
    _ = W6 m ρ c (Proc.devRef .tc main_arg21) := StableHlo.after_of_forall_not_mem (b := Proc.devRef .tc main_arg21) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg21) := W6_of_ne m ρ c main_arg21 (by decide)
    _ = W4 m ρ c (Proc.devRef .tc main_arg21) := StableHlo.after_of_forall_not_mem (b := Proc.devRef .tc main_arg21) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg21) := StableHlo.after_of_forall_not_mem (b := Proc.devRef .tc main_arg21) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg21) := StableHlo.after_of_forall_not_mem (b := Proc.devRef .tc main_arg21) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg21) := W2_of_ne m ρ c main_arg21 (by decide)
    _ = W0 m ρ c (Proc.devRef .tc main_arg21) := StableHlo.after_of_forall_not_mem (b := Proc.devRef .tc main_arg21) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg21) := rfl

theorem W14_main_arg22 (c : Dev nD) : W14 m ρ c (Proc.devRef .tc main_arg22) = m ((c : Thread nD τ).loc main_arg22) :=
  calc W14 m ρ c (Proc.devRef .tc main_arg22)
    _ = W13 m ρ c (Proc.devRef .tc main_arg22) := W14_of_ne m ρ c main_arg22 (by decide)
    _ = W12 m ρ c (Proc.devRef .tc main_arg22) := StableHlo.after_of_forall_not_mem (b := Proc.devRef .tc main_arg22) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg22) := W12_of_ne m ρ c main_arg22 (by decide)
    _ = W10 m ρ c (Proc.devRef .tc main_arg22) := StableHlo.after_of_forall_not_mem (b := Proc.devRef .tc main_arg22) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg22) := StableHlo.after_of_forall_not_mem (b := Proc.devRef .tc main_arg22) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg22) := StableHlo.after_of_forall_not_mem (b := Proc.devRef .tc main_arg22) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg22) := W8_of_ne m ρ c main_arg22 (by decide)
    _ = W6 m ρ c (Proc.devRef .tc main_arg22) := StableHlo.after_of_forall_not_mem (b := Proc.devRef .tc main_arg22) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg22) := W6_of_ne m ρ c main_arg22 (by decide)
    _ = W4 m ρ c (Proc.devRef .tc main_arg22) := StableHlo.after_of_forall_not_mem (b := Proc.devRef .tc main_arg22) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg22) := StableHlo.after_of_forall_not_mem (b := Proc.devRef .tc main_arg22) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg22) := StableHlo.after_of_forall_not_mem (b := Proc.devRef .tc main_arg22) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg22) := W2_of_ne m ρ c main_arg22 (by decide)
    _ = W0 m ρ c (Proc.devRef .tc main_arg22) := StableHlo.after_of_forall_not_mem (b := Proc.devRef .tc main_arg22) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg22) := rfl

theorem W18_main_arg23 (c : Dev nD) : W18 m ρ c (Proc.devRef .tc main_arg23) = m ((c : Thread nD τ).loc main_arg23) :=
  calc W18 m ρ c (Proc.devRef .tc main_arg23)
    _ = W17 m ρ c (Proc.devRef .tc main_arg23) := W18_of_ne m ρ c main_arg23 (by decide)
    _ = W16 m ρ c (Proc.devRef .tc main_arg23) := StableHlo.after_of_forall_not_mem (b := Proc.devRef .tc main_arg23) _ _ (List.forall_iff_forall_mem.mp (by
          simp only [hostOps5_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg23) := StableHlo.after_of_forall_not_mem (b := Proc.devRef .tc main_arg23) _ _ (List.forall_iff_forall_mem.mp (by
          simp only [hostOps5_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W14 m ρ c (Proc.devRef .tc main_arg23) := StableHlo.after_of_forall_not_mem (b := Proc.devRef .tc main_arg23) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg23) := W14_of_ne m ρ c main_arg23 (by decide)
    _ = W12 m ρ c (Proc.devRef .tc main_arg23) := StableHlo.after_of_forall_not_mem (b := Proc.devRef .tc main_arg23) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg23) := W12_of_ne m ρ c main_arg23 (by decide)
    _ = W10 m ρ c (Proc.devRef .tc main_arg23) := StableHlo.after_of_forall_not_mem (b := Proc.devRef .tc main_arg23) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg23) := StableHlo.after_of_forall_not_mem (b := Proc.devRef .tc main_arg23) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg23) := StableHlo.after_of_forall_not_mem (b := Proc.devRef .tc main_arg23) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg23) := W8_of_ne m ρ c main_arg23 (by decide)
    _ = W6 m ρ c (Proc.devRef .tc main_arg23) := StableHlo.after_of_forall_not_mem (b := Proc.devRef .tc main_arg23) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg23) := W6_of_ne m ρ c main_arg23 (by decide)
    _ = W4 m ρ c (Proc.devRef .tc main_arg23) := StableHlo.after_of_forall_not_mem (b := Proc.devRef .tc main_arg23) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg23) := StableHlo.after_of_forall_not_mem (b := Proc.devRef .tc main_arg23) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg23) := StableHlo.after_of_forall_not_mem (b := Proc.devRef .tc main_arg23) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg23) := W2_of_ne m ρ c main_arg23 (by decide)
    _ = W0 m ρ c (Proc.devRef .tc main_arg23) := StableHlo.after_of_forall_not_mem (b := Proc.devRef .tc main_arg23) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg23) := rfl

theorem W18_main_arg24 (c : Dev nD) : W18 m ρ c (Proc.devRef .tc main_arg24) = m ((c : Thread nD τ).loc main_arg24) :=
  calc W18 m ρ c (Proc.devRef .tc main_arg24)
    _ = W17 m ρ c (Proc.devRef .tc main_arg24) := W18_of_ne m ρ c main_arg24 (by decide)
    _ = W16 m ρ c (Proc.devRef .tc main_arg24) := StableHlo.after_of_forall_not_mem (b := Proc.devRef .tc main_arg24) _ _ (List.forall_iff_forall_mem.mp (by
          simp only [hostOps5_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W15 m ρ c (Proc.devRef .tc main_arg24) := StableHlo.after_of_forall_not_mem (b := Proc.devRef .tc main_arg24) _ _ (List.forall_iff_forall_mem.mp (by
          simp only [hostOps5_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W14 m ρ c (Proc.devRef .tc main_arg24) := StableHlo.after_of_forall_not_mem (b := Proc.devRef .tc main_arg24) _ _ (List.forall_iff_forall_mem.mp (by
          simp only [hostOps5, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W13 m ρ c (Proc.devRef .tc main_arg24) := W14_of_ne m ρ c main_arg24 (by decide)
    _ = W12 m ρ c (Proc.devRef .tc main_arg24) := StableHlo.after_of_forall_not_mem (b := Proc.devRef .tc main_arg24) _ _ (List.forall_iff_forall_mem.mp (by
          simp only [hostOps4, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W11 m ρ c (Proc.devRef .tc main_arg24) := W12_of_ne m ρ c main_arg24 (by decide)
    _ = W10 m ρ c (Proc.devRef .tc main_arg24) := StableHlo.after_of_forall_not_mem (b := Proc.devRef .tc main_arg24) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_arg24) := StableHlo.after_of_forall_not_mem (b := Proc.devRef .tc main_arg24) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_arg24) := StableHlo.after_of_forall_not_mem (b := Proc.devRef .tc main_arg24) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_arg24) := W8_of_ne m ρ c main_arg24 (by decide)
    _ = W6 m ρ c (Proc.devRef .tc main_arg24) := StableHlo.after_of_forall_not_mem (b := Proc.devRef .tc main_arg24) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_arg24) := W6_of_ne m ρ c main_arg24 (by decide)
    _ = W4 m ρ c (Proc.devRef .tc main_arg24) := StableHlo.after_of_forall_not_mem (b := Proc.devRef .tc main_arg24) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg24) := StableHlo.after_of_forall_not_mem (b := Proc.devRef .tc main_arg24) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_arg24) := StableHlo.after_of_forall_not_mem (b := Proc.devRef .tc main_arg24) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg24) := W2_of_ne m ρ c main_arg24 (by decide)
    _ = W0 m ρ c (Proc.devRef .tc main_arg24) := StableHlo.after_of_forall_not_mem (b := Proc.devRef .tc main_arg24) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg24) := rfl

theorem W6_main_v1 (c : Dev nD) : W6 m ρ c (Proc.devRef .tc main_v1) = W1 m ρ c (Proc.devRef .tc main_v1) :=
  calc W6 m ρ c (Proc.devRef .tc main_v1)
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := StableHlo.after_of_forall_not_mem (b := Proc.devRef .tc main_v1) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

theorem W6_main_v3 (c : Dev nD) : W6 m ρ c (Proc.devRef .tc main_v3) = W1 m ρ c (Proc.devRef .tc main_v3) :=
  calc W6 m ρ c (Proc.devRef .tc main_v3)
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := StableHlo.after_of_forall_not_mem (b := Proc.devRef .tc main_v3) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

theorem W12_main_v1 (c : Dev nD) : W12 m ρ c (Proc.devRef .tc main_v1) = W1 m ρ c (Proc.devRef .tc main_v1) :=
  calc W12 m ρ c (Proc.devRef .tc main_v1)
    _ = W11 m ρ c (Proc.devRef .tc main_v1) := W12_of_ne m ρ c main_v1 (by decide)
    _ = W10 m ρ c (Proc.devRef .tc main_v1) := StableHlo.after_of_forall_not_mem (b := Proc.devRef .tc main_v1) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v1) := StableHlo.after_of_forall_not_mem (b := Proc.devRef .tc main_v1) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v1) := StableHlo.after_of_forall_not_mem (b := Proc.devRef .tc main_v1) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v1) := W8_of_ne m ρ c main_v1 (by decide)
    _ = W6 m ρ c (Proc.devRef .tc main_v1) := StableHlo.after_of_forall_not_mem (b := Proc.devRef .tc main_v1) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v1) := W6_of_ne m ρ c main_v1 (by decide)
    _ = W4 m ρ c (Proc.devRef .tc main_v1) := StableHlo.after_of_forall_not_mem (b := Proc.devRef .tc main_v1) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v1) := StableHlo.after_of_forall_not_mem (b := Proc.devRef .tc main_v1) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

theorem W12_main_v3 (c : Dev nD) : W12 m ρ c (Proc.devRef .tc main_v3) = W1 m ρ c (Proc.devRef .tc main_v3) :=
  calc W12 m ρ c (Proc.devRef .tc main_v3)
    _ = W11 m ρ c (Proc.devRef .tc main_v3) := W12_of_ne m ρ c main_v3 (by decide)
    _ = W10 m ρ c (Proc.devRef .tc main_v3) := StableHlo.after_of_forall_not_mem (b := Proc.devRef .tc main_v3) _ _ (List.forall_iff_forall_mem.mp (by
          simp only [hostOps3_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W9 m ρ c (Proc.devRef .tc main_v3) := StableHlo.after_of_forall_not_mem (b := Proc.devRef .tc main_v3) _ _ (List.forall_iff_forall_mem.mp (by
          simp only [hostOps3_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W8 m ρ c (Proc.devRef .tc main_v3) := StableHlo.after_of_forall_not_mem (b := Proc.devRef .tc main_v3) _ _ (List.forall_iff_forall_mem.mp (by
          simp only [hostOps3, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W7 m ρ c (Proc.devRef .tc main_v3) := W8_of_ne m ρ c main_v3 (by decide)
    _ = W6 m ρ c (Proc.devRef .tc main_v3) := StableHlo.after_of_forall_not_mem (b := Proc.devRef .tc main_v3) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W5 m ρ c (Proc.devRef .tc main_v3) := W6_of_ne m ρ c main_v3 (by decide)
    _ = W4 m ρ c (Proc.devRef .tc main_v3) := StableHlo.after_of_forall_not_mem (b := Proc.devRef .tc main_v3) _ _ (List.forall_iff_forall_mem.mp (by
          simp only [hostOps1_2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_v3) := StableHlo.after_of_forall_not_mem (b := Proc.devRef .tc main_v3) _ _ (List.forall_iff_forall_mem.mp (by
          simp only [hostOps1_1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W2 m ρ c (Proc.devRef .tc main_v3) := StableHlo.after_of_forall_not_mem (b := Proc.devRef .tc main_v3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v3) := W2_of_ne m ρ c main_v3 (by decide)

end Cert.KernelIdeal.KerArgs

end
-- ==== Proof.KerFold.lean ====
/-
  The kernel's result as the specification's network.

  Walk the fold of buffer contents from the result buffer back to the launch memory. The last region leaves the affine
  layer of what it read; what it read is the third layer's second region's output, which is the normalisation of the
  third layer's first region's output with that output's own column statistics; and so on down to the node features.
  Each region contributes one fact (its output array as a whole-array function of the arrays it was entered with —
  the seven facts gathered in `RegionFacts`), each host stretch the named functions of `KerHost`, and the buffers
  nothing writes in between are carried by `KerArgs`. A bias reshaped to one row is read back as the vector, the scalar
  reshaped to a 1 × 1 block as the scalar.
-/
import proofs.«179991_j80487687127440_1_alg».proof.Proof.Gen.KernelIdeal.Frame
import proofs.«179991_j80487687127440_1_alg».proof.Proof.LibGinLayers
import proofs.«179991_j80487687127440_1_alg».proof.Proof.LibRowBias
import proofs.«179991_j80487687127440_1_alg».proof.Proof.KerChains
import proofs.«179991_j80487687127440_1_alg».proof.Proof.KerHost
import proofs.«179991_j80487687127440_1_alg».proof.Proof.KerArgs
import Idealize.ShloMosaic.Lib.Pipeline.Value
import Idealize.ShloMosaic.Lib.ValueLayout

set_option maxRecDepth 16384

noncomputable section

namespace Cert.KernelIdeal.KerFold

open Cert.KernelIdeal Cert.KernelIdeal.Gen Cert.KernelIdeal.KerChains Cert.KernelIdeal.KerHost Cert.KernelIdeal.KerArgs
open Cert.LibDenseLayers Cert.LibRowBias
open Idealize.ShloMosaic Idealize.ShloMosaic.ValueIdx Idealize.ShloMosaic.TcCoe Idealize.SL.Sem

/-! ## Reshaped blocks read back -/

/-- The one row of a vector laid out as one row is the vector. -/
theorem rowOf_row64 (b : FArr S64) : rowOf (row64 b : S1x64.Idx → EReal) = b := rowOf_shapeCast (N := 64) b _
theorem rowOf_row10 (b : FArr S10) : rowOf (row10 b : S1x10.Idx → EReal) = b := rowOf_shapeCast (N := 10) b _

/-- The one entry of a scalar laid out as a 1 × 1 block is the scalar. -/
theorem cell_apply (e : FArr S_) : (cell e : S1x1.Idx → EReal) (ix2 (0 : Fin 1) (0 : Fin 1)) = e ValueIdx.ix0 := by
  unfold cell
  refine shapeCast_apply e _ _ ValueIdx.ix0 ?_
  have h1 : (S_.rowMajor ValueIdx.ix0).val < 1 := (S_.rowMajor ValueIdx.ix0).isLt
  have h2 : (S1x1.rowMajor (ix2 (0 : Fin 1) (0 : Fin 1))).val < 1 := (S1x1.rowMajor (ix2 (0 : Fin 1) (0 : Fin 1))).isLt
  omega

/-! ## The seven regions' facts -/

/-- What each region leaves in its output array, for ANY contents `V` it is entered with: the specification's stage of
    the arrays its input windows read. -/
structure RegionFacts : Prop where
  r0 : ∀ (V : (c : Dev nD) → (b : Ref sig .tc) → Buf (Elt Ideal) ((c : Thread nD τ).loc b)) (c : Dev nD),
    (Gen.dat0 (F := Ideal) V c).arrAt 7 cfg0.N
      = Cert.Gin.mlp ((V c main_v14 : S1x1.Idx → EReal) (ix2 0 0)) (V c main_arg0 : S50000x128.Idx → EReal) (V c main_v13 : S50000x128.Idx → EReal) (V c main_arg3 : S128x64.Idx → EReal) (rowOf (V c main_v15 : S1x64.Idx → EReal)) (V c main_arg5 : S64x64.Idx → EReal) (rowOf (V c main_v16 : S1x64.Idx → EReal))
  r1 : ∀ (V : (c : Dev nD) → (b : Ref sig .tc) → Buf (Elt Ideal) ((c : Thread nD τ).loc b)) (c : Dev nD),
    (Gen.dat1 (F := Ideal) V c).arrAt 5 cfg1.N
      = Cert.Gin.bnrelu (V c main_v17 : S50000x64.Idx → EReal) (rowOf (V c main_v22 : S1x64.Idx → EReal)) (rowOf (V c main_v23 : S1x64.Idx → EReal)) (rowOf (V c main_v24 : S1x64.Idx → EReal)) (rowOf (V c main_v25 : S1x64.Idx → EReal))
  r2 : ∀ (V : (c : Dev nD) → (b : Ref sig .tc) → Buf (Elt Ideal) ((c : Thread nD τ).loc b)) (c : Dev nD),
    (Gen.dat2 (F := Ideal) V c).arrAt 7 cfg2.N
      = Cert.Gin.mlp ((V c main_v37 : S1x1.Idx → EReal) (ix2 0 0)) (V c main_v26 : S50000x64.Idx → EReal) (V c main_v36 : S50000x64.Idx → EReal) (V c main_arg10 : S64x64.Idx → EReal) (rowOf (V c main_v38 : S1x64.Idx → EReal)) (V c main_arg12 : S64x64.Idx → EReal) (rowOf (V c main_v39 : S1x64.Idx → EReal))
  r3 : ∀ (V : (c : Dev nD) → (b : Ref sig .tc) → Buf (Elt Ideal) ((c : Thread nD τ).loc b)) (c : Dev nD),
    (Gen.dat3 (F := Ideal) V c).arrAt 5 cfg3.N
      = Cert.Gin.bnrelu (V c main_v40 : S50000x64.Idx → EReal) (rowOf (V c main_v45 : S1x64.Idx → EReal)) (rowOf (V c main_v46 : S1x64.Idx → EReal)) (rowOf (V c main_v47 : S1x64.Idx → EReal)) (rowOf (V c main_v48 : S1x64.Idx → EReal))
  r4 : ∀ (V : (c : Dev nD) → (b : Ref sig .tc) → Buf (Elt Ideal) ((c : Thread nD τ).loc b)) (c : Dev nD),
    (Gen.dat4 (F := Ideal) V c).arrAt 7 cfg4.N
      = Cert.Gin.mlp ((V c main_v60 : S1x1.Idx → EReal) (ix2 0 0)) (V c main_v49 : S50000x64.Idx → EReal) (V c main_v59 : S50000x64.Idx → EReal) (V c main_arg17 : S64x64.Idx → EReal) (rowOf (V c main_v61 : S1x64.Idx → EReal)) (V c main_arg19 : S64x64.Idx → EReal) (rowOf (V c main_v62 : S1x64.Idx → EReal))
  r5 : ∀ (V : (c : Dev nD) → (b : Ref sig .tc) → Buf (Elt Ideal) ((c : Thread nD τ).loc b)) (c : Dev nD),
    (Gen.dat5 (F := Ideal) V c).arrAt 5 cfg5.N
      = Cert.Gin.bnrelu (V c main_v63 : S50000x64.Idx → EReal) (rowOf (V c main_v68 : S1x64.Idx → EReal)) (rowOf (V c main_v69 : S1x64.Idx → EReal)) (rowOf (V c main_v70 : S1x64.Idx → EReal)) (rowOf (V c main_v71 : S1x64.Idx → EReal))
  r6 : ∀ (V : (c : Dev nD) → (b : Ref sig .tc) → Buf (Elt Ideal) ((c : Thread nD τ).loc b)) (c : Dev nD),
    (Gen.dat6 (F := Ideal) V c).arrAt 3 cfg6.N
      = affine (V c main_v72 : S50000x64.Idx → EReal) (V c main_arg23 : S64x10.Idx → EReal) (rowOf (V c main_v73 : S1x10.Idx → EReal))

variable (m : (ℓ : Loc nD τ sig) → Buf (Elt Ideal) ℓ) (ρ : Dev nD → PrngReg)

/-- Layer 1, after its first region: the two rectified affine stages of (1 + ε)·x + agg, read back to the launch memory. -/
theorem W2_h1 (H : RegionFacts) (c : Dev nD) :
    (W2 m ρ c (Proc.devRef .tc main_v17) : S50000x64.Idx → EReal) = (Cert.Gin.mlp ((m ((c : Thread nD τ).loc main_arg2)) ValueIdx.ix0) (m ((c : Thread nD τ).loc main_arg0)) (agg128 (src (m ((c : Thread nD τ).loc main_arg1))) (dst (m ((c : Thread nD τ).loc main_arg1))) (m ((c : Thread nD τ).loc main_arg0))) (m ((c : Thread nD τ).loc main_arg3)) (m ((c : Thread nD τ).loc main_arg4)) (m ((c : Thread nD τ).loc main_arg5)) (m ((c : Thread nD τ).loc main_arg6))) := by
  refine ((W2_arr m ρ c 7).trans (H.r0 (V1 m ρ) c)).trans ?_
  have e_eps : (V1 m ρ c main_v14 : S1x1.Idx → EReal) (ix2 0 0) = ((m ((c : Thread nD τ).loc main_arg2)) ValueIdx.ix0) := by
    rw [show (V1 m ρ c main_v14 : S1x1.Idx → EReal) = cell (m ((c : Thread nD τ).loc main_arg2)) from pre1_eps (W0 m ρ c)]; exact cell_apply _
  have e_x : (V1 m ρ c main_arg0 : S50000x128.Idx → EReal) = (m ((c : Thread nD τ).loc main_arg0)) := W1_main_arg0 m ρ c
  have e_agg : (V1 m ρ c main_v13 : S50000x128.Idx → EReal) = agg128 (src (m ((c : Thread nD τ).loc main_arg1))) (dst (m ((c : Thread nD τ).loc main_arg1))) (m ((c : Thread nD τ).loc main_arg0)) := pre1_agg (W0 m ρ c)
  have e_wa : (V1 m ρ c main_arg3 : S128x64.Idx → EReal) = (m ((c : Thread nD τ).loc main_arg3)) := W1_main_arg3 m ρ c
  have e_wb : (V1 m ρ c main_arg5 : S64x64.Idx → EReal) = (m ((c : Thread nD τ).loc main_arg5)) := W1_main_arg5 m ρ c
  have e_ba : rowOf (V1 m ρ c main_v15 : S1x64.Idx → EReal) = (m ((c : Thread nD τ).loc main_arg4)) := by
    rw [show (V1 m ρ c main_v15 : S1x64.Idx → EReal) = row64 (m ((c : Thread nD τ).loc main_arg4)) from pre1_ba (W0 m ρ c)]; exact rowOf_row64 _
  have e_bb : rowOf (V1 m ρ c main_v16 : S1x64.Idx → EReal) = (m ((c : Thread nD τ).loc main_arg6)) := by
    rw [show (V1 m ρ c main_v16 : S1x64.Idx → EReal) = row64 (m ((c : Thread nD τ).loc main_arg6)) from pre1_bb (W0 m ρ c)]; exact rowOf_row64 _
  rw [e_eps, e_x, e_agg, e_wa, e_ba, e_wb, e_bb]

/-- Layer 1, after its second region: the whole layer, its statistics taken of the first region's output. -/
theorem W6_o1 (H : RegionFacts) (c : Dev nD) :
    (W6 m ρ c (Proc.devRef .tc main_v26) : S50000x64.Idx → EReal) = (Cert.Gin.layer (agg128 (src (m ((c : Thread nD τ).loc main_arg1))) (dst (m ((c : Thread nD τ).loc main_arg1)))) mean var ((m ((c : Thread nD τ).loc main_arg2)) ValueIdx.ix0) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  refine ((W6_arr m ρ c 5).trans (H.r1 (V5 m ρ) c)).trans ?_
  have e_h : (V5 m ρ c main_v17 : S50000x64.Idx → EReal) = (Cert.Gin.mlp ((m ((c : Thread nD τ).loc main_arg2)) ValueIdx.ix0) (m ((c : Thread nD τ).loc main_arg0)) (agg128 (src (m ((c : Thread nD τ).loc main_arg1))) (dst (m ((c : Thread nD τ).loc main_arg1))) (m ((c : Thread nD τ).loc main_arg0))) (m ((c : Thread nD τ).loc main_arg3)) (m ((c : Thread nD τ).loc main_arg4)) (m ((c : Thread nD τ).loc main_arg5)) (m ((c : Thread nD τ).loc main_arg6))) := (stats1_h (W2 m ρ c)).trans (W2_h1 m ρ H c)
  have e_mean : rowOf (V5 m ρ c main_v22 : S1x64.Idx → EReal) = mean (Cert.Gin.mlp ((m ((c : Thread nD τ).loc main_arg2)) ValueIdx.ix0) (m ((c : Thread nD τ).loc main_arg0)) (agg128 (src (m ((c : Thread nD τ).loc main_arg1))) (dst (m ((c : Thread nD τ).loc main_arg1))) (m ((c : Thread nD τ).loc main_arg0))) (m ((c : Thread nD τ).loc main_arg3)) (m ((c : Thread nD τ).loc main_arg4)) (m ((c : Thread nD τ).loc main_arg5)) (m ((c : Thread nD τ).loc main_arg6))) := by
    rw [show (V5 m ρ c main_v22 : S1x64.Idx → EReal) = row64 (mean (W2 m ρ c (Proc.devRef .tc main_v17))) from stats1_mean (W2 m ρ c), rowOf_row64, W2_h1 m ρ H c]
  have e_var : rowOf (V5 m ρ c main_v23 : S1x64.Idx → EReal) = var (Cert.Gin.mlp ((m ((c : Thread nD τ).loc main_arg2)) ValueIdx.ix0) (m ((c : Thread nD τ).loc main_arg0)) (agg128 (src (m ((c : Thread nD τ).loc main_arg1))) (dst (m ((c : Thread nD τ).loc main_arg1))) (m ((c : Thread nD τ).loc main_arg0))) (m ((c : Thread nD τ).loc main_arg3)) (m ((c : Thread nD τ).loc main_arg4)) (m ((c : Thread nD τ).loc main_arg5)) (m ((c : Thread nD τ).loc main_arg6))) := by
    rw [show (V5 m ρ c main_v23 : S1x64.Idx → EReal) = row64 (var (W2 m ρ c (Proc.devRef .tc main_v17))) from stats1_var (W2 m ρ c), rowOf_row64, W2_h1 m ρ H c]
  have e_g : rowOf (V5 m ρ c main_v24 : S1x64.Idx → EReal) = (m ((c : Thread nD τ).loc main_arg7)) := by
    rw [show (V5 m ρ c main_v24 : S1x64.Idx → EReal) = row64 (W2 m ρ c (Proc.devRef .tc main_arg7)) from stats1_g (W2 m ρ c), rowOf_row64]; exact W2_main_arg7 m ρ c
  have e_be : rowOf (V5 m ρ c main_v25 : S1x64.Idx → EReal) = (m ((c : Thread nD τ).loc main_arg8)) := by
    rw [show (V5 m ρ c main_v25 : S1x64.Idx → EReal) = row64 (W2 m ρ c (Proc.devRef .tc main_arg8)) from stats1_be (W2 m ρ c), rowOf_row64]; exact W2_main_arg8 m ρ c
  rw [e_h, e_mean, e_var, e_g, e_be]
  rfl

/-- Layer 2, after its first region: the two rectified affine stages of (1 + ε)·x + agg, read back to the launch memory. -/
theorem W8_h2 (H : RegionFacts) (c : Dev nD) :
    (W8 m ρ c (Proc.devRef .tc main_v40) : S50000x64.Idx → EReal) = (Cert.Gin.mlp ((m ((c : Thread nD τ).loc main_arg9)) ValueIdx.ix0) (Cert.Gin.layer (agg128 (src (m ((c : Thread nD τ).loc main_arg1))) (dst (m ((c : Thread nD τ).loc main_arg1)))) mean var ((m ((c : Thread nD τ).loc main_arg2)) ValueIdx.ix0) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (agg64 (src (m ((c : Thread nD τ).loc main_arg1))) (dst (m ((c : Thread nD τ).loc main_arg1))) (Cert.Gin.layer (agg128 (src (m ((c : Thread nD τ).loc main_arg1))) (dst (m ((c : Thread nD τ).loc main_arg1)))) mean var ((m ((c : Thread nD τ).loc main_arg2)) ValueIdx.ix0) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) (m ((c : Thread nD τ).loc main_arg10)) (m ((c : Thread nD τ).loc main_arg11)) (m ((c : Thread nD τ).loc main_arg12)) (m ((c : Thread nD τ).loc main_arg13))) := by
  refine ((W8_arr m ρ c 7).trans (H.r2 (V7 m ρ) c)).trans ?_
  have e_eps : (V7 m ρ c main_v37 : S1x1.Idx → EReal) (ix2 0 0) = ((m ((c : Thread nD τ).loc main_arg9)) ValueIdx.ix0) := by
    rw [show (V7 m ρ c main_v37 : S1x1.Idx → EReal) = cell (W6 m ρ c (Proc.devRef .tc main_arg9)) from pre2_eps (W6 m ρ c), W6_main_arg9 m ρ c]; exact cell_apply _
  have e_x : (V7 m ρ c main_v26 : S50000x64.Idx → EReal) = (Cert.Gin.layer (agg128 (src (m ((c : Thread nD τ).loc main_arg1))) (dst (m ((c : Thread nD τ).loc main_arg1)))) mean var ((m ((c : Thread nD τ).loc main_arg2)) ValueIdx.ix0) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := (pre2_h (W6 m ρ c)).trans (W6_o1 m ρ H c)
  have e_agg : (V7 m ρ c main_v36 : S50000x64.Idx → EReal) = agg64 (src (m ((c : Thread nD τ).loc main_arg1))) (dst (m ((c : Thread nD τ).loc main_arg1))) (Cert.Gin.layer (agg128 (src (m ((c : Thread nD τ).loc main_arg1))) (dst (m ((c : Thread nD τ).loc main_arg1)))) mean var ((m ((c : Thread nD τ).loc main_arg2)) ValueIdx.ix0) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
    rw [show (V7 m ρ c main_v36 : S50000x64.Idx → EReal) = agg64 (W6 m ρ c (Proc.devRef .tc main_v1)) (W6 m ρ c (Proc.devRef .tc main_v3)) (W6 m ρ c (Proc.devRef .tc main_v26)) from pre2_agg (W6 m ρ c),
      W6_main_v1 m ρ c, W6_main_v3 m ρ c, W6_o1 m ρ H c,
      show W1 m ρ c (Proc.devRef .tc main_v1) = src (m ((c : Thread nD τ).loc main_arg1)) from pre1_src (W0 m ρ c), show W1 m ρ c (Proc.devRef .tc main_v3) = dst (m ((c : Thread nD τ).loc main_arg1)) from pre1_dst (W0 m ρ c)]
  have e_wa : (V7 m ρ c main_arg10 : S64x64.Idx → EReal) = (m ((c : Thread nD τ).loc main_arg10)) := (pre2_wa (W6 m ρ c)).trans (W6_main_arg10 m ρ c)
  have e_wb : (V7 m ρ c main_arg12 : S64x64.Idx → EReal) = (m ((c : Thread nD τ).loc main_arg12)) := (pre2_wb (W6 m ρ c)).trans (W6_main_arg12 m ρ c)
  have e_ba : rowOf (V7 m ρ c main_v38 : S1x64.Idx → EReal) = (m ((c : Thread nD τ).loc main_arg11)) := by
    rw [show (V7 m ρ c main_v38 : S1x64.Idx → EReal) = row64 (W6 m ρ c (Proc.devRef .tc main_arg11)) from pre2_ba (W6 m ρ c), rowOf_row64]; exact W6_main_arg11 m ρ c
  have e_bb : rowOf (V7 m ρ c main_v39 : S1x64.Idx → EReal) = (m ((c : Thread nD τ).loc main_arg13)) := by
    rw [show (V7 m ρ c main_v39 : S1x64.Idx → EReal) = row64 (W6 m ρ c (Proc.devRef .tc main_arg13)) from pre2_bb (W6 m ρ c), rowOf_row64]; exact W6_main_arg13 m ρ c
  rw [e_eps, e_x, e_agg, e_wa, e_ba, e_wb, e_bb]

/-- Layer 2, after its second region: the whole layer, its statistics taken of the first region's output. -/
theorem W12_o2 (H : RegionFacts) (c : Dev nD) :
    (W12 m ρ c (Proc.devRef .tc main_v49) : S50000x64.Idx → EReal) = (Cert.Gin.layer (agg64 (src (m ((c : Thread nD τ).loc main_arg1))) (dst (m ((c : Thread nD τ).loc main_arg1)))) mean var ((m ((c : Thread nD τ).loc main_arg9)) ValueIdx.ix0) (Cert.Gin.layer (agg128 (src (m ((c : Thread nD τ).loc main_arg1))) (dst (m ((c : Thread nD τ).loc main_arg1)))) mean var ((m ((c : Thread nD τ).loc main_arg2)) ValueIdx.ix0) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
  refine ((W12_arr m ρ c 5).trans (H.r3 (V11 m ρ) c)).trans ?_
  have e_h : (V11 m ρ c main_v40 : S50000x64.Idx → EReal) = (Cert.Gin.mlp ((m ((c : Thread nD τ).loc main_arg9)) ValueIdx.ix0) (Cert.Gin.layer (agg128 (src (m ((c : Thread nD τ).loc main_arg1))) (dst (m ((c : Thread nD τ).loc main_arg1)))) mean var ((m ((c : Thread nD τ).loc main_arg2)) ValueIdx.ix0) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (agg64 (src (m ((c : Thread nD τ).loc main_arg1))) (dst (m ((c : Thread nD τ).loc main_arg1))) (Cert.Gin.layer (agg128 (src (m ((c : Thread nD τ).loc main_arg1))) (dst (m ((c : Thread nD τ).loc main_arg1)))) mean var ((m ((c : Thread nD τ).loc main_arg2)) ValueIdx.ix0) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) (m ((c : Thread nD τ).loc main_arg10)) (m ((c : Thread nD τ).loc main_arg11)) (m ((c : Thread nD τ).loc main_arg12)) (m ((c : Thread nD τ).loc main_arg13))) := (stats2_h (W8 m ρ c)).trans (W8_h2 m ρ H c)
  have e_mean : rowOf (V11 m ρ c main_v45 : S1x64.Idx → EReal) = mean (Cert.Gin.mlp ((m ((c : Thread nD τ).loc main_arg9)) ValueIdx.ix0) (Cert.Gin.layer (agg128 (src (m ((c : Thread nD τ).loc main_arg1))) (dst (m ((c : Thread nD τ).loc main_arg1)))) mean var ((m ((c : Thread nD τ).loc main_arg2)) ValueIdx.ix0) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (agg64 (src (m ((c : Thread nD τ).loc main_arg1))) (dst (m ((c : Thread nD τ).loc main_arg1))) (Cert.Gin.layer (agg128 (src (m ((c : Thread nD τ).loc main_arg1))) (dst (m ((c : Thread nD τ).loc main_arg1)))) mean var ((m ((c : Thread nD τ).loc main_arg2)) ValueIdx.ix0) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) (m ((c : Thread nD τ).loc main_arg10)) (m ((c : Thread nD τ).loc main_arg11)) (m ((c : Thread nD τ).loc main_arg12)) (m ((c : Thread nD τ).loc main_arg13))) := by
    rw [show (V11 m ρ c main_v45 : S1x64.Idx → EReal) = row64 (mean (W8 m ρ c (Proc.devRef .tc main_v40))) from stats2_mean (W8 m ρ c), rowOf_row64, W8_h2 m ρ H c]
  have e_var : rowOf (V11 m ρ c main_v46 : S1x64.Idx → EReal) = var (Cert.Gin.mlp ((m ((c : Thread nD τ).loc main_arg9)) ValueIdx.ix0) (Cert.Gin.layer (agg128 (src (m ((c : Thread nD τ).loc main_arg1))) (dst (m ((c : Thread nD τ).loc main_arg1)))) mean var ((m ((c : Thread nD τ).loc main_arg2)) ValueIdx.ix0) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (agg64 (src (m ((c : Thread nD τ).loc main_arg1))) (dst (m ((c : Thread nD τ).loc main_arg1))) (Cert.Gin.layer (agg128 (src (m ((c : Thread nD τ).loc main_arg1))) (dst (m ((c : Thread nD τ).loc main_arg1)))) mean var ((m ((c : Thread nD τ).loc main_arg2)) ValueIdx.ix0) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)))) (m ((c : Thread nD τ).loc main_arg10)) (m ((c : Thread nD τ).loc main_arg11)) (m ((c : Thread nD τ).loc main_arg12)) (m ((c : Thread nD τ).loc main_arg13))) := by
    rw [show (V11 m ρ c main_v46 : S1x64.Idx → EReal) = row64 (var (W8 m ρ c (Proc.devRef .tc main_v40))) from stats2_var (W8 m ρ c), rowOf_row64, W8_h2 m ρ H c]
  have e_g : rowOf (V11 m ρ c main_v47 : S1x64.Idx → EReal) = (m ((c : Thread nD τ).loc main_arg14)) := by
    rw [show (V11 m ρ c main_v47 : S1x64.Idx → EReal) = row64 (W8 m ρ c (Proc.devRef .tc main_arg14)) from stats2_g (W8 m ρ c), rowOf_row64]; exact W8_main_arg14 m ρ c
  have e_be : rowOf (V11 m ρ c main_v48 : S1x64.Idx → EReal) = (m ((c : Thread nD τ).loc main_arg15)) := by
    rw [show (V11 m ρ c main_v48 : S1x64.Idx → EReal) = row64 (W8 m ρ c (Proc.devRef .tc main_arg15)) from stats2_be (W8 m ρ c), rowOf_row64]; exact W8_main_arg15 m ρ c
  rw [e_h, e_mean, e_var, e_g, e_be]
  rfl

/-- Layer 3, after its first region: the two rectified affine stages of (1 + ε)·x + agg, read back to the launch memory. -/
theorem W14_h3 (H : RegionFacts) (c : Dev nD) :
    (W14 m ρ c (Proc.devRef .tc main_v63) : S50000x64.Idx → EReal) = (Cert.Gin.mlp ((m ((c : Thread nD τ).loc main_arg16)) ValueIdx.ix0) (Cert.Gin.layer (agg64 (src (m ((c : Thread nD τ).loc main_arg1))) (dst (m ((c : Thread nD τ).loc main_arg1)))) mean var ((m ((c : Thread nD τ).loc main_arg9)) ValueIdx.ix0) (Cert.Gin.layer (agg128 (src (m ((c : Thread nD τ).loc main_arg1))) (dst (m ((c : Thread nD τ).loc main_arg1)))) mean var ((m ((c : Thread nD τ).loc main_arg2)) ValueIdx.ix0) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (agg64 (src (m ((c : Thread nD τ).loc main_arg1))) (dst (m ((c : Thread nD τ).loc main_arg1))) (Cert.Gin.layer (agg64 (src (m ((c : Thread nD τ).loc main_arg1))) (dst (m ((c : Thread nD τ).loc main_arg1)))) mean var ((m ((c : Thread nD τ).loc main_arg9)) ValueIdx.ix0) (Cert.Gin.layer (agg128 (src (m ((c : Thread nD τ).loc main_arg1))) (dst (m ((c : Thread nD τ).loc main_arg1)))) mean var ((m ((c : Thread nD τ).loc main_arg2)) ValueIdx.ix0) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))) (m ((c : Thread nD τ).loc main_arg17)) (m ((c : Thread nD τ).loc main_arg18)) (m ((c : Thread nD τ).loc main_arg19)) (m ((c : Thread nD τ).loc main_arg20))) := by
  refine ((W14_arr m ρ c 7).trans (H.r4 (V13 m ρ) c)).trans ?_
  have e_eps : (V13 m ρ c main_v60 : S1x1.Idx → EReal) (ix2 0 0) = ((m ((c : Thread nD τ).loc main_arg16)) ValueIdx.ix0) := by
    rw [show (V13 m ρ c main_v60 : S1x1.Idx → EReal) = cell (W12 m ρ c (Proc.devRef .tc main_arg16)) from pre3_eps (W12 m ρ c), W12_main_arg16 m ρ c]; exact cell_apply _
  have e_x : (V13 m ρ c main_v49 : S50000x64.Idx → EReal) = (Cert.Gin.layer (agg64 (src (m ((c : Thread nD τ).loc main_arg1))) (dst (m ((c : Thread nD τ).loc main_arg1)))) mean var ((m ((c : Thread nD τ).loc main_arg9)) ValueIdx.ix0) (Cert.Gin.layer (agg128 (src (m ((c : Thread nD τ).loc main_arg1))) (dst (m ((c : Thread nD τ).loc main_arg1)))) mean var ((m ((c : Thread nD τ).loc main_arg2)) ValueIdx.ix0) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := (pre3_h (W12 m ρ c)).trans (W12_o2 m ρ H c)
  have e_agg : (V13 m ρ c main_v59 : S50000x64.Idx → EReal) = agg64 (src (m ((c : Thread nD τ).loc main_arg1))) (dst (m ((c : Thread nD τ).loc main_arg1))) (Cert.Gin.layer (agg64 (src (m ((c : Thread nD τ).loc main_arg1))) (dst (m ((c : Thread nD τ).loc main_arg1)))) mean var ((m ((c : Thread nD τ).loc main_arg9)) ValueIdx.ix0) (Cert.Gin.layer (agg128 (src (m ((c : Thread nD τ).loc main_arg1))) (dst (m ((c : Thread nD τ).loc main_arg1)))) mean var ((m ((c : Thread nD τ).loc main_arg2)) ValueIdx.ix0) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) := by
    rw [show (V13 m ρ c main_v59 : S50000x64.Idx → EReal) = agg64 (W12 m ρ c (Proc.devRef .tc main_v1)) (W12 m ρ c (Proc.devRef .tc main_v3)) (W12 m ρ c (Proc.devRef .tc main_v49)) from pre3_agg (W12 m ρ c),
      W12_main_v1 m ρ c, W12_main_v3 m ρ c, W12_o2 m ρ H c,
      show W1 m ρ c (Proc.devRef .tc main_v1) = src (m ((c : Thread nD τ).loc main_arg1)) from pre1_src (W0 m ρ c), show W1 m ρ c (Proc.devRef .tc main_v3) = dst (m ((c : Thread nD τ).loc main_arg1)) from pre1_dst (W0 m ρ c)]
  have e_wa : (V13 m ρ c main_arg17 : S64x64.Idx → EReal) = (m ((c : Thread nD τ).loc main_arg17)) := (pre3_wa (W12 m ρ c)).trans (W12_main_arg17 m ρ c)
  have e_wb : (V13 m ρ c main_arg19 : S64x64.Idx → EReal) = (m ((c : Thread nD τ).loc main_arg19)) := (pre3_wb (W12 m ρ c)).trans (W12_main_arg19 m ρ c)
  have e_ba : rowOf (V13 m ρ c main_v61 : S1x64.Idx → EReal) = (m ((c : Thread nD τ).loc main_arg18)) := by
    rw [show (V13 m ρ c main_v61 : S1x64.Idx → EReal) = row64 (W12 m ρ c (Proc.devRef .tc main_arg18)) from pre3_ba (W12 m ρ c), rowOf_row64]; exact W12_main_arg18 m ρ c
  have e_bb : rowOf (V13 m ρ c main_v62 : S1x64.Idx → EReal) = (m ((c : Thread nD τ).loc main_arg20)) := by
    rw [show (V13 m ρ c main_v62 : S1x64.Idx → EReal) = row64 (W12 m ρ c (Proc.devRef .tc main_arg20)) from pre3_bb (W12 m ρ c), rowOf_row64]; exact W12_main_arg20 m ρ c
  rw [e_eps, e_x, e_agg, e_wa, e_ba, e_wb, e_bb]

/-- Layer 3, after its second region: the whole layer, its statistics taken of the first region's output. -/
theorem W18_o3 (H : RegionFacts) (c : Dev nD) :
    (W18 m ρ c (Proc.devRef .tc main_v72) : S50000x64.Idx → EReal) = (Cert.Gin.layer (agg64 (src (m ((c : Thread nD τ).loc main_arg1))) (dst (m ((c : Thread nD τ).loc main_arg1)))) mean var ((m ((c : Thread nD τ).loc main_arg16)) ValueIdx.ix0) (Cert.Gin.layer (agg64 (src (m ((c : Thread nD τ).loc main_arg1))) (dst (m ((c : Thread nD τ).loc main_arg1)))) mean var ((m ((c : Thread nD τ).loc main_arg9)) ValueIdx.ix0) (Cert.Gin.layer (agg128 (src (m ((c : Thread nD τ).loc main_arg1))) (dst (m ((c : Thread nD τ).loc main_arg1)))) mean var ((m ((c : Thread nD τ).loc main_arg2)) ValueIdx.ix0) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) := by
  refine ((W18_arr m ρ c 5).trans (H.r5 (V17 m ρ) c)).trans ?_
  have e_h : (V17 m ρ c main_v63 : S50000x64.Idx → EReal) = (Cert.Gin.mlp ((m ((c : Thread nD τ).loc main_arg16)) ValueIdx.ix0) (Cert.Gin.layer (agg64 (src (m ((c : Thread nD τ).loc main_arg1))) (dst (m ((c : Thread nD τ).loc main_arg1)))) mean var ((m ((c : Thread nD τ).loc main_arg9)) ValueIdx.ix0) (Cert.Gin.layer (agg128 (src (m ((c : Thread nD τ).loc main_arg1))) (dst (m ((c : Thread nD τ).loc main_arg1)))) mean var ((m ((c : Thread nD τ).loc main_arg2)) ValueIdx.ix0) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (agg64 (src (m ((c : Thread nD τ).loc main_arg1))) (dst (m ((c : Thread nD τ).loc main_arg1))) (Cert.Gin.layer (agg64 (src (m ((c : Thread nD τ).loc main_arg1))) (dst (m ((c : Thread nD τ).loc main_arg1)))) mean var ((m ((c : Thread nD τ).loc main_arg9)) ValueIdx.ix0) (Cert.Gin.layer (agg128 (src (m ((c : Thread nD τ).loc main_arg1))) (dst (m ((c : Thread nD τ).loc main_arg1)))) mean var ((m ((c : Thread nD τ).loc main_arg2)) ValueIdx.ix0) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))) (m ((c : Thread nD τ).loc main_arg17)) (m ((c : Thread nD τ).loc main_arg18)) (m ((c : Thread nD τ).loc main_arg19)) (m ((c : Thread nD τ).loc main_arg20))) := (stats3_h (W14 m ρ c)).trans (W14_h3 m ρ H c)
  have e_mean : rowOf (V17 m ρ c main_v68 : S1x64.Idx → EReal) = mean (Cert.Gin.mlp ((m ((c : Thread nD τ).loc main_arg16)) ValueIdx.ix0) (Cert.Gin.layer (agg64 (src (m ((c : Thread nD τ).loc main_arg1))) (dst (m ((c : Thread nD τ).loc main_arg1)))) mean var ((m ((c : Thread nD τ).loc main_arg9)) ValueIdx.ix0) (Cert.Gin.layer (agg128 (src (m ((c : Thread nD τ).loc main_arg1))) (dst (m ((c : Thread nD τ).loc main_arg1)))) mean var ((m ((c : Thread nD τ).loc main_arg2)) ValueIdx.ix0) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (agg64 (src (m ((c : Thread nD τ).loc main_arg1))) (dst (m ((c : Thread nD τ).loc main_arg1))) (Cert.Gin.layer (agg64 (src (m ((c : Thread nD τ).loc main_arg1))) (dst (m ((c : Thread nD τ).loc main_arg1)))) mean var ((m ((c : Thread nD τ).loc main_arg9)) ValueIdx.ix0) (Cert.Gin.layer (agg128 (src (m ((c : Thread nD τ).loc main_arg1))) (dst (m ((c : Thread nD τ).loc main_arg1)))) mean var ((m ((c : Thread nD τ).loc main_arg2)) ValueIdx.ix0) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))) (m ((c : Thread nD τ).loc main_arg17)) (m ((c : Thread nD τ).loc main_arg18)) (m ((c : Thread nD τ).loc main_arg19)) (m ((c : Thread nD τ).loc main_arg20))) := by
    rw [show (V17 m ρ c main_v68 : S1x64.Idx → EReal) = row64 (mean (W14 m ρ c (Proc.devRef .tc main_v63))) from stats3_mean (W14 m ρ c), rowOf_row64, W14_h3 m ρ H c]
  have e_var : rowOf (V17 m ρ c main_v69 : S1x64.Idx → EReal) = var (Cert.Gin.mlp ((m ((c : Thread nD τ).loc main_arg16)) ValueIdx.ix0) (Cert.Gin.layer (agg64 (src (m ((c : Thread nD τ).loc main_arg1))) (dst (m ((c : Thread nD τ).loc main_arg1)))) mean var ((m ((c : Thread nD τ).loc main_arg9)) ValueIdx.ix0) (Cert.Gin.layer (agg128 (src (m ((c : Thread nD τ).loc main_arg1))) (dst (m ((c : Thread nD τ).loc main_arg1)))) mean var ((m ((c : Thread nD τ).loc main_arg2)) ValueIdx.ix0) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (agg64 (src (m ((c : Thread nD τ).loc main_arg1))) (dst (m ((c : Thread nD τ).loc main_arg1))) (Cert.Gin.layer (agg64 (src (m ((c : Thread nD τ).loc main_arg1))) (dst (m ((c : Thread nD τ).loc main_arg1)))) mean var ((m ((c : Thread nD τ).loc main_arg9)) ValueIdx.ix0) (Cert.Gin.layer (agg128 (src (m ((c : Thread nD τ).loc main_arg1))) (dst (m ((c : Thread nD τ).loc main_arg1)))) mean var ((m ((c : Thread nD τ).loc main_arg2)) ValueIdx.ix0) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)))) (m ((c : Thread nD τ).loc main_arg17)) (m ((c : Thread nD τ).loc main_arg18)) (m ((c : Thread nD τ).loc main_arg19)) (m ((c : Thread nD τ).loc main_arg20))) := by
    rw [show (V17 m ρ c main_v69 : S1x64.Idx → EReal) = row64 (var (W14 m ρ c (Proc.devRef .tc main_v63))) from stats3_var (W14 m ρ c), rowOf_row64, W14_h3 m ρ H c]
  have e_g : rowOf (V17 m ρ c main_v70 : S1x64.Idx → EReal) = (m ((c : Thread nD τ).loc main_arg21)) := by
    rw [show (V17 m ρ c main_v70 : S1x64.Idx → EReal) = row64 (W14 m ρ c (Proc.devRef .tc main_arg21)) from stats3_g (W14 m ρ c), rowOf_row64]; exact W14_main_arg21 m ρ c
  have e_be : rowOf (V17 m ρ c main_v71 : S1x64.Idx → EReal) = (m ((c : Thread nD τ).loc main_arg22)) := by
    rw [show (V17 m ρ c main_v71 : S1x64.Idx → EReal) = row64 (W14 m ρ c (Proc.devRef .tc main_arg22)) from stats3_be (W14 m ρ c), rowOf_row64]; exact W14_main_arg22 m ρ c
  rw [e_h, e_mean, e_var, e_g, e_be]
  rfl

/-- The result array: the last affine layer of the third layer's output — the network of the specification, with the
    neighbour sums, means and variances the shared host computations. -/
theorem W20_out (H : RegionFacts) (c : Dev nD) :
    (W20 m ρ c (Proc.devRef .tc main_v74) : S50000x10.Idx → EReal)
      = Cert.Gin.net (agg128 (src (m ((c : Thread nD τ).loc main_arg1))) (dst (m ((c : Thread nD τ).loc main_arg1)))) (agg64 (src (m ((c : Thread nD τ).loc main_arg1))) (dst (m ((c : Thread nD τ).loc main_arg1)))) (agg64 (src (m ((c : Thread nD τ).loc main_arg1))) (dst (m ((c : Thread nD τ).loc main_arg1)))) mean var (m ((c : Thread nD τ).loc main_arg0))
        ((m ((c : Thread nD τ).loc main_arg2)) ValueIdx.ix0) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
        ((m ((c : Thread nD τ).loc main_arg9)) ValueIdx.ix0) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
        ((m ((c : Thread nD τ).loc main_arg16)) ValueIdx.ix0) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))
        (m ((c : Thread nD τ).loc main_arg23)) (m ((c : Thread nD τ).loc main_arg24)) := by
  refine ((W20_arr m ρ c 3).trans (H.r6 (V19 m ρ) c)).trans ?_
  unfold Cert.Gin.net
  have e_h : (V19 m ρ c main_v72 : S50000x64.Idx → EReal) = (Cert.Gin.layer (agg64 (src (m ((c : Thread nD τ).loc main_arg1))) (dst (m ((c : Thread nD τ).loc main_arg1)))) mean var ((m ((c : Thread nD τ).loc main_arg16)) ValueIdx.ix0) (Cert.Gin.layer (agg64 (src (m ((c : Thread nD τ).loc main_arg1))) (dst (m ((c : Thread nD τ).loc main_arg1)))) mean var ((m ((c : Thread nD τ).loc main_arg9)) ValueIdx.ix0) (Cert.Gin.layer (agg128 (src (m ((c : Thread nD τ).loc main_arg1))) (dst (m ((c : Thread nD τ).loc main_arg1)))) mean var ((m ((c : Thread nD τ).loc main_arg2)) ValueIdx.ix0) (m ((c : Thread nD τ).loc main_arg0)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))) := (pre4_h (W18 m ρ c)).trans (W18_o3 m ρ H c)
  have e_w : (V19 m ρ c main_arg23 : S64x10.Idx → EReal) = (m ((c : Thread nD τ).loc main_arg23)) := (pre4_w (W18 m ρ c)).trans (W18_main_arg23 m ρ c)
  have e_b : rowOf (V19 m ρ c main_v73 : S1x10.Idx → EReal) = (m ((c : Thread nD τ).loc main_arg24)) := by
    rw [show (V19 m ρ c main_v73 : S1x10.Idx → EReal) = row10 (W18 m ρ c (Proc.devRef .tc main_arg24)) from pre4_b (W18 m ρ c), rowOf_row10]; exact W18_main_arg24 m ρ c
  rw [e_h, e_w, e_b]

end Cert.KernelIdeal.KerFold

end
-- ==== Proof.RegionRows.lean ====
/-
  Row-locality of the network's three kinds of stage, in the form a computation tiled over blocks of rows needs it.

  A tall matrix of R' rows is processed in blocks of R rows. For each kind of stage — the last affine layer, the
  column-wise normalisation, the two rectified affine stages after (1 + ε)·x + agg — the entry (p, q) computed from a
  block equals the entry of the whole-matrix result at the array index i the block's (p, q) sits at, as soon as the
  block's row p is the whole matrix's row (i 0) and i's column is q. Nothing here mentions a program; every extent is
  arbitrary. Also: the two zero offsets of a rank-2 rectangle spelt as a function.
-/
import Idealize.ShloMosaic.PureOps.Ideal
import Idealize.ShloMosaic.PureOps.Ideal.Laws
import Idealize.ShloMosaic.Lib.ValueIdx
import proofs.«179991_j80487687127440_1_alg».proof.Proof.LibMatmulRows
import proofs.«179991_j80487687127440_1_alg».proof.Proof.LibDenseLayers
import proofs.«179991_j80487687127440_1_alg».proof.Proof.LibGinLayers

noncomputable section

namespace Cert.KernelIdeal.RegionValue

open Idealize.ShloMosaic Idealize.ShloMosaic.ValueIdx
open Cert.LibDenseLayers Cert.Gin
open scoped BigOperators

/-- The zero offsets of a rank-2 rectangle, as the constant function. -/
theorem hz : (![0, 0] : Fin 2 → Nat) = fun _ => 0 := funext fun a => by fin_cases a <;> rfl

/-- An entry of the affine layer of a tall matrix H at an index i, from a block X0 whose row p is row (i 0) of H: the
    entry depends only on that row. -/
theorem affine_at_block {R R' K N : ℕ} (X0 : (⟨2, ![R, K]⟩ : Shape).Idx → EReal) (H : (⟨2, ![R', K]⟩ : Shape).Idx → EReal)
    (W : (⟨2, ![K, N]⟩ : Shape).Idx → EReal) (b : (⟨1, ![N]⟩ : Shape).Idx → EReal) (p : Fin R) (q : Fin N) (p' : Fin R')
    (i : (⟨2, ![R', N]⟩ : Shape).Idx) (hi0 : (i 0).val = p'.val) (hi1 : (i 1).val = q.val)
    (h0 : ∀ k : Fin K, X0 (ix2 p k) = H (ix2 p' k)) :
    affineAt X0 W b p q = affine H W b i := by
  have hi : i = ix2 p' q := Cert.LibMatmulRows.idx2_ext _ _ hi0 hi1
  rw [hi]
  exact affineAt_congr X0 H W b p p' h0 q

/-- An entry of the normalised, rectified matrix of a tall matrix H at an index i, from a block X whose entry (p, q) is
    entry (i 0, q) of H: the entry depends on that one entry of H and on column q of the four vectors. -/
theorem bnrelu_at_block {R R' H : ℕ} (X : (⟨2, ![R, H]⟩ : Shape).Idx → EReal) (Hh : (⟨2, ![R', H]⟩ : Shape).Idx → EReal)
    (mean var g be : (⟨1, ![H]⟩ : Shape).Idx → EReal) (p : Fin R) (q : Fin H) (p' : Fin R')
    (i : (⟨2, ![R', H]⟩ : Shape).Idx) (hi0 : (i 0).val = p'.val) (hi1 : (i 1).val = q.val)
    (h0 : X (ix2 p q) = Hh (ix2 p' q)) :
    max (bnAt (X (ix2 p q)) (mean (ix1 q)) (var (ix1 q)) (g (ix1 q)) (be (ix1 q))) (Ideal.ofBits .f32 0x00000000#32)
      = bnrelu Hh mean var g be i := by
  have hi : i = ix2 p' q := Cert.LibMatmulRows.idx2_ext _ _ hi0 hi1
  rw [hi, bnrelu_apply, h0]

/-- An entry of the two-stage layer of tall matrices x', agg' at an index i, from blocks x, agg whose row p is row (i 0)
    of x', agg': a block of rows of the result is the result of the block of rows. -/
theorem mlp_at_block {R R' K H : ℕ} (e : EReal) (x agg : (⟨2, ![R, K]⟩ : Shape).Idx → EReal)
    (x' agg' : (⟨2, ![R', K]⟩ : Shape).Idx → EReal) (wa : (⟨2, ![K, H]⟩ : Shape).Idx → EReal) (ba : (⟨1, ![H]⟩ : Shape).Idx → EReal)
    (wb : (⟨2, ![H, H]⟩ : Shape).Idx → EReal) (bb : (⟨1, ![H]⟩ : Shape).Idx → EReal) (p : Fin R) (q : Fin H) (p' : Fin R')
    (i : (⟨2, ![R', H]⟩ : Shape).Idx) (hi0 : (i 0).val = p'.val) (hi1 : (i 1).val = q.val)
    (hx : ∀ k : Fin K, x (ix2 p k) = x' (ix2 p' k)) (ha : ∀ k : Fin K, agg (ix2 p k) = agg' (ix2 p' k)) :
    mlp e x agg wa ba wb bb (ix2 p q) = mlp e x' agg' wa ba wb bb i := by
  have hi : i = ix2 p' q := Cert.LibMatmulRows.idx2_ext _ _ hi0 hi1
  rw [hi]
  exact mlp_row e x agg x' agg' wa ba wb bb p p' hx ha q

end Cert.KernelIdeal.RegionValue

end
-- ==== Proof.LibPlainDot.lean ====
/-
  GENERAL LEMMAS: the product of an [R, K] matrix with a [K, N] matrix under the plain dimension record (axis 1 of the left
  operand contracted with axis 0 of the right, no batch axes), read at (p, q) on extended reals as the sum over k of
  l(p, k) * r(k, q) — for the matrix unit's product into a zero accumulator and for the host's dot_general. Any extents; a
  printed record with these six lists is this record. It imports LibMatmulRows.lean of the same directory.
-/
import Idealize.ShloMosaic.PureOps.Ideal
import Idealize.ShloMosaic.PureOps.Ideal.Laws
import Idealize.ShloMosaic.Lib.ValueIdx
import proofs.«179991_j80487687127440_1_alg».proof.Proof.LibMatmulRows

noncomputable section

namespace Cert.LibPlainDot

open Idealize.ShloMosaic Idealize.ShloMosaic.ValueIdx
open scoped BigOperators

variable {R K N : ℕ}

theorem lhs0 (i : (⟨2, ![R, N]⟩ : Shape).Idx) (s : (DotDims.plain R K N).contr.Idx) :
    ((DotDims.plain R K N).lhsIdx i s 0).val = (i 0).val := by
  unfold DotDims.lhsIdx
  rw [dif_neg (show ¬(0 : Fin 2) ∈ (DotDims.plain R K N).lhsBatch from List.not_mem_nil),
    dif_pos (show (0 : Fin 2) ∈ (DotDims.plain R K N).lhsNonContracting from List.mem_singleton.mpr rfl)]
  rfl

theorem lhs1 (i : (⟨2, ![R, N]⟩ : Shape).Idx) (s : (DotDims.plain R K N).contr.Idx) :
    ((DotDims.plain R K N).lhsIdx i s 1).val = (s ⟨0, Nat.one_pos⟩).val :=
  (DotDims.plain R K N).lhsIdx_val_of_single rfl i s

theorem rhs0 (i : (⟨2, ![R, N]⟩ : Shape).Idx) (s : (DotDims.plain R K N).contr.Idx) :
    ((DotDims.plain R K N).rhsIdx i s 0).val = (s ⟨0, Nat.one_pos⟩).val :=
  (DotDims.plain R K N).rhsIdx_val_of_single rfl i s

theorem rhs1 (i : (⟨2, ![R, N]⟩ : Shape).Idx) (s : (DotDims.plain R K N).contr.Idx) :
    ((DotDims.plain R K N).rhsIdx i s 1).val = (i 1).val := by
  unfold DotDims.rhsIdx
  rw [dif_neg (show ¬(1 : Fin 2) ∈ (DotDims.plain R K N).rhsBatch from List.not_mem_nil),
    dif_pos (show (1 : Fin 2) ∈ (DotDims.plain R K N).rhsNonContracting from List.mem_singleton.mpr rfl)]
  rfl

/-- The matrix unit's product into a zero accumulator, read at (p, q). -/
theorem matmul_plain {φ₁ φ₂ : FTy} (l : FVec Ideal ⟨2, ![R, K]⟩ φ₁) (r : FVec Ideal ⟨2, ![K, N]⟩ φ₂) (p : Fin R) (q : Fin N) :
    matmul (DotDims.plain R K N) none l r (constant (F := Ideal) ⟨2, ![R, N]⟩ .f32 0x00000000#32) (ix2 p q)
      = ∑ k : Fin K, l (ix2 p k) * r (ix2 k q) :=
  Cert.LibMatmulRows.matmul_rows (DotDims.plain R K N) rfl rfl lhs0 lhs1 rhs0 rhs1 l r p q

/-- The host's dot_general, read at (p, q). -/
theorem hostdot_plain (l : FVec Ideal ⟨2, ![R, K]⟩ .f32) (r : FVec Ideal ⟨2, ![K, N]⟩ .f32) (p : Fin R) (q : Fin N) :
    Host.dotGeneral (DotDims.plain R K N) none l r (ix2 p q) = ∑ k : Fin K, l (ix2 p k) * r (ix2 k q) :=
  Cert.LibMatmulRows.hostdot_rows (DotDims.plain R K N) rfl rfl lhs0 lhs1 rhs0 rhs1 l r p q

end Cert.LibPlainDot

end
-- ==== Proof.RegionPayMlp.lean ====
/-
  The three layer regions: what each body stores, read at one entry of a block.

  The body loads a block of 5000 rows of x and of the neighbour sums agg, the one-by-one ε, two weight matrices and two
  one-row biases, and stores relu(relu(((1 + ε)·x + agg) · wa + ba) · wb + bb) for the block. Read at (p, q) on extended
  reals this is the specification's two-stage layer at (p, q): each matrix product into zero plus its bias row is an
  affine layer's entry, which reads row p of its left operand only, so the reading descends stage by stage to
  (1 + ε)·x(p, k) + agg(p, k); changes of float format are the identity. The first region has 128 input columns, the
  other two 64.
-/
import proofs.«179991_j80487687127440_1_alg».proof.Proof.Gen.KernelIdeal.Skeleton
import proofs.«179991_j80487687127440_1_alg».proof.Proof.LibRowBias
import proofs.«179991_j80487687127440_1_alg».proof.Proof.LibPlainDot
import proofs.«179991_j80487687127440_1_alg».proof.Proof.LibGinLayers
import Idealize.ShloMosaic.Lib.Pipeline.Value
import Idealize.ShloMosaic.Lib.ValueLayout

noncomputable section

namespace Cert.KernelIdeal.RegionValue

open Idealize.ShloMosaic Idealize.ShloMosaic.ValueIdx Idealize.ShloMosaic.TcCoe Idealize.SL.Sem
open Cert.KernelIdeal Cert.LibDenseLayers Cert.LibRowBias Cert.Gin
open scoped BigOperators

/-- A one-by-one matrix laid over a rows and b columns reads its single entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (q : Fin b) :
    broadcastTo ⟨2, ![a, b]⟩ v h (ix2 p q) = v (ix2 (0 : Fin 1) (0 : Fin 1)) := by
  refine broadcastTo_apply v h (ix2 p q) (ix2 (0 : Fin 1) (0 : Fin 1)) fun ax => ?_
  match ax with
  | ⟨0, _⟩ => rfl
  | ⟨1, _⟩ => rfl

set_option maxHeartbeats 400000 in
/-- The layer's stored value at row p, column q of a block: the two rectified affine stages applied to (1 + ε)·x + agg,
    read at (p, q). Each matrix product into zero plus its one-row bias is an affine layer's entry; a change of float
    format is no change on extended reals; the one-by-one ε is laid over the whole block. -/
theorem payMlp0_apply (xe : Vec Ideal S1x1 .f32) (xx xa : Vec Ideal S5000x128 .f32) (xwa : Vec Ideal S128x64 .f32)
    (xba : Vec Ideal S1x64 .f32) (xwb : Vec Ideal S64x64 .f32) (xbb : Vec Ideal S1x64 .f32) (p : Fin 5000) (q : Fin 64) :
    Gen.k0_pay1 (F := Ideal) xe xx xa xwa xba xwb xbb (ix2 p q)
      = mlp (xe (ix2 (0 : Fin 1) (0 : Fin 1))) xx xa xwa (rowOf xba) xwb (rowOf xbb) (ix2 p q) := by
  unfold Gen.k0_pay1
  simp only [shapeCast_self xe, shapeCast_self xx, shapeCast_self xa]
  refine (congrArg (fun z => max z (Ideal.ofBits .f32 0x00000000#32))
    (affineAt_of_matmul_row dot_S5000x64_S64x64_S5000x64_1_0_0_1_n_n rfl rfl
      (Cert.LibPlainDot.lhs0 (R := 5000) (K := 64) (N := 64)) (Cert.LibPlainDot.lhs1 (R := 5000) (K := 64) (N := 64))
      (Cert.LibPlainDot.rhs0 (R := 5000) (K := 64) (N := 64)) (Cert.LibPlainDot.rhs1 (R := 5000) (K := 64) (N := 64))
      Gen.shapeCasts_S1x64_S1x64 Gen.broadcasts_S1x64_S5000x64 _ _ xbb p q)).trans ?_
  show max (affineAt _ xwb (rowOf xbb) p q) _ = max (affineAt (stage1 (combine (xe (ix2 (0 : Fin 1) (0 : Fin 1))) xx xa) xwa (rowOf xba)) xwb (rowOf xbb) p q) _
  refine congrArg (fun z => max z (Ideal.ofBits .f32 0x00000000#32)) (affineAt_congr _ _ xwb (rowOf xbb) p p (fun k => ?_) q)
  refine (congrArg (fun z => max z (Ideal.ofBits .f32 0x00000000#32))
    (affineAt_of_matmul_row dot_S5000x128_S128x64_S5000x64_1_0_0_1_n_n rfl rfl
      (Cert.LibPlainDot.lhs0 (R := 5000) (K := 128) (N := 64)) (Cert.LibPlainDot.lhs1 (R := 5000) (K := 128) (N := 64))
      (Cert.LibPlainDot.rhs0 (R := 5000) (K := 128) (N := 64)) (Cert.LibPlainDot.rhs1 (R := 5000) (K := 128) (N := 64))
      Gen.shapeCasts_S1x64_S1x64 Gen.broadcasts_S1x64_S5000x64 _ _ xba p k)).trans ?_
  show max (affineAt _ xwa (rowOf xba) p k) _ = max (affineAt (combine (xe (ix2 (0 : Fin 1) (0 : Fin 1))) xx xa) xwa (rowOf xba) p k) _
  refine congrArg (fun z => max z (Ideal.ofBits .f32 0x00000000#32)) (affineAt_congr _ _ xwa (rowOf xba) p p (fun k' => ?_) k)
  simp only [truncf_apply, addf_apply, mulf_apply, broadcast_apply, broadcastTo_11_ab_apply, combine_apply]
  rfl

set_option maxHeartbeats 400000 in
/-- The layer's stored value at row p, column q of a block: the two rectified affine stages applied to (1 + ε)·x + agg,
    read at (p, q). Each matrix product into zero plus its one-row bias is an affine layer's entry; a change of float
    format is no change on extended reals; the one-by-one ε is laid over the whole block. -/
theorem payMlp2_apply (xe : Vec Ideal S1x1 .f32) (xx xa : Vec Ideal S5000x64 .f32) (xwa : Vec Ideal S64x64 .f32)
    (xba : Vec Ideal S1x64 .f32) (xwb : Vec Ideal S64x64 .f32) (xbb : Vec Ideal S1x64 .f32) (p : Fin 5000) (q : Fin 64) :
    Gen.k2_pay1 (F := Ideal) xe xx xa xwa xba xwb xbb (ix2 p q)
      = mlp (xe (ix2 (0 : Fin 1) (0 : Fin 1))) xx xa xwa (rowOf xba) xwb (rowOf xbb) (ix2 p q) := by
  unfold Gen.k2_pay1
  simp only [shapeCast_self xe, shapeCast_self xx, shapeCast_self xa]
  refine (congrArg (fun z => max z (Ideal.ofBits .f32 0x00000000#32))
    (affineAt_of_matmul_row dot_S5000x64_S64x64_S5000x64_1_0_0_1_n_n rfl rfl
      (Cert.LibPlainDot.lhs0 (R := 5000) (K := 64) (N := 64)) (Cert.LibPlainDot.lhs1 (R := 5000) (K := 64) (N := 64))
      (Cert.LibPlainDot.rhs0 (R := 5000) (K := 64) (N := 64)) (Cert.LibPlainDot.rhs1 (R := 5000) (K := 64) (N := 64))
      Gen.shapeCasts_S1x64_S1x64 Gen.broadcasts_S1x64_S5000x64 _ _ xbb p q)).trans ?_
  show max (affineAt _ xwb (rowOf xbb) p q) _ = max (affineAt (stage1 (combine (xe (ix2 (0 : Fin 1) (0 : Fin 1))) xx xa) xwa (rowOf xba)) xwb (rowOf xbb) p q) _
  refine congrArg (fun z => max z (Ideal.ofBits .f32 0x00000000#32)) (affineAt_congr _ _ xwb (rowOf xbb) p p (fun k => ?_) q)
  refine (congrArg (fun z => max z (Ideal.ofBits .f32 0x00000000#32))
    (affineAt_of_matmul_row dot_S5000x64_S64x64_S5000x64_1_0_0_1_n_n rfl rfl
      (Cert.LibPlainDot.lhs0 (R := 5000) (K := 64) (N := 64)) (Cert.LibPlainDot.lhs1 (R := 5000) (K := 64) (N := 64))
      (Cert.LibPlainDot.rhs0 (R := 5000) (K := 64) (N := 64)) (Cert.LibPlainDot.rhs1 (R := 5000) (K := 64) (N := 64))
      Gen.shapeCasts_S1x64_S1x64 Gen.broadcasts_S1x64_S5000x64 _ _ xba p k)).trans ?_
  show max (affineAt _ xwa (rowOf xba) p k) _ = max (affineAt (combine (xe (ix2 (0 : Fin 1) (0 : Fin 1))) xx xa) xwa (rowOf xba) p k) _
  refine congrArg (fun z => max z (Ideal.ofBits .f32 0x00000000#32)) (affineAt_congr _ _ xwa (rowOf xba) p p (fun k' => ?_) k)
  simp only [truncf_apply, addf_apply, mulf_apply, broadcast_apply, broadcastTo_11_ab_apply, combine_apply]
  rfl

set_option maxHeartbeats 400000 in
/-- The layer's stored value at row p, column q of a block: the two rectified affine stages applied to (1 + ε)·x + agg,
    read at (p, q). Each matrix product into zero plus its one-row bias is an affine layer's entry; a change of float
    format is no change on extended reals; the one-by-one ε is laid over the whole block. -/
theorem payMlp4_apply (xe : Vec Ideal S1x1 .f32) (xx xa : Vec Ideal S5000x64 .f32) (xwa : Vec Ideal S64x64 .f32)
    (xba : Vec Ideal S1x64 .f32) (xwb : Vec Ideal S64x64 .f32) (xbb : Vec Ideal S1x64 .f32) (p : Fin 5000) (q : Fin 64) :
    Gen.k4_pay1 (F := Ideal) xe xx xa xwa xba xwb xbb (ix2 p q)
      = mlp (xe (ix2 (0 : Fin 1) (0 : Fin 1))) xx xa xwa (rowOf xba) xwb (rowOf xbb) (ix2 p q) := by
  unfold Gen.k4_pay1
  simp only [shapeCast_self xe, shapeCast_self xx, shapeCast_self xa]
  refine (congrArg (fun z => max z (Ideal.ofBits .f32 0x00000000#32))
    (affineAt_of_matmul_row dot_S5000x64_S64x64_S5000x64_1_0_0_1_n_n rfl rfl
      (Cert.LibPlainDot.lhs0 (R := 5000) (K := 64) (N := 64)) (Cert.LibPlainDot.lhs1 (R := 5000) (K := 64) (N := 64))
      (Cert.LibPlainDot.rhs0 (R := 5000) (K := 64) (N := 64)) (Cert.LibPlainDot.rhs1 (R := 5000) (K := 64) (N := 64))
      Gen.shapeCasts_S1x64_S1x64 Gen.broadcasts_S1x64_S5000x64 _ _ xbb p q)).trans ?_
  show max (affineAt _ xwb (rowOf xbb) p q) _ = max (affineAt (stage1 (combine (xe (ix2 (0 : Fin 1) (0 : Fin 1))) xx xa) xwa (rowOf xba)) xwb (rowOf xbb) p q) _
  refine congrArg (fun z => max z (Ideal.ofBits .f32 0x00000000#32)) (affineAt_congr _ _ xwb (rowOf xbb) p p (fun k => ?_) q)
  refine (congrArg (fun z => max z (Ideal.ofBits .f32 0x00000000#32))
    (affineAt_of_matmul_row dot_S5000x64_S64x64_S5000x64_1_0_0_1_n_n rfl rfl
      (Cert.LibPlainDot.lhs0 (R := 5000) (K := 64) (N := 64)) (Cert.LibPlainDot.lhs1 (R := 5000) (K := 64) (N := 64))
      (Cert.LibPlainDot.rhs0 (R := 5000) (K := 64) (N := 64)) (Cert.LibPlainDot.rhs1 (R := 5000) (K := 64) (N := 64))
      Gen.shapeCasts_S1x64_S1x64 Gen.broadcasts_S1x64_S5000x64 _ _ xba p k)).trans ?_
  show max (affineAt _ xwa (rowOf xba) p k) _ = max (affineAt (combine (xe (ix2 (0 : Fin 1) (0 : Fin 1))) xx xa) xwa (rowOf xba) p k) _
  refine congrArg (fun z => max z (Ideal.ofBits .f32 0x00000000#32)) (affineAt_congr _ _ xwa (rowOf xba) p p (fun k' => ?_) k)
  simp only [truncf_apply, addf_apply, mulf_apply, broadcast_apply, broadcastTo_11_ab_apply, combine_apply]
  rfl

end Cert.KernelIdeal.RegionValue

end
-- ==== Proof.RegionArr0.lean ====
/-
  Region 0 of the kernel's program as ONE function of whole arrays: the first layer's two rectified affine stages of (1 + ε)·x + agg, 128 input columns.

  The region runs its body on ten grid points; point t reads rows 5000·t … 5000·t + 4999 of the row-tiled operands
  and the whole of every other operand, and writes rows 5000·t … 5000·t + 4999 of the result. Whatever the buffers
  hold when the region is entered (V), the result array afterwards is the specification's function of those contents:
  what point t writes back is block t of that function (the body's entry (p, q) reads row p of its row-tiled blocks
  only, and row p of block t is row 5000·t + p of the array), and the ten blocks cover the result array (row r lies in
  block r / 5000).
-/
import proofs.«179991_j80487687127440_1_alg».proof.Proof.Gen.KernelIdeal.Frame
import proofs.«179991_j80487687127440_1_alg».proof.Proof.RegionRows
import proofs.«179991_j80487687127440_1_alg».proof.Proof.RegionPayMlp
import Idealize.ShloMosaic.Lib.Pipeline.Value

noncomputable section

namespace Cert.KernelIdeal.RegionValue

open Idealize.ShloMosaic Idealize.ShloMosaic.ValueIdx Idealize.ShloMosaic.TcCoe Idealize.SL.Sem
open Cert.KernelIdeal Cert.LibDenseLayers Cert.LibRowBias Cert.Gin
open scoped BigOperators
open Idealize.ShloMosaic.Pipeline (Dat)

-- the buffer contents when the region is entered: any contents
variable (V : (c : Dev nD) → (b : Ref sig .tc) → Buf (Elt Ideal) ((c : Thread nD τ).loc b))

/-- The whole array the layer leaves: the two rectified affine stages of (1 + ε)·x + agg. -/
abbrev GMlp0 (c : Dev nD) : S50000x64.Idx → EReal :=
  mlp ((V c main_v14 : S1x1.Idx → EReal) (ix2 (0 : Fin 1) (0 : Fin 1))) (V c main_arg0 : S50000x128.Idx → EReal) (V c main_v13 : S50000x128.Idx → EReal)
    (V c main_arg3 : S128x64.Idx → EReal) (rowOf (V c main_v15 : S1x64.Idx → EReal)) (V c main_arg5 : S64x64.Idx → EReal) (rowOf (V c main_v16 : S1x64.Idx → EReal))

/-- The index maps over the ten grid points: the row blocks of x, of agg and of the result move with the point, the
    other five windows stay at block (0, 0). -/
theorem idxMlp0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- The result's row block moves with the point. -/
theorem idxMlpOut0 : ∀ t : Fin cfg0.N, win0_7.index t (0 : Fin 2) = t.val ∧ win0_7.index t (1 : Fin 2) = 0 :=
  (by decide +kernel : ∀ t : Fin grid0.N, _)

set_option maxHeartbeats 100000 in
/-- The ε window is the whole one-by-one ε at every point. -/
theorem blkMlp0E (c : Dev nD) (t : Fin cfg0.N) : (Gen.iblk0 V c 2 t : S1x1.Idx → EReal) = V c main_v14 := by
  have e := idxMlp0 t
  funext y
  show V c main_v14 (((cfg0.win 2).blk t).view.emb y) = V c main_v14 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 1 + 1 * (y 1).val = (y 1).val; omega

set_option maxHeartbeats 100000 in
/-- The first weights' window is the whole matrix at every point. -/
theorem blkMlp0Wa (c : Dev nD) (t : Fin cfg0.N) : (Gen.iblk0 V c 3 t : S128x64.Idx → EReal) = V c main_arg3 := by
  have e := idxMlp0 t
  funext y
  show V c main_arg3 (((cfg0.win 3).blk t).view.emb y) = V c main_arg3 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 64 + 1 * (y 1).val = (y 1).val; omega

set_option maxHeartbeats 100000 in
/-- The first bias window is the whole one-row bias at every point. -/
theorem blkMlp0Ba (c : Dev nD) (t : Fin cfg0.N) : (Gen.iblk0 V c 4 t : S1x64.Idx → EReal) = V c main_v15 := by
  have e := idxMlp0 t
  funext y
  show V c main_v15 (((cfg0.win 4).blk t).view.emb y) = V c main_v15 y
  refine congrArg _ (funext fun a => Fin.ext ?_)
  match a with
  | ⟨0, _⟩ => show win0_4.index t (0 : Fin 2) * 1 + 1 * (y 0).val = (y 0).val; omega
  | ⟨1, _⟩ => show win0_4.index t (1 : Fin 2) * 64 + 1 * (y 1).val = (y 1).val; omega

set_option maxHeartbeats 100000 in
/-- The second weights' window is the whole matrix at every point. -/
theorem blkMlp0Wb (c : Dev nD) (t : Fin cfg0.N) : (Gen.iblk0 V c 5 t : S64x64.Idx → EReal) = V c main_arg5 := by
  have e := idxMlp0 t
  funext y
  show V c main_arg5 (((cfg0.win 5).blk t).view.emb y) = V c main_arg5 y
  refine congrArg _ (funext fun a => Fin.ext ?_)
  match a with
  | ⟨0, _⟩ => show win0_5.index t (0 : Fin 2) * 64 + 1 * (y 0).val = (y 0).val; omega
  | ⟨1, _⟩ => show win0_5.index t (1 : Fin 2) * 64 + 1 * (y 1).val = (y 1).val; omega

set_option maxHeartbeats 100000 in
/-- The second bias window is the whole one-row bias at every point. -/
theorem blkMlp0Bb (c : Dev nD) (t : Fin cfg0.N) : (Gen.iblk0 V c 6 t : S1x64.Idx → EReal) = V c main_v16 := by
  have e := idxMlp0 t
  funext y
  show V c main_v16 (((cfg0.win 6).blk t).view.emb y) = V c main_v16 y
  refine congrArg _ (funext fun a => Fin.ext ?_)
  match a with
  | ⟨0, _⟩ => show win0_6.index t (0 : Fin 2) * 1 + 1 * (y 0).val = (y 0).val; omega
  | ⟨1, _⟩ => show win0_6.index t (1 : Fin 2) * 64 + 1 * (y 1).val = (y 1).val; omega

set_option maxHeartbeats 100000 in
/-- Row p of x's block at point t is row 5000·t + p of x. -/
theorem blkMlp0X (c : Dev nD) (t : Fin cfg0.N) (p : Fin 5000) (k : Fin 128) (p' : Fin 50000) (hp : p'.val = 5000 * t.val + p.val) :
    (Gen.iblk0 V c 0 t : S5000x128.Idx → EReal) (ix2 p k) = (V c main_arg0 : S50000x128.Idx → EReal) (ix2 p' k) := by
  have e := idxMlp0 t
  show V c main_arg0 (((cfg0.win 0).blk t).view.emb (ix2 p k)) = V c main_arg0 (ix2 p' k)
  refine congrArg _ (funext fun a => Fin.ext ?_)
  match a with
  | ⟨0, _⟩ => show win0_0.index t (0 : Fin 2) * 5000 + 1 * p.val = p'.val; omega
  | ⟨1, _⟩ => show win0_0.index t (1 : Fin 2) * 128 + 1 * k.val = k.val; omega

set_option maxHeartbeats 100000 in
/-- Row p of agg's block at point t is row 5000·t + p of agg. -/
theorem blkMlp0A (c : Dev nD) (t : Fin cfg0.N) (p : Fin 5000) (k : Fin 128) (p' : Fin 50000) (hp : p'.val = 5000 * t.val + p.val) :
    (Gen.iblk0 V c 1 t : S5000x128.Idx → EReal) (ix2 p k) = (V c main_v13 : S50000x128.Idx → EReal) (ix2 p' k) := by
  have e := idxMlp0 t
  show V c main_v13 (((cfg0.win 1).blk t).view.emb (ix2 p k)) = V c main_v13 (ix2 p' k)
  refine congrArg _ (funext fun a => Fin.ext ?_)
  match a with
  | ⟨0, _⟩ => show win0_1.index t (0 : Fin 2) * 5000 + 1 * p.val = p'.val; omega
  | ⟨1, _⟩ => show win0_1.index t (1 : Fin 2) * 128 + 1 * k.val = k.val; omega

set_option maxHeartbeats 400000 in
/-- What point t writes back is block t of the whole layer's array. -/
theorem flushedMlp0_eq (c : Dev nD) (t : Fin cfg0.N) :
    (Gen.dat0 (F := Ideal) V c).flushed 7 t = ((cfg0.win 7).blk t).view.read (Elt Ideal) (GMlp0 V c) := by
  show (cfg0.win 7).cut (grid0.coords t) ((Gen.dat0 (F := Ideal) V c).after 7 t) = _
  rw [Gen.after0_7]
  unfold Gen.out0_7
  rw [View.canon_unit_zero hz]
  simp only [View.ld_unit_zero (S := S5000x128) hz, View.ld_unit_zero (S := S1x1) hz, View.ld_unit_zero (S := S128x64) hz,
    View.ld_unit_zero (S := S1x64) hz, View.ld_unit_zero (S := S64x64) hz]
  obtain ⟨e14, e15⟩ := idxMlpOut0 t
  have ht : t.val < 10 := t.isLt
  funext j
  obtain ⟨p, q, rfl⟩ : ∃ (p : Fin 5000) (q : Fin 64), j = ix2 p q := ⟨j 0, j 1, eq_ix2 j⟩
  show Gen.k0_pay1 (F := Ideal) (Gen.iblk0 V c 2 t) (Gen.iblk0 V c 0 t) (Gen.iblk0 V c 1 t) (Gen.iblk0 V c 3 t)
        (Gen.iblk0 V c 4 t) (Gen.iblk0 V c 5 t) (Gen.iblk0 V c 6 t) (ix2 p q)
      = GMlp0 V c (((cfg0.win 7).blk t).view.emb (ix2 p q))
  refine (payMlp0_apply (Gen.iblk0 V c 2 t) (Gen.iblk0 V c 0 t) (Gen.iblk0 V c 1 t) (Gen.iblk0 V c 3 t)
    (Gen.iblk0 V c 4 t) (Gen.iblk0 V c 5 t) (Gen.iblk0 V c 6 t) p q).trans ?_
  rw [blkMlp0E V c t, blkMlp0Wa V c t, blkMlp0Ba V c t, blkMlp0Wb V c t, blkMlp0Bb V c t]
  refine mlp_at_block _ _ _ _ _ _ _ _ _ p q ⟨5000 * t.val + p.val, by omega⟩ _ ?_ ?_
    (fun k => blkMlp0X V c t p k _ rfl) (fun k => blkMlp0A V c t p k _ rfl)
  · show win0_7.index t (0 : Fin 2) * 5000 + 1 * p.val = 5000 * t.val + p.val; omega
  · show win0_7.index t (1 : Fin 2) * 64 + 1 * q.val = q.val; omega

/-- An index of the result array is in point t's block iff each coordinate is in the block's range on its axis. -/
theorem mem_blkMlp0 (t : Fin cfg0.N) (i : S50000x64.Idx) :
    i ∈ ((cfg0.win 7).blk t).view.set ↔ ∀ a : Fin 2, win0_7.index t a * S5000x64.size a ≤ (i a).val ∧ (i a).val < win0_7.index t a * S5000x64.size a + S5000x64.size a := by
  show i ∈ ((View.whole main_v17).slice (win0_7.rect t)).set ↔ _
  rw [View.set_slice_whole, Rect.mem_set_unit]
  exact Iff.rfl

set_option maxHeartbeats 200000 in
/-- Row r of the result array lies in the block of point r / 5000, and every point writes its block back. -/
theorem coverMlp0 (i : S50000x64.Idx) : ∃ t : Fin cfg0.N, (cfg0.win 7).flush t = true ∧ i ∈ ((cfg0.win 7).blk t).view.set := by
  have hi0 : (i 0).val < 50000 := (i 0).isLt
  have hi1 : (i 1).val < 64 := (i 1).isLt
  have ht : (i 0).val / 5000 < 10 := by omega
  refine ⟨⟨(i 0).val / 5000, ht⟩, Gen.flush0_7 _, ?_⟩
  rw [mem_blkMlp0]
  have e0 : win0_7.index ⟨(i 0).val / 5000, ht⟩ (0 : Fin 2) = (i 0).val / 5000 := (idxMlpOut0 ⟨(i 0).val / 5000, ht⟩).1
  have e1 : win0_7.index ⟨(i 0).val / 5000, ht⟩ (1 : Fin 2) = 0 := (idxMlpOut0 ⟨(i 0).val / 5000, ht⟩).2
  intro a
  match a with
  | ⟨0, _⟩ =>
    show win0_7.index ⟨(i 0).val / 5000, ht⟩ (0 : Fin 2) * 5000 ≤ (i 0).val ∧ (i 0).val < win0_7.index ⟨(i 0).val / 5000, ht⟩ (0 : Fin 2) * 5000 + 5000
    omega
  | ⟨1, _⟩ =>
    show win0_7.index ⟨(i 0).val / 5000, ht⟩ (1 : Fin 2) * 64 ≤ (i 1).val ∧ (i 1).val < win0_7.index ⟨(i 0).val / 5000, ht⟩ (1 : Fin 2) * 64 + 64
    omega

/-- The result array after the layer's region: the two rectified affine stages of (1 + ε)·x + agg of the arrays the
    region found. -/
theorem arr0 (c : Dev nD) :
    (Gen.dat0 (F := Ideal) V c).arrAt 7 cfg0.N
      = mlp ((V c main_v14 : S1x1.Idx → EReal) (ix2 (0 : Fin 1) (0 : Fin 1))) (V c main_arg0 : S50000x128.Idx → EReal) (V c main_v13 : S50000x128.Idx → EReal)
          (V c main_arg3 : S128x64.Idx → EReal) (rowOf (V c main_v15 : S1x64.Idx → EReal)) (V c main_arg5 : S64x64.Idx → EReal) (rowOf (V c main_v16 : S1x64.Idx → EReal)) :=
  (Gen.dat0 (F := Ideal) V c).arrAt_eq_of_cover 7 (GMlp0 V c) (fun t _ => flushedMlp0_eq V c t) coverMlp0

end Cert.KernelIdeal.RegionValue

end
-- ==== Proof.RegionPayBn.lean ====
/-
  The three normalisation regions: what each body stores, read at one entry of a block.

  The body loads a block of 5000 rows of h and four one-row operands (mean, variance, scale, shift) and stores
  max((h − mean) · rsqrt(var + 1e-5) · g + be, 0) for the block, the one-row operands laid along the rows. Read at
  (p, q) this is the specification's normalised entry of h(p, q) with column q of the four rows. The three regions run
  the same body; the three lemmas differ only in which printed body they open.
-/
import proofs.«179991_j80487687127440_1_alg».proof.Proof.Gen.KernelIdeal.Skeleton
import proofs.«179991_j80487687127440_1_alg».proof.Proof.LibRowBias
import proofs.«179991_j80487687127440_1_alg».proof.Proof.LibGinLayers
import Idealize.ShloMosaic.Lib.Pipeline.Value
import Idealize.ShloMosaic.Lib.ValueLayout

noncomputable section

namespace Cert.KernelIdeal.RegionValue

open Idealize.ShloMosaic Idealize.ShloMosaic.ValueIdx Idealize.ShloMosaic.TcCoe Idealize.SL.Sem
open Cert.KernelIdeal Cert.LibDenseLayers Cert.LibRowBias Cert.Gin
open scoped BigOperators

/-- The normalisation's stored value at row p, column q of a block: the entry minus the mean at q, times the inverse
    root of the variance at q plus the small constant, times the scale at q, plus the shift at q, rectified. The four
    one-row operands are laid along the rows, so only their column q is read. -/
theorem payBn1_apply (xv : Vec Ideal S1x64 .f32) (xh : Vec Ideal S5000x64 .f32) (xm xg xb : Vec Ideal S1x64 .f32)
    (p : Fin 5000) (q : Fin 64) :
    Gen.k1_pay1 (F := Ideal) xv xh xm xg xb (ix2 p q)
      = max (bnAt (xh (ix2 p q)) (rowOf xm (ix1 q)) (rowOf xv (ix1 q)) (rowOf xg (ix1 q)) (rowOf xb (ix1 q)))
          (Ideal.ofBits .f32 0x00000000#32) := by
  unfold Gen.k1_pay1
  simp only [shapeCast_self]
  simp only [maximumf_apply, addf_apply, mulf_apply, subf_apply, broadcast_apply, broadcastTo_1b_ab_apply]
  rfl

/-- The normalisation's stored value at row p, column q of a block: the entry minus the mean at q, times the inverse
    root of the variance at q plus the small constant, times the scale at q, plus the shift at q, rectified. The four
    one-row operands are laid along the rows, so only their column q is read. -/
theorem payBn3_apply (xv : Vec Ideal S1x64 .f32) (xh : Vec Ideal S5000x64 .f32) (xm xg xb : Vec Ideal S1x64 .f32)
    (p : Fin 5000) (q : Fin 64) :
    Gen.k3_pay1 (F := Ideal) xv xh xm xg xb (ix2 p q)
      = max (bnAt (xh (ix2 p q)) (rowOf xm (ix1 q)) (rowOf xv (ix1 q)) (rowOf xg (ix1 q)) (rowOf xb (ix1 q)))
          (Ideal.ofBits .f32 0x00000000#32) := by
  unfold Gen.k3_pay1
  simp only [shapeCast_self]
  simp only [maximumf_apply, addf_apply, mulf_apply, subf_apply, broadcast_apply, broadcastTo_1b_ab_apply]
  rfl

/-- The normalisation's stored value at row p, column q of a block: the entry minus the mean at q, times the inverse
    root of the variance at q plus the small constant, times the scale at q, plus the shift at q, rectified. The four
    one-row operands are laid along the rows, so only their column q is read. -/
theorem payBn5_apply (xv : Vec Ideal S1x64 .f32) (xh : Vec Ideal S5000x64 .f32) (xm xg xb : Vec Ideal S1x64 .f32)
    (p : Fin 5000) (q : Fin 64) :
    Gen.k5_pay1 (F := Ideal) xv xh xm xg xb (ix2 p q)
      = max (bnAt (xh (ix2 p q)) (rowOf xm (ix1 q)) (rowOf xv (ix1 q)) (rowOf xg (ix1 q)) (rowOf xb (ix1 q)))
          (Ideal.ofBits .f32 0x00000000#32) := by
  unfold Gen.k5_pay1
  simp only [shapeCast_self]
  simp only [maximumf_apply, addf_apply, mulf_apply, subf_apply, broadcast_apply, broadcastTo_1b_ab_apply]
  rfl

end Cert.KernelIdeal.RegionValue

end
-- ==== Proof.RegionArr1.lean ====
/-
  Region 1 of the kernel's program as ONE function of whole arrays: the first column-wise normalisation, scaled, shifted and rectified.

  The region runs its body on ten grid points; point t reads rows 5000·t … 5000·t + 4999 of the row-tiled operands
  and the whole of every other operand, and writes rows 5000·t … 5000·t + 4999 of the result. Whatever the buffers
  hold when the region is entered (V), the result array afterwards is the specification's function of those contents:
  what point t writes back is block t of that function (the body's entry (p, q) reads row p of its row-tiled blocks
  only, and row p of block t is row 5000·t + p of the array), and the ten blocks cover the result array (row r lies in
  block r / 5000).
-/
import proofs.«179991_j80487687127440_1_alg».proof.Proof.Gen.KernelIdeal.Frame
import proofs.«179991_j80487687127440_1_alg».proof.Proof.RegionRows
import proofs.«179991_j80487687127440_1_alg».proof.Proof.RegionPayBn
import Idealize.ShloMosaic.Lib.Pipeline.Value

noncomputable section

namespace Cert.KernelIdeal.RegionValue

open Idealize.ShloMosaic Idealize.ShloMosaic.ValueIdx Idealize.ShloMosaic.TcCoe Idealize.SL.Sem
open Cert.KernelIdeal Cert.LibDenseLayers Cert.LibRowBias Cert.Gin
open scoped BigOperators
open Idealize.ShloMosaic.Pipeline (Dat)

-- the buffer contents when the region is entered: any contents
variable (V : (c : Dev nD) → (b : Ref sig .tc) → Buf (Elt Ideal) ((c : Thread nD τ).loc b))

/-- The whole array the normalisation leaves: every column of h normalised with the given mean and variance rows,
    scaled, shifted and rectified. -/
abbrev GBn1 (c : Dev nD) : S50000x64.Idx → EReal :=
  bnrelu (V c main_v17 : S50000x64.Idx → EReal) (rowOf (V c main_v22 : S1x64.Idx → EReal)) (rowOf (V c main_v23 : S1x64.Idx → EReal))
    (rowOf (V c main_v24 : S1x64.Idx → EReal)) (rowOf (V c main_v25 : S1x64.Idx → EReal))

/-- The index maps over the ten grid points: the row blocks of h and of the result move with the point, the four
    one-row windows stay at block (0, 0). -/
theorem idxBn1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0 :=
  (by decide +kernel : ∀ t : Fin grid1.N, _)

set_option maxHeartbeats 100000 in
/-- The mean's window is the whole one-row mean at every point. -/
theorem blkBn1M (c : Dev nD) (t : Fin cfg1.N) : (Gen.iblk1 V c 1 t : S1x64.Idx → EReal) = V c main_v22 := by
  have e := idxBn1 t
  funext y
  show V c main_v22 (((cfg1.win 1).blk t).view.emb y) = V c main_v22 y
  refine congrArg _ (funext fun a => Fin.ext ?_)
  match a with
  | ⟨0, _⟩ => show win1_1.index t (0 : Fin 2) * 1 + 1 * (y 0).val = (y 0).val; omega
  | ⟨1, _⟩ => show win1_1.index t (1 : Fin 2) * 64 + 1 * (y 1).val = (y 1).val; omega

set_option maxHeartbeats 100000 in
/-- The variance's window is the whole one-row variance at every point. -/
theorem blkBn1V (c : Dev nD) (t : Fin cfg1.N) : (Gen.iblk1 V c 2 t : S1x64.Idx → EReal) = V c main_v23 := by
  have e := idxBn1 t
  funext y
  show V c main_v23 (((cfg1.win 2).blk t).view.emb y) = V c main_v23 y
  refine congrArg _ (funext fun a => Fin.ext ?_)
  match a with
  | ⟨0, _⟩ => show win1_2.index t (0 : Fin 2) * 1 + 1 * (y 0).val = (y 0).val; omega
  | ⟨1, _⟩ => show win1_2.index t (1 : Fin 2) * 64 + 1 * (y 1).val = (y 1).val; omega

set_option maxHeartbeats 100000 in
/-- The scale's window is the whole one-row scale at every point. -/
theorem blkBn1G (c : Dev nD) (t : Fin cfg1.N) : (Gen.iblk1 V c 3 t : S1x64.Idx → EReal) = V c main_v24 := by
  have e := idxBn1 t
  funext y
  show V c main_v24 (((cfg1.win 3).blk t).view.emb y) = V c main_v24 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 64 + 1 * (y 1).val = (y 1).val; omega

set_option maxHeartbeats 100000 in
/-- The shift's window is the whole one-row shift at every point. -/
theorem blkBn1B (c : Dev nD) (t : Fin cfg1.N) : (Gen.iblk1 V c 4 t : S1x64.Idx → EReal) = V c main_v25 := by
  have e := idxBn1 t
  funext y
  show V c main_v25 (((cfg1.win 4).blk t).view.emb y) = V c main_v25 y
  refine congrArg _ (funext fun a => Fin.ext ?_)
  match a with
  | ⟨0, _⟩ => show win1_4.index t (0 : Fin 2) * 1 + 1 * (y 0).val = (y 0).val; omega
  | ⟨1, _⟩ => show win1_4.index t (1 : Fin 2) * 64 + 1 * (y 1).val = (y 1).val; omega

set_option maxHeartbeats 100000 in
/-- Row p of h's block at point t is row 5000·t + p of h. -/
theorem blkBn1H (c : Dev nD) (t : Fin cfg1.N) (p : Fin 5000) (k : Fin 64) (p' : Fin 50000) (hp : p'.val = 5000 * t.val + p.val) :
    (Gen.iblk1 V c 0 t : S5000x64.Idx → EReal) (ix2 p k) = (V c main_v17 : S50000x64.Idx → EReal) (ix2 p' k) := by
  have e := idxBn1 t
  show V c main_v17 (((cfg1.win 0).blk t).view.emb (ix2 p k)) = V c main_v17 (ix2 p' k)
  refine congrArg _ (funext fun a => Fin.ext ?_)
  match a with
  | ⟨0, _⟩ => show win1_0.index t (0 : Fin 2) * 5000 + 1 * p.val = p'.val; omega
  | ⟨1, _⟩ => show win1_0.index t (1 : Fin 2) * 64 + 1 * k.val = k.val; omega

set_option maxHeartbeats 200000 in
/-- What point t writes back is block t of the whole normalised array. -/
theorem flushedBn1_eq (c : Dev nD) (t : Fin cfg1.N) :
    (Gen.dat1 (F := Ideal) V c).flushed 5 t = ((cfg1.win 5).blk t).view.read (Elt Ideal) (GBn1 V c) := by
  show (cfg1.win 5).cut (grid1.coords t) ((Gen.dat1 (F := Ideal) V c).after 5 t) = _
  rw [Gen.after1_5]
  unfold Gen.out1_5
  rw [View.canon_unit_zero hz]
  simp only [View.ld_unit_zero (S := S5000x64) hz, View.ld_unit_zero (S := S1x64) hz]
  have e := idxBn1 t
  have ht : t.val < 10 := t.isLt
  funext j
  obtain ⟨p, q, rfl⟩ : ∃ (p : Fin 5000) (q : Fin 64), j = ix2 p q := ⟨j 0, j 1, eq_ix2 j⟩
  show Gen.k1_pay1 (F := Ideal) (Gen.iblk1 V c 2 t) (Gen.iblk1 V c 0 t) (Gen.iblk1 V c 1 t) (Gen.iblk1 V c 3 t) (Gen.iblk1 V c 4 t) (ix2 p q)
      = GBn1 V c (((cfg1.win 5).blk t).view.emb (ix2 p q))
  refine (payBn1_apply (Gen.iblk1 V c 2 t) (Gen.iblk1 V c 0 t) (Gen.iblk1 V c 1 t) (Gen.iblk1 V c 3 t) (Gen.iblk1 V c 4 t) p q).trans ?_
  rw [blkBn1M V c t, blkBn1V V c t, blkBn1G V c t, blkBn1B V c t]
  refine bnrelu_at_block _ _ _ _ _ _ p q ⟨5000 * t.val + p.val, by omega⟩ _ ?_ ?_ (blkBn1H V c t p q _ rfl)
  · show win1_5.index t (0 : Fin 2) * 5000 + 1 * p.val = 5000 * t.val + p.val; omega
  · show win1_5.index t (1 : Fin 2) * 64 + 1 * q.val = q.val; omega

/-- An index of the result array is in point t's block iff each coordinate is in the block's range on its axis. -/
theorem mem_blkBn1 (t : Fin cfg1.N) (i : S50000x64.Idx) :
    i ∈ ((cfg1.win 5).blk t).view.set ↔ ∀ a : Fin 2, win1_5.index t a * S5000x64.size a ≤ (i a).val ∧ (i a).val < win1_5.index t a * S5000x64.size a + S5000x64.size a := by
  show i ∈ ((View.whole main_v26).slice (win1_5.rect t)).set ↔ _
  rw [View.set_slice_whole, Rect.mem_set_unit]
  exact Iff.rfl

set_option maxHeartbeats 200000 in
/-- Row r of the result array lies in the block of point r / 5000, and every point writes its block back. -/
theorem coverBn1 (i : S50000x64.Idx) : ∃ t : Fin cfg1.N, (cfg1.win 5).flush t = true ∧ i ∈ ((cfg1.win 5).blk t).view.set := by
  have hi0 : (i 0).val < 50000 := (i 0).isLt
  have hi1 : (i 1).val < 64 := (i 1).isLt
  have ht : (i 0).val / 5000 < 10 := by omega
  refine ⟨⟨(i 0).val / 5000, ht⟩, Gen.flush1_5 _, ?_⟩
  rw [mem_blkBn1]
  have e := idxBn1 ⟨(i 0).val / 5000, ht⟩
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    rw [e.2.2.2.2.2.2.2.2.2.2.1]; show (i 0).val / 5000 * 5000 ≤ (i 0).val ∧ (i 0).val < (i 0).val / 5000 * 5000 + 5000; omega
  | ⟨1, _⟩ =>
    show win1_5.index ⟨(i 0).val / 5000, ht⟩ (1 : Fin 2) * 64 ≤ (i 1).val ∧ (i 1).val < win1_5.index ⟨(i 0).val / 5000, ht⟩ (1 : Fin 2) * 64 + 64
    rw [e.2.2.2.2.2.2.2.2.2.2.2]; omega

/-- The result array after the normalisation region: the normalised, rectified h of the arrays the region found. -/
theorem arr1 (c : Dev nD) :
    (Gen.dat1 (F := Ideal) V c).arrAt 5 cfg1.N
      = bnrelu (V c main_v17 : S50000x64.Idx → EReal) (rowOf (V c main_v22 : S1x64.Idx → EReal)) (rowOf (V c main_v23 : S1x64.Idx → EReal))
          (rowOf (V c main_v24 : S1x64.Idx → EReal)) (rowOf (V c main_v25 : S1x64.Idx → EReal)) :=
  (Gen.dat1 (F := Ideal) V c).arrAt_eq_of_cover 5 (GBn1 V c) (fun t _ => flushedBn1_eq V c t) coverBn1

end Cert.KernelIdeal.RegionValue

end
-- ==== Proof.RegionArr2.lean ====
/-
  Region 2 of the kernel's program as ONE function of whole arrays: the second layer's two rectified affine stages of (1 + ε)·x + agg, 64 input columns.

  The region runs its body on ten grid points; point t reads rows 5000·t … 5000·t + 4999 of the row-tiled operands
  and the whole of every other operand, and writes rows 5000·t … 5000·t + 4999 of the result. Whatever the buffers
  hold when the region is entered (V), the result array afterwards is the specification's function of those contents:
  what point t writes back is block t of that function (the body's entry (p, q) reads row p of its row-tiled blocks
  only, and row p of block t is row 5000·t + p of the array), and the ten blocks cover the result array (row r lies in
  block r / 5000).
-/
import proofs.«179991_j80487687127440_1_alg».proof.Proof.Gen.KernelIdeal.Frame
import proofs.«179991_j80487687127440_1_alg».proof.Proof.RegionRows
import proofs.«179991_j80487687127440_1_alg».proof.Proof.RegionPayMlp
import Idealize.ShloMosaic.Lib.Pipeline.Value

noncomputable section

namespace Cert.KernelIdeal.RegionValue

open Idealize.ShloMosaic Idealize.ShloMosaic.ValueIdx Idealize.ShloMosaic.TcCoe Idealize.SL.Sem
open Cert.KernelIdeal Cert.LibDenseLayers Cert.LibRowBias Cert.Gin
open scoped BigOperators
open Idealize.ShloMosaic.Pipeline (Dat)

-- the buffer contents when the region is entered: any contents
variable (V : (c : Dev nD) → (b : Ref sig .tc) → Buf (Elt Ideal) ((c : Thread nD τ).loc b))

/-- The whole array the layer leaves: the two rectified affine stages of (1 + ε)·x + agg. -/
abbrev GMlp2 (c : Dev nD) : S50000x64.Idx → EReal :=
  mlp ((V c main_v37 : S1x1.Idx → EReal) (ix2 (0 : Fin 1) (0 : Fin 1))) (V c main_v26 : S50000x64.Idx → EReal) (V c main_v36 : S50000x64.Idx → EReal)
    (V c main_arg10 : S64x64.Idx → EReal) (rowOf (V c main_v38 : S1x64.Idx → EReal)) (V c main_arg12 : S64x64.Idx → EReal) (rowOf (V c main_v39 : S1x64.Idx → EReal))

/-- The index maps over the ten grid points: the row blocks of x, of agg and of the result move with the point, the
    other five windows stay at block (0, 0). -/
theorem idxMlp2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0 :=
  (by decide +kernel : ∀ t : Fin grid2.N, _)

/-- The result's row block moves with the point. -/
theorem idxMlpOut2 : ∀ t : Fin cfg2.N, win2_7.index t (0 : Fin 2) = t.val ∧ win2_7.index t (1 : Fin 2) = 0 :=
  (by decide +kernel : ∀ t : Fin grid2.N, _)

set_option maxHeartbeats 100000 in
/-- The ε window is the whole one-by-one ε at every point. -/
theorem blkMlp2E (c : Dev nD) (t : Fin cfg2.N) : (Gen.iblk2 V c 2 t : S1x1.Idx → EReal) = V c main_v37 := by
  have e := idxMlp2 t
  funext y
  show V c main_v37 (((cfg2.win 2).blk t).view.emb y) = V c main_v37 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 1 + 1 * (y 1).val = (y 1).val; omega

set_option maxHeartbeats 100000 in
/-- The first weights' window is the whole matrix at every point. -/
theorem blkMlp2Wa (c : Dev nD) (t : Fin cfg2.N) : (Gen.iblk2 V c 3 t : S64x64.Idx → EReal) = V c main_arg10 := by
  have e := idxMlp2 t
  funext y
  show V c main_arg10 (((cfg2.win 3).blk t).view.emb y) = V c main_arg10 y
  refine congrArg _ (funext fun a => Fin.ext ?_)
  match a with
  | ⟨0, _⟩ => show win2_3.index t (0 : Fin 2) * 64 + 1 * (y 0).val = (y 0).val; omega
  | ⟨1, _⟩ => show win2_3.index t (1 : Fin 2) * 64 + 1 * (y 1).val = (y 1).val; omega

set_option maxHeartbeats 100000 in
/-- The first bias window is the whole one-row bias at every point. -/
theorem blkMlp2Ba (c : Dev nD) (t : Fin cfg2.N) : (Gen.iblk2 V c 4 t : S1x64.Idx → EReal) = V c main_v38 := by
  have e := idxMlp2 t
  funext y
  show V c main_v38 (((cfg2.win 4).blk t).view.emb y) = V c main_v38 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 64 + 1 * (y 1).val = (y 1).val; omega

set_option maxHeartbeats 100000 in
/-- The second weights' window is the whole matrix at every point. -/
theorem blkMlp2Wb (c : Dev nD) (t : Fin cfg2.N) : (Gen.iblk2 V c 5 t : S64x64.Idx → EReal) = V c main_arg12 := by
  have e := idxMlp2 t
  funext y
  show V c main_arg12 (((cfg2.win 5).blk t).view.emb y) = V c main_arg12 y
  refine congrArg _ (funext fun a => Fin.ext ?_)
  match a with
  | ⟨0, _⟩ => show win2_5.index t (0 : Fin 2) * 64 + 1 * (y 0).val = (y 0).val; omega
  | ⟨1, _⟩ => show win2_5.index t (1 : Fin 2) * 64 + 1 * (y 1).val = (y 1).val; omega

set_option maxHeartbeats 100000 in
/-- The second bias window is the whole one-row bias at every point. -/
theorem blkMlp2Bb (c : Dev nD) (t : Fin cfg2.N) : (Gen.iblk2 V c 6 t : S1x64.Idx → EReal) = V c main_v39 := by
  have e := idxMlp2 t
  funext y
  show V c main_v39 (((cfg2.win 6).blk t).view.emb y) = V c main_v39 y
  refine congrArg _ (funext fun a => Fin.ext ?_)
  match a with
  | ⟨0, _⟩ => show win2_6.index t (0 : Fin 2) * 1 + 1 * (y 0).val = (y 0).val; omega
  | ⟨1, _⟩ => show win2_6.index t (1 : Fin 2) * 64 + 1 * (y 1).val = (y 1).val; omega

set_option maxHeartbeats 100000 in
/-- Row p of x's block at point t is row 5000·t + p of x. -/
theorem blkMlp2X (c : Dev nD) (t : Fin cfg2.N) (p : Fin 5000) (k : Fin 64) (p' : Fin 50000) (hp : p'.val = 5000 * t.val + p.val) :
    (Gen.iblk2 V c 0 t : S5000x64.Idx → EReal) (ix2 p k) = (V c main_v26 : S50000x64.Idx → EReal) (ix2 p' k) := by
  have e := idxMlp2 t
  show V c main_v26 (((cfg2.win 0).blk t).view.emb (ix2 p k)) = V c main_v26 (ix2 p' k)
  refine congrArg _ (funext fun a => Fin.ext ?_)
  match a with
  | ⟨0, _⟩ => show win2_0.index t (0 : Fin 2) * 5000 + 1 * p.val = p'.val; omega
  | ⟨1, _⟩ => show win2_0.index t (1 : Fin 2) * 64 + 1 * k.val = k.val; omega

set_option maxHeartbeats 100000 in
/-- Row p of agg's block at point t is row 5000·t + p of agg. -/
theorem blkMlp2A (c : Dev nD) (t : Fin cfg2.N) (p : Fin 5000) (k : Fin 64) (p' : Fin 50000) (hp : p'.val = 5000 * t.val + p.val) :
    (Gen.iblk2 V c 1 t : S5000x64.Idx → EReal) (ix2 p k) = (V c main_v36 : S50000x64.Idx → EReal) (ix2 p' k) := by
  have e := idxMlp2 t
  show V c main_v36 (((cfg2.win 1).blk t).view.emb (ix2 p k)) = V c main_v36 (ix2 p' k)
  refine congrArg _ (funext fun a => Fin.ext ?_)
  match a with
  | ⟨0, _⟩ => show win2_1.index t (0 : Fin 2) * 5000 + 1 * p.val = p'.val; omega
  | ⟨1, _⟩ => show win2_1.index t (1 : Fin 2) * 64 + 1 * k.val = k.val; omega

set_option maxHeartbeats 400000 in
/-- What point t writes back is block t of the whole layer's array. -/
theorem flushedMlp2_eq (c : Dev nD) (t : Fin cfg2.N) :
    (Gen.dat2 (F := Ideal) V c).flushed 7 t = ((cfg2.win 7).blk t).view.read (Elt Ideal) (GMlp2 V c) := by
  show (cfg2.win 7).cut (grid2.coords t) ((Gen.dat2 (F := Ideal) V c).after 7 t) = _
  rw [Gen.after2_7]
  unfold Gen.out2_7
  rw [View.canon_unit_zero hz]
  simp only [View.ld_unit_zero (S := S5000x64) hz, View.ld_unit_zero (S := S1x1) hz, View.ld_unit_zero (S := S64x64) hz,
    View.ld_unit_zero (S := S1x64) hz, View.ld_unit_zero (S := S64x64) hz]
  obtain ⟨e14, e15⟩ := idxMlpOut2 t
  have ht : t.val < 10 := t.isLt
  funext j
  obtain ⟨p, q, rfl⟩ : ∃ (p : Fin 5000) (q : Fin 64), j = ix2 p q := ⟨j 0, j 1, eq_ix2 j⟩
  show Gen.k2_pay1 (F := Ideal) (Gen.iblk2 V c 2 t) (Gen.iblk2 V c 0 t) (Gen.iblk2 V c 1 t) (Gen.iblk2 V c 3 t)
        (Gen.iblk2 V c 4 t) (Gen.iblk2 V c 5 t) (Gen.iblk2 V c 6 t) (ix2 p q)
      = GMlp2 V c (((cfg2.win 7).blk t).view.emb (ix2 p q))
  refine (payMlp2_apply (Gen.iblk2 V c 2 t) (Gen.iblk2 V c 0 t) (Gen.iblk2 V c 1 t) (Gen.iblk2 V c 3 t)
    (Gen.iblk2 V c 4 t) (Gen.iblk2 V c 5 t) (Gen.iblk2 V c 6 t) p q).trans ?_
  rw [blkMlp2E V c t, blkMlp2Wa V c t, blkMlp2Ba V c t, blkMlp2Wb V c t, blkMlp2Bb V c t]
  refine mlp_at_block _ _ _ _ _ _ _ _ _ p q ⟨5000 * t.val + p.val, by omega⟩ _ ?_ ?_
    (fun k => blkMlp2X V c t p k _ rfl) (fun k => blkMlp2A V c t p k _ rfl)
  · show win2_7.index t (0 : Fin 2) * 5000 + 1 * p.val = 5000 * t.val + p.val; omega
  · show win2_7.index t (1 : Fin 2) * 64 + 1 * q.val = q.val; omega

/-- An index of the result array is in point t's block iff each coordinate is in the block's range on its axis. -/
theorem mem_blkMlp2 (t : Fin cfg2.N) (i : S50000x64.Idx) :
    i ∈ ((cfg2.win 7).blk t).view.set ↔ ∀ a : Fin 2, win2_7.index t a * S5000x64.size a ≤ (i a).val ∧ (i a).val < win2_7.index t a * S5000x64.size a + S5000x64.size a := by
  show i ∈ ((View.whole main_v40).slice (win2_7.rect t)).set ↔ _
  rw [View.set_slice_whole, Rect.mem_set_unit]
  exact Iff.rfl

set_option maxHeartbeats 200000 in
/-- Row r of the result array lies in the block of point r / 5000, and every point writes its block back. -/
theorem coverMlp2 (i : S50000x64.Idx) : ∃ t : Fin cfg2.N, (cfg2.win 7).flush t = true ∧ i ∈ ((cfg2.win 7).blk t).view.set := by
  have hi0 : (i 0).val < 50000 := (i 0).isLt
  have hi1 : (i 1).val < 64 := (i 1).isLt
  have ht : (i 0).val / 5000 < 10 := by omega
  refine ⟨⟨(i 0).val / 5000, ht⟩, Gen.flush2_7 _, ?_⟩
  rw [mem_blkMlp2]
  have e0 : win2_7.index ⟨(i 0).val / 5000, ht⟩ (0 : Fin 2) = (i 0).val / 5000 := (idxMlpOut2 ⟨(i 0).val / 5000, ht⟩).1
  have e1 : win2_7.index ⟨(i 0).val / 5000, ht⟩ (1 : Fin 2) = 0 := (idxMlpOut2 ⟨(i 0).val / 5000, ht⟩).2
  intro a
  match a with
  | ⟨0, _⟩ =>
    show win2_7.index ⟨(i 0).val / 5000, ht⟩ (0 : Fin 2) * 5000 ≤ (i 0).val ∧ (i 0).val < win2_7.index ⟨(i 0).val / 5000, ht⟩ (0 : Fin 2) * 5000 + 5000
    omega
  | ⟨1, _⟩ =>
    show win2_7.index ⟨(i 0).val / 5000, ht⟩ (1 : Fin 2) * 64 ≤ (i 1).val ∧ (i 1).val < win2_7.index ⟨(i 0).val / 5000, ht⟩ (1 : Fin 2) * 64 + 64
    omega

/-- The result array after the layer's region: the two rectified affine stages of (1 + ε)·x + agg of the arrays the
    region found. -/
theorem arr2 (c : Dev nD) :
    (Gen.dat2 (F := Ideal) V c).arrAt 7 cfg2.N
      = mlp ((V c main_v37 : S1x1.Idx → EReal) (ix2 (0 : Fin 1) (0 : Fin 1))) (V c main_v26 : S50000x64.Idx → EReal) (V c main_v36 : S50000x64.Idx → EReal)
          (V c main_arg10 : S64x64.Idx → EReal) (rowOf (V c main_v38 : S1x64.Idx → EReal)) (V c main_arg12 : S64x64.Idx → EReal) (rowOf (V c main_v39 : S1x64.Idx → EReal)) :=
  (Gen.dat2 (F := Ideal) V c).arrAt_eq_of_cover 7 (GMlp2 V c) (fun t _ => flushedMlp2_eq V c t) coverMlp2

end Cert.KernelIdeal.RegionValue

end
-- ==== Proof.RegionArr3.lean ====
/-
  Region 3 of the kernel's program as ONE function of whole arrays: the second column-wise normalisation, scaled, shifted and rectified.

  The region runs its body on ten grid points; point t reads rows 5000·t … 5000·t + 4999 of the row-tiled operands
  and the whole of every other operand, and writes rows 5000·t … 5000·t + 4999 of the result. Whatever the buffers
  hold when the region is entered (V), the result array afterwards is the specification's function of those contents:
  what point t writes back is block t of that function (the body's entry (p, q) reads row p of its row-tiled blocks
  only, and row p of block t is row 5000·t + p of the array), and the ten blocks cover the result array (row r lies in
  block r / 5000).
-/
import proofs.«179991_j80487687127440_1_alg».proof.Proof.Gen.KernelIdeal.Frame
import proofs.«179991_j80487687127440_1_alg».proof.Proof.RegionRows
import proofs.«179991_j80487687127440_1_alg».proof.Proof.RegionPayBn
import Idealize.ShloMosaic.Lib.Pipeline.Value

noncomputable section

namespace Cert.KernelIdeal.RegionValue

open Idealize.ShloMosaic Idealize.ShloMosaic.ValueIdx Idealize.ShloMosaic.TcCoe Idealize.SL.Sem
open Cert.KernelIdeal Cert.LibDenseLayers Cert.LibRowBias Cert.Gin
open scoped BigOperators
open Idealize.ShloMosaic.Pipeline (Dat)

-- the buffer contents when the region is entered: any contents
variable (V : (c : Dev nD) → (b : Ref sig .tc) → Buf (Elt Ideal) ((c : Thread nD τ).loc b))

/-- The whole array the normalisation leaves: every column of h normalised with the given mean and variance rows,
    scaled, shifted and rectified. -/
abbrev GBn3 (c : Dev nD) : S50000x64.Idx → EReal :=
  bnrelu (V c main_v40 : S50000x64.Idx → EReal) (rowOf (V c main_v45 : S1x64.Idx → EReal)) (rowOf (V c main_v46 : S1x64.Idx → EReal))
    (rowOf (V c main_v47 : S1x64.Idx → EReal)) (rowOf (V c main_v48 : S1x64.Idx → EReal))

/-- The index maps over the ten grid points: the row blocks of h and of the result move with the point, the four
    one-row windows stay at block (0, 0). -/
theorem idxBn3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

set_option maxHeartbeats 100000 in
/-- The mean's window is the whole one-row mean at every point. -/
theorem blkBn3M (c : Dev nD) (t : Fin cfg3.N) : (Gen.iblk3 V c 1 t : S1x64.Idx → EReal) = V c main_v45 := by
  have e := idxBn3 t
  funext y
  show V c main_v45 (((cfg3.win 1).blk t).view.emb y) = V c main_v45 y
  refine congrArg _ (funext fun a => Fin.ext ?_)
  match a with
  | ⟨0, _⟩ => show win3_1.index t (0 : Fin 2) * 1 + 1 * (y 0).val = (y 0).val; omega
  | ⟨1, _⟩ => show win3_1.index t (1 : Fin 2) * 64 + 1 * (y 1).val = (y 1).val; omega

set_option maxHeartbeats 100000 in
/-- The variance's window is the whole one-row variance at every point. -/
theorem blkBn3V (c : Dev nD) (t : Fin cfg3.N) : (Gen.iblk3 V c 2 t : S1x64.Idx → EReal) = V c main_v46 := by
  have e := idxBn3 t
  funext y
  show V c main_v46 (((cfg3.win 2).blk t).view.emb y) = V c main_v46 y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 64 + 1 * (y 1).val = (y 1).val; omega

set_option maxHeartbeats 100000 in
/-- The scale's window is the whole one-row scale at every point. -/
theorem blkBn3G (c : Dev nD) (t : Fin cfg3.N) : (Gen.iblk3 V c 3 t : S1x64.Idx → EReal) = V c main_v47 := by
  have e := idxBn3 t
  funext y
  show V c main_v47 (((cfg3.win 3).blk t).view.emb y) = V c main_v47 y
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 64 + 1 * (y 1).val = (y 1).val; omega

set_option maxHeartbeats 100000 in
/-- The shift's window is the whole one-row shift at every point. -/
theorem blkBn3B (c : Dev nD) (t : Fin cfg3.N) : (Gen.iblk3 V c 4 t : S1x64.Idx → EReal) = V c main_v48 := by
  have e := idxBn3 t
  funext y
  show V c main_v48 (((cfg3.win 4).blk t).view.emb y) = V c main_v48 y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 64 + 1 * (y 1).val = (y 1).val; omega

set_option maxHeartbeats 100000 in
/-- Row p of h's block at point t is row 5000·t + p of h. -/
theorem blkBn3H (c : Dev nD) (t : Fin cfg3.N) (p : Fin 5000) (k : Fin 64) (p' : Fin 50000) (hp : p'.val = 5000 * t.val + p.val) :
    (Gen.iblk3 V c 0 t : S5000x64.Idx → EReal) (ix2 p k) = (V c main_v40 : S50000x64.Idx → EReal) (ix2 p' k) := by
  have e := idxBn3 t
  show V c main_v40 (((cfg3.win 0).blk t).view.emb (ix2 p k)) = V c main_v40 (ix2 p' k)
  refine congrArg _ (funext fun a => Fin.ext ?_)
  match a with
  | ⟨0, _⟩ => show win3_0.index t (0 : Fin 2) * 5000 + 1 * p.val = p'.val; omega
  | ⟨1, _⟩ => show win3_0.index t (1 : Fin 2) * 64 + 1 * k.val = k.val; omega

set_option maxHeartbeats 200000 in
/-- What point t writes back is block t of the whole normalised array. -/
theorem flushedBn3_eq (c : Dev nD) (t : Fin cfg3.N) :
    (Gen.dat3 (F := Ideal) V c).flushed 5 t = ((cfg3.win 5).blk t).view.read (Elt Ideal) (GBn3 V c) := by
  show (cfg3.win 5).cut (grid3.coords t) ((Gen.dat3 (F := Ideal) V c).after 5 t) = _
  rw [Gen.after3_5]
  unfold Gen.out3_5
  rw [View.canon_unit_zero hz]
  simp only [View.ld_unit_zero (S := S5000x64) hz, View.ld_unit_zero (S := S1x64) hz]
  have e := idxBn3 t
  have ht : t.val < 10 := t.isLt
  funext j
  obtain ⟨p, q, rfl⟩ : ∃ (p : Fin 5000) (q : Fin 64), j = ix2 p q := ⟨j 0, j 1, eq_ix2 j⟩
  show Gen.k3_pay1 (F := Ideal) (Gen.iblk3 V c 2 t) (Gen.iblk3 V c 0 t) (Gen.iblk3 V c 1 t) (Gen.iblk3 V c 3 t) (Gen.iblk3 V c 4 t) (ix2 p q)
      = GBn3 V c (((cfg3.win 5).blk t).view.emb (ix2 p q))
  refine (payBn3_apply (Gen.iblk3 V c 2 t) (Gen.iblk3 V c 0 t) (Gen.iblk3 V c 1 t) (Gen.iblk3 V c 3 t) (Gen.iblk3 V c 4 t) p q).trans ?_
  rw [blkBn3M V c t, blkBn3V V c t, blkBn3G V c t, blkBn3B V c t]
  refine bnrelu_at_block _ _ _ _ _ _ p q ⟨5000 * t.val + p.val, by omega⟩ _ ?_ ?_ (blkBn3H V c t p q _ rfl)
  · show win3_5.index t (0 : Fin 2) * 5000 + 1 * p.val = 5000 * t.val + p.val; omega
  · show win3_5.index t (1 : Fin 2) * 64 + 1 * q.val = q.val; omega

/-- An index of the result array is in point t's block iff each coordinate is in the block's range on its axis. -/
theorem mem_blkBn3 (t : Fin cfg3.N) (i : S50000x64.Idx) :
    i ∈ ((cfg3.win 5).blk t).view.set ↔ ∀ a : Fin 2, win3_5.index t a * S5000x64.size a ≤ (i a).val ∧ (i a).val < win3_5.index t a * S5000x64.size a + S5000x64.size a := by
  show i ∈ ((View.whole main_v49).slice (win3_5.rect t)).set ↔ _
  rw [View.set_slice_whole, Rect.mem_set_unit]
  exact Iff.rfl

set_option maxHeartbeats 200000 in
/-- Row r of the result array lies in the block of point r / 5000, and every point writes its block back. -/
theorem coverBn3 (i : S50000x64.Idx) : ∃ t : Fin cfg3.N, (cfg3.win 5).flush t = true ∧ i ∈ ((cfg3.win 5).blk t).view.set := by
  have hi0 : (i 0).val < 50000 := (i 0).isLt
  have hi1 : (i 1).val < 64 := (i 1).isLt
  have ht : (i 0).val / 5000 < 10 := by omega
  refine ⟨⟨(i 0).val / 5000, ht⟩, Gen.flush3_5 _, ?_⟩
  rw [mem_blkBn3]
  have e := idxBn3 ⟨(i 0).val / 5000, ht⟩
  intro a
  match a with
  | ⟨0, _⟩ =>
    show win3_5.index ⟨(i 0).val / 5000, ht⟩ (0 : Fin 2) * 5000 ≤ (i 0).val ∧ (i 0).val < win3_5.index ⟨(i 0).val / 5000, ht⟩ (0 : Fin 2) * 5000 + 5000
    rw [e.2.2.2.2.2.2.2.2.2.2.1]; show (i 0).val / 5000 * 5000 ≤ (i 0).val ∧ (i 0).val < (i 0).val / 5000 * 5000 + 5000; omega
  | ⟨1, _⟩ =>
    show win3_5.index ⟨(i 0).val / 5000, ht⟩ (1 : Fin 2) * 64 ≤ (i 1).val ∧ (i 1).val < win3_5.index ⟨(i 0).val / 5000, ht⟩ (1 : Fin 2) * 64 + 64
    rw [e.2.2.2.2.2.2.2.2.2.2.2]; omega

/-- The result array after the normalisation region: the normalised, rectified h of the arrays the region found. -/
theorem arr3 (c : Dev nD) :
    (Gen.dat3 (F := Ideal) V c).arrAt 5 cfg3.N
      = bnrelu (V c main_v40 : S50000x64.Idx → EReal) (rowOf (V c main_v45 : S1x64.Idx → EReal)) (rowOf (V c main_v46 : S1x64.Idx → EReal))
          (rowOf (V c main_v47 : S1x64.Idx → EReal)) (rowOf (V c main_v48 : S1x64.Idx → EReal)) :=
  (Gen.dat3 (F := Ideal) V c).arrAt_eq_of_cover 5 (GBn3 V c) (fun t _ => flushedBn3_eq V c t) coverBn3

end Cert.KernelIdeal.RegionValue

end
-- ==== Proof.RegionArr4.lean ====
/-
  Region 4 of the kernel's program as ONE function of whole arrays: the third layer's two rectified affine stages of (1 + ε)·x + agg, 64 input columns.

  The region runs its body on ten grid points; point t reads rows 5000·t … 5000·t + 4999 of the row-tiled operands
  and the whole of every other operand, and writes rows 5000·t … 5000·t + 4999 of the result. Whatever the buffers
  hold when the region is entered (V), the result array afterwards is the specification's function of those contents:
  what point t writes back is block t of that function (the body's entry (p, q) reads row p of its row-tiled blocks
  only, and row p of block t is row 5000·t + p of the array), and the ten blocks cover the result array (row r lies in
  block r / 5000).
-/
import proofs.«179991_j80487687127440_1_alg».proof.Proof.Gen.KernelIdeal.Frame
import proofs.«179991_j80487687127440_1_alg».proof.Proof.RegionRows
import proofs.«179991_j80487687127440_1_alg».proof.Proof.RegionPayMlp
import Idealize.ShloMosaic.Lib.Pipeline.Value

noncomputable section

namespace Cert.KernelIdeal.RegionValue

open Idealize.ShloMosaic Idealize.ShloMosaic.ValueIdx Idealize.ShloMosaic.TcCoe Idealize.SL.Sem
open Cert.KernelIdeal Cert.LibDenseLayers Cert.LibRowBias Cert.Gin
open scoped BigOperators
open Idealize.ShloMosaic.Pipeline (Dat)

-- the buffer contents when the region is entered: any contents
variable (V : (c : Dev nD) → (b : Ref sig .tc) → Buf (Elt Ideal) ((c : Thread nD τ).loc b))

/-- The whole array the layer leaves: the two rectified affine stages of (1 + ε)·x + agg. -/
abbrev GMlp4 (c : Dev nD) : S50000x64.Idx → EReal :=
  mlp ((V c main_v60 : S1x1.Idx → EReal) (ix2 (0 : Fin 1) (0 : Fin 1))) (V c main_v49 : S50000x64.Idx → EReal) (V c main_v59 : S50000x64.Idx → EReal)
    (V c main_arg17 : S64x64.Idx → EReal) (rowOf (V c main_v61 : S1x64.Idx → EReal)) (V c main_arg19 : S64x64.Idx → EReal) (rowOf (V c main_v62 : S1x64.Idx → EReal))

/-- The index maps over the ten grid points: the row blocks of x, of agg and of the result move with the point, the
    other five windows stay at block (0, 0). -/
theorem idxMlp4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0 :=
  (by decide +kernel : ∀ t : Fin grid4.N, _)

/-- The result's row block moves with the point. -/
theorem idxMlpOut4 : ∀ t : Fin cfg4.N, win4_7.index t (0 : Fin 2) = t.val ∧ win4_7.index t (1 : Fin 2) = 0 :=
  (by decide +kernel : ∀ t : Fin grid4.N, _)

set_option maxHeartbeats 100000 in
/-- The ε window is the whole one-by-one ε at every point. -/
theorem blkMlp4E (c : Dev nD) (t : Fin cfg4.N) : (Gen.iblk4 V c 2 t : S1x1.Idx → EReal) = V c main_v60 := by
  have e := idxMlp4 t
  funext y
  show V c main_v60 (((cfg4.win 2).blk t).view.emb y) = V c main_v60 y
  refine congrArg _ (funext fun a => Fin.ext ?_)
  match a with
  | ⟨0, _⟩ => show win4_2.index t (0 : Fin 2) * 1 + 1 * (y 0).val = (y 0).val; omega
  | ⟨1, _⟩ => show win4_2.index t (1 : Fin 2) * 1 + 1 * (y 1).val = (y 1).val; omega

set_option maxHeartbeats 100000 in
/-- The first weights' window is the whole matrix at every point. -/
theorem blkMlp4Wa (c : Dev nD) (t : Fin cfg4.N) : (Gen.iblk4 V c 3 t : S64x64.Idx → EReal) = V c main_arg17 := by
  have e := idxMlp4 t
  funext y
  show V c main_arg17 (((cfg4.win 3).blk t).view.emb y) = V c main_arg17 y
  refine congrArg _ (funext fun a => Fin.ext ?_)
  match a with
  | ⟨0, _⟩ => show win4_3.index t (0 : Fin 2) * 64 + 1 * (y 0).val = (y 0).val; omega
  | ⟨1, _⟩ => show win4_3.index t (1 : Fin 2) * 64 + 1 * (y 1).val = (y 1).val; omega

set_option maxHeartbeats 100000 in
/-- The first bias window is the whole one-row bias at every point. -/
theorem blkMlp4Ba (c : Dev nD) (t : Fin cfg4.N) : (Gen.iblk4 V c 4 t : S1x64.Idx → EReal) = V c main_v61 := by
  have e := idxMlp4 t
  funext y
  show V c main_v61 (((cfg4.win 4).blk t).view.emb y) = V c main_v61 y
  refine congrArg _ (funext fun a => Fin.ext ?_)
  match a with
  | ⟨0, _⟩ => show win4_4.index t (0 : Fin 2) * 1 + 1 * (y 0).val = (y 0).val; omega
  | ⟨1, _⟩ => show win4_4.index t (1 : Fin 2) * 64 + 1 * (y 1).val = (y 1).val; omega

set_option maxHeartbeats 100000 in
/-- The second weights' window is the whole matrix at every point. -/
theorem blkMlp4Wb (c : Dev nD) (t : Fin cfg4.N) : (Gen.iblk4 V c 5 t : S64x64.Idx → EReal) = V c main_arg19 := by
  have e := idxMlp4 t
  funext y
  show V c main_arg19 (((cfg4.win 5).blk t).view.emb y) = V c main_arg19 y
  refine congrArg _ (funext fun a => Fin.ext ?_)
  match a with
  | ⟨0, _⟩ => show win4_5.index t (0 : Fin 2) * 64 + 1 * (y 0).val = (y 0).val; omega
  | ⟨1, _⟩ => show win4_5.index t (1 : Fin 2) * 64 + 1 * (y 1).val = (y 1).val; omega

set_option maxHeartbeats 100000 in
/-- The second bias window is the whole one-row bias at every point. -/
theorem blkMlp4Bb (c : Dev nD) (t : Fin cfg4.N) : (Gen.iblk4 V c 6 t : S1x64.Idx → EReal) = V c main_v62 := by
  have e := idxMlp4 t
  funext y
  show V c main_v62 (((cfg4.win 6).blk t).view.emb y) = V c main_v62 y
  refine congrArg _ (funext fun a => Fin.ext ?_)
  match a with
  | ⟨0, _⟩ => show win4_6.index t (0 : Fin 2) * 1 + 1 * (y 0).val = (y 0).val; omega
  | ⟨1, _⟩ => show win4_6.index t (1 : Fin 2) * 64 + 1 * (y 1).val = (y 1).val; omega

set_option maxHeartbeats 100000 in
/-- Row p of x's block at point t is row 5000·t + p of x. -/
theorem blkMlp4X (c : Dev nD) (t : Fin cfg4.N) (p : Fin 5000) (k : Fin 64) (p' : Fin 50000) (hp : p'.val = 5000 * t.val + p.val) :
    (Gen.iblk4 V c 0 t : S5000x64.Idx → EReal) (ix2 p k) = (V c main_v49 : S50000x64.Idx → EReal) (ix2 p' k) := by
  have e := idxMlp4 t
  show V c main_v49 (((cfg4.win 0).blk t).view.emb (ix2 p k)) = V c main_v49 (ix2 p' k)
  refine congrArg _ (funext fun a => Fin.ext ?_)
  match a with
  | ⟨0, _⟩ => show win4_0.index t (0 : Fin 2) * 5000 + 1 * p.val = p'.val; omega
  | ⟨1, _⟩ => show win4_0.index t (1 : Fin 2) * 64 + 1 * k.val = k.val; omega

set_option maxHeartbeats 100000 in
/-- Row p of agg's block at point t is row 5000·t + p of agg. -/
theorem blkMlp4A (c : Dev nD) (t : Fin cfg4.N) (p : Fin 5000) (k : Fin 64) (p' : Fin 50000) (hp : p'.val = 5000 * t.val + p.val) :
    (Gen.iblk4 V c 1 t : S5000x64.Idx → EReal) (ix2 p k) = (V c main_v59 : S50000x64.Idx → EReal) (ix2 p' k) := by
  have e := idxMlp4 t
  show V c main_v59 (((cfg4.win 1).blk t).view.emb (ix2 p k)) = V c main_v59 (ix2 p' k)
  refine congrArg _ (funext fun a => Fin.ext ?_)
  match a with
  | ⟨0, _⟩ => show win4_1.index t (0 : Fin 2) * 5000 + 1 * p.val = p'.val; omega
  | ⟨1, _⟩ => show win4_1.index t (1 : Fin 2) * 64 + 1 * k.val = k.val; omega

set_option maxHeartbeats 400000 in
/-- What point t writes back is block t of the whole layer's array. -/
theorem flushedMlp4_eq (c : Dev nD) (t : Fin cfg4.N) :
    (Gen.dat4 (F := Ideal) V c).flushed 7 t = ((cfg4.win 7).blk t).view.read (Elt Ideal) (GMlp4 V c) := by
  show (cfg4.win 7).cut (grid4.coords t) ((Gen.dat4 (F := Ideal) V c).after 7 t) = _
  rw [Gen.after4_7]
  unfold Gen.out4_7
  rw [View.canon_unit_zero hz]
  simp only [View.ld_unit_zero (S := S5000x64) hz, View.ld_unit_zero (S := S1x1) hz, View.ld_unit_zero (S := S64x64) hz,
    View.ld_unit_zero (S := S1x64) hz, View.ld_unit_zero (S := S64x64) hz]
  obtain ⟨e14, e15⟩ := idxMlpOut4 t
  have ht : t.val < 10 := t.isLt
  funext j
  obtain ⟨p, q, rfl⟩ : ∃ (p : Fin 5000) (q : Fin 64), j = ix2 p q := ⟨j 0, j 1, eq_ix2 j⟩
  show Gen.k4_pay1 (F := Ideal) (Gen.iblk4 V c 2 t) (Gen.iblk4 V c 0 t) (Gen.iblk4 V c 1 t) (Gen.iblk4 V c 3 t)
        (Gen.iblk4 V c 4 t) (Gen.iblk4 V c 5 t) (Gen.iblk4 V c 6 t) (ix2 p q)
      = GMlp4 V c (((cfg4.win 7).blk t).view.emb (ix2 p q))
  refine (payMlp4_apply (Gen.iblk4 V c 2 t) (Gen.iblk4 V c 0 t) (Gen.iblk4 V c 1 t) (Gen.iblk4 V c 3 t)
    (Gen.iblk4 V c 4 t) (Gen.iblk4 V c 5 t) (Gen.iblk4 V c 6 t) p q).trans ?_
  rw [blkMlp4E V c t, blkMlp4Wa V c t, blkMlp4Ba V c t, blkMlp4Wb V c t, blkMlp4Bb V c t]
  refine mlp_at_block _ _ _ _ _ _ _ _ _ p q ⟨5000 * t.val + p.val, by omega⟩ _ ?_ ?_
    (fun k => blkMlp4X V c t p k _ rfl) (fun k => blkMlp4A V c t p k _ rfl)
  · show win4_7.index t (0 : Fin 2) * 5000 + 1 * p.val = 5000 * t.val + p.val; omega
  · show win4_7.index t (1 : Fin 2) * 64 + 1 * q.val = q.val; omega

/-- An index of the result array is in point t's block iff each coordinate is in the block's range on its axis. -/
theorem mem_blkMlp4 (t : Fin cfg4.N) (i : S50000x64.Idx) :
    i ∈ ((cfg4.win 7).blk t).view.set ↔ ∀ a : Fin 2, win4_7.index t a * S5000x64.size a ≤ (i a).val ∧ (i a).val < win4_7.index t a * S5000x64.size a + S5000x64.size a := by
  show i ∈ ((View.whole main_v63).slice (win4_7.rect t)).set ↔ _
  rw [View.set_slice_whole, Rect.mem_set_unit]
  exact Iff.rfl

set_option maxHeartbeats 200000 in
/-- Row r of the result array lies in the block of point r / 5000, and every point writes its block back. -/
theorem coverMlp4 (i : S50000x64.Idx) : ∃ t : Fin cfg4.N, (cfg4.win 7).flush t = true ∧ i ∈ ((cfg4.win 7).blk t).view.set := by
  have hi0 : (i 0).val < 50000 := (i 0).isLt
  have hi1 : (i 1).val < 64 := (i 1).isLt
  have ht : (i 0).val / 5000 < 10 := by omega
  refine ⟨⟨(i 0).val / 5000, ht⟩, Gen.flush4_7 _, ?_⟩
  rw [mem_blkMlp4]
  have e0 : win4_7.index ⟨(i 0).val / 5000, ht⟩ (0 : Fin 2) = (i 0).val / 5000 := (idxMlpOut4 ⟨(i 0).val / 5000, ht⟩).1
  have e1 : win4_7.index ⟨(i 0).val / 5000, ht⟩ (1 : Fin 2) = 0 := (idxMlpOut4 ⟨(i 0).val / 5000, ht⟩).2
  intro a
  match a with
  | ⟨0, _⟩ =>
    show win4_7.index ⟨(i 0).val / 5000, ht⟩ (0 : Fin 2) * 5000 ≤ (i 0).val ∧ (i 0).val < win4_7.index ⟨(i 0).val / 5000, ht⟩ (0 : Fin 2) * 5000 + 5000
    omega
  | ⟨1, _⟩ =>
    show win4_7.index ⟨(i 0).val / 5000, ht⟩ (1 : Fin 2) * 64 ≤ (i 1).val ∧ (i 1).val < win4_7.index ⟨(i 0).val / 5000, ht⟩ (1 : Fin 2) * 64 + 64
    omega

/-- The result array after the layer's region: the two rectified affine stages of (1 + ε)·x + agg of the arrays the
    region found. -/
theorem arr4 (c : Dev nD) :
    (Gen.dat4 (F := Ideal) V c).arrAt 7 cfg4.N
      = mlp ((V c main_v60 : S1x1.Idx → EReal) (ix2 (0 : Fin 1) (0 : Fin 1))) (V c main_v49 : S50000x64.Idx → EReal) (V c main_v59 : S50000x64.Idx → EReal)
          (V c main_arg17 : S64x64.Idx → EReal) (rowOf (V c main_v61 : S1x64.Idx → EReal)) (V c main_arg19 : S64x64.Idx → EReal) (rowOf (V c main_v62 : S1x64.Idx → EReal)) :=
  (Gen.dat4 (F := Ideal) V c).arrAt_eq_of_cover 7 (GMlp4 V c) (fun t _ => flushedMlp4_eq V c t) coverMlp4

end Cert.KernelIdeal.RegionValue

end
-- ==== Proof.RegionArr5.lean ====
/-
  Region 5 of the kernel's program as ONE function of whole arrays: the third column-wise normalisation, scaled, shifted and rectified.

  The region runs its body on ten grid points; point t reads rows 5000·t … 5000·t + 4999 of the row-tiled operands
  and the whole of every other operand, and writes rows 5000·t … 5000·t + 4999 of the result. Whatever the buffers
  hold when the region is entered (V), the result array afterwards is the specification's function of those contents:
  what point t writes back is block t of that function (the body's entry (p, q) reads row p of its row-tiled blocks
  only, and row p of block t is row 5000·t + p of the array), and the ten blocks cover the result array (row r lies in
  block r / 5000).
-/
import proofs.«179991_j80487687127440_1_alg».proof.Proof.Gen.KernelIdeal.Frame
import proofs.«179991_j80487687127440_1_alg».proof.Proof.RegionRows
import proofs.«179991_j80487687127440_1_alg».proof.Proof.RegionPayBn
import Idealize.ShloMosaic.Lib.Pipeline.Value

noncomputable section

namespace Cert.KernelIdeal.RegionValue

open Idealize.ShloMosaic Idealize.ShloMosaic.ValueIdx Idealize.ShloMosaic.TcCoe Idealize.SL.Sem
open Cert.KernelIdeal Cert.LibDenseLayers Cert.LibRowBias Cert.Gin
open scoped BigOperators
open Idealize.ShloMosaic.Pipeline (Dat)

-- the buffer contents when the region is entered: any contents
variable (V : (c : Dev nD) → (b : Ref sig .tc) → Buf (Elt Ideal) ((c : Thread nD τ).loc b))

/-- The whole array the normalisation leaves: every column of h normalised with the given mean and variance rows,
    scaled, shifted and rectified. -/
abbrev GBn5 (c : Dev nD) : S50000x64.Idx → EReal :=
  bnrelu (V c main_v63 : S50000x64.Idx → EReal) (rowOf (V c main_v68 : S1x64.Idx → EReal)) (rowOf (V c main_v69 : S1x64.Idx → EReal))
    (rowOf (V c main_v70 : S1x64.Idx → EReal)) (rowOf (V c main_v71 : S1x64.Idx → EReal))

/-- The index maps over the ten grid points: the row blocks of h and of the result move with the point, the four
    one-row windows stay at block (0, 0). -/
theorem idxBn5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = t.val ∧ win5_5.index t (1 : Fin 2) = 0 :=
  (by decide +kernel : ∀ t : Fin grid5.N, _)

set_option maxHeartbeats 100000 in
/-- The mean's window is the whole one-row mean at every point. -/
theorem blkBn5M (c : Dev nD) (t : Fin cfg5.N) : (Gen.iblk5 V c 1 t : S1x64.Idx → EReal) = V c main_v68 := by
  have e := idxBn5 t
  funext y
  show V c main_v68 (((cfg5.win 1).blk t).view.emb y) = V c main_v68 y
  refine congrArg _ (funext fun a => Fin.ext ?_)
  match a with
  | ⟨0, _⟩ => show win5_1.index t (0 : Fin 2) * 1 + 1 * (y 0).val = (y 0).val; omega
  | ⟨1, _⟩ => show win5_1.index t (1 : Fin 2) * 64 + 1 * (y 1).val = (y 1).val; omega

set_option maxHeartbeats 100000 in
/-- The variance's window is the whole one-row variance at every point. -/
theorem blkBn5V (c : Dev nD) (t : Fin cfg5.N) : (Gen.iblk5 V c 2 t : S1x64.Idx → EReal) = V c main_v69 := by
  have e := idxBn5 t
  funext y
  show V c main_v69 (((cfg5.win 2).blk t).view.emb y) = V c main_v69 y
  refine congrArg _ (funext fun a => Fin.ext ?_)
  match a with
  | ⟨0, _⟩ => show win5_2.index t (0 : Fin 2) * 1 + 1 * (y 0).val = (y 0).val; omega
  | ⟨1, _⟩ => show win5_2.index t (1 : Fin 2) * 64 + 1 * (y 1).val = (y 1).val; omega

set_option maxHeartbeats 100000 in
/-- The scale's window is the whole one-row scale at every point. -/
theorem blkBn5G (c : Dev nD) (t : Fin cfg5.N) : (Gen.iblk5 V c 3 t : S1x64.Idx → EReal) = V c main_v70 := by
  have e := idxBn5 t
  funext y
  show V c main_v70 (((cfg5.win 3).blk t).view.emb y) = V c main_v70 y
  refine congrArg _ (funext fun a => Fin.ext ?_)
  match a with
  | ⟨0, _⟩ => show win5_3.index t (0 : Fin 2) * 1 + 1 * (y 0).val = (y 0).val; omega
  | ⟨1, _⟩ => show win5_3.index t (1 : Fin 2) * 64 + 1 * (y 1).val = (y 1).val; omega

set_option maxHeartbeats 100000 in
/-- The shift's window is the whole one-row shift at every point. -/
theorem blkBn5B (c : Dev nD) (t : Fin cfg5.N) : (Gen.iblk5 V c 4 t : S1x64.Idx → EReal) = V c main_v71 := by
  have e := idxBn5 t
  funext y
  show V c main_v71 (((cfg5.win 4).blk t).view.emb y) = V c main_v71 y
  refine congrArg _ (funext fun a => Fin.ext ?_)
  match a with
  | ⟨0, _⟩ => show win5_4.index t (0 : Fin 2) * 1 + 1 * (y 0).val = (y 0).val; omega
  | ⟨1, _⟩ => show win5_4.index t (1 : Fin 2) * 64 + 1 * (y 1).val = (y 1).val; omega

set_option maxHeartbeats 100000 in
/-- Row p of h's block at point t is row 5000·t + p of h. -/
theorem blkBn5H (c : Dev nD) (t : Fin cfg5.N) (p : Fin 5000) (k : Fin 64) (p' : Fin 50000) (hp : p'.val = 5000 * t.val + p.val) :
    (Gen.iblk5 V c 0 t : S5000x64.Idx → EReal) (ix2 p k) = (V c main_v63 : S50000x64.Idx → EReal) (ix2 p' k) := by
  have e := idxBn5 t
  show V c main_v63 (((cfg5.win 0).blk t).view.emb (ix2 p k)) = V c main_v63 (ix2 p' k)
  refine congrArg _ (funext fun a => Fin.ext ?_)
  match a with
  | ⟨0, _⟩ => show win5_0.index t (0 : Fin 2) * 5000 + 1 * p.val = p'.val; omega
  | ⟨1, _⟩ => show win5_0.index t (1 : Fin 2) * 64 + 1 * k.val = k.val; omega

set_option maxHeartbeats 200000 in
/-- What point t writes back is block t of the whole normalised array. -/
theorem flushedBn5_eq (c : Dev nD) (t : Fin cfg5.N) :
    (Gen.dat5 (F := Ideal) V c).flushed 5 t = ((cfg5.win 5).blk t).view.read (Elt Ideal) (GBn5 V c) := by
  show (cfg5.win 5).cut (grid5.coords t) ((Gen.dat5 (F := Ideal) V c).after 5 t) = _
  rw [Gen.after5_5]
  unfold Gen.out5_5
  rw [View.canon_unit_zero hz]
  simp only [View.ld_unit_zero (S := S5000x64) hz, View.ld_unit_zero (S := S1x64) hz]
  have e := idxBn5 t
  have ht : t.val < 10 := t.isLt
  funext j
  obtain ⟨p, q, rfl⟩ : ∃ (p : Fin 5000) (q : Fin 64), j = ix2 p q := ⟨j 0, j 1, eq_ix2 j⟩
  show Gen.k5_pay1 (F := Ideal) (Gen.iblk5 V c 2 t) (Gen.iblk5 V c 0 t) (Gen.iblk5 V c 1 t) (Gen.iblk5 V c 3 t) (Gen.iblk5 V c 4 t) (ix2 p q)
      = GBn5 V c (((cfg5.win 5).blk t).view.emb (ix2 p q))
  refine (payBn5_apply (Gen.iblk5 V c 2 t) (Gen.iblk5 V c 0 t) (Gen.iblk5 V c 1 t) (Gen.iblk5 V c 3 t) (Gen.iblk5 V c 4 t) p q).trans ?_
  rw [blkBn5M V c t, blkBn5V V c t, blkBn5G V c t, blkBn5B V c t]
  refine bnrelu_at_block _ _ _ _ _ _ p q ⟨5000 * t.val + p.val, by omega⟩ _ ?_ ?_ (blkBn5H V c t p q _ rfl)
  · show win5_5.index t (0 : Fin 2) * 5000 + 1 * p.val = 5000 * t.val + p.val; omega
  · show win5_5.index t (1 : Fin 2) * 64 + 1 * q.val = q.val; omega

/-- An index of the result array is in point t's block iff each coordinate is in the block's range on its axis. -/
theorem mem_blkBn5 (t : Fin cfg5.N) (i : S50000x64.Idx) :
    i ∈ ((cfg5.win 5).blk t).view.set ↔ ∀ a : Fin 2, win5_5.index t a * S5000x64.size a ≤ (i a).val ∧ (i a).val < win5_5.index t a * S5000x64.size a + S5000x64.size a := by
  show i ∈ ((View.whole main_v72).slice (win5_5.rect t)).set ↔ _
  rw [View.set_slice_whole, Rect.mem_set_unit]
  exact Iff.rfl

set_option maxHeartbeats 200000 in
/-- Row r of the result array lies in the block of point r / 5000, and every point writes its block back. -/
theorem coverBn5 (i : S50000x64.Idx) : ∃ t : Fin cfg5.N, (cfg5.win 5).flush t = true ∧ i ∈ ((cfg5.win 5).blk t).view.set := by
  have hi0 : (i 0).val < 50000 := (i 0).isLt
  have hi1 : (i 1).val < 64 := (i 1).isLt
  have ht : (i 0).val / 5000 < 10 := by omega
  refine ⟨⟨(i 0).val / 5000, ht⟩, Gen.flush5_5 _, ?_⟩
  rw [mem_blkBn5]
  have e := idxBn5 ⟨(i 0).val / 5000, ht⟩
  intro a
  match a with
  | ⟨0, _⟩ =>
    show win5_5.index ⟨(i 0).val / 5000, ht⟩ (0 : Fin 2) * 5000 ≤ (i 0).val ∧ (i 0).val < win5_5.index ⟨(i 0).val / 5000, ht⟩ (0 : Fin 2) * 5000 + 5000
    rw [e.2.2.2.2.2.2.2.2.2.2.1]; show (i 0).val / 5000 * 5000 ≤ (i 0).val ∧ (i 0).val < (i 0).val / 5000 * 5000 + 5000; omega
  | ⟨1, _⟩ =>
    show win5_5.index ⟨(i 0).val / 5000, ht⟩ (1 : Fin 2) * 64 ≤ (i 1).val ∧ (i 1).val < win5_5.index ⟨(i 0).val / 5000, ht⟩ (1 : Fin 2) * 64 + 64
    rw [e.2.2.2.2.2.2.2.2.2.2.2]; omega

/-- The result array after the normalisation region: the normalised, rectified h of the arrays the region found. -/
theorem arr5 (c : Dev nD) :
    (Gen.dat5 (F := Ideal) V c).arrAt 5 cfg5.N
      = bnrelu (V c main_v63 : S50000x64.Idx → EReal) (rowOf (V c main_v68 : S1x64.Idx → EReal)) (rowOf (V c main_v69 : S1x64.Idx → EReal))
          (rowOf (V c main_v70 : S1x64.Idx → EReal)) (rowOf (V c main_v71 : S1x64.Idx → EReal)) :=
  (Gen.dat5 (F := Ideal) V c).arrAt_eq_of_cover 5 (GBn5 V c) (fun t _ => flushedBn5_eq V c t) coverBn5

end Cert.KernelIdeal.RegionValue

end
-- ==== Proof.RegionPayLin.lean ====
/-
  The last layer's region: what its body stores, read at one entry of a block.

  The body loads a block of 5000 rows of h, the whole 64 × 10 weight matrix and the one-row bias, and stores
  h · w + b for the block. Read at (p, q) on extended reals this is the affine layer's entry: the matrix unit's
  product into a zero accumulator is the sum over k of h(p, k) · w(k, q), the bias row is laid along the rows, and
  the changes of float format on the way into the product are the identity.
-/
import proofs.«179991_j80487687127440_1_alg».proof.Proof.Gen.KernelIdeal.Skeleton
import proofs.«179991_j80487687127440_1_alg».proof.Proof.LibRowBias
import proofs.«179991_j80487687127440_1_alg».proof.Proof.LibPlainDot
import proofs.«179991_j80487687127440_1_alg».proof.Proof.LibGinLayers
import Idealize.ShloMosaic.Lib.Pipeline.Value

noncomputable section

namespace Cert.KernelIdeal.RegionValue

open Idealize.ShloMosaic Idealize.ShloMosaic.ValueIdx Idealize.ShloMosaic.TcCoe Idealize.SL.Sem
open Cert.KernelIdeal Cert.LibDenseLayers Cert.LibRowBias Cert.Gin
open scoped BigOperators

/-- The last layer's stored value at row p, column q of a block: row p of the block against column q of the weights,
    plus the bias row at q. A change of float format is no change on extended reals. -/
theorem payLin_apply (x0 : Vec Ideal S5000x64 .f32) (x1 : Vec Ideal S64x10 .f32) (x2 : Vec Ideal S1x10 .f32)
    (p : Fin 5000) (q : Fin 10) :
    Gen.k6_pay1 (F := Ideal) x0 x1 x2 (ix2 p q) = affineAt x0 x1 (rowOf x2) p q := by
  unfold Gen.k6_pay1
  refine (affineAt_of_matmul_row dot_S5000x64_S64x10_S5000x10_1_0_0_1_n_n rfl rfl
    (Cert.LibPlainDot.lhs0 (R := 5000) (K := 64) (N := 10)) (Cert.LibPlainDot.lhs1 (R := 5000) (K := 64) (N := 10))
    (Cert.LibPlainDot.rhs0 (R := 5000) (K := 64) (N := 10)) (Cert.LibPlainDot.rhs1 (R := 5000) (K := 64) (N := 10))
    Gen.shapeCasts_S1x10_S1x10 Gen.broadcasts_S1x10_S5000x10 _ _ x2 p q).trans ?_
  show affineAt (shapeCast S5000x64 x0 Gen.shapeCasts_S5000x64_S5000x64) x1 (rowOf x2) p q = _
  rw [shapeCast_self]

end Cert.KernelIdeal.RegionValue

end
-- ==== Proof.RegionArr6.lean ====
/-
  Region 6 of the kernel's program as ONE function of whole arrays: the last affine layer h · w + b.

  The region runs its body on ten grid points; point t reads rows 5000·t … 5000·t + 4999 of the row-tiled operands
  and the whole of every other operand, and writes rows 5000·t … 5000·t + 4999 of the result. Whatever the buffers
  hold when the region is entered (V), the result array afterwards is the specification's function of those contents:
  what point t writes back is block t of that function (the body's entry (p, q) reads row p of its row-tiled blocks
  only, and row p of block t is row 5000·t + p of the array), and the ten blocks cover the result array (row r lies in
  block r / 5000).
-/
import proofs.«179991_j80487687127440_1_alg».proof.Proof.Gen.KernelIdeal.Frame
import proofs.«179991_j80487687127440_1_alg».proof.Proof.RegionRows
import proofs.«179991_j80487687127440_1_alg».proof.Proof.RegionPayLin
import Idealize.ShloMosaic.Lib.Pipeline.Value

noncomputable section

namespace Cert.KernelIdeal.RegionValue

open Idealize.ShloMosaic Idealize.ShloMosaic.ValueIdx Idealize.ShloMosaic.TcCoe Idealize.SL.Sem
open Cert.KernelIdeal Cert.LibDenseLayers Cert.LibRowBias Cert.Gin
open scoped BigOperators
open Idealize.ShloMosaic.Pipeline (Dat)

-- the buffer contents when the region is entered: any contents
variable (V : (c : Dev nD) → (b : Ref sig .tc) → Buf (Elt Ideal) ((c : Thread nD τ).loc b))

/-- The whole array the last layer leaves: h · w + b. -/
abbrev GLin (c : Dev nD) : S50000x10.Idx → EReal :=
  affine (V c main_v72 : S50000x64.Idx → EReal) (V c main_arg23 : S64x10.Idx → EReal) (rowOf (V c main_v73 : S1x10.Idx → EReal))

/-- The index maps over the ten grid points: the row blocks of h and of the result move with the point, the weights
    and the bias stay at block (0, 0). -/
theorem idxLin : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

set_option maxHeartbeats 100000 in
/-- The weights' window is the whole weight matrix at every point. -/
theorem blkLinW (c : Dev nD) (t : Fin cfg6.N) : (Gen.iblk6 V c 1 t : S64x10.Idx → EReal) = V c main_arg23 := by
  obtain ⟨-, -, e2, e3, -⟩ := idxLin t
  funext y
  show V c main_arg23 (((cfg6.win 1).blk t).view.emb y) = V c main_arg23 y
  refine congrArg _ (funext fun a => Fin.ext ?_)
  match a with
  | ⟨0, _⟩ => show win6_1.index t (0 : Fin 2) * 64 + 1 * (y 0).val = (y 0).val; omega
  | ⟨1, _⟩ => show win6_1.index t (1 : Fin 2) * 10 + 1 * (y 1).val = (y 1).val; omega

set_option maxHeartbeats 100000 in
/-- The bias window is the whole one-row bias at every point. -/
theorem blkLinB (c : Dev nD) (t : Fin cfg6.N) : (Gen.iblk6 V c 2 t : S1x10.Idx → EReal) = V c main_v73 := by
  obtain ⟨-, -, -, -, e4, e5, -⟩ := idxLin t
  funext y
  show V c main_v73 (((cfg6.win 2).blk t).view.emb y) = V c main_v73 y
  refine congrArg _ (funext fun a => Fin.ext ?_)
  match a with
  | ⟨0, _⟩ => show win6_2.index t (0 : Fin 2) * 1 + 1 * (y 0).val = (y 0).val; omega
  | ⟨1, _⟩ => show win6_2.index t (1 : Fin 2) * 10 + 1 * (y 1).val = (y 1).val; omega

set_option maxHeartbeats 100000 in
/-- Row p of the features' block at point t is row 5000·t + p of the feature matrix. -/
theorem blkLinH (c : Dev nD) (t : Fin cfg6.N) (p : Fin 5000) (k : Fin 64) (p' : Fin 50000) (hp : p'.val = 5000 * t.val + p.val) :
    (Gen.iblk6 V c 0 t : S5000x64.Idx → EReal) (ix2 p k) = (V c main_v72 : S50000x64.Idx → EReal) (ix2 p' k) := by
  obtain ⟨e0, e1, -⟩ := idxLin t
  show V c main_v72 (((cfg6.win 0).blk t).view.emb (ix2 p k)) = V c main_v72 (ix2 p' k)
  refine congrArg _ (funext fun a => Fin.ext ?_)
  match a with
  | ⟨0, _⟩ => show win6_0.index t (0 : Fin 2) * 5000 + 1 * p.val = p'.val; omega
  | ⟨1, _⟩ => show win6_0.index t (1 : Fin 2) * 64 + 1 * k.val = k.val; omega

set_option maxHeartbeats 200000 in
/-- What point t writes back is block t of the whole affine layer's array. -/
theorem flushedLin_eq (c : Dev nD) (t : Fin cfg6.N) :
    (Gen.dat6 (F := Ideal) V c).flushed 3 t = ((cfg6.win 3).blk t).view.read (Elt Ideal) (GLin V c) := by
  show (cfg6.win 3).cut (grid6.coords t) ((Gen.dat6 (F := Ideal) V c).after 3 t) = _
  rw [Gen.after6_3]
  unfold Gen.out6_3
  rw [View.canon_unit_zero hz]
  simp only [View.ld_unit_zero (S := S5000x64) hz, View.ld_unit_zero (S := S64x10) hz, View.ld_unit_zero (S := S1x10) hz]
  obtain ⟨-, -, -, -, -, -, e6, e7⟩ := idxLin t
  have ht : t.val < 10 := t.isLt
  funext j
  obtain ⟨p, q, rfl⟩ : ∃ (p : Fin 5000) (q : Fin 10), j = ix2 p q := ⟨j 0, j 1, eq_ix2 j⟩
  show Gen.k6_pay1 (F := Ideal) (Gen.iblk6 V c 0 t) (Gen.iblk6 V c 1 t) (Gen.iblk6 V c 2 t) (ix2 p q)
      = GLin V c (((cfg6.win 3).blk t).view.emb (ix2 p q))
  refine (payLin_apply (Gen.iblk6 V c 0 t) (Gen.iblk6 V c 1 t) (Gen.iblk6 V c 2 t) p q).trans ?_
  rw [blkLinW V c t, blkLinB V c t]
  refine affine_at_block _ _ _ _ p q ⟨5000 * t.val + p.val, by omega⟩ _ ?_ ?_ (fun k => blkLinH V c t p k _ rfl)
  · show win6_3.index t (0 : Fin 2) * 5000 + 1 * p.val = 5000 * t.val + p.val; omega
  · show win6_3.index t (1 : Fin 2) * 10 + 1 * q.val = q.val; omega

/-- An index of the result array is in point t's block iff each coordinate is in the block's range on its axis. -/
theorem mem_blkLin (t : Fin cfg6.N) (i : S50000x10.Idx) :
    i ∈ ((cfg6.win 3).blk t).view.set ↔ ∀ a : Fin 2, win6_3.index t a * S5000x10.size a ≤ (i a).val ∧ (i a).val < win6_3.index t a * S5000x10.size a + S5000x10.size a := by
  show i ∈ ((View.whole main_v74).slice (win6_3.rect t)).set ↔ _
  rw [View.set_slice_whole, Rect.mem_set_unit]
  exact Iff.rfl

set_option maxHeartbeats 200000 in
/-- Row r of the result array lies in the block of point r / 5000, and every point writes its block back. -/
theorem coverLin (i : S50000x10.Idx) : ∃ t : Fin cfg6.N, (cfg6.win 3).flush t = true ∧ i ∈ ((cfg6.win 3).blk t).view.set := by
  have hi0 : (i 0).val < 50000 := (i 0).isLt
  have hi1 : (i 1).val < 10 := (i 1).isLt
  have ht : (i 0).val / 5000 < 10 := by omega
  refine ⟨⟨(i 0).val / 5000, ht⟩, Gen.flush6_3 _, ?_⟩
  rw [mem_blkLin]
  obtain ⟨-, -, -, -, -, -, e6, e7⟩ := idxLin ⟨(i 0).val / 5000, ht⟩
  intro a
  match a with
  | ⟨0, _⟩ =>
    show win6_3.index ⟨(i 0).val / 5000, ht⟩ (0 : Fin 2) * 5000 ≤ (i 0).val ∧ (i 0).val < win6_3.index ⟨(i 0).val / 5000, ht⟩ (0 : Fin 2) * 5000 + 5000
    rw [e6]; show (i 0).val / 5000 * 5000 ≤ (i 0).val ∧ (i 0).val < (i 0).val / 5000 * 5000 + 5000; omega
  | ⟨1, _⟩ =>
    show win6_3.index ⟨(i 0).val / 5000, ht⟩ (1 : Fin 2) * 10 ≤ (i 1).val ∧ (i 1).val < win6_3.index ⟨(i 0).val / 5000, ht⟩ (1 : Fin 2) * 10 + 10
    rw [e7]; omega

/-- The result array after the last region: the affine layer h · w + b of the arrays the region found. -/
theorem arr6 (c : Dev nD) :
    (Gen.dat6 (F := Ideal) V c).arrAt 3 cfg6.N
      = affine (V c main_v72 : S50000x64.Idx → EReal) (V c main_arg23 : S64x10.Idx → EReal) (rowOf (V c main_v73 : S1x10.Idx → EReal)) :=
  (Gen.dat6 (F := Ideal) V c).arrAt_eq_of_cover 3 (GLin V c) (fun t _ => flushedLin_eq V c t) coverLin

end Cert.KernelIdeal.RegionValue

end
-- ==== Proof.RegionValue.lean ====
/-
  The kernel's seven regions as whole-array functions, gathered: arr0 … arr6, one theorem per region, each saying that
  the region's result array afterwards is the specification's stage applied to the buffer contents the region found.
-/
import proofs.«179991_j80487687127440_1_alg».proof.Proof.RegionArr0
import proofs.«179991_j80487687127440_1_alg».proof.Proof.RegionArr1
import proofs.«179991_j80487687127440_1_alg».proof.Proof.RegionArr2
import proofs.«179991_j80487687127440_1_alg».proof.Proof.RegionArr3
import proofs.«179991_j80487687127440_1_alg».proof.Proof.RegionArr4
import proofs.«179991_j80487687127440_1_alg».proof.Proof.RegionArr5
import proofs.«179991_j80487687127440_1_alg».proof.Proof.RegionArr6
-- ==== Proof.RefRun.lean ====
/-
  The reference program's @main as ONE list of host operations, and what running it leaves.

  @main is defined in three consecutive parts; it calls a rectifier nine times and a column-variance three times, and the
  variance calls a select. A call executes the callee's body on the call's own buffers, so each call is written out
  here as the callee's operations over that call's record. The three parts are three lists; @main is their
  concatenation run in order. Every weakly fair execution then terminates with each buffer at the fold of the
  operations over the launch contents.
-/
import proofs.«179991_j80487687127440_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- A property of every element of two lists holds of every element of their concatenation. -/
theorem forall_append {α : Type} {p : α → Prop} {l₁ l₂ : List α} (h₁ : l₁.Forall p) (h₂ : l₂.Forall p) :
    (l₁ ++ l₂).Forall p :=
  List.forall_iff_forall_mem.mpr fun x hx =>
    (List.mem_append.mp hx).elim (List.forall_iff_forall_mem.mp h₁ x) (List.forall_iff_forall_mem.mp h₂ x)

/-- The first part of @main (its statements 1 to 60) as a list of operations: each call's callee is written out over that call's own buffers, the nested call inside the variance included. -/
abbrev ops0 : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000,
    StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)),
    StableHlo.nullary main_cst_1 (constant S_ .f32 0x3F800000#32),
    StableHlo.binary main_cst_1 main_arg2 main_v14 (addf : (⟨S_, .f32⟩ : BufTy).Contents (Elt F) → (⟨S_, .f32⟩ : BufTy).Contents (Elt F) → (⟨S_, .f32⟩ : BufTy).Contents (Elt F)),
    StableHlo.unary main_v14 main_v15 (broadcastInDim S50000x128 ![] bcast_S_S50000x128 : (⟨S_, .f32⟩ : BufTy).Contents (Elt F) → (⟨S50000x128, .f32⟩ : BufTy).Contents (Elt F)),
    StableHlo.binary main_v15 main_arg0 main_v16 (mulf : (⟨S50000x128, .f32⟩ : BufTy).Contents (Elt F) → (⟨S50000x128, .f32⟩ : BufTy).Contents (Elt F) → (⟨S50000x128, .f32⟩ : BufTy).Contents (Elt F)),
    StableHlo.binary main_v16 main_v13 main_v17 (addf : (⟨S50000x128, .f32⟩ : BufTy).Contents (Elt F) → (⟨S50000x128, .f32⟩ : BufTy).Contents (Elt F) → (⟨S50000x128, .f32⟩ : BufTy).Contents (Elt F)),
    StableHlo.binary main_v17 main_arg3 main_v18 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg4 main_v19 (broadcastInDim S1x64 ![1] bcast_S64_S1x64_1 : (⟨S64, .f32⟩ : BufTy).Contents (Elt F) → (⟨S1x64, .f32⟩ : BufTy).Contents (Elt F)),
    StableHlo.unary main_v19 main_v20 (broadcastInDim S50000x64 ![0, 1] bcast_S1x64_S50000x64_0_1 : (⟨S1x64, .f32⟩ : BufTy).Contents (Elt F) → (⟨S50000x64, .f32⟩ : BufTy).Contents (Elt F)),
    StableHlo.binary main_v18 main_v20 main_v21 (addf : (⟨S50000x64, .f32⟩ : BufTy).Contents (Elt F) → (⟨S50000x64, .f32⟩ : BufTy).Contents (Elt F) → (⟨S50000x64, .f32⟩ : BufTy).Contents (Elt F)),
    StableHlo.TRef.nullary main_call0.cst (constant S_ .f32 0x00000000#32),
    StableHlo.TRef.unary main_call0.cst main_call0.v0 (broadcastInDim S50000x64 ![] bcast_S_S50000x64),
    StableHlo.TRef.binary (.of main_v21 : StableHlo.TRef sig ⟨S50000x64, .f32⟩) main_call0.v0 main_call0.v1 maximumf,
    StableHlo.binary main_v22 main_arg5 main_v23 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg6 main_v24 (broadcastInDim S1x64 ![1] bcast_S64_S1x64_1 : (⟨S64, .f32⟩ : BufTy).Contents (Elt F) → (⟨S1x64, .f32⟩ : BufTy).Contents (Elt F)),
    StableHlo.unary main_v24 main_v25 (broadcastInDim S50000x64 ![0, 1] bcast_S1x64_S50000x64_0_1 : (⟨S1x64, .f32⟩ : BufTy).Contents (Elt F) → (⟨S50000x64, .f32⟩ : BufTy).Contents (Elt F)),
    StableHlo.binary main_v23 main_v25 main_v26 (addf : (⟨S50000x64, .f32⟩ : BufTy).Contents (Elt F) → (⟨S50000x64, .f32⟩ : BufTy).Contents (Elt F) → (⟨S50000x64, .f32⟩ : BufTy).Contents (Elt F)),
    StableHlo.TRef.nullary main_call1.cst (constant S_ .f32 0x00000000#32),
    StableHlo.TRef.unary main_call1.cst main_call1.v0 (broadcastInDim S50000x64 ![] bcast_S_S50000x64),
    StableHlo.TRef.binary (.of main_v26 : StableHlo.TRef sig ⟨S50000x64, .f32⟩) main_call1.v0 main_call1.v1 maximumf,
    StableHlo.nullary main_cst_2 (constant S_ .f32 0x00000000#32),
    StableHlo.binary main_v27 main_cst_2 main_v28 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_3 (constant S_ .f32 0x47435000#32),
    StableHlo.unary main_cst_3 main_v29 (broadcastInDim S64 ![] bcast_S_S64 : (⟨S_, .f32⟩ : BufTy).Contents (Elt F) → (⟨S64, .f32⟩ : BufTy).Contents (Elt F)),
    StableHlo.binary main_v28 main_v29 main_v30 (Host.divf : (⟨S64, .f32⟩ : BufTy).Contents (Elt F) → (⟨S64, .f32⟩ : BufTy).Contents (Elt F) → (⟨S64, .f32⟩ : BufTy).Contents (Elt F)),
    StableHlo.nullary main_c_4 (constantI S_ 32 0#32),
    StableHlo.TRef.nullary main_call2.cst (constant S_ .f32 0x00000000#32),
    StableHlo.TRef.binary (.of main_v27 : StableHlo.TRef sig ⟨S50000x64, .f32⟩) main_call2.cst main_call2.v0 (fun x v => Host.reduceAdd x v reducesTo_S50000x64_S64_d0 h_S_),
    StableHlo.TRef.unary main_call2.v0 main_call2.v1 (broadcastInDim S1x64 ![1] bcast_S64_S1x64_1),
    StableHlo.TRef.nullary main_call2.cst_0 (constant S_ .f32 0x47435000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S50000x64 ![0, 1] bcast_S1x64_S50000x64_0_1),
    StableHlo.TRef.binary (.of main_v27 : StableHlo.TRef sig ⟨S50000x64, .f32⟩) main_call2.v4 main_call2.v5 subf,
    StableHlo.TRef.binary main_call2.v5 main_call2.v5 main_call2.v6 mulf,
    StableHlo.TRef.unary (.of main_c_4 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b),
    StableHlo.unary main_v30 main_v32 (broadcastInDim S1x64 ![1] bcast_S64_S1x64_1 : (⟨S64, .f32⟩ : BufTy).Contents (Elt F) → (⟨S1x64, .f32⟩ : BufTy).Contents (Elt F)),
    StableHlo.unary main_v32 main_v33 (broadcastInDim S50000x64 ![0, 1] bcast_S1x64_S50000x64_0_1 : (⟨S1x64, .f32⟩ : BufTy).Contents (Elt F) → (⟨S50000x64, .f32⟩ : BufTy).Contents (Elt F)),
    StableHlo.binary main_v27 main_v33 main_v34 (subf : (⟨S50000x64, .f32⟩ : BufTy).Contents (Elt F) → (⟨S50000x64, .f32⟩ : BufTy).Contents (Elt F) → (⟨S50000x64, .f32⟩ : BufTy).Contents (Elt F)),
    StableHlo.nullary main_cst_5 (constant S_ .f32 0x3727C5AC#32),
    StableHlo.unary main_cst_5 main_v35 (broadcastInDim S64 ![] bcast_S_S64 : (⟨S_, .f32⟩ : BufTy).Contents (Elt F) → (⟨S64, .f32⟩ : BufTy).Contents (Elt F)),
    StableHlo.binary main_v31 main_v35 main_v36 (addf : (⟨S64, .f32⟩ : BufTy).Contents (Elt F) → (⟨S64, .f32⟩ : BufTy).Contents (Elt F) → (⟨S64, .f32⟩ : BufTy).Contents (Elt F)),
    StableHlo.unary main_v36 main_v37 (Host.rsqrt : (⟨S64, .f32⟩ : BufTy).Contents (Elt F) → (⟨S64, .f32⟩ : BufTy).Contents (Elt F)),
    StableHlo.unary main_v37 main_v38 (broadcastInDim S1x64 ![1] bcast_S64_S1x64_1 : (⟨S64, .f32⟩ : BufTy).Contents (Elt F) → (⟨S1x64, .f32⟩ : BufTy).Contents (Elt F)),
    StableHlo.unary main_v38 main_v39 (broadcastInDim S50000x64 ![0, 1] bcast_S1x64_S50000x64_0_1 : (⟨S1x64, .f32⟩ : BufTy).Contents (Elt F) → (⟨S50000x64, .f32⟩ : BufTy).Contents (Elt F)),
    StableHlo.binary main_v34 main_v39 main_v40 (mulf : (⟨S50000x64, .f32⟩ : BufTy).Contents (Elt F) → (⟨S50000x64, .f32⟩ : BufTy).Contents (Elt F) → (⟨S50000x64, .f32⟩ : BufTy).Contents (Elt F)),
    StableHlo.unary main_arg7 main_v41 (broadcastInDim S1x64 ![1] bcast_S64_S1x64_1 : (⟨S64, .f32⟩ : BufTy).Contents (Elt F) → (⟨S1x64, .f32⟩ : BufTy).Contents (Elt F)),
    StableHlo.unary main_v41 main_v42 (broadcastInDim S50000x64 ![0, 1] bcast_S1x64_S50000x64_0_1 : (⟨S1x64, .f32⟩ : BufTy).Contents (Elt F) → (⟨S50000x64, .f32⟩ : BufTy).Contents (Elt F)),
    StableHlo.binary main_v40 main_v42 main_v43 (mulf : (⟨S50000x64, .f32⟩ : BufTy).Contents (Elt F) → (⟨S50000x64, .f32⟩ : BufTy).Contents (Elt F) → (⟨S50000x64, .f32⟩ : BufTy).Contents (Elt F)),
    StableHlo.unary main_arg8 main_v44 (broadcastInDim S1x64 ![1] bcast_S64_S1x64_1 : (⟨S64, .f32⟩ : BufTy).Contents (Elt F) → (⟨S1x64, .f32⟩ : BufTy).Contents (Elt F)),
    StableHlo.unary main_v44 main_v45 (broadcastInDim S50000x64 ![0, 1] bcast_S1x64_S50000x64_0_1 : (⟨S1x64, .f32⟩ : BufTy).Contents (Elt F) → (⟨S50000x64, .f32⟩ : BufTy).Contents (Elt F)),
    StableHlo.binary main_v43 main_v45 main_v46 (addf : (⟨S50000x64, .f32⟩ : BufTy).Contents (Elt F) → (⟨S50000x64, .f32⟩ : BufTy).Contents (Elt F) → (⟨S50000x64, .f32⟩ : BufTy).Contents (Elt F)),
    StableHlo.TRef.nullary main_call3.cst (constant S_ .f32 0x00000000#32),
    StableHlo.TRef.unary main_call3.cst main_call3.v0 (broadcastInDim S50000x64 ![] bcast_S_S50000x64),
    StableHlo.TRef.binary (.of main_v46 : StableHlo.TRef sig ⟨S50000x64, .f32⟩) main_call3.v0 main_call3.v1 maximumf,
    StableHlo.nullary main_c_6 (constantI S_ 32 0#32),
    StableHlo.unary main_c_6 main_v48 (broadcastInDim S800000 ![] bcast_S_S800000 : (⟨S_, .i32⟩ : BufTy).Contents (Elt F) → (⟨S800000, .i32⟩ : BufTy).Contents (Elt F)),
    StableHlo.binary main_v1 main_v48 main_v49 (cmpi .slt : (⟨S800000, .i32⟩ : BufTy).Contents (Elt F) → (⟨S800000, .i32⟩ : BufTy).Contents (Elt F) → (⟨S800000, .i1⟩ : BufTy).Contents (Elt F)),
    StableHlo.nullary main_c_7 (constantI S_ 32 50000#32) ]

/-- The second part of @main (statements 61 to 120), the same way. -/
abbrev ops1 : List (HloOp τ sig (Elt F)) :=
  [ StableHlo.unary main_c_7 main_v50 (broadcastInDim S800000 ![] bcast_S_S800000 : (⟨S_, .i32⟩ : BufTy).Contents (Elt F) → (⟨S800000, .i32⟩ : BufTy).Contents (Elt F)),
    StableHlo.binary main_v1 main_v50 main_v51 (addi : (⟨S800000, .i32⟩ : BufTy).Contents (Elt F) → (⟨S800000, .i32⟩ : BufTy).Contents (Elt F) → (⟨S800000, .i32⟩ : BufTy).Contents (Elt F)),
    StableHlo.ternary main_v49 main_v51 main_v1 main_v52 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v52 main_v53 (broadcastInDim S800000x1 ![0] bcast_S800000_S800000x1_0 : (⟨S800000, .i32⟩ : BufTy).Contents (Elt F) → (⟨S800000x1, .i32⟩ : BufTy).Contents (Elt F)),
    StableHlo.binary main_v47 main_v53 main_v54 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_8 (constant S_ .f32 0x00000000#32),
    StableHlo.unary main_cst_8 main_v55 (broadcastInDim S50000x64 ![] bcast_S_S50000x64 : (⟨S_, .f32⟩ : BufTy).Contents (Elt F) → (⟨S50000x64, .f32⟩ : BufTy).Contents (Elt F)),
    StableHlo.unary main_v3 main_v56 (broadcastInDim S800000x1 ![0] bcast_S800000_S800000x1_0 : (⟨S800000, .i32⟩ : BufTy).Contents (Elt F) → (⟨S800000x1, .i32⟩ : BufTy).Contents (Elt F)),
    StableHlo.ternary main_v55 main_v56 main_v54 main_v57 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.nullary main_cst_9 (constant S_ .f32 0x3F800000#32),
    StableHlo.binary main_cst_9 main_arg9 main_v58 (addf : (⟨S_, .f32⟩ : BufTy).Contents (Elt F) → (⟨S_, .f32⟩ : BufTy).Contents (Elt F) → (⟨S_, .f32⟩ : BufTy).Contents (Elt F)),
    StableHlo.unary main_v58 main_v59 (broadcastInDim S50000x64 ![] bcast_S_S50000x64 : (⟨S_, .f32⟩ : BufTy).Contents (Elt F) → (⟨S50000x64, .f32⟩ : BufTy).Contents (Elt F)),
    StableHlo.binary main_v59 main_v47 main_v60 (mulf : (⟨S50000x64, .f32⟩ : BufTy).Contents (Elt F) → (⟨S50000x64, .f32⟩ : BufTy).Contents (Elt F) → (⟨S50000x64, .f32⟩ : BufTy).Contents (Elt F)),
    StableHlo.binary main_v60 main_v57 main_v61 (addf : (⟨S50000x64, .f32⟩ : BufTy).Contents (Elt F) → (⟨S50000x64, .f32⟩ : BufTy).Contents (Elt F) → (⟨S50000x64, .f32⟩ : BufTy).Contents (Elt F)),
    StableHlo.binary main_v61 main_arg10 main_v62 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg11 main_v63 (broadcastInDim S1x64 ![1] bcast_S64_S1x64_1 : (⟨S64, .f32⟩ : BufTy).Contents (Elt F) → (⟨S1x64, .f32⟩ : BufTy).Contents (Elt F)),
    StableHlo.unary main_v63 main_v64 (broadcastInDim S50000x64 ![0, 1] bcast_S1x64_S50000x64_0_1 : (⟨S1x64, .f32⟩ : BufTy).Contents (Elt F) → (⟨S50000x64, .f32⟩ : BufTy).Contents (Elt F)),
    StableHlo.binary main_v62 main_v64 main_v65 (addf : (⟨S50000x64, .f32⟩ : BufTy).Contents (Elt F) → (⟨S50000x64, .f32⟩ : BufTy).Contents (Elt F) → (⟨S50000x64, .f32⟩ : BufTy).Contents (Elt F)),
    StableHlo.TRef.nullary main_call4.cst (constant S_ .f32 0x00000000#32),
    StableHlo.TRef.unary main_call4.cst main_call4.v0 (broadcastInDim S50000x64 ![] bcast_S_S50000x64),
    StableHlo.TRef.binary (.of main_v65 : StableHlo.TRef sig ⟨S50000x64, .f32⟩) main_call4.v0 main_call4.v1 maximumf,
    StableHlo.binary main_v66 main_arg12 main_v67 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg13 main_v68 (broadcastInDim S1x64 ![1] bcast_S64_S1x64_1 : (⟨S64, .f32⟩ : BufTy).Contents (Elt F) → (⟨S1x64, .f32⟩ : BufTy).Contents (Elt F)),
    StableHlo.unary main_v68 main_v69 (broadcastInDim S50000x64 ![0, 1] bcast_S1x64_S50000x64_0_1 : (⟨S1x64, .f32⟩ : BufTy).Contents (Elt F) → (⟨S50000x64, .f32⟩ : BufTy).Contents (Elt F)),
    StableHlo.binary main_v67 main_v69 main_v70 (addf : (⟨S50000x64, .f32⟩ : BufTy).Contents (Elt F) → (⟨S50000x64, .f32⟩ : BufTy).Contents (Elt F) → (⟨S50000x64, .f32⟩ : BufTy).Contents (Elt F)),
    StableHlo.TRef.nullary main_call5.cst (constant S_ .f32 0x00000000#32),
    StableHlo.TRef.unary main_call5.cst main_call5.v0 (broadcastInDim S50000x64 ![] bcast_S_S50000x64),
    StableHlo.TRef.binary (.of main_v70 : StableHlo.TRef sig ⟨S50000x64, .f32⟩) main_call5.v0 main_call5.v1 maximumf,
    StableHlo.nullary main_cst_10 (constant S_ .f32 0x00000000#32),
    StableHlo.binary main_v71 main_cst_10 main_v72 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_11 (constant S_ .f32 0x47435000#32),
    StableHlo.unary main_cst_11 main_v73 (broadcastInDim S64 ![] bcast_S_S64 : (⟨S_, .f32⟩ : BufTy).Contents (Elt F) → (⟨S64, .f32⟩ : BufTy).Contents (Elt F)),
    StableHlo.binary main_v72 main_v73 main_v74 (Host.divf : (⟨S64, .f32⟩ : BufTy).Contents (Elt F) → (⟨S64, .f32⟩ : BufTy).Contents (Elt F) → (⟨S64, .f32⟩ : BufTy).Contents (Elt F)),
    StableHlo.nullary main_c_12 (constantI S_ 32 0#32),
    StableHlo.TRef.nullary main_call6.cst (constant S_ .f32 0x00000000#32),
    StableHlo.TRef.binary (.of main_v71 : StableHlo.TRef sig ⟨S50000x64, .f32⟩) main_call6.cst main_call6.v0 (fun x v => Host.reduceAdd x v reducesTo_S50000x64_S64_d0 h_S_),
    StableHlo.TRef.unary main_call6.v0 main_call6.v1 (broadcastInDim S1x64 ![1] bcast_S64_S1x64_1),
    StableHlo.TRef.nullary main_call6.cst_0 (constant S_ .f32 0x47435000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S50000x64 ![0, 1] bcast_S1x64_S50000x64_0_1),
    StableHlo.TRef.binary (.of main_v71 : StableHlo.TRef sig ⟨S50000x64, .f32⟩) main_call6.v4 main_call6.v5 subf,
    StableHlo.TRef.binary main_call6.v5 main_call6.v5 main_call6.v6 mulf,
    StableHlo.TRef.unary (.of main_c_12 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b),
    StableHlo.unary main_v74 main_v76 (broadcastInDim S1x64 ![1] bcast_S64_S1x64_1 : (⟨S64, .f32⟩ : BufTy).Contents (Elt F) → (⟨S1x64, .f32⟩ : BufTy).Contents (Elt F)),
    StableHlo.unary main_v76 main_v77 (broadcastInDim S50000x64 ![0, 1] bcast_S1x64_S50000x64_0_1 : (⟨S1x64, .f32⟩ : BufTy).Contents (Elt F) → (⟨S50000x64, .f32⟩ : BufTy).Contents (Elt F)),
    StableHlo.binary main_v71 main_v77 main_v78 (subf : (⟨S50000x64, .f32⟩ : BufTy).Contents (Elt F) → (⟨S50000x64, .f32⟩ : BufTy).Contents (Elt F) → (⟨S50000x64, .f32⟩ : BufTy).Contents (Elt F)),
    StableHlo.nullary main_cst_13 (constant S_ .f32 0x3727C5AC#32),
    StableHlo.unary main_cst_13 main_v79 (broadcastInDim S64 ![] bcast_S_S64 : (⟨S_, .f32⟩ : BufTy).Contents (Elt F) → (⟨S64, .f32⟩ : BufTy).Contents (Elt F)),
    StableHlo.binary main_v75 main_v79 main_v80 (addf : (⟨S64, .f32⟩ : BufTy).Contents (Elt F) → (⟨S64, .f32⟩ : BufTy).Contents (Elt F) → (⟨S64, .f32⟩ : BufTy).Contents (Elt F)),
    StableHlo.unary main_v80 main_v81 (Host.rsqrt : (⟨S64, .f32⟩ : BufTy).Contents (Elt F) → (⟨S64, .f32⟩ : BufTy).Contents (Elt F)),
    StableHlo.unary main_v81 main_v82 (broadcastInDim S1x64 ![1] bcast_S64_S1x64_1 : (⟨S64, .f32⟩ : BufTy).Contents (Elt F) → (⟨S1x64, .f32⟩ : BufTy).Contents (Elt F)),
    StableHlo.unary main_v82 main_v83 (broadcastInDim S50000x64 ![0, 1] bcast_S1x64_S50000x64_0_1 : (⟨S1x64, .f32⟩ : BufTy).Contents (Elt F) → (⟨S50000x64, .f32⟩ : BufTy).Contents (Elt F)),
    StableHlo.binary main_v78 main_v83 main_v84 (mulf : (⟨S50000x64, .f32⟩ : BufTy).Contents (Elt F) → (⟨S50000x64, .f32⟩ : BufTy).Contents (Elt F) → (⟨S50000x64, .f32⟩ : BufTy).Contents (Elt F)),
    StableHlo.unary main_arg14 main_v85 (broadcastInDim S1x64 ![1] bcast_S64_S1x64_1 : (⟨S64, .f32⟩ : BufTy).Contents (Elt F) → (⟨S1x64, .f32⟩ : BufTy).Contents (Elt F)),
    StableHlo.unary main_v85 main_v86 (broadcastInDim S50000x64 ![0, 1] bcast_S1x64_S50000x64_0_1 : (⟨S1x64, .f32⟩ : BufTy).Contents (Elt F) → (⟨S50000x64, .f32⟩ : BufTy).Contents (Elt F)),
    StableHlo.binary main_v84 main_v86 main_v87 (mulf : (⟨S50000x64, .f32⟩ : BufTy).Contents (Elt F) → (⟨S50000x64, .f32⟩ : BufTy).Contents (Elt F) → (⟨S50000x64, .f32⟩ : BufTy).Contents (Elt F)),
    StableHlo.unary main_arg15 main_v88 (broadcastInDim S1x64 ![1] bcast_S64_S1x64_1 : (⟨S64, .f32⟩ : BufTy).Contents (Elt F) → (⟨S1x64, .f32⟩ : BufTy).Contents (Elt F)),
    StableHlo.unary main_v88 main_v89 (broadcastInDim S50000x64 ![0, 1] bcast_S1x64_S50000x64_0_1 : (⟨S1x64, .f32⟩ : BufTy).Contents (Elt F) → (⟨S50000x64, .f32⟩ : BufTy).Contents (Elt F)),
    StableHlo.binary main_v87 main_v89 main_v90 (addf : (⟨S50000x64, .f32⟩ : BufTy).Contents (Elt F) → (⟨S50000x64, .f32⟩ : BufTy).Contents (Elt F) → (⟨S50000x64, .f32⟩ : BufTy).Contents (Elt F)),
    StableHlo.TRef.nullary main_call7.cst (constant S_ .f32 0x00000000#32),
    StableHlo.TRef.unary main_call7.cst main_call7.v0 (broadcastInDim S50000x64 ![] bcast_S_S50000x64),
    StableHlo.TRef.binary (.of main_v90 : StableHlo.TRef sig ⟨S50000x64, .f32⟩) main_call7.v0 main_call7.v1 maximumf,
    StableHlo.nullary main_c_14 (constantI S_ 32 0#32),
    StableHlo.unary main_c_14 main_v92 (broadcastInDim S800000 ![] bcast_S_S800000 : (⟨S_, .i32⟩ : BufTy).Contents (Elt F) → (⟨S800000, .i32⟩ : BufTy).Contents (Elt F)),
    StableHlo.binary main_v1 main_v92 main_v93 (cmpi .slt : (⟨S800000, .i32⟩ : BufTy).Contents (Elt F) → (⟨S800000, .i32⟩ : BufTy).Contents (Elt F) → (⟨S800000, .i1⟩ : BufTy).Contents (Elt F)),
    StableHlo.nullary main_c_15 (constantI S_ 32 50000#32),
    StableHlo.unary main_c_15 main_v94 (broadcastInDim S800000 ![] bcast_S_S800000 : (⟨S_, .i32⟩ : BufTy).Contents (Elt F) → (⟨S800000, .i32⟩ : BufTy).Contents (Elt F)),
    StableHlo.binary main_v1 main_v94 main_v95 (addi : (⟨S800000, .i32⟩ : BufTy).Contents (Elt F) → (⟨S800000, .i32⟩ : BufTy).Contents (Elt F) → (⟨S800000, .i32⟩ : BufTy).Contents (Elt F)),
    StableHlo.ternary main_v93 main_v95 main_v1 main_v96 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v96 main_v97 (broadcastInDim S800000x1 ![0] bcast_S800000_S800000x1_0 : (⟨S800000, .i32⟩ : BufTy).Contents (Elt F) → (⟨S800000x1, .i32⟩ : BufTy).Contents (Elt F)),
    StableHlo.binary main_v91 main_v97 main_v98 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_16 (constant S_ .f32 0x00000000#32),
    StableHlo.unary main_cst_16 main_v99 (broadcastInDim S50000x64 ![] bcast_S_S50000x64 : (⟨S_, .f32⟩ : BufTy).Contents (Elt F) → (⟨S50000x64, .f32⟩ : BufTy).Contents (Elt F)),
    StableHlo.unary main_v3 main_v100 (broadcastInDim S800000x1 ![0] bcast_S800000_S800000x1_0 : (⟨S800000, .i32⟩ : BufTy).Contents (Elt F) → (⟨S800000x1, .i32⟩ : BufTy).Contents (Elt F)) ]

/-- The third part of @main (statements 121 to the return), the same way. -/
abbrev ops2 : List (HloOp τ sig (Elt F)) :=
  [ StableHlo.ternary main_v99 main_v100 main_v98 main_v101 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)),
    StableHlo.nullary main_cst_17 (constant S_ .f32 0x3F800000#32),
    StableHlo.binary main_cst_17 main_arg16 main_v102 (addf : (⟨S_, .f32⟩ : BufTy).Contents (Elt F) → (⟨S_, .f32⟩ : BufTy).Contents (Elt F) → (⟨S_, .f32⟩ : BufTy).Contents (Elt F)),
    StableHlo.unary main_v102 main_v103 (broadcastInDim S50000x64 ![] bcast_S_S50000x64 : (⟨S_, .f32⟩ : BufTy).Contents (Elt F) → (⟨S50000x64, .f32⟩ : BufTy).Contents (Elt F)),
    StableHlo.binary main_v103 main_v91 main_v104 (mulf : (⟨S50000x64, .f32⟩ : BufTy).Contents (Elt F) → (⟨S50000x64, .f32⟩ : BufTy).Contents (Elt F) → (⟨S50000x64, .f32⟩ : BufTy).Contents (Elt F)),
    StableHlo.binary main_v104 main_v101 main_v105 (addf : (⟨S50000x64, .f32⟩ : BufTy).Contents (Elt F) → (⟨S50000x64, .f32⟩ : BufTy).Contents (Elt F) → (⟨S50000x64, .f32⟩ : BufTy).Contents (Elt F)),
    StableHlo.binary main_v105 main_arg17 main_v106 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg18 main_v107 (broadcastInDim S1x64 ![1] bcast_S64_S1x64_1 : (⟨S64, .f32⟩ : BufTy).Contents (Elt F) → (⟨S1x64, .f32⟩ : BufTy).Contents (Elt F)),
    StableHlo.unary main_v107 main_v108 (broadcastInDim S50000x64 ![0, 1] bcast_S1x64_S50000x64_0_1 : (⟨S1x64, .f32⟩ : BufTy).Contents (Elt F) → (⟨S50000x64, .f32⟩ : BufTy).Contents (Elt F)),
    StableHlo.binary main_v106 main_v108 main_v109 (addf : (⟨S50000x64, .f32⟩ : BufTy).Contents (Elt F) → (⟨S50000x64, .f32⟩ : BufTy).Contents (Elt F) → (⟨S50000x64, .f32⟩ : BufTy).Contents (Elt F)),
    StableHlo.TRef.nullary main_call8.cst (constant S_ .f32 0x00000000#32),
    StableHlo.TRef.unary main_call8.cst main_call8.v0 (broadcastInDim S50000x64 ![] bcast_S_S50000x64),
    StableHlo.TRef.binary (.of main_v109 : StableHlo.TRef sig ⟨S50000x64, .f32⟩) main_call8.v0 main_call8.v1 maximumf,
    StableHlo.binary main_v110 main_arg19 main_v111 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg20 main_v112 (broadcastInDim S1x64 ![1] bcast_S64_S1x64_1 : (⟨S64, .f32⟩ : BufTy).Contents (Elt F) → (⟨S1x64, .f32⟩ : BufTy).Contents (Elt F)),
    StableHlo.unary main_v112 main_v113 (broadcastInDim S50000x64 ![0, 1] bcast_S1x64_S50000x64_0_1 : (⟨S1x64, .f32⟩ : BufTy).Contents (Elt F) → (⟨S50000x64, .f32⟩ : BufTy).Contents (Elt F)),
    StableHlo.binary main_v111 main_v113 main_v114 (addf : (⟨S50000x64, .f32⟩ : BufTy).Contents (Elt F) → (⟨S50000x64, .f32⟩ : BufTy).Contents (Elt F) → (⟨S50000x64, .f32⟩ : BufTy).Contents (Elt F)),
    StableHlo.TRef.nullary main_call9.cst (constant S_ .f32 0x00000000#32),
    StableHlo.TRef.unary main_call9.cst main_call9.v0 (broadcastInDim S50000x64 ![] bcast_S_S50000x64),
    StableHlo.TRef.binary (.of main_v114 : StableHlo.TRef sig ⟨S50000x64, .f32⟩) main_call9.v0 main_call9.v1 maximumf,
    StableHlo.nullary main_cst_18 (constant S_ .f32 0x00000000#32),
    StableHlo.binary main_v115 main_cst_18 main_v116 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_19 (constant S_ .f32 0x47435000#32),
    StableHlo.unary main_cst_19 main_v117 (broadcastInDim S64 ![] bcast_S_S64 : (⟨S_, .f32⟩ : BufTy).Contents (Elt F) → (⟨S64, .f32⟩ : BufTy).Contents (Elt F)),
    StableHlo.binary main_v116 main_v117 main_v118 (Host.divf : (⟨S64, .f32⟩ : BufTy).Contents (Elt F) → (⟨S64, .f32⟩ : BufTy).Contents (Elt F) → (⟨S64, .f32⟩ : BufTy).Contents (Elt F)),
    StableHlo.nullary main_c_20 (constantI S_ 32 0#32),
    StableHlo.TRef.nullary main_call10.cst (constant S_ .f32 0x00000000#32),
    StableHlo.TRef.binary (.of main_v115 : StableHlo.TRef sig ⟨S50000x64, .f32⟩) main_call10.cst main_call10.v0 (fun x v => Host.reduceAdd x v reducesTo_S50000x64_S64_d0 h_S_),
    StableHlo.TRef.unary main_call10.v0 main_call10.v1 (broadcastInDim S1x64 ![1] bcast_S64_S1x64_1),
    StableHlo.TRef.nullary main_call10.cst_0 (constant S_ .f32 0x47435000#32),
    StableHlo.TRef.unary main_call10.cst_0 main_call10.v2 (broadcastInDim S1x64 ![] bcast_S_S1x64),
    StableHlo.TRef.binary main_call10.v1 main_call10.v2 main_call10.v3 Host.divf,
    StableHlo.TRef.unary main_call10.v3 main_call10.v4 (broadcastInDim S50000x64 ![0, 1] bcast_S1x64_S50000x64_0_1),
    StableHlo.TRef.binary (.of main_v115 : StableHlo.TRef sig ⟨S50000x64, .f32⟩) main_call10.v4 main_call10.v5 subf,
    StableHlo.TRef.binary main_call10.v5 main_call10.v5 main_call10.v6 mulf,
    StableHlo.TRef.unary (.of main_c_20 : StableHlo.TRef sig ⟨S_, .i32⟩) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x64_S64_d0 h_S_),
    StableHlo.TRef.unary main_call10.v8 main_call10.v10 (broadcastInDim S64 ![] bcast_S_S64),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S64 ![] bcast_S_S64),
    StableHlo.TRef.ternary main_call10.v12 main_call10.v11 main_call10.call0.v1 main_call10.call0.v2 (fun p a b => select (broadcastInDim S64 ![] bcast_S_S64 p) a b),
    StableHlo.unary main_v118 main_v120 (broadcastInDim S1x64 ![1] bcast_S64_S1x64_1 : (⟨S64, .f32⟩ : BufTy).Contents (Elt F) → (⟨S1x64, .f32⟩ : BufTy).Contents (Elt F)),
    StableHlo.unary main_v120 main_v121 (broadcastInDim S50000x64 ![0, 1] bcast_S1x64_S50000x64_0_1 : (⟨S1x64, .f32⟩ : BufTy).Contents (Elt F) → (⟨S50000x64, .f32⟩ : BufTy).Contents (Elt F)),
    StableHlo.binary main_v115 main_v121 main_v122 (subf : (⟨S50000x64, .f32⟩ : BufTy).Contents (Elt F) → (⟨S50000x64, .f32⟩ : BufTy).Contents (Elt F) → (⟨S50000x64, .f32⟩ : BufTy).Contents (Elt F)),
    StableHlo.nullary main_cst_21 (constant S_ .f32 0x3727C5AC#32),
    StableHlo.unary main_cst_21 main_v123 (broadcastInDim S64 ![] bcast_S_S64 : (⟨S_, .f32⟩ : BufTy).Contents (Elt F) → (⟨S64, .f32⟩ : BufTy).Contents (Elt F)),
    StableHlo.binary main_v119 main_v123 main_v124 (addf : (⟨S64, .f32⟩ : BufTy).Contents (Elt F) → (⟨S64, .f32⟩ : BufTy).Contents (Elt F) → (⟨S64, .f32⟩ : BufTy).Contents (Elt F)),
    StableHlo.unary main_v124 main_v125 (Host.rsqrt : (⟨S64, .f32⟩ : BufTy).Contents (Elt F) → (⟨S64, .f32⟩ : BufTy).Contents (Elt F)),
    StableHlo.unary main_v125 main_v126 (broadcastInDim S1x64 ![1] bcast_S64_S1x64_1 : (⟨S64, .f32⟩ : BufTy).Contents (Elt F) → (⟨S1x64, .f32⟩ : BufTy).Contents (Elt F)),
    StableHlo.unary main_v126 main_v127 (broadcastInDim S50000x64 ![0, 1] bcast_S1x64_S50000x64_0_1 : (⟨S1x64, .f32⟩ : BufTy).Contents (Elt F) → (⟨S50000x64, .f32⟩ : BufTy).Contents (Elt F)),
    StableHlo.binary main_v122 main_v127 main_v128 (mulf : (⟨S50000x64, .f32⟩ : BufTy).Contents (Elt F) → (⟨S50000x64, .f32⟩ : BufTy).Contents (Elt F) → (⟨S50000x64, .f32⟩ : BufTy).Contents (Elt F)),
    StableHlo.unary main_arg21 main_v129 (broadcastInDim S1x64 ![1] bcast_S64_S1x64_1 : (⟨S64, .f32⟩ : BufTy).Contents (Elt F) → (⟨S1x64, .f32⟩ : BufTy).Contents (Elt F)),
    StableHlo.unary main_v129 main_v130 (broadcastInDim S50000x64 ![0, 1] bcast_S1x64_S50000x64_0_1 : (⟨S1x64, .f32⟩ : BufTy).Contents (Elt F) → (⟨S50000x64, .f32⟩ : BufTy).Contents (Elt F)),
    StableHlo.binary main_v128 main_v130 main_v131 (mulf : (⟨S50000x64, .f32⟩ : BufTy).Contents (Elt F) → (⟨S50000x64, .f32⟩ : BufTy).Contents (Elt F) → (⟨S50000x64, .f32⟩ : BufTy).Contents (Elt F)),
    StableHlo.unary main_arg22 main_v132 (broadcastInDim S1x64 ![1] bcast_S64_S1x64_1 : (⟨S64, .f32⟩ : BufTy).Contents (Elt F) → (⟨S1x64, .f32⟩ : BufTy).Contents (Elt F)),
    StableHlo.unary main_v132 main_v133 (broadcastInDim S50000x64 ![0, 1] bcast_S1x64_S50000x64_0_1 : (⟨S1x64, .f32⟩ : BufTy).Contents (Elt F) → (⟨S50000x64, .f32⟩ : BufTy).Contents (Elt F)),
    StableHlo.binary main_v131 main_v133 main_v134 (addf : (⟨S50000x64, .f32⟩ : BufTy).Contents (Elt F) → (⟨S50000x64, .f32⟩ : BufTy).Contents (Elt F) → (⟨S50000x64, .f32⟩ : BufTy).Contents (Elt F)),
    StableHlo.TRef.nullary main_call11.cst (constant S_ .f32 0x00000000#32),
    StableHlo.TRef.unary main_call11.cst main_call11.v0 (broadcastInDim S50000x64 ![] bcast_S_S50000x64),
    StableHlo.TRef.binary (.of main_v134 : StableHlo.TRef sig ⟨S50000x64, .f32⟩) main_call11.v0 main_call11.v1 maximumf,
    StableHlo.binary main_v135 main_arg23 main_v136 ((fun l r => Host.dotGeneral dot_S50000x64_S64x10_S50000x10_1_0_0_1_n_n none l r) : (⟨S50000x64, .f32⟩ : BufTy).Contents (Elt F) → (⟨S64x10, .f32⟩ : BufTy).Contents (Elt F) → (⟨S50000x10, .f32⟩ : BufTy).Contents (Elt F)),
    StableHlo.unary main_arg24 main_v137 (broadcastInDim S1x10 ![1] bcast_S10_S1x10_1 : (⟨S10, .f32⟩ : BufTy).Contents (Elt F) → (⟨S1x10, .f32⟩ : BufTy).Contents (Elt F)),
    StableHlo.unary main_v137 main_v138 (broadcastInDim S50000x10 ![0, 1] bcast_S1x10_S50000x10_0_1 : (⟨S1x10, .f32⟩ : BufTy).Contents (Elt F) → (⟨S50000x10, .f32⟩ : BufTy).Contents (Elt F)),
    StableHlo.binary main_v136 main_v138 main_v139 (addf : (⟨S50000x10, .f32⟩ : BufTy).Contents (Elt F) → (⟨S50000x10, .f32⟩ : BufTy).Contents (Elt F) → (⟨S50000x10, .f32⟩ : BufTy).Contents (Elt F)) ]

theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub ..⟩
theorem ops0_fresh : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops1_sub : (ops1 : List (HloOp τ sig (Elt F))).Forall fun op => op.bufs ⊆ tcRefs τ sig :=
  ⟨unary_bufs_sub .., binary_bufs_sub .., ternary_bufs_sub .., unary_bufs_sub .., binary_bufs_sub .., nullary_bufs_sub .., unary_bufs_sub .., unary_bufs_sub .., ternary_bufs_sub .., nullary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub ..⟩
theorem ops1_fresh : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

theorem ops2_sub : (ops2 : List (HloOp τ sig (Elt F))).Forall fun op => op.bufs ⊆ tcRefs τ sig :=
  ⟨ternary_bufs_sub .., nullary_bufs_sub .., binary_bufs_sub .., unary_bufs_sub .., binary_bufs_sub .., binary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., binary_bufs_sub .., unary_bufs_sub .., unary_bufs_sub .., binary_bufs_sub ..⟩
theorem ops2_fresh : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-- @main's 245 operations, in order. -/
abbrev ops : List (HloOp τ sig (Elt F)) := ops0 ++ (ops1 ++ ops2)

set_option maxRecDepth 16384 in
set_option maxHeartbeats 1600000 in
/-- Part 0 is its list run in order: the callees' definitions unfolded at their calls, both sides are one chain of
    steps once sequencing is reassociated. -/
theorem part0_eq (c : Dev nD) : main_part0 (F := F) c = seq ops0 := by
  simp only [main_part0, fn_relu.body, fn_var.body, fn_where.body, seq, bind_assoc, pure_bind]
  rfl

set_option maxRecDepth 16384 in
set_option maxHeartbeats 1600000 in
/-- Part 1 is its list run in order: the callees' definitions unfolded at their calls, both sides are one chain of
    steps once sequencing is reassociated. -/
theorem part1_eq (c : Dev nD) : main_part1 (F := F) c = seq ops1 := by
  simp only [main_part1, fn_relu.body, fn_var.body, fn_where.body, seq, bind_assoc, pure_bind]
  rfl

set_option maxRecDepth 16384 in
set_option maxHeartbeats 1600000 in
/-- Part 2 is its list run in order: the callees' definitions unfolded at their calls, both sides are one chain of
    steps once sequencing is reassociated. -/
theorem part2_eq (c : Dev nD) : main_part2 (F := F) c = seq ops2 := by
  simp only [main_part2, fn_relu.body, fn_var.body, fn_where.body, seq, bind_assoc, pure_bind]

/-- @main is the three parts in order, so the concatenation of their lists run in order. -/
theorem main_eq (c : Dev nD) : main (F := F) c = seq ops := by
  show (main_part0 (F := F) c >>= fun _ => main_part1 (F := F) c >>= fun _ => main_part2 (F := F) c) = seq (ops0 ++ (ops1 ++ ops2))
  rw [part0_eq, part1_eq, part2_eq, seq_append, seq_append]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  forall_append ops0_sub (forall_append ops1_sub ops2_sub)

/-- Every operation determines what it writes. -/
theorem ops_fresh : ∀ op ∈ (ops : List (HloOp τ sig (Elt F))), op.fresh = ∅ :=
  List.forall_iff_forall_mem.mp (forall_append ops0_fresh (forall_append ops1_fresh ops2_fresh))

/-- On every device, for any float values, from any memory with zero counters: every weakly fair execution of @main
    terminates, and every final state has each buffer at the fold of the operations over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (Proc.devRef .tc b) :=
  run_seq scopedRefs_eq scopedSems_eq defs main (fun _ => ops) main_eq (fun _ => ops_sub) m ρ (fun _ => ops_fresh)

end Cert.ReferenceIdeal.RefRun

end
-- ==== Proof.RefSegs.lean ====
/-
  The reference's operations cut into stages, and which buffers each stage leaves alone.

  The list of @main's operations is cut where the network's stages end: the two index vectors; then per layer the
  neighbour sums, the two rectified affine stages, the column statistics, the normalisation; then the last affine layer.
  A stage writes only its own result buffers, so every other buffer holds after it what it held before: stated once
  per stage for any buffer outside the stage's list of written buffers, and composed along concatenations.
-/
import proofs.«179991_j80487687127440_1_alg».proof.Proof.RefRun

noncomputable section

namespace Cert.ReferenceIdeal.RefSegs

open Cert.ReferenceIdeal Cert.ReferenceIdeal.Gen Cert.ReferenceIdeal.RefRun Idealize.ShloMosaic Idealize.ShloMosaic.TcCoe Idealize.SL.Sem Idealize.ShloMosaic.StableHlo

variable {F : FTy → Type} [FloatOps F]

/-- The fold over a concatenation is the fold over the second list from the fold over the first. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- A single written buffer that is in a list of references is in that list's set of device buffers. -/
theorem sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map.mpr ⟨y, h, rfl⟩))

/-- The operations `S` leave every buffer outside the list `W` as it was. -/
abbrev Keeps (S : List (HloOp τ sig (Elt F))) (W : List (Ref sig .tc)) : Prop :=
  ∀ (V : Valuation τ sig (Elt F)) (r : Ref sig .tc), r ∉ W → after S V (Proc.devRef .tc r) = V (Proc.devRef .tc r)

/-- Two lists in a row leave alone what both leave alone. -/
theorem keep_append {A B : List (HloOp τ sig (Elt F))} {WA WB : List (Ref sig .tc)} (hA : Keeps A WA) (hB : Keeps B WB) :
    Keeps (A ++ B) (WA ++ WB) := fun V r hr => by
  rw [after_app, hB _ r (fun h => hr (List.mem_append_right _ h)), hA _ r (fun h => hr (List.mem_append_left _ h))]

/-- The two index vectors: rows 0 and 1 of the edge table. -/
abbrev segA : List (HloOp τ sig (Elt F)) :=
  [ StableHlo.unary main_arg1 main_v0 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v0 main_v1 rfl shapeCasts_S1x800000_S800000,
    StableHlo.unary main_arg1 main_v2 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v2 main_v3 rfl shapeCasts_S1x800000_S800000 ]
/-- What it writes. -/
abbrev WA : List (Ref sig .tc) := [main_v0, main_v1, main_v2, main_v3]
theorem segA_w : (segA : List (HloOp τ sig (Elt F))).Forall fun op => op.writes ⊆ ((WA).map (Proc.devRef (τ := τ) .tc)).toFinset :=
  ⟨sub_of_mem (y := main_v0) (by decide), sub_of_mem (y := main_v1) (by decide), sub_of_mem (y := main_v2) (by decide), sub_of_mem (y := main_v3) (by decide)⟩
theorem keepA : Keeps (segA : List (HloOp τ sig (Elt F))) WA := fun V r hr => after_of_writes_sub segA V segA_w hr

/-- Layer 1: the neighbour sums. -/
abbrev segB : List (HloOp τ sig (Elt F)) :=
  [ StableHlo.nullary main_c (constantI S_ 32 0#32),
    StableHlo.unary main_c main_v4 (broadcastInDim S800000 ![] bcast_S_S800000 : (⟨S_, .i32⟩ : BufTy).Contents (Elt F) → (⟨S800000, .i32⟩ : BufTy).Contents (Elt F)),
    StableHlo.binary main_v1 main_v4 main_v5 (cmpi .slt : (⟨S800000, .i32⟩ : BufTy).Contents (Elt F) → (⟨S800000, .i32⟩ : BufTy).Contents (Elt F) → (⟨S800000, .i1⟩ : BufTy).Contents (Elt F)),
    StableHlo.nullary main_c_0 (constantI S_ 32 50000#32),
    StableHlo.unary main_c_0 main_v6 (broadcastInDim S800000 ![] bcast_S_S800000 : (⟨S_, .i32⟩ : BufTy).Contents (Elt F) → (⟨S800000, .i32⟩ : BufTy).Contents (Elt F)),
    StableHlo.binary main_v1 main_v6 main_v7 (addi : (⟨S800000, .i32⟩ : BufTy).Contents (Elt F) → (⟨S800000, .i32⟩ : BufTy).Contents (Elt F) → (⟨S800000, .i32⟩ : BufTy).Contents (Elt F)),
    StableHlo.ternary main_v5 main_v7 main_v1 main_v8 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v8 main_v9 (broadcastInDim S800000x1 ![0] bcast_S800000_S800000x1_0 : (⟨S800000, .i32⟩ : BufTy).Contents (Elt F) → (⟨S800000x1, .i32⟩ : BufTy).Contents (Elt F)),
    StableHlo.binary main_arg0 main_v9 main_v10 ((fun x i => Host.gather gather_S50000x128_S800000x1_S800000x128_1_0_n_n_0_1_1128 x i) : (⟨S50000x128, .f32⟩ : BufTy).Contents (Elt F) → (⟨S800000x1, .i32⟩ : BufTy).Contents (Elt F) → (⟨S800000x128, .f32⟩ : BufTy).Contents (Elt F)),
    StableHlo.nullary main_cst (constant S_ .f32 0x00000000#32),
    StableHlo.unary main_cst main_v11 (broadcastInDim S50000x128 ![] bcast_S_S50000x128 : (⟨S_, .f32⟩ : BufTy).Contents (Elt F) → (⟨S50000x128, .f32⟩ : BufTy).Contents (Elt F)),
    StableHlo.unary main_v3 main_v12 (broadcastInDim S800000x1 ![0] bcast_S800000_S800000x1_0 : (⟨S800000, .i32⟩ : BufTy).Contents (Elt F) → (⟨S800000x1, .i32⟩ : BufTy).Contents (Elt F)),
    StableHlo.ternary main_v11 main_v12 main_v10 main_v13 ((fun x i u => Host.scatterAdd scatter_S50000x128_S800000x1_S800000x128_1_0_0_1 x i u) : (⟨S50000x128, .f32⟩ : BufTy).Contents (Elt F) → (⟨S800000x1, .i32⟩ : BufTy).Contents (Elt F) → (⟨S800000x128, .f32⟩ : BufTy).Contents (Elt F) → (⟨S50000x128, .f32⟩ : BufTy).Contents (Elt F)) ]
/-- What it writes. -/
abbrev WB : List (Ref sig .tc) := [main_c, main_v4, main_v5, main_c_0, main_v6, main_v7, main_v8, main_v9, main_v10, main_cst, main_v11, main_v12, main_v13]
theorem segB_w : (segB : List (HloOp τ sig (Elt F))).Forall fun op => op.writes ⊆ ((WB).map (Proc.devRef (τ := τ) .tc)).toFinset :=
  ⟨sub_of_mem (y := main_c) (by decide), sub_of_mem (y := main_v4) (by decide), sub_of_mem (y := main_v5) (by decide), sub_of_mem (y := main_c_0) (by decide), sub_of_mem (y := main_v6) (by decide), sub_of_mem (y := main_v7) (by decide), sub_of_mem (y := main_v8) (by decide), sub_of_mem (y := main_v9) (by decide), sub_of_mem (y := main_v10) (by decide), sub_of_mem (y := main_cst) (by decide), sub_of_mem (y := main_v11) (by decide), sub_of_mem (y := main_v12) (by decide), sub_of_mem (y := main_v13) (by decide)⟩
theorem keepB : Keeps (segB : List (HloOp τ sig (Elt F))) WB := fun V r hr => after_of_writes_sub segB V segB_w hr

/-- Layer 1: the two rectified affine stages. -/
abbrev segC : List (HloOp τ sig (Elt F)) :=
  [ StableHlo.nullary main_cst_1 (constant S_ .f32 0x3F800000#32),
    StableHlo.binary main_cst_1 main_arg2 main_v14 (addf : (⟨S_, .f32⟩ : BufTy).Contents (Elt F) → (⟨S_, .f32⟩ : BufTy).Contents (Elt F) → (⟨S_, .f32⟩ : BufTy).Contents (Elt F)),
    StableHlo.unary main_v14 main_v15 (broadcastInDim S50000x128 ![] bcast_S_S50000x128 : (⟨S_, .f32⟩ : BufTy).Contents (Elt F) → (⟨S50000x128, .f32⟩ : BufTy).Contents (Elt F)),
    StableHlo.binary main_v15 main_arg0 main_v16 (mulf : (⟨S50000x128, .f32⟩ : BufTy).Contents (Elt F) → (⟨S50000x128, .f32⟩ : BufTy).Contents (Elt F) → (⟨S50000x128, .f32⟩ : BufTy).Contents (Elt F)),
    StableHlo.binary main_v16 main_v13 main_v17 (addf : (⟨S50000x128, .f32⟩ : BufTy).Contents (Elt F) → (⟨S50000x128, .f32⟩ : BufTy).Contents (Elt F) → (⟨S50000x128, .f32⟩ : BufTy).Contents (Elt F)),
    StableHlo.binary main_v17 main_arg3 main_v18 ((fun l r => Host.dotGeneral dot_S50000x128_S128x64_S50000x64_1_0_0_1_n_n none l r) : (⟨S50000x128, .f32⟩ : BufTy).Contents (Elt F) → (⟨S128x64, .f32⟩ : BufTy).Contents (Elt F) → (⟨S50000x64, .f32⟩ : BufTy).Contents (Elt F)),
    StableHlo.unary main_arg4 main_v19 (broadcastInDim S1x64 ![1] bcast_S64_S1x64_1 : (⟨S64, .f32⟩ : BufTy).Contents (Elt F) → (⟨S1x64, .f32⟩ : BufTy).Contents (Elt F)),
    StableHlo.unary main_v19 main_v20 (broadcastInDim S50000x64 ![0, 1] bcast_S1x64_S50000x64_0_1 : (⟨S1x64, .f32⟩ : BufTy).Contents (Elt F) → (⟨S50000x64, .f32⟩ : BufTy).Contents (Elt F)),
    StableHlo.binary main_v18 main_v20 main_v21 (addf : (⟨S50000x64, .f32⟩ : BufTy).Contents (Elt F) → (⟨S50000x64, .f32⟩ : BufTy).Contents (Elt F) → (⟨S50000x64, .f32⟩ : BufTy).Contents (Elt F)),
    StableHlo.TRef.nullary main_call0.cst (constant S_ .f32 0x00000000#32),
    StableHlo.TRef.unary main_call0.cst main_call0.v0 (broadcastInDim S50000x64 ![] bcast_S_S50000x64),
    StableHlo.TRef.binary (.of main_v21 : StableHlo.TRef sig ⟨S50000x64, .f32⟩) main_call0.v0 main_call0.v1 maximumf,
    StableHlo.binary main_v22 main_arg5 main_v23 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg6 main_v24 (broadcastInDim S1x64 ![1] bcast_S64_S1x64_1 : (⟨S64, .f32⟩ : BufTy).Contents (Elt F) → (⟨S1x64, .f32⟩ : BufTy).Contents (Elt F)),
    StableHlo.unary main_v24 main_v25 (broadcastInDim S50000x64 ![0, 1] bcast_S1x64_S50000x64_0_1 : (⟨S1x64, .f32⟩ : BufTy).Contents (Elt F) → (⟨S50000x64, .f32⟩ : BufTy).Contents (Elt F)),
    StableHlo.binary main_v23 main_v25 main_v26 (addf : (⟨S50000x64, .f32⟩ : BufTy).Contents (Elt F) → (⟨S50000x64, .f32⟩ : BufTy).Contents (Elt F) → (⟨S50000x64, .f32⟩ : BufTy).Contents (Elt F)),
    StableHlo.TRef.nullary main_call1.cst (constant S_ .f32 0x00000000#32),
    StableHlo.TRef.unary main_call1.cst main_call1.v0 (broadcastInDim S50000x64 ![] bcast_S_S50000x64),
    StableHlo.TRef.binary (.of main_v26 : StableHlo.TRef sig ⟨S50000x64, .f32⟩) main_call1.v0 main_call1.v1 maximumf ]
/-- What it writes. -/
abbrev WC : List (Ref sig .tc) := [main_cst_1, main_v14, main_v15, main_v16, main_v17, main_v18, main_v19, main_v20, main_v21, main_call0_cst, main_call0_v0, main_v22, main_v23, main_v24, main_v25, main_v26, main_call1_cst, main_call1_v0, main_v27]
theorem segC_w : (segC : List (HloOp τ sig (Elt F))).Forall fun op => op.writes ⊆ ((WC).map (Proc.devRef (τ := τ) .tc)).toFinset :=
  ⟨sub_of_mem (y := main_cst_1) (by decide), sub_of_mem (y := main_v14) (by decide), sub_of_mem (y := main_v15) (by decide), sub_of_mem (y := main_v16) (by decide), sub_of_mem (y := main_v17) (by decide), sub_of_mem (y := main_v18) (by decide), sub_of_mem (y := main_v19) (by decide), sub_of_mem (y := main_v20) (by decide), sub_of_mem (y := main_v21) (by decide), sub_of_mem (y := main_call0_cst) (by decide), sub_of_mem (y := main_call0_v0) (by decide), sub_of_mem (y := main_v22) (by decide), sub_of_mem (y := main_v23) (by decide), sub_of_mem (y := main_v24) (by decide), sub_of_mem (y := main_v25) (by decide), sub_of_mem (y := main_v26) (by decide), sub_of_mem (y := main_call1_cst) (by decide), sub_of_mem (y := main_call1_v0) (by decide), sub_of_mem (y := main_v27) (by decide)⟩
theorem keepC : Keeps (segC : List (HloOp τ sig (Elt F))) WC := fun V r hr => after_of_writes_sub segC V segC_w hr

/-- Layer 1: the column mean and variance. -/
abbrev segD : List (HloOp τ sig (Elt F)) :=
  [ StableHlo.nullary main_cst_2 (constant S_ .f32 0x00000000#32),
    StableHlo.binary main_v27 main_cst_2 main_v28 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_3 (constant S_ .f32 0x47435000#32),
    StableHlo.unary main_cst_3 main_v29 (broadcastInDim S64 ![] bcast_S_S64 : (⟨S_, .f32⟩ : BufTy).Contents (Elt F) → (⟨S64, .f32⟩ : BufTy).Contents (Elt F)),
    StableHlo.binary main_v28 main_v29 main_v30 (Host.divf : (⟨S64, .f32⟩ : BufTy).Contents (Elt F) → (⟨S64, .f32⟩ : BufTy).Contents (Elt F) → (⟨S64, .f32⟩ : BufTy).Contents (Elt F)),
    StableHlo.nullary main_c_4 (constantI S_ 32 0#32),
    StableHlo.TRef.nullary main_call2.cst (constant S_ .f32 0x00000000#32),
    StableHlo.TRef.binary (.of main_v27 : StableHlo.TRef sig ⟨S50000x64, .f32⟩) main_call2.cst main_call2.v0 (fun x v => Host.reduceAdd x v reducesTo_S50000x64_S64_d0 h_S_),
    StableHlo.TRef.unary main_call2.v0 main_call2.v1 (broadcastInDim S1x64 ![1] bcast_S64_S1x64_1),
    StableHlo.TRef.nullary main_call2.cst_0 (constant S_ .f32 0x47435000#32),
    StableHlo.TRef.unary main_call2.cst_0 main_call2.v2 (broadcastInDim S1x64 ![] bcast_S_S1x64),
    StableHlo.TRef.binary main_call2.v1 main_call2.v2 main_call2.v3 Host.divf,
    StableHlo.TRef.unary main_call2.v3 main_call2.v4 (broadcastInDim S50000x64 ![0, 1] bcast_S1x64_S50000x64_0_1),
    StableHlo.TRef.binary (.of main_v27 : StableHlo.TRef sig ⟨S50000x64, .f32⟩) main_call2.v4 main_call2.v5 subf,
    StableHlo.TRef.binary main_call2.v5 main_call2.v5 main_call2.v6 mulf,
    StableHlo.TRef.unary (.of main_c_4 : StableHlo.TRef sig ⟨S_, .i32⟩) main_call2.v7 (sitofp .f32),
    StableHlo.TRef.nullary main_call2.cst_1 (constant S_ .f32 0x47435000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S50000x64_S64_d0 h_S_),
    StableHlo.TRef.unary main_call2.v8 main_call2.v10 (broadcastInDim S64 ![] bcast_S_S64),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S64 ![] bcast_S_S64),
    StableHlo.TRef.ternary main_call2.v12 main_call2.v11 main_call2.call0.v1 main_call2.call0.v2 (fun p a b => select (broadcastInDim S64 ![] bcast_S_S64 p) a b) ]
/-- What it writes. -/
abbrev WD : List (Ref sig .tc) := [main_cst_2, main_v28, main_cst_3, main_v29, main_v30, main_c_4, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v31]
theorem segD_w : (segD : List (HloOp τ sig (Elt F))).Forall fun op => op.writes ⊆ ((WD).map (Proc.devRef (τ := τ) .tc)).toFinset :=
  ⟨sub_of_mem (y := main_cst_2) (by decide), sub_of_mem (y := main_v28) (by decide), sub_of_mem (y := main_cst_3) (by decide), sub_of_mem (y := main_v29) (by decide), sub_of_mem (y := main_v30) (by decide), sub_of_mem (y := main_c_4) (by decide), sub_of_mem (y := main_call2_cst) (by decide), sub_of_mem (y := main_call2_v0) (by decide), sub_of_mem (y := main_call2_v1) (by decide), sub_of_mem (y := main_call2_cst_0) (by decide), sub_of_mem (y := main_call2_v2) (by decide), sub_of_mem (y := main_call2_v3) (by decide), sub_of_mem (y := main_call2_v4) (by decide), sub_of_mem (y := main_call2_v5) (by decide), sub_of_mem (y := main_call2_v6) (by decide), sub_of_mem (y := main_call2_v7) (by decide), sub_of_mem (y := main_call2_cst_1) (by decide), sub_of_mem (y := main_call2_v8) (by decide), sub_of_mem (y := main_call2_cst_2) (by decide), sub_of_mem (y := main_call2_v9) (by decide), sub_of_mem (y := main_call2_v10) (by decide), sub_of_mem (y := main_call2_v11) (by decide), sub_of_mem (y := main_call2_cst_3) (by decide), sub_of_mem (y := main_call2_v12) (by decide), sub_of_mem (y := main_call2_cst_4) (by decide), sub_of_mem (y := main_call2_call0_v0) (by decide), sub_of_mem (y := main_call2_call0_v1) (by decide), sub_of_mem (y := main_v31) (by decide)⟩
theorem keepD : Keeps (segD : List (HloOp τ sig (Elt F))) WD := fun V r hr => after_of_writes_sub segD V segD_w hr

/-- Layer 1: the normalisation and rectifier. -/
abbrev segE : List (HloOp τ sig (Elt F)) :=
  [ StableHlo.unary main_v30 main_v32 (broadcastInDim S1x64 ![1] bcast_S64_S1x64_1 : (⟨S64, .f32⟩ : BufTy).Contents (Elt F) → (⟨S1x64, .f32⟩ : BufTy).Contents (Elt F)),
    StableHlo.unary main_v32 main_v33 (broadcastInDim S50000x64 ![0, 1] bcast_S1x64_S50000x64_0_1 : (⟨S1x64, .f32⟩ : BufTy).Contents (Elt F) → (⟨S50000x64, .f32⟩ : BufTy).Contents (Elt F)),
    StableHlo.binary main_v27 main_v33 main_v34 (subf : (⟨S50000x64, .f32⟩ : BufTy).Contents (Elt F) → (⟨S50000x64, .f32⟩ : BufTy).Contents (Elt F) → (⟨S50000x64, .f32⟩ : BufTy).Contents (Elt F)),
    StableHlo.nullary main_cst_5 (constant S_ .f32 0x3727C5AC#32),
    StableHlo.unary main_cst_5 main_v35 (broadcastInDim S64 ![] bcast_S_S64 : (⟨S_, .f32⟩ : BufTy).Contents (Elt F) → (⟨S64, .f32⟩ : BufTy).Contents (Elt F)),
    StableHlo.binary main_v31 main_v35 main_v36 (addf : (⟨S64, .f32⟩ : BufTy).Contents (Elt F) → (⟨S64, .f32⟩ : BufTy).Contents (Elt F) → (⟨S64, .f32⟩ : BufTy).Contents (Elt F)),
    StableHlo.unary main_v36 main_v37 (Host.rsqrt : (⟨S64, .f32⟩ : BufTy).Contents (Elt F) → (⟨S64, .f32⟩ : BufTy).Contents (Elt F)),
    StableHlo.unary main_v37 main_v38 (broadcastInDim S1x64 ![1] bcast_S64_S1x64_1 : (⟨S64, .f32⟩ : BufTy).Contents (Elt F) → (⟨S1x64, .f32⟩ : BufTy).Contents (Elt F)),
    StableHlo.unary main_v38 main_v39 (broadcastInDim S50000x64 ![0, 1] bcast_S1x64_S50000x64_0_1 : (⟨S1x64, .f32⟩ : BufTy).Contents (Elt F) → (⟨S50000x64, .f32⟩ : BufTy).Contents (Elt F)),
    StableHlo.binary main_v34 main_v39 main_v40 (mulf : (⟨S50000x64, .f32⟩ : BufTy).Contents (Elt F) → (⟨S50000x64, .f32⟩ : BufTy).Contents (Elt F) → (⟨S50000x64, .f32⟩ : BufTy).Contents (Elt F)),
    StableHlo.unary main_arg7 main_v41 (broadcastInDim S1x64 ![1] bcast_S64_S1x64_1 : (⟨S64, .f32⟩ : BufTy).Contents (Elt F) → (⟨S1x64, .f32⟩ : BufTy).Contents (Elt F)),
    StableHlo.unary main_v41 main_v42 (broadcastInDim S50000x64 ![0, 1] bcast_S1x64_S50000x64_0_1 : (⟨S1x64, .f32⟩ : BufTy).Contents (Elt F) → (⟨S50000x64, .f32⟩ : BufTy).Contents (Elt F)),
    StableHlo.binary main_v40 main_v42 main_v43 (mulf : (⟨S50000x64, .f32⟩ : BufTy).Contents (Elt F) → (⟨S50000x64, .f32⟩ : BufTy).Contents (Elt F) → (⟨S50000x64, .f32⟩ : BufTy).Contents (Elt F)),
    StableHlo.unary main_arg8 main_v44 (broadcastInDim S1x64 ![1] bcast_S64_S1x64_1 : (⟨S64, .f32⟩ : BufTy).Contents (Elt F) → (⟨S1x64, .f32⟩ : BufTy).Contents (Elt F)),
    StableHlo.unary main_v44 main_v45 (broadcastInDim S50000x64 ![0, 1] bcast_S1x64_S50000x64_0_1 : (⟨S1x64, .f32⟩ : BufTy).Contents (Elt F) → (⟨S50000x64, .f32⟩ : BufTy).Contents (Elt F)),
    StableHlo.binary main_v43 main_v45 main_v46 (addf : (⟨S50000x64, .f32⟩ : BufTy).Contents (Elt F) → (⟨S50000x64, .f32⟩ : BufTy).Contents (Elt F) → (⟨S50000x64, .f32⟩ : BufTy).Contents (Elt F)),
    StableHlo.TRef.nullary main_call3.cst (constant S_ .f32 0x00000000#32),
    StableHlo.TRef.unary main_call3.cst main_call3.v0 (broadcastInDim S50000x64 ![] bcast_S_S50000x64),
    StableHlo.TRef.binary (.of main_v46 : StableHlo.TRef sig ⟨S50000x64, .f32⟩) main_call3.v0 main_call3.v1 maximumf ]
/-- What it writes. -/
abbrev WE : List (Ref sig .tc) := [main_v32, main_v33, main_v34, main_cst_5, main_v35, main_v36, main_v37, main_v38, main_v39, main_v40, main_v41, main_v42, main_v43, main_v44, main_v45, main_v46, main_call3_cst, main_call3_v0, main_v47]
theorem segE_w : (segE : List (HloOp τ sig (Elt F))).Forall fun op => op.writes ⊆ ((WE).map (Proc.devRef (τ := τ) .tc)).toFinset :=
  ⟨sub_of_mem (y := main_v32) (by decide), sub_of_mem (y := main_v33) (by decide), sub_of_mem (y := main_v34) (by decide), sub_of_mem (y := main_cst_5) (by decide), sub_of_mem (y := main_v35) (by decide), sub_of_mem (y := main_v36) (by decide), sub_of_mem (y := main_v37) (by decide), sub_of_mem (y := main_v38) (by decide), sub_of_mem (y := main_v39) (by decide), sub_of_mem (y := main_v40) (by decide), sub_of_mem (y := main_v41) (by decide), sub_of_mem (y := main_v42) (by decide), sub_of_mem (y := main_v43) (by decide), sub_of_mem (y := main_v44) (by decide), sub_of_mem (y := main_v45) (by decide), sub_of_mem (y := main_v46) (by decide), sub_of_mem (y := main_call3_cst) (by decide), sub_of_mem (y := main_call3_v0) (by decide), sub_of_mem (y := main_v47) (by decide)⟩
theorem keepE : Keeps (segE : List (HloOp τ sig (Elt F))) WE := fun V r hr => after_of_writes_sub segE V segE_w hr

/-- Layer 2: the neighbour sums. -/
abbrev segF : List (HloOp τ sig (Elt F)) :=
  [ StableHlo.nullary main_c_6 (constantI S_ 32 0#32),
    StableHlo.unary main_c_6 main_v48 (broadcastInDim S800000 ![] bcast_S_S800000 : (⟨S_, .i32⟩ : BufTy).Contents (Elt F) → (⟨S800000, .i32⟩ : BufTy).Contents (Elt F)),
    StableHlo.binary main_v1 main_v48 main_v49 (cmpi .slt : (⟨S800000, .i32⟩ : BufTy).Contents (Elt F) → (⟨S800000, .i32⟩ : BufTy).Contents (Elt F) → (⟨S800000, .i1⟩ : BufTy).Contents (Elt F)),
    StableHlo.nullary main_c_7 (constantI S_ 32 50000#32),
    StableHlo.unary main_c_7 main_v50 (broadcastInDim S800000 ![] bcast_S_S800000 : (⟨S_, .i32⟩ : BufTy).Contents (Elt F) → (⟨S800000, .i32⟩ : BufTy).Contents (Elt F)),
    StableHlo.binary main_v1 main_v50 main_v51 (addi : (⟨S800000, .i32⟩ : BufTy).Contents (Elt F) → (⟨S800000, .i32⟩ : BufTy).Contents (Elt F) → (⟨S800000, .i32⟩ : BufTy).Contents (Elt F)),
    StableHlo.ternary main_v49 main_v51 main_v1 main_v52 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v52 main_v53 (broadcastInDim S800000x1 ![0] bcast_S800000_S800000x1_0 : (⟨S800000, .i32⟩ : BufTy).Contents (Elt F) → (⟨S800000x1, .i32⟩ : BufTy).Contents (Elt F)),
    StableHlo.binary main_v47 main_v53 main_v54 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_8 (constant S_ .f32 0x00000000#32),
    StableHlo.unary main_cst_8 main_v55 (broadcastInDim S50000x64 ![] bcast_S_S50000x64 : (⟨S_, .f32⟩ : BufTy).Contents (Elt F) → (⟨S50000x64, .f32⟩ : BufTy).Contents (Elt F)),
    StableHlo.unary main_v3 main_v56 (broadcastInDim S800000x1 ![0] bcast_S800000_S800000x1_0 : (⟨S800000, .i32⟩ : BufTy).Contents (Elt F) → (⟨S800000x1, .i32⟩ : BufTy).Contents (Elt F)),
    StableHlo.ternary main_v55 main_v56 main_v54 main_v57 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]
/-- What it writes. -/
abbrev WF : List (Ref sig .tc) := [main_c_6, main_v48, main_v49, main_c_7, main_v50, main_v51, main_v52, main_v53, main_v54, main_cst_8, main_v55, main_v56, main_v57]
theorem segF_w : (segF : List (HloOp τ sig (Elt F))).Forall fun op => op.writes ⊆ ((WF).map (Proc.devRef (τ := τ) .tc)).toFinset :=
  ⟨sub_of_mem (y := main_c_6) (by decide), sub_of_mem (y := main_v48) (by decide), sub_of_mem (y := main_v49) (by decide), sub_of_mem (y := main_c_7) (by decide), sub_of_mem (y := main_v50) (by decide), sub_of_mem (y := main_v51) (by decide), sub_of_mem (y := main_v52) (by decide), sub_of_mem (y := main_v53) (by decide), sub_of_mem (y := main_v54) (by decide), sub_of_mem (y := main_cst_8) (by decide), sub_of_mem (y := main_v55) (by decide), sub_of_mem (y := main_v56) (by decide), sub_of_mem (y := main_v57) (by decide)⟩
theorem keepF : Keeps (segF : List (HloOp τ sig (Elt F))) WF := fun V r hr => after_of_writes_sub segF V segF_w hr

/-- Layer 2: the two rectified affine stages. -/
abbrev segG : List (HloOp τ sig (Elt F)) :=
  [ StableHlo.nullary main_cst_9 (constant S_ .f32 0x3F800000#32),
    StableHlo.binary main_cst_9 main_arg9 main_v58 (addf : (⟨S_, .f32⟩ : BufTy).Contents (Elt F) → (⟨S_, .f32⟩ : BufTy).Contents (Elt F) → (⟨S_, .f32⟩ : BufTy).Contents (Elt F)),
    StableHlo.unary main_v58 main_v59 (broadcastInDim S50000x64 ![] bcast_S_S50000x64 : (⟨S_, .f32⟩ : BufTy).Contents (Elt F) → (⟨S50000x64, .f32⟩ : BufTy).Contents (Elt F)),
    StableHlo.binary main_v59 main_v47 main_v60 (mulf : (⟨S50000x64, .f32⟩ : BufTy).Contents (Elt F) → (⟨S50000x64, .f32⟩ : BufTy).Contents (Elt F) → (⟨S50000x64, .f32⟩ : BufTy).Contents (Elt F)),
    StableHlo.binary main_v60 main_v57 main_v61 (addf : (⟨S50000x64, .f32⟩ : BufTy).Contents (Elt F) → (⟨S50000x64, .f32⟩ : BufTy).Contents (Elt F) → (⟨S50000x64, .f32⟩ : BufTy).Contents (Elt F)),
    StableHlo.binary main_v61 main_arg10 main_v62 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg11 main_v63 (broadcastInDim S1x64 ![1] bcast_S64_S1x64_1 : (⟨S64, .f32⟩ : BufTy).Contents (Elt F) → (⟨S1x64, .f32⟩ : BufTy).Contents (Elt F)),
    StableHlo.unary main_v63 main_v64 (broadcastInDim S50000x64 ![0, 1] bcast_S1x64_S50000x64_0_1 : (⟨S1x64, .f32⟩ : BufTy).Contents (Elt F) → (⟨S50000x64, .f32⟩ : BufTy).Contents (Elt F)),
    StableHlo.binary main_v62 main_v64 main_v65 (addf : (⟨S50000x64, .f32⟩ : BufTy).Contents (Elt F) → (⟨S50000x64, .f32⟩ : BufTy).Contents (Elt F) → (⟨S50000x64, .f32⟩ : BufTy).Contents (Elt F)),
    StableHlo.TRef.nullary main_call4.cst (constant S_ .f32 0x00000000#32),
    StableHlo.TRef.unary main_call4.cst main_call4.v0 (broadcastInDim S50000x64 ![] bcast_S_S50000x64),
    StableHlo.TRef.binary (.of main_v65 : StableHlo.TRef sig ⟨S50000x64, .f32⟩) main_call4.v0 main_call4.v1 maximumf,
    StableHlo.binary main_v66 main_arg12 main_v67 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg13 main_v68 (broadcastInDim S1x64 ![1] bcast_S64_S1x64_1 : (⟨S64, .f32⟩ : BufTy).Contents (Elt F) → (⟨S1x64, .f32⟩ : BufTy).Contents (Elt F)),
    StableHlo.unary main_v68 main_v69 (broadcastInDim S50000x64 ![0, 1] bcast_S1x64_S50000x64_0_1 : (⟨S1x64, .f32⟩ : BufTy).Contents (Elt F) → (⟨S50000x64, .f32⟩ : BufTy).Contents (Elt F)),
    StableHlo.binary main_v67 main_v69 main_v70 (addf : (⟨S50000x64, .f32⟩ : BufTy).Contents (Elt F) → (⟨S50000x64, .f32⟩ : BufTy).Contents (Elt F) → (⟨S50000x64, .f32⟩ : BufTy).Contents (Elt F)),
    StableHlo.TRef.nullary main_call5.cst (constant S_ .f32 0x00000000#32),
    StableHlo.TRef.unary main_call5.cst main_call5.v0 (broadcastInDim S50000x64 ![] bcast_S_S50000x64),
    StableHlo.TRef.binary (.of main_v70 : StableHlo.TRef sig ⟨S50000x64, .f32⟩) main_call5.v0 main_call5.v1 maximumf ]
/-- What it writes. -/
abbrev WG : List (Ref sig .tc) := [main_cst_9, main_v58, main_v59, main_v60, main_v61, main_v62, main_v63, main_v64, main_v65, main_call4_cst, main_call4_v0, main_v66, main_v67, main_v68, main_v69, main_v70, main_call5_cst, main_call5_v0, main_v71]
theorem segG_w : (segG : List (HloOp τ sig (Elt F))).Forall fun op => op.writes ⊆ ((WG).map (Proc.devRef (τ := τ) .tc)).toFinset :=
  ⟨sub_of_mem (y := main_cst_9) (by decide), sub_of_mem (y := main_v58) (by decide), sub_of_mem (y := main_v59) (by decide), sub_of_mem (y := main_v60) (by decide), sub_of_mem (y := main_v61) (by decide), sub_of_mem (y := main_v62) (by decide), sub_of_mem (y := main_v63) (by decide), sub_of_mem (y := main_v64) (by decide), sub_of_mem (y := main_v65) (by decide), sub_of_mem (y := main_call4_cst) (by decide), sub_of_mem (y := main_call4_v0) (by decide), sub_of_mem (y := main_v66) (by decide), sub_of_mem (y := main_v67) (by decide), sub_of_mem (y := main_v68) (by decide), sub_of_mem (y := main_v69) (by decide), sub_of_mem (y := main_v70) (by decide), sub_of_mem (y := main_call5_cst) (by decide), sub_of_mem (y := main_call5_v0) (by decide), sub_of_mem (y := main_v71) (by decide)⟩
theorem keepG : Keeps (segG : List (HloOp τ sig (Elt F))) WG := fun V r hr => after_of_writes_sub segG V segG_w hr

/-- Layer 2: the column mean and variance. -/
abbrev segH : List (HloOp τ sig (Elt F)) :=
  [ StableHlo.nullary main_cst_10 (constant S_ .f32 0x00000000#32),
    StableHlo.binary main_v71 main_cst_10 main_v72 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_11 (constant S_ .f32 0x47435000#32),
    StableHlo.unary main_cst_11 main_v73 (broadcastInDim S64 ![] bcast_S_S64 : (⟨S_, .f32⟩ : BufTy).Contents (Elt F) → (⟨S64, .f32⟩ : BufTy).Contents (Elt F)),
    StableHlo.binary main_v72 main_v73 main_v74 (Host.divf : (⟨S64, .f32⟩ : BufTy).Contents (Elt F) → (⟨S64, .f32⟩ : BufTy).Contents (Elt F) → (⟨S64, .f32⟩ : BufTy).Contents (Elt F)),
    StableHlo.nullary main_c_12 (constantI S_ 32 0#32),
    StableHlo.TRef.nullary main_call6.cst (constant S_ .f32 0x00000000#32),
    StableHlo.TRef.binary (.of main_v71 : StableHlo.TRef sig ⟨S50000x64, .f32⟩) main_call6.cst main_call6.v0 (fun x v => Host.reduceAdd x v reducesTo_S50000x64_S64_d0 h_S_),
    StableHlo.TRef.unary main_call6.v0 main_call6.v1 (broadcastInDim S1x64 ![1] bcast_S64_S1x64_1),
    StableHlo.TRef.nullary main_call6.cst_0 (constant S_ .f32 0x47435000#32),
    StableHlo.TRef.unary main_call6.cst_0 main_call6.v2 (broadcastInDim S1x64 ![] bcast_S_S1x64),
    StableHlo.TRef.binary main_call6.v1 main_call6.v2 main_call6.v3 Host.divf,
    StableHlo.TRef.unary main_call6.v3 main_call6.v4 (broadcastInDim S50000x64 ![0, 1] bcast_S1x64_S50000x64_0_1),
    StableHlo.TRef.binary (.of main_v71 : StableHlo.TRef sig ⟨S50000x64, .f32⟩) main_call6.v4 main_call6.v5 subf,
    StableHlo.TRef.binary main_call6.v5 main_call6.v5 main_call6.v6 mulf,
    StableHlo.TRef.unary (.of main_c_12 : StableHlo.TRef sig ⟨S_, .i32⟩) main_call6.v7 (sitofp .f32),
    StableHlo.TRef.nullary main_call6.cst_1 (constant S_ .f32 0x47435000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S50000x64_S64_d0 h_S_),
    StableHlo.TRef.unary main_call6.v8 main_call6.v10 (broadcastInDim S64 ![] bcast_S_S64),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S64 ![] bcast_S_S64),
    StableHlo.TRef.ternary main_call6.v12 main_call6.v11 main_call6.call0.v1 main_call6.call0.v2 (fun p a b => select (broadcastInDim S64 ![] bcast_S_S64 p) a b) ]
/-- What it writes. -/
abbrev WH : List (Ref sig .tc) := [main_cst_10, main_v72, main_cst_11, main_v73, main_v74, main_c_12, main_call6_cst, main_call6_v0, main_call6_v1, main_call6_cst_0, main_call6_v2, main_call6_v3, main_call6_v4, main_call6_v5, main_call6_v6, main_call6_v7, main_call6_cst_1, main_call6_v8, main_call6_cst_2, main_call6_v9, main_call6_v10, main_call6_v11, main_call6_cst_3, main_call6_v12, main_call6_cst_4, main_call6_call0_v0, main_call6_call0_v1, main_v75]
theorem segH_w : (segH : List (HloOp τ sig (Elt F))).Forall fun op => op.writes ⊆ ((WH).map (Proc.devRef (τ := τ) .tc)).toFinset :=
  ⟨sub_of_mem (y := main_cst_10) (by decide), sub_of_mem (y := main_v72) (by decide), sub_of_mem (y := main_cst_11) (by decide), sub_of_mem (y := main_v73) (by decide), sub_of_mem (y := main_v74) (by decide), sub_of_mem (y := main_c_12) (by decide), sub_of_mem (y := main_call6_cst) (by decide), sub_of_mem (y := main_call6_v0) (by decide), sub_of_mem (y := main_call6_v1) (by decide), sub_of_mem (y := main_call6_cst_0) (by decide), sub_of_mem (y := main_call6_v2) (by decide), sub_of_mem (y := main_call6_v3) (by decide), sub_of_mem (y := main_call6_v4) (by decide), sub_of_mem (y := main_call6_v5) (by decide), sub_of_mem (y := main_call6_v6) (by decide), sub_of_mem (y := main_call6_v7) (by decide), sub_of_mem (y := main_call6_cst_1) (by decide), sub_of_mem (y := main_call6_v8) (by decide), sub_of_mem (y := main_call6_cst_2) (by decide), sub_of_mem (y := main_call6_v9) (by decide), sub_of_mem (y := main_call6_v10) (by decide), sub_of_mem (y := main_call6_v11) (by decide), sub_of_mem (y := main_call6_cst_3) (by decide), sub_of_mem (y := main_call6_v12) (by decide), sub_of_mem (y := main_call6_cst_4) (by decide), sub_of_mem (y := main_call6_call0_v0) (by decide), sub_of_mem (y := main_call6_call0_v1) (by decide), sub_of_mem (y := main_v75) (by decide)⟩
theorem keepH : Keeps (segH : List (HloOp τ sig (Elt F))) WH := fun V r hr => after_of_writes_sub segH V segH_w hr

/-- Layer 2: the normalisation and rectifier. -/
abbrev segI : List (HloOp τ sig (Elt F)) :=
  [ StableHlo.unary main_v74 main_v76 (broadcastInDim S1x64 ![1] bcast_S64_S1x64_1 : (⟨S64, .f32⟩ : BufTy).Contents (Elt F) → (⟨S1x64, .f32⟩ : BufTy).Contents (Elt F)),
    StableHlo.unary main_v76 main_v77 (broadcastInDim S50000x64 ![0, 1] bcast_S1x64_S50000x64_0_1 : (⟨S1x64, .f32⟩ : BufTy).Contents (Elt F) → (⟨S50000x64, .f32⟩ : BufTy).Contents (Elt F)),
    StableHlo.binary main_v71 main_v77 main_v78 (subf : (⟨S50000x64, .f32⟩ : BufTy).Contents (Elt F) → (⟨S50000x64, .f32⟩ : BufTy).Contents (Elt F) → (⟨S50000x64, .f32⟩ : BufTy).Contents (Elt F)),
    StableHlo.nullary main_cst_13 (constant S_ .f32 0x3727C5AC#32),
    StableHlo.unary main_cst_13 main_v79 (broadcastInDim S64 ![] bcast_S_S64 : (⟨S_, .f32⟩ : BufTy).Contents (Elt F) → (⟨S64, .f32⟩ : BufTy).Contents (Elt F)),
    StableHlo.binary main_v75 main_v79 main_v80 (addf : (⟨S64, .f32⟩ : BufTy).Contents (Elt F) → (⟨S64, .f32⟩ : BufTy).Contents (Elt F) → (⟨S64, .f32⟩ : BufTy).Contents (Elt F)),
    StableHlo.unary main_v80 main_v81 (Host.rsqrt : (⟨S64, .f32⟩ : BufTy).Contents (Elt F) → (⟨S64, .f32⟩ : BufTy).Contents (Elt F)),
    StableHlo.unary main_v81 main_v82 (broadcastInDim S1x64 ![1] bcast_S64_S1x64_1 : (⟨S64, .f32⟩ : BufTy).Contents (Elt F) → (⟨S1x64, .f32⟩ : BufTy).Contents (Elt F)),
    StableHlo.unary main_v82 main_v83 (broadcastInDim S50000x64 ![0, 1] bcast_S1x64_S50000x64_0_1 : (⟨S1x64, .f32⟩ : BufTy).Contents (Elt F) → (⟨S50000x64, .f32⟩ : BufTy).Contents (Elt F)),
    StableHlo.binary main_v78 main_v83 main_v84 (mulf : (⟨S50000x64, .f32⟩ : BufTy).Contents (Elt F) → (⟨S50000x64, .f32⟩ : BufTy).Contents (Elt F) → (⟨S50000x64, .f32⟩ : BufTy).Contents (Elt F)),
    StableHlo.unary main_arg14 main_v85 (broadcastInDim S1x64 ![1] bcast_S64_S1x64_1 : (⟨S64, .f32⟩ : BufTy).Contents (Elt F) → (⟨S1x64, .f32⟩ : BufTy).Contents (Elt F)),
    StableHlo.unary main_v85 main_v86 (broadcastInDim S50000x64 ![0, 1] bcast_S1x64_S50000x64_0_1 : (⟨S1x64, .f32⟩ : BufTy).Contents (Elt F) → (⟨S50000x64, .f32⟩ : BufTy).Contents (Elt F)),
    StableHlo.binary main_v84 main_v86 main_v87 (mulf : (⟨S50000x64, .f32⟩ : BufTy).Contents (Elt F) → (⟨S50000x64, .f32⟩ : BufTy).Contents (Elt F) → (⟨S50000x64, .f32⟩ : BufTy).Contents (Elt F)),
    StableHlo.unary main_arg15 main_v88 (broadcastInDim S1x64 ![1] bcast_S64_S1x64_1 : (⟨S64, .f32⟩ : BufTy).Contents (Elt F) → (⟨S1x64, .f32⟩ : BufTy).Contents (Elt F)),
    StableHlo.unary main_v88 main_v89 (broadcastInDim S50000x64 ![0, 1] bcast_S1x64_S50000x64_0_1 : (⟨S1x64, .f32⟩ : BufTy).Contents (Elt F) → (⟨S50000x64, .f32⟩ : BufTy).Contents (Elt F)),
    StableHlo.binary main_v87 main_v89 main_v90 (addf : (⟨S50000x64, .f32⟩ : BufTy).Contents (Elt F) → (⟨S50000x64, .f32⟩ : BufTy).Contents (Elt F) → (⟨S50000x64, .f32⟩ : BufTy).Contents (Elt F)),
    StableHlo.TRef.nullary main_call7.cst (constant S_ .f32 0x00000000#32),
    StableHlo.TRef.unary main_call7.cst main_call7.v0 (broadcastInDim S50000x64 ![] bcast_S_S50000x64),
    StableHlo.TRef.binary (.of main_v90 : StableHlo.TRef sig ⟨S50000x64, .f32⟩) main_call7.v0 main_call7.v1 maximumf ]
/-- What it writes. -/
abbrev WI : List (Ref sig .tc) := [main_v76, main_v77, main_v78, main_cst_13, main_v79, main_v80, main_v81, main_v82, main_v83, main_v84, main_v85, main_v86, main_v87, main_v88, main_v89, main_v90, main_call7_cst, main_call7_v0, main_v91]
theorem segI_w : (segI : List (HloOp τ sig (Elt F))).Forall fun op => op.writes ⊆ ((WI).map (Proc.devRef (τ := τ) .tc)).toFinset :=
  ⟨sub_of_mem (y := main_v76) (by decide), sub_of_mem (y := main_v77) (by decide), sub_of_mem (y := main_v78) (by decide), sub_of_mem (y := main_cst_13) (by decide), sub_of_mem (y := main_v79) (by decide), sub_of_mem (y := main_v80) (by decide), sub_of_mem (y := main_v81) (by decide), sub_of_mem (y := main_v82) (by decide), sub_of_mem (y := main_v83) (by decide), sub_of_mem (y := main_v84) (by decide), sub_of_mem (y := main_v85) (by decide), sub_of_mem (y := main_v86) (by decide), sub_of_mem (y := main_v87) (by decide), sub_of_mem (y := main_v88) (by decide), sub_of_mem (y := main_v89) (by decide), sub_of_mem (y := main_v90) (by decide), sub_of_mem (y := main_call7_cst) (by decide), sub_of_mem (y := main_call7_v0) (by decide), sub_of_mem (y := main_v91) (by decide)⟩
theorem keepI : Keeps (segI : List (HloOp τ sig (Elt F))) WI := fun V r hr => after_of_writes_sub segI V segI_w hr

/-- Layer 3: the neighbour sums. -/
abbrev segJ : List (HloOp τ sig (Elt F)) :=
  [ StableHlo.nullary main_c_14 (constantI S_ 32 0#32),
    StableHlo.unary main_c_14 main_v92 (broadcastInDim S800000 ![] bcast_S_S800000 : (⟨S_, .i32⟩ : BufTy).Contents (Elt F) → (⟨S800000, .i32⟩ : BufTy).Contents (Elt F)),
    StableHlo.binary main_v1 main_v92 main_v93 (cmpi .slt : (⟨S800000, .i32⟩ : BufTy).Contents (Elt F) → (⟨S800000, .i32⟩ : BufTy).Contents (Elt F) → (⟨S800000, .i1⟩ : BufTy).Contents (Elt F)),
    StableHlo.nullary main_c_15 (constantI S_ 32 50000#32),
    StableHlo.unary main_c_15 main_v94 (broadcastInDim S800000 ![] bcast_S_S800000 : (⟨S_, .i32⟩ : BufTy).Contents (Elt F) → (⟨S800000, .i32⟩ : BufTy).Contents (Elt F)),
    StableHlo.binary main_v1 main_v94 main_v95 (addi : (⟨S800000, .i32⟩ : BufTy).Contents (Elt F) → (⟨S800000, .i32⟩ : BufTy).Contents (Elt F) → (⟨S800000, .i32⟩ : BufTy).Contents (Elt F)),
    StableHlo.ternary main_v93 main_v95 main_v1 main_v96 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    StableHlo.unary main_v96 main_v97 (broadcastInDim S800000x1 ![0] bcast_S800000_S800000x1_0 : (⟨S800000, .i32⟩ : BufTy).Contents (Elt F) → (⟨S800000x1, .i32⟩ : BufTy).Contents (Elt F)),
    StableHlo.binary main_v91 main_v97 main_v98 ((fun x i => Host.gather gather_S50000x64_S800000x1_S800000x64_1_0_n_n_0_1_164 x i) : (⟨S50000x64, .f32⟩ : BufTy).Contents (Elt F) → (⟨S800000x1, .i32⟩ : BufTy).Contents (Elt F) → (⟨S800000x64, .f32⟩ : BufTy).Contents (Elt F)),
    StableHlo.nullary main_cst_16 (constant S_ .f32 0x00000000#32),
    StableHlo.unary main_cst_16 main_v99 (broadcastInDim S50000x64 ![] bcast_S_S50000x64 : (⟨S_, .f32⟩ : BufTy).Contents (Elt F) → (⟨S50000x64, .f32⟩ : BufTy).Contents (Elt F)),
    StableHlo.unary main_v3 main_v100 (broadcastInDim S800000x1 ![0] bcast_S800000_S800000x1_0 : (⟨S800000, .i32⟩ : BufTy).Contents (Elt F) → (⟨S800000x1, .i32⟩ : BufTy).Contents (Elt F)),
    StableHlo.ternary main_v99 main_v100 main_v98 main_v101 ((fun x i u => Host.scatterAdd scatter_S50000x64_S800000x1_S800000x64_1_0_0_1 x i u) : (⟨S50000x64, .f32⟩ : BufTy).Contents (Elt F) → (⟨S800000x1, .i32⟩ : BufTy).Contents (Elt F) → (⟨S800000x64, .f32⟩ : BufTy).Contents (Elt F) → (⟨S50000x64, .f32⟩ : BufTy).Contents (Elt F)) ]
/-- What it writes. -/
abbrev WJ : List (Ref sig .tc) := [main_c_14, main_v92, main_v93, main_c_15, main_v94, main_v95, main_v96, main_v97, main_v98, main_cst_16, main_v99, main_v100, main_v101]
theorem segJ_w : (segJ : List (HloOp τ sig (Elt F))).Forall fun op => op.writes ⊆ ((WJ).map (Proc.devRef (τ := τ) .tc)).toFinset :=
  ⟨sub_of_mem (y := main_c_14) (by decide), sub_of_mem (y := main_v92) (by decide), sub_of_mem (y := main_v93) (by decide), sub_of_mem (y := main_c_15) (by decide), sub_of_mem (y := main_v94) (by decide), sub_of_mem (y := main_v95) (by decide), sub_of_mem (y := main_v96) (by decide), sub_of_mem (y := main_v97) (by decide), sub_of_mem (y := main_v98) (by decide), sub_of_mem (y := main_cst_16) (by decide), sub_of_mem (y := main_v99) (by decide), sub_of_mem (y := main_v100) (by decide), sub_of_mem (y := main_v101) (by decide)⟩
theorem keepJ : Keeps (segJ : List (HloOp τ sig (Elt F))) WJ := fun V r hr => after_of_writes_sub segJ V segJ_w hr

/-- Layer 3: the two rectified affine stages. -/
abbrev segK : List (HloOp τ sig (Elt F)) :=
  [ StableHlo.nullary main_cst_17 (constant S_ .f32 0x3F800000#32),
    StableHlo.binary main_cst_17 main_arg16 main_v102 (addf : (⟨S_, .f32⟩ : BufTy).Contents (Elt F) → (⟨S_, .f32⟩ : BufTy).Contents (Elt F) → (⟨S_, .f32⟩ : BufTy).Contents (Elt F)),
    StableHlo.unary main_v102 main_v103 (broadcastInDim S50000x64 ![] bcast_S_S50000x64 : (⟨S_, .f32⟩ : BufTy).Contents (Elt F) → (⟨S50000x64, .f32⟩ : BufTy).Contents (Elt F)),
    StableHlo.binary main_v103 main_v91 main_v104 (mulf : (⟨S50000x64, .f32⟩ : BufTy).Contents (Elt F) → (⟨S50000x64, .f32⟩ : BufTy).Contents (Elt F) → (⟨S50000x64, .f32⟩ : BufTy).Contents (Elt F)),
    StableHlo.binary main_v104 main_v101 main_v105 (addf : (⟨S50000x64, .f32⟩ : BufTy).Contents (Elt F) → (⟨S50000x64, .f32⟩ : BufTy).Contents (Elt F) → (⟨S50000x64, .f32⟩ : BufTy).Contents (Elt F)),
    StableHlo.binary main_v105 main_arg17 main_v106 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg18 main_v107 (broadcastInDim S1x64 ![1] bcast_S64_S1x64_1 : (⟨S64, .f32⟩ : BufTy).Contents (Elt F) → (⟨S1x64, .f32⟩ : BufTy).Contents (Elt F)),
    StableHlo.unary main_v107 main_v108 (broadcastInDim S50000x64 ![0, 1] bcast_S1x64_S50000x64_0_1 : (⟨S1x64, .f32⟩ : BufTy).Contents (Elt F) → (⟨S50000x64, .f32⟩ : BufTy).Contents (Elt F)),
    StableHlo.binary main_v106 main_v108 main_v109 (addf : (⟨S50000x64, .f32⟩ : BufTy).Contents (Elt F) → (⟨S50000x64, .f32⟩ : BufTy).Contents (Elt F) → (⟨S50000x64, .f32⟩ : BufTy).Contents (Elt F)),
    StableHlo.TRef.nullary main_call8.cst (constant S_ .f32 0x00000000#32),
    StableHlo.TRef.unary main_call8.cst main_call8.v0 (broadcastInDim S50000x64 ![] bcast_S_S50000x64),
    StableHlo.TRef.binary (.of main_v109 : StableHlo.TRef sig ⟨S50000x64, .f32⟩) main_call8.v0 main_call8.v1 maximumf,
    StableHlo.binary main_v110 main_arg19 main_v111 ((fun l r => Host.dotGeneral dot_S50000x64_S64x64_S50000x64_1_0_0_1_n_n none l r) : (⟨S50000x64, .f32⟩ : BufTy).Contents (Elt F) → (⟨S64x64, .f32⟩ : BufTy).Contents (Elt F) → (⟨S50000x64, .f32⟩ : BufTy).Contents (Elt F)),
    StableHlo.unary main_arg20 main_v112 (broadcastInDim S1x64 ![1] bcast_S64_S1x64_1 : (⟨S64, .f32⟩ : BufTy).Contents (Elt F) → (⟨S1x64, .f32⟩ : BufTy).Contents (Elt F)),
    StableHlo.unary main_v112 main_v113 (broadcastInDim S50000x64 ![0, 1] bcast_S1x64_S50000x64_0_1 : (⟨S1x64, .f32⟩ : BufTy).Contents (Elt F) → (⟨S50000x64, .f32⟩ : BufTy).Contents (Elt F)),
    StableHlo.binary main_v111 main_v113 main_v114 (addf : (⟨S50000x64, .f32⟩ : BufTy).Contents (Elt F) → (⟨S50000x64, .f32⟩ : BufTy).Contents (Elt F) → (⟨S50000x64, .f32⟩ : BufTy).Contents (Elt F)),
    StableHlo.TRef.nullary main_call9.cst (constant S_ .f32 0x00000000#32),
    StableHlo.TRef.unary main_call9.cst main_call9.v0 (broadcastInDim S50000x64 ![] bcast_S_S50000x64),
    StableHlo.TRef.binary (.of main_v114 : StableHlo.TRef sig ⟨S50000x64, .f32⟩) main_call9.v0 main_call9.v1 maximumf ]
/-- What it writes. -/
abbrev WK : List (Ref sig .tc) := [main_cst_17, main_v102, main_v103, main_v104, main_v105, main_v106, main_v107, main_v108, main_v109, main_call8_cst, main_call8_v0, main_v110, main_v111, main_v112, main_v113, main_v114, main_call9_cst, main_call9_v0, main_v115]
theorem segK_w : (segK : List (HloOp τ sig (Elt F))).Forall fun op => op.writes ⊆ ((WK).map (Proc.devRef (τ := τ) .tc)).toFinset :=
  ⟨sub_of_mem (y := main_cst_17) (by decide), sub_of_mem (y := main_v102) (by decide), sub_of_mem (y := main_v103) (by decide), sub_of_mem (y := main_v104) (by decide), sub_of_mem (y := main_v105) (by decide), sub_of_mem (y := main_v106) (by decide), sub_of_mem (y := main_v107) (by decide), sub_of_mem (y := main_v108) (by decide), sub_of_mem (y := main_v109) (by decide), sub_of_mem (y := main_call8_cst) (by decide), sub_of_mem (y := main_call8_v0) (by decide), sub_of_mem (y := main_v110) (by decide), sub_of_mem (y := main_v111) (by decide), sub_of_mem (y := main_v112) (by decide), sub_of_mem (y := main_v113) (by decide), sub_of_mem (y := main_v114) (by decide), sub_of_mem (y := main_call9_cst) (by decide), sub_of_mem (y := main_call9_v0) (by decide), sub_of_mem (y := main_v115) (by decide)⟩
theorem keepK : Keeps (segK : List (HloOp τ sig (Elt F))) WK := fun V r hr => after_of_writes_sub segK V segK_w hr

/-- Layer 3: the column mean and variance. -/
abbrev segL : List (HloOp τ sig (Elt F)) :=
  [ StableHlo.nullary main_cst_18 (constant S_ .f32 0x00000000#32),
    StableHlo.binary main_v115 main_cst_18 main_v116 ((fun x v => Host.reduceAdd x v reducesTo_S50000x64_S64_d0 h_S_) : (⟨S50000x64, .f32⟩ : BufTy).Contents (Elt F) → (⟨S_, .f32⟩ : BufTy).Contents (Elt F) → (⟨S64, .f32⟩ : BufTy).Contents (Elt F)),
    StableHlo.nullary main_cst_19 (constant S_ .f32 0x47435000#32),
    StableHlo.unary main_cst_19 main_v117 (broadcastInDim S64 ![] bcast_S_S64 : (⟨S_, .f32⟩ : BufTy).Contents (Elt F) → (⟨S64, .f32⟩ : BufTy).Contents (Elt F)),
    StableHlo.binary main_v116 main_v117 main_v118 (Host.divf : (⟨S64, .f32⟩ : BufTy).Contents (Elt F) → (⟨S64, .f32⟩ : BufTy).Contents (Elt F) → (⟨S64, .f32⟩ : BufTy).Contents (Elt F)),
    StableHlo.nullary main_c_20 (constantI S_ 32 0#32),
    StableHlo.TRef.nullary main_call10.cst (constant S_ .f32 0x00000000#32),
    StableHlo.TRef.binary (.of main_v115 : StableHlo.TRef sig ⟨S50000x64, .f32⟩) main_call10.cst main_call10.v0 (fun x v => Host.reduceAdd x v reducesTo_S50000x64_S64_d0 h_S_),
    StableHlo.TRef.unary main_call10.v0 main_call10.v1 (broadcastInDim S1x64 ![1] bcast_S64_S1x64_1),
    StableHlo.TRef.nullary main_call10.cst_0 (constant S_ .f32 0x47435000#32),
    StableHlo.TRef.unary main_call10.cst_0 main_call10.v2 (broadcastInDim S1x64 ![] bcast_S_S1x64),
    StableHlo.TRef.binary main_call10.v1 main_call10.v2 main_call10.v3 Host.divf,
    StableHlo.TRef.unary main_call10.v3 main_call10.v4 (broadcastInDim S50000x64 ![0, 1] bcast_S1x64_S50000x64_0_1),
    StableHlo.TRef.binary (.of main_v115 : StableHlo.TRef sig ⟨S50000x64, .f32⟩) main_call10.v4 main_call10.v5 subf,
    StableHlo.TRef.binary main_call10.v5 main_call10.v5 main_call10.v6 mulf,
    StableHlo.TRef.unary (.of main_c_20 : StableHlo.TRef sig ⟨S_, .i32⟩) main_call10.v7 (sitofp .f32),
    StableHlo.TRef.nullary main_call10.cst_1 (constant S_ .f32 0x47435000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S50000x64_S64_d0 h_S_),
    StableHlo.TRef.unary main_call10.v8 main_call10.v10 (broadcastInDim S64 ![] bcast_S_S64),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S64 ![] bcast_S_S64),
    StableHlo.TRef.ternary main_call10.v12 main_call10.v11 main_call10.call0.v1 main_call10.call0.v2 (fun p a b => select (broadcastInDim S64 ![] bcast_S_S64 p) a b) ]
/-- What it writes. -/
abbrev WL : List (Ref sig .tc) := [main_cst_18, main_v116, main_cst_19, main_v117, main_v118, main_c_20, main_call10_cst, main_call10_v0, main_call10_v1, main_call10_cst_0, main_call10_v2, main_call10_v3, main_call10_v4, main_call10_v5, main_call10_v6, main_call10_v7, main_call10_cst_1, main_call10_v8, main_call10_cst_2, main_call10_v9, main_call10_v10, main_call10_v11, main_call10_cst_3, main_call10_v12, main_call10_cst_4, main_call10_call0_v0, main_call10_call0_v1, main_v119]
theorem segL_w : (segL : List (HloOp τ sig (Elt F))).Forall fun op => op.writes ⊆ ((WL).map (Proc.devRef (τ := τ) .tc)).toFinset :=
  ⟨sub_of_mem (y := main_cst_18) (by decide), sub_of_mem (y := main_v116) (by decide), sub_of_mem (y := main_cst_19) (by decide), sub_of_mem (y := main_v117) (by decide), sub_of_mem (y := main_v118) (by decide), sub_of_mem (y := main_c_20) (by decide), sub_of_mem (y := main_call10_cst) (by decide), sub_of_mem (y := main_call10_v0) (by decide), sub_of_mem (y := main_call10_v1) (by decide), sub_of_mem (y := main_call10_cst_0) (by decide), sub_of_mem (y := main_call10_v2) (by decide), sub_of_mem (y := main_call10_v3) (by decide), sub_of_mem (y := main_call10_v4) (by decide), sub_of_mem (y := main_call10_v5) (by decide), sub_of_mem (y := main_call10_v6) (by decide), sub_of_mem (y := main_call10_v7) (by decide), sub_of_mem (y := main_call10_cst_1) (by decide), sub_of_mem (y := main_call10_v8) (by decide), sub_of_mem (y := main_call10_cst_2) (by decide), sub_of_mem (y := main_call10_v9) (by decide), sub_of_mem (y := main_call10_v10) (by decide), sub_of_mem (y := main_call10_v11) (by decide), sub_of_mem (y := main_call10_cst_3) (by decide), sub_of_mem (y := main_call10_v12) (by decide), sub_of_mem (y := main_call10_cst_4) (by decide), sub_of_mem (y := main_call10_call0_v0) (by decide), sub_of_mem (y := main_call10_call0_v1) (by decide), sub_of_mem (y := main_v119) (by decide)⟩
theorem keepL : Keeps (segL : List (HloOp τ sig (Elt F))) WL := fun V r hr => after_of_writes_sub segL V segL_w hr

/-- Layer 3: the normalisation and rectifier. -/
abbrev segM : List (HloOp τ sig (Elt F)) :=
  [ StableHlo.unary main_v118 main_v120 (broadcastInDim S1x64 ![1] bcast_S64_S1x64_1 : (⟨S64, .f32⟩ : BufTy).Contents (Elt F) → (⟨S1x64, .f32⟩ : BufTy).Contents (Elt F)),
    StableHlo.unary main_v120 main_v121 (broadcastInDim S50000x64 ![0, 1] bcast_S1x64_S50000x64_0_1 : (⟨S1x64, .f32⟩ : BufTy).Contents (Elt F) → (⟨S50000x64, .f32⟩ : BufTy).Contents (Elt F)),
    StableHlo.binary main_v115 main_v121 main_v122 (subf : (⟨S50000x64, .f32⟩ : BufTy).Contents (Elt F) → (⟨S50000x64, .f32⟩ : BufTy).Contents (Elt F) → (⟨S50000x64, .f32⟩ : BufTy).Contents (Elt F)),
    StableHlo.nullary main_cst_21 (constant S_ .f32 0x3727C5AC#32),
    StableHlo.unary main_cst_21 main_v123 (broadcastInDim S64 ![] bcast_S_S64 : (⟨S_, .f32⟩ : BufTy).Contents (Elt F) → (⟨S64, .f32⟩ : BufTy).Contents (Elt F)),
    StableHlo.binary main_v119 main_v123 main_v124 (addf : (⟨S64, .f32⟩ : BufTy).Contents (Elt F) → (⟨S64, .f32⟩ : BufTy).Contents (Elt F) → (⟨S64, .f32⟩ : BufTy).Contents (Elt F)),
    StableHlo.unary main_v124 main_v125 (Host.rsqrt : (⟨S64, .f32⟩ : BufTy).Contents (Elt F) → (⟨S64, .f32⟩ : BufTy).Contents (Elt F)),
    StableHlo.unary main_v125 main_v126 (broadcastInDim S1x64 ![1] bcast_S64_S1x64_1 : (⟨S64, .f32⟩ : BufTy).Contents (Elt F) → (⟨S1x64, .f32⟩ : BufTy).Contents (Elt F)),
    StableHlo.unary main_v126 main_v127 (broadcastInDim S50000x64 ![0, 1] bcast_S1x64_S50000x64_0_1 : (⟨S1x64, .f32⟩ : BufTy).Contents (Elt F) → (⟨S50000x64, .f32⟩ : BufTy).Contents (Elt F)),
    StableHlo.binary main_v122 main_v127 main_v128 (mulf : (⟨S50000x64, .f32⟩ : BufTy).Contents (Elt F) → (⟨S50000x64, .f32⟩ : BufTy).Contents (Elt F) → (⟨S50000x64, .f32⟩ : BufTy).Contents (Elt F)),
    StableHlo.unary main_arg21 main_v129 (broadcastInDim S1x64 ![1] bcast_S64_S1x64_1 : (⟨S64, .f32⟩ : BufTy).Contents (Elt F) → (⟨S1x64, .f32⟩ : BufTy).Contents (Elt F)),
    StableHlo.unary main_v129 main_v130 (broadcastInDim S50000x64 ![0, 1] bcast_S1x64_S50000x64_0_1 : (⟨S1x64, .f32⟩ : BufTy).Contents (Elt F) → (⟨S50000x64, .f32⟩ : BufTy).Contents (Elt F)),
    StableHlo.binary main_v128 main_v130 main_v131 (mulf : (⟨S50000x64, .f32⟩ : BufTy).Contents (Elt F) → (⟨S50000x64, .f32⟩ : BufTy).Contents (Elt F) → (⟨S50000x64, .f32⟩ : BufTy).Contents (Elt F)),
    StableHlo.unary main_arg22 main_v132 (broadcastInDim S1x64 ![1] bcast_S64_S1x64_1 : (⟨S64, .f32⟩ : BufTy).Contents (Elt F) → (⟨S1x64, .f32⟩ : BufTy).Contents (Elt F)),
    StableHlo.unary main_v132 main_v133 (broadcastInDim S50000x64 ![0, 1] bcast_S1x64_S50000x64_0_1 : (⟨S1x64, .f32⟩ : BufTy).Contents (Elt F) → (⟨S50000x64, .f32⟩ : BufTy).Contents (Elt F)),
    StableHlo.binary main_v131 main_v133 main_v134 (addf : (⟨S50000x64, .f32⟩ : BufTy).Contents (Elt F) → (⟨S50000x64, .f32⟩ : BufTy).Contents (Elt F) → (⟨S50000x64, .f32⟩ : BufTy).Contents (Elt F)),
    StableHlo.TRef.nullary main_call11.cst (constant S_ .f32 0x00000000#32),
    StableHlo.TRef.unary main_call11.cst main_call11.v0 (broadcastInDim S50000x64 ![] bcast_S_S50000x64),
    StableHlo.TRef.binary (.of main_v134 : StableHlo.TRef sig ⟨S50000x64, .f32⟩) main_call11.v0 main_call11.v1 maximumf ]
/-- What it writes. -/
abbrev WM : List (Ref sig .tc) := [main_v120, main_v121, main_v122, main_cst_21, main_v123, main_v124, main_v125, main_v126, main_v127, main_v128, main_v129, main_v130, main_v131, main_v132, main_v133, main_v134, main_call11_cst, main_call11_v0, main_v135]
theorem segM_w : (segM : List (HloOp τ sig (Elt F))).Forall fun op => op.writes ⊆ ((WM).map (Proc.devRef (τ := τ) .tc)).toFinset :=
  ⟨sub_of_mem (y := main_v120) (by decide), sub_of_mem (y := main_v121) (by decide), sub_of_mem (y := main_v122) (by decide), sub_of_mem (y := main_cst_21) (by decide), sub_of_mem (y := main_v123) (by decide), sub_of_mem (y := main_v124) (by decide), sub_of_mem (y := main_v125) (by decide), sub_of_mem (y := main_v126) (by decide), sub_of_mem (y := main_v127) (by decide), sub_of_mem (y := main_v128) (by decide), sub_of_mem (y := main_v129) (by decide), sub_of_mem (y := main_v130) (by decide), sub_of_mem (y := main_v131) (by decide), sub_of_mem (y := main_v132) (by decide), sub_of_mem (y := main_v133) (by decide), sub_of_mem (y := main_v134) (by decide), sub_of_mem (y := main_call11_cst) (by decide), sub_of_mem (y := main_call11_v0) (by decide), sub_of_mem (y := main_v135) (by decide)⟩
theorem keepM : Keeps (segM : List (HloOp τ sig (Elt F))) WM := fun V r hr => after_of_writes_sub segM V segM_w hr

/-- The last affine layer. -/
abbrev segN : List (HloOp τ sig (Elt F)) :=
  [ StableHlo.binary main_v135 main_arg23 main_v136 ((fun l r => Host.dotGeneral dot_S50000x64_S64x10_S50000x10_1_0_0_1_n_n none l r) : (⟨S50000x64, .f32⟩ : BufTy).Contents (Elt F) → (⟨S64x10, .f32⟩ : BufTy).Contents (Elt F) → (⟨S50000x10, .f32⟩ : BufTy).Contents (Elt F)),
    StableHlo.unary main_arg24 main_v137 (broadcastInDim S1x10 ![1] bcast_S10_S1x10_1 : (⟨S10, .f32⟩ : BufTy).Contents (Elt F) → (⟨S1x10, .f32⟩ : BufTy).Contents (Elt F)),
    StableHlo.unary main_v137 main_v138 (broadcastInDim S50000x10 ![0, 1] bcast_S1x10_S50000x10_0_1 : (⟨S1x10, .f32⟩ : BufTy).Contents (Elt F) → (⟨S50000x10, .f32⟩ : BufTy).Contents (Elt F)),
    StableHlo.binary main_v136 main_v138 main_v139 (addf : (⟨S50000x10, .f32⟩ : BufTy).Contents (Elt F) → (⟨S50000x10, .f32⟩ : BufTy).Contents (Elt F) → (⟨S50000x10, .f32⟩ : BufTy).Contents (Elt F)) ]
/-- What it writes. -/
abbrev WN : List (Ref sig .tc) := [main_v136, main_v137, main_v138, main_v139]
theorem segN_w : (segN : List (HloOp τ sig (Elt F))).Forall fun op => op.writes ⊆ ((WN).map (Proc.devRef (τ := τ) .tc)).toFinset :=
  ⟨sub_of_mem (y := main_v136) (by decide), sub_of_mem (y := main_v137) (by decide), sub_of_mem (y := main_v138) (by decide), sub_of_mem (y := main_v139) (by decide)⟩
theorem keepN : Keeps (segN : List (HloOp τ sig (Elt F))) WN := fun V r hr => after_of_writes_sub segN V segN_w hr

/-- One layer's four stages in order. -/
abbrev lay1 : List (HloOp τ sig (Elt F)) := segB ++ (segC ++ (segD ++ segE))
abbrev Wlay1 : List (Ref sig .tc) := WB ++ (WC ++ (WD ++ WE))
theorem keep_lay1 : Keeps (lay1 : List (HloOp τ sig (Elt F))) Wlay1 := keep_append keepB (keep_append keepC (keep_append keepD keepE))

/-- One layer's four stages in order. -/
abbrev lay2 : List (HloOp τ sig (Elt F)) := segF ++ (segG ++ (segH ++ segI))
abbrev Wlay2 : List (Ref sig .tc) := WF ++ (WG ++ (WH ++ WI))
theorem keep_lay2 : Keeps (lay2 : List (HloOp τ sig (Elt F))) Wlay2 := keep_append keepF (keep_append keepG (keep_append keepH keepI))

/-- One layer's four stages in order. -/
abbrev lay3 : List (HloOp τ sig (Elt F)) := segJ ++ (segK ++ (segL ++ segM))
abbrev Wlay3 : List (Ref sig .tc) := WJ ++ (WK ++ (WL ++ WM))
theorem keep_lay3 : Keeps (lay3 : List (HloOp τ sig (Elt F))) Wlay3 := keep_append keepJ (keep_append keepK (keep_append keepL keepM))

/-- @main's operations grouped by stage. -/
abbrev opsS : List (HloOp τ sig (Elt F)) := segA ++ (lay1 ++ (lay2 ++ (lay3 ++ segN)))
abbrev WopsS : List (Ref sig .tc) := WA ++ (Wlay1 ++ (Wlay2 ++ (Wlay3 ++ WN)))
theorem keep_opsS : Keeps (opsS : List (HloOp τ sig (Elt F))) WopsS :=
  keep_append keepA (keep_append keep_lay1 (keep_append keep_lay2 (keep_append keep_lay3 keepN)))

/-- The grouping is the same list. -/
theorem ops_eq : (ops : List (HloOp τ sig (Elt F))) = opsS := rfl

end Cert.ReferenceIdeal.RefSegs

end
-- ==== Proof.LibLayout.lean ====
/-
  Layout operations read at an index given by coordinates: the forms a row-wise normalization meets and the
  library does not yet have.

  * a column of row statistics: a vector `[a]` cast to `[a, 1]` (`keepdims`), and that column broadcast back over
    the `b` lanes of every row, `[a, 1] → [a, b]`;
  * one matrix broadcast over a new leading axis, `[1, b, c] → [a, b, c]`;
  * the rows of a `[4096, 768]` block regrouped as `[4, 1024, 768]` and back: row `r` is group `r / 1024`,
    member `r % 1024`, because both arrays list their entries in the same row-major order;
  * a sum over the lane axis of a matrix, read at row `r`: the sum over `k` of the entries `(r, k)`.
-/
import Idealize.ShloMosaic.Lib.ValueLayout
import Idealize.ShloMosaic.PureOps.Ideal.Laws

noncomputable section

namespace Cert.LibLayout

open Idealize.ShloMosaic Idealize.ShloMosaic.ValueIdx

variable {α : Type}

/-- An `[a]` vector cast to a column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast over `b` lanes reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- One `[1, b, c]` matrix broadcast over a leading axis of `a` copies reads, at `(p, q, r)`, the matrix at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- The 4096 rows regrouped as 4 groups of 1024: entry `(g, n, k)` of the regrouped array is row `g · 1024 + n`. -/
theorem shapeCast_split_apply (x : (⟨2, ![4096, 768]⟩ : Shape).Idx → α)
    (h : (⟨2, ![4096, 768]⟩ : Shape).ShapeCasts ⟨3, ![4, 1024, 768]⟩) (g : Fin 4) (n : Fin 1024) (k : Fin 768) :
    shapeCast ⟨3, ![4, 1024, 768]⟩ x h (ix3 g n k) = x (ix2 (⟨g.val * 1024 + n.val, by omega⟩ : Fin 4096) k) :=
  shapeCast_apply x h _ _ (by
    rw [Shape.rowMajor_val_two, Shape.rowMajor_val_three]
    rfl)

/-- The 4 groups of 1024 rows listed again as 4096 rows: row `r` is member `r % 1024` of group `r / 1024`. -/
theorem shapeCast_merge_apply (y : (⟨3, ![4, 1024, 768]⟩ : Shape).Idx → α)
    (h : (⟨3, ![4, 1024, 768]⟩ : Shape).ShapeCasts ⟨2, ![4096, 768]⟩) (r : Fin 4096) (k : Fin 768) :
    shapeCast ⟨2, ![4096, 768]⟩ y h (ix2 r k)
      = y (ix3 (⟨r.val / 1024, by omega⟩ : Fin 4) (⟨r.val % 1024, by omega⟩ : Fin 1024) k) :=
  shapeCast_apply y h _ _ (by
    rw [Shape.rowMajor_val_two, Shape.rowMajor_val_three]
    show (r.val / 1024 * 1024 + r.val % 1024) * 768 + k.val = r.val * 768 + k.val
    omega)

/-- Over row `r` of a matrix, the index with lane `k` put back on the summed axis is `(r, k)`. -/
theorem lift_row {a b : ℕ} (h : Shape.Reduces ⟨2, ![a, b]⟩ [1] ⟨1, ![a]⟩) (r : Fin a) (k : Fin b) :
    h.lift (ix1 r) k = ix2 r k := by
  funext c
  refine Fin.ext ?_
  match c with
  | ⟨0, _⟩ => rfl
  | ⟨1, _⟩ => rfl

/-- A float sum over the lane axis of a matrix, read at row `r` at the exact instance: the sum of the row's entries. -/
theorem laneSum_apply {a b : ℕ} (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) :=
  (Ideal.multiReduction_add_single v 0x00000000#32 h hφ hacc (ix1 r)).trans
    (Finset.sum_congr rfl fun k _ => congrArg v (lift_row h r k))

end Cert.LibLayout

end
-- ==== Proof.LibGraphConv.lean ====
/-
  GENERAL LEMMAS: the three dense stages of a two-layer graph convolution with mean pooling and a three-layer classifier, as
  functions on extended reals; nothing here mentions a program and every extent is arbitrary.

  For a matrix a of R rows and a degree d p per row, scaleRows a d multiplies row p by 1 / sqrt (d p).
  With affine h W b (p, q) = sum_k h(p, k) * W(k, q) + b(q) and the rectifier max(., 0):
    conv2 agg din W b      = rectifier (affine (scaleRows agg din) W b)
    conv1 agg din dout W b = scaleRows (conv2 agg din W b) dout
    meanRows s cnt (p, k)  = s(p, k) / max (cnt p) 1
    head s cnt W1 b1 W2 b2 W3 b3 = affine (rectifier (affine (rectifier (affine (meanRows s cnt) W1 b1)) W2 b2)) W3 b3.
  Row p of each result depends only on row p of the row-indexed inputs (ROW-LOCALITY), so a block of consecutive rows
  computes that block of rows of the whole result. Also here: the matrix unit's spelling of a row scaling and of the
  mean, read at an entry. No law of extended-real arithmetic is used beyond congruence, so no entry has to be finite.
-/
import Idealize.ShloMosaic.PureOps.Ideal
import Idealize.ShloMosaic.PureOps.Ideal.Laws
import Idealize.ShloMosaic.Lib.Pipeline.Value
import Idealize.ShloMosaic.Lib.ValueLayout
import Idealize.ShloMosaic.Lib.ValueIdx
import proofs.«179991_j80487687127440_1_alg».proof.Proof.LibMatmulRows
import proofs.«179991_j80487687127440_1_alg».proof.Proof.LibBiasRows
import proofs.«179991_j80487687127440_1_alg».proof.Proof.LibDenseLayers
import proofs.«179991_j80487687127440_1_alg».proof.Proof.LibRowBias
import proofs.«179991_j80487687127440_1_alg».proof.Proof.LibLayout

noncomputable section

namespace Cert.GraphSpec

open Idealize.ShloMosaic Idealize.ShloMosaic.ValueIdx Cert.LibDenseLayers Cert.LibRowBias
open scoped BigOperators

/-- A matrix of R rows and K columns of extended reals. -/
abbrev Mat (R K : ℕ) := (⟨2, ![R, K]⟩ : Shape).Idx → EReal
/-- A vector of N extended reals. -/
abbrev Vc (N : ℕ) := (⟨1, ![N]⟩ : Shape).Idx → EReal

/-- The single-precision word of 1, as an extended real. -/
abbrev oneW : EReal := Ideal.ofBits .f32 0x3F800000#32

/-- Every row p multiplied by the reciprocal square root of the row's degree d p. -/
def scaleRows {R K : ℕ} (a : Mat R K) (d : Fin R → EReal) : Mat R K :=
  fun i => a i * Ideal.rsqrt (d (i 0))

theorem scaleRows_apply {R K : ℕ} (a : Mat R K) (d : Fin R → EReal) (p : Fin R) (k : Fin K) :
    scaleRows a d (ix2 p k) = a (ix2 p k) * Ideal.rsqrt (d p) := rfl

/-- The second graph convolution's dense stage: the aggregate scaled by the in-degrees, an affine layer, the rectifier. -/
def conv2 {R K N : ℕ} (agg : Mat R K) (din : Fin R → EReal) (W : Mat K N) (b : Vc N) : Mat R N :=
  stage1 (scaleRows agg din) W b

/-- The first graph convolution's dense stage: the same, then scaled by the out-degrees for the next layer. -/
def conv1 {R K N : ℕ} (agg : Mat R K) (din dout : Fin R → EReal) (W : Mat K N) (b : Vc N) : Mat R N :=
  scaleRows (conv2 agg din W b) dout

/-- The mean over a group: the group's sum divided by the larger of its count and 1. -/
def meanRows {R K : ℕ} (s : Mat R K) (cnt : Fin R → EReal) : Mat R K :=
  fun i => Ideal.div (s i) (max (cnt (i 0)) oneW)

theorem meanRows_apply {R K : ℕ} (s : Mat R K) (cnt : Fin R → EReal) (p : Fin R) (k : Fin K) :
    meanRows s cnt (ix2 p k) = Ideal.div (s (ix2 p k)) (max (cnt p) oneW) := rfl

/-- The classifier on the group means: two rectified affine layers and a last affine layer of one column. -/
def head {R K N M : ℕ} (s : Mat R K) (cnt : Fin R → EReal) (W1 : Mat K N) (b1 : Vc N) (W2 : Mat N M) (b2 : Vc M)
    (W3 : Mat M 1) (b3 : Vc 1) : Mat R 1 :=
  affine (stage1 (stage1 (meanRows s cnt) W1 b1) W2 b2) W3 b3

/-! ## Row-locality -/

/-- Row p of conv2 depends only on row p of the aggregate and on the in-degree of row p. -/
theorem conv2_row {R R' K N : ℕ} (agg : Mat R K) (agg' : Mat R' K) (din : Fin R → EReal) (din' : Fin R' → EReal)
    (W : Mat K N) (b : Vc N) (p : Fin R) (p' : Fin R')
    (ha : ∀ k : Fin K, agg (ix2 p k) = agg' (ix2 p' k)) (hd : din p = din' p') (q : Fin N) :
    conv2 agg din W b (ix2 p q) = conv2 agg' din' W b (ix2 p' q) :=
  stage1_row _ _ W b p p' (fun k => by rw [scaleRows_apply, scaleRows_apply, ha k, hd]) q

/-- Row p of conv1 depends only on row p of the aggregate and on the two degrees of row p. -/
theorem conv1_row {R R' K N : ℕ} (agg : Mat R K) (agg' : Mat R' K) (din dout : Fin R → EReal) (din' dout' : Fin R' → EReal)
    (W : Mat K N) (b : Vc N) (p : Fin R) (p' : Fin R')
    (ha : ∀ k : Fin K, agg (ix2 p k) = agg' (ix2 p' k)) (hd : din p = din' p') (ho : dout p = dout' p') (q : Fin N) :
    conv1 agg din dout W b (ix2 p q) = conv1 agg' din' dout' W b (ix2 p' q) := by
  show conv2 agg din W b (ix2 p q) * Ideal.rsqrt (dout p) = conv2 agg' din' W b (ix2 p' q) * Ideal.rsqrt (dout' p')
  rw [conv2_row agg agg' din din' W b p p' ha hd q, ho]

/-- The same with the weights and the bias replaced by equal ones. -/
theorem conv2_blk {R R' K N : ℕ} (agg : Mat R K) (agg' : Mat R' K) (din : Fin R → EReal) (din' : Fin R' → EReal)
    (W W' : Mat K N) (b b' : Vc N) (hW : W = W') (hb : b = b') (p : Fin R) (p' : Fin R')
    (ha : ∀ k : Fin K, agg (ix2 p k) = agg' (ix2 p' k)) (hd : din p = din' p') (q : Fin N) :
    conv2 agg din W b (ix2 p q) = conv2 agg' din' W' b' (ix2 p' q) := by
  subst hW; subst hb
  exact conv2_row agg agg' din din' W b p p' ha hd q

/-- The same for the first convolution. -/
theorem conv1_blk {R R' K N : ℕ} (agg : Mat R K) (agg' : Mat R' K) (din dout : Fin R → EReal) (din' dout' : Fin R' → EReal)
    (W W' : Mat K N) (b b' : Vc N) (hW : W = W') (hb : b = b') (p : Fin R) (p' : Fin R')
    (ha : ∀ k : Fin K, agg (ix2 p k) = agg' (ix2 p' k)) (hd : din p = din' p') (ho : dout p = dout' p') (q : Fin N) :
    conv1 agg din dout W b (ix2 p q) = conv1 agg' din' dout' W' b' (ix2 p' q) := by
  subst hW; subst hb
  exact conv1_row agg agg' din dout din' dout' W b p p' ha hd ho q

/-! ## The matrix unit's spellings of the row operations -/

/-- A matrix times the reciprocal square root of a degree column laid along the lanes, read at (p, k). -/
theorem scaled_of_lanes {R K : ℕ} (a : FVec Ideal ⟨2, ![R, K]⟩ .f32) (dv : FVec Ideal ⟨2, ![R, 1]⟩ .f32)
    (hca : (⟨2, ![R, K]⟩ : Shape).ShapeCasts ⟨2, ![R, K]⟩) (hcd : (⟨2, ![R, 1]⟩ : Shape).ShapeCasts ⟨2, ![R, 1]⟩)
    (hb : (⟨2, ![R, 1]⟩ : Shape).Broadcasts ⟨2, ![R, K]⟩) (p : Fin R) (k : Fin K) :
    mulf (shapeCast ⟨2, ![R, K]⟩ a hca) (broadcastTo ⟨2, ![R, K]⟩ (rsqrt (shapeCast ⟨2, ![R, 1]⟩ dv hcd)) hb) (ix2 p k)
      = scaleRows a (fun r => dv (ix2 r (0 : Fin 1))) (ix2 p k) := by
  show shapeCast ⟨2, ![R, K]⟩ a hca (ix2 p k)
      * broadcastTo ⟨2, ![R, K]⟩ (rsqrt (shapeCast ⟨2, ![R, 1]⟩ dv hcd)) hb (ix2 p k) = _
  rw [shapeCast_self, Cert.LibLayout.broadcastTo_a1_ab_apply]
  show a (ix2 p k) * Ideal.rsqrt (shapeCast ⟨2, ![R, 1]⟩ dv hcd (ix2 p (0 : Fin 1))) = _
  rw [shapeCast_self]
  rfl

/-- A degree column's reciprocal square root laid along the lanes, read at (p, q). -/
theorem rsqrt_lane {R N : ℕ} (dv : FVec Ideal ⟨2, ![R, 1]⟩ .f32)
    (hcd : (⟨2, ![R, 1]⟩ : Shape).ShapeCasts ⟨2, ![R, 1]⟩) (hb : (⟨2, ![R, 1]⟩ : Shape).Broadcasts ⟨2, ![R, N]⟩)
    (p : Fin R) (q : Fin N) :
    broadcastTo ⟨2, ![R, N]⟩ (rsqrt (shapeCast ⟨2, ![R, 1]⟩ dv hcd)) hb (ix2 p q) = Ideal.rsqrt (dv (ix2 p (0 : Fin 1))) := by
  rw [Cert.LibLayout.broadcastTo_a1_ab_apply]
  show Ideal.rsqrt (shapeCast ⟨2, ![R, 1]⟩ dv hcd (ix2 p (0 : Fin 1))) = _
  rw [shapeCast_self]

/-- A sum matrix divided by its count column, compared with 1 and laid along the lanes, read at (p, k): the mean. -/
theorem mean_of_lanes {R K : ℕ} (s : FVec Ideal ⟨2, ![R, K]⟩ .f32) (dv : FVec Ideal ⟨2, ![R, 1]⟩ .f32)
    (hcs : (⟨2, ![R, K]⟩ : Shape).ShapeCasts ⟨2, ![R, K]⟩) (hc : (⟨2, ![R, 1]⟩ : Shape).ShapeCasts ⟨2, ![R, 1]⟩)
    (hb : (⟨2, ![R, 1]⟩ : Shape).Broadcasts ⟨2, ![R, K]⟩) (p : Fin R) (k : Fin K) :
    divf (shapeCast ⟨2, ![R, K]⟩ s hcs)
        (broadcastTo ⟨2, ![R, K]⟩ (maximumf (shapeCast ⟨2, ![R, 1]⟩ dv hc)
          (broadcast ⟨2, ![R, 1]⟩ (Scalar.ofBits (F := Ideal) .f32 0x3F800000#32))) hb) (ix2 p k)
      = meanRows s (fun r => dv (ix2 r (0 : Fin 1))) (ix2 p k) := by
  show Ideal.div (shapeCast ⟨2, ![R, K]⟩ s hcs (ix2 p k))
      (broadcastTo ⟨2, ![R, K]⟩ (maximumf (shapeCast ⟨2, ![R, 1]⟩ dv hc)
          (broadcast ⟨2, ![R, 1]⟩ (Scalar.ofBits (F := Ideal) .f32 0x3F800000#32))) hb (ix2 p k)) = _
  rw [shapeCast_self, Cert.LibLayout.broadcastTo_a1_ab_apply]
  show Ideal.div (s (ix2 p k)) (max (shapeCast ⟨2, ![R, 1]⟩ dv hc (ix2 p (0 : Fin 1))) oneW) = _
  rw [shapeCast_self]
  rfl

end Cert.GraphSpec

end
-- ==== Proof.LibHostDense.lean ====
/-
  GENERAL LEMMAS: the host's spellings of the dense stages, read as whole-array functions on extended reals; nothing here mentions a
  program and every extent is arbitrary.

  A vector of R row statistics laid out as a column [R, 1] and then along the lanes reads, at (p, k), the vector at p;
  a scalar broadcast to every entry reads the scalar; a bias vector of ANY length broadcast to one row and along the
  rows reads the bias at the column. With these, x * rsqrt(d)[:, None] is scaleRows, a dot_general plus bias is the affine
  layer, max(., 0) is the rectifier, s / max(1, cnt)[:, None] is the mean (max is symmetric), and so the host's lines for
  a graph convolution's dense stage and for the classifier are conv2, conv1 and head. No entry needs to be finite.
-/
import proofs.«179991_j80487687127440_1_alg».proof.Proof.LibGraphConv

noncomputable section

namespace Cert.HostSpell

open Idealize.ShloMosaic Idealize.ShloMosaic.ValueIdx Cert.LibDenseLayers Cert.GraphSpec
open scoped BigOperators

variable {α : Type}

/-- A vector laid out as a column and then along K lanes reads, at (p, k), the vector at p. -/
theorem col_host {R K : ℕ} (v : (⟨1, ![R]⟩ : Shape).Idx → α)
    (h1 : (⟨1, ![R]⟩ : Shape).BroadcastsInDim ⟨2, ![R, 1]⟩ (![0] : Fin 1 → Fin 2))
    (h2 : (⟨2, ![R, 1]⟩ : Shape).BroadcastsInDim ⟨2, ![R, K]⟩ (![0, 1] : Fin 2 → Fin 2)) (p : Fin R) (k : Fin K) :
    broadcastInDim ⟨2, ![R, K]⟩ ![0, 1] h2 (broadcastInDim ⟨2, ![R, 1]⟩ ![0] h1 v) (ix2 p k) = v (ix1 p) := by
  refine (broadcastInDim_apply _ h2 _ (ix2 p k) (ix2 p (0 : Fin 1)) fun a => ?_).trans
    (broadcastInDim_apply _ h1 v (ix2 p (0 : Fin 1)) (ix1 p) fun a => ?_)
  · match a with
    | ⟨0, _⟩ =>
      show p.val = if R = 1 then 0 else p.val
      split
      · have := p.isLt; omega
      · rfl
    | ⟨1, _⟩ => show (0 : ℕ) = if (1 : ℕ) = 1 then 0 else k.val; rw [if_pos rfl]
  · match a with
    | ⟨0, _⟩ =>
      show p.val = if R = 1 then 0 else p.val
      split
      · have := p.isLt; omega
      · rfl

/-- A scalar broadcast to every entry of an array reads the scalar. -/
theorem splat_host {s : Shape} (x : (⟨0, ![]⟩ : Shape).Idx → α)
    (h : (⟨0, ![]⟩ : Shape).BroadcastsInDim s (![] : Fin 0 → Fin s.rank)) (i : s.Idx) :
    broadcastInDim s ![] h x i = x ix0 :=
  broadcastInDim_apply _ h x i ix0 fun a => a.elim0

/-- A bias vector of any length broadcast to one row and then along R rows reads, at (r, c), the bias at c. -/
theorem bias_any {R n : ℕ} (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) (r : Fin R) (c : Fin n) :
    broadcastInDim ⟨2, ![R, n]⟩ ![0, 1] h2 (broadcastInDim ⟨2, ![1, n]⟩ ![1] h1 b) (ix2 r c) = b (ix1 c) := by
  refine (broadcastInDim_apply _ h2 _ (ix2 r c) (ix2 (0 : Fin 1) c) fun a => ?_).trans
    (broadcastInDim_apply _ h1 b (ix2 (0 : Fin 1) c) (ix1 c) fun a => ?_)
  · match a with
    | ⟨0, _⟩ => show (0 : ℕ) = if (1 : ℕ) = 1 then 0 else r.val; rw [if_pos rfl]
    | ⟨1, _⟩ =>
      show c.val = if n = 1 then 0 else c.val
      split
      · have := c.isLt; omega
      · rfl
  · match a with
    | ⟨0, _⟩ =>
      show c.val = if n = 1 then 0 else c.val
      split
      · have := c.isLt; omega
      · rfl

section Stages

variable {R K N : ℕ} (d : DotDims ⟨2, ![R, K]⟩ ⟨2, ![K, N]⟩ ⟨2, ![R, N]⟩)
    (hrank : d.contr.rank = 1) (hsize : d.contr.size ⟨0, by omega⟩ = K)
    (hl0 : ∀ (i : (⟨2, ![R, N]⟩ : Shape).Idx) (s : d.contr.Idx), (d.lhsIdx i s 0).val = (i 0).val)
    (hl1 : ∀ (i : (⟨2, ![R, N]⟩ : Shape).Idx) (s : d.contr.Idx), (d.lhsIdx i s 1).val = (s ⟨0, by omega⟩).val)
    (hr0 : ∀ (i : (⟨2, ![R, N]⟩ : Shape).Idx) (s : d.contr.Idx), (d.rhsIdx i s 0).val = (s ⟨0, by omega⟩).val)
    (hr1 : ∀ (i : (⟨2, ![R, N]⟩ : Shape).Idx) (s : d.contr.Idx), (d.rhsIdx i s 1).val = (i 1).val)
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (h0 : (⟨0, ![]⟩ : Shape).BroadcastsInDim ⟨2, ![R, N]⟩ (![] : Fin 0 → Fin 2))
    (hc1 : (⟨1, ![R]⟩ : Shape).BroadcastsInDim ⟨2, ![R, 1]⟩ (![0] : Fin 1 → Fin 2))
    (hcK : (⟨2, ![R, 1]⟩ : Shape).BroadcastsInDim ⟨2, ![R, K]⟩ (![0, 1] : Fin 2 → Fin 2))
    (hcN : (⟨2, ![R, 1]⟩ : Shape).BroadcastsInDim ⟨2, ![R, N]⟩ (![0, 1] : Fin 2 → Fin 2))

include hrank hsize hl0 hl1 hr0 hr1 in
/-- The host's dot_general plus a bias of any length broadcast twice is the affine layer. -/
theorem affine_of_dot_any (h : FVec Ideal ⟨2, ![R, K]⟩ .f32) (W : FVec Ideal ⟨2, ![K, N]⟩ .f32) (b : FVec Ideal ⟨1, ![N]⟩ .f32) :
    addf (Host.dotGeneral d none h W)
      (broadcastInDim ⟨2, ![R, N]⟩ ![0, 1] h2 (broadcastInDim ⟨2, ![1, N]⟩ ![1] h1 b)) = affine h W b := by
  funext j
  obtain ⟨p, q, rfl⟩ : ∃ (p : Fin R) (q : Fin N), j = ix2 p q := ⟨j 0, j 1, eq_ix2 j⟩
  show Host.dotGeneral d none h W (ix2 p q)
      + broadcastInDim ⟨2, ![R, N]⟩ ![0, 1] h2 (broadcastInDim ⟨2, ![1, N]⟩ ![1] h1 b) (ix2 p q) = affineAt h W b p q
  rw [Cert.LibMatmulRows.hostdot_rows d hrank hsize hl0 hl1 hr0 hr1 h W p q, bias_any b h1 h2 p q]
  rfl

/-- The host's max with a broadcast zero is the rectifier. -/
theorem relu_of_host (a : FVec Ideal ⟨2, ![R, N]⟩ .f32) :
    maximumf a (broadcastInDim ⟨2, ![R, N]⟩ ![] h0 (constant (F := Ideal) ⟨0, ![]⟩ .f32 0x00000000#32)) = relu a := by
  funext j
  show max (a j) (broadcastInDim ⟨2, ![R, N]⟩ ![] h0 (constant (F := Ideal) ⟨0, ![]⟩ .f32 0x00000000#32) j) = max (a j) _
  rw [splat_host]
  rfl

include hrank hsize hl0 hl1 hr0 hr1 in
/-- The host's rectified dot_general-plus-bias is the rectified affine layer. -/
theorem stage1_of_host (h : FVec Ideal ⟨2, ![R, K]⟩ .f32) (W : FVec Ideal ⟨2, ![K, N]⟩ .f32) (b : FVec Ideal ⟨1, ![N]⟩ .f32) :
    maximumf (addf (Host.dotGeneral d none h W)
        (broadcastInDim ⟨2, ![R, N]⟩ ![0, 1] h2 (broadcastInDim ⟨2, ![1, N]⟩ ![1] h1 b)))
      (broadcastInDim ⟨2, ![R, N]⟩ ![] h0 (constant (F := Ideal) ⟨0, ![]⟩ .f32 0x00000000#32)) = stage1 h W b := by
  rw [affine_of_dot_any d hrank hsize hl0 hl1 hr0 hr1 h1 h2 h W b, relu_of_host h0]
  rfl

/-- A matrix times the reciprocal square roots of a degree vector laid along the rows is scaleRows. -/
theorem scaled_of_host (a : FVec Ideal ⟨2, ![R, K]⟩ .f32) (dg : FVec Ideal ⟨1, ![R]⟩ .f32) :
    mulf a (broadcastInDim ⟨2, ![R, K]⟩ ![0, 1] hcK (broadcastInDim ⟨2, ![R, 1]⟩ ![0] hc1 (Host.rsqrt dg)))
      = scaleRows a (fun r => dg (ix1 r)) := by
  funext j
  obtain ⟨p, k, rfl⟩ : ∃ (p : Fin R) (k : Fin K), j = ix2 p k := ⟨j 0, j 1, eq_ix2 j⟩
  show a (ix2 p k) * broadcastInDim ⟨2, ![R, K]⟩ ![0, 1] hcK (broadcastInDim ⟨2, ![R, 1]⟩ ![0] hc1 (Host.rsqrt dg)) (ix2 p k) = _
  rw [col_host (Host.rsqrt dg) hc1 hcK p k]
  rfl

include hrank hsize hl0 hl1 hr0 hr1 in
/-- The host's lines of the second convolution's dense stage are conv2. -/
theorem conv2_of_host (agg : FVec Ideal ⟨2, ![R, K]⟩ .f32) (din : FVec Ideal ⟨1, ![R]⟩ .f32)
    (W : FVec Ideal ⟨2, ![K, N]⟩ .f32) (b : FVec Ideal ⟨1, ![N]⟩ .f32) :
    maximumf (addf (Host.dotGeneral d none
          (mulf agg (broadcastInDim ⟨2, ![R, K]⟩ ![0, 1] hcK (broadcastInDim ⟨2, ![R, 1]⟩ ![0] hc1 (Host.rsqrt din)))) W)
        (broadcastInDim ⟨2, ![R, N]⟩ ![0, 1] h2 (broadcastInDim ⟨2, ![1, N]⟩ ![1] h1 b)))
      (broadcastInDim ⟨2, ![R, N]⟩ ![] h0 (constant (F := Ideal) ⟨0, ![]⟩ .f32 0x00000000#32))
      = conv2 agg (fun r => din (ix1 r)) W b := by
  rw [scaled_of_host hc1 hcK agg din]
  exact stage1_of_host d hrank hsize hl0 hl1 hr0 hr1 h1 h2 h0 _ W b

include hrank hsize hl0 hl1 hr0 hr1 in
/-- The host's lines of the first convolution's dense stage are conv1. -/
theorem conv1_of_host (agg : FVec Ideal ⟨2, ![R, K]⟩ .f32) (din dout : FVec Ideal ⟨1, ![R]⟩ .f32)
    (W : FVec Ideal ⟨2, ![K, N]⟩ .f32) (b : FVec Ideal ⟨1, ![N]⟩ .f32) :
    mulf (maximumf (addf (Host.dotGeneral d none
          (mulf agg (broadcastInDim ⟨2, ![R, K]⟩ ![0, 1] hcK (broadcastInDim ⟨2, ![R, 1]⟩ ![0] hc1 (Host.rsqrt din)))) W)
        (broadcastInDim ⟨2, ![R, N]⟩ ![0, 1] h2 (broadcastInDim ⟨2, ![1, N]⟩ ![1] h1 b)))
      (broadcastInDim ⟨2, ![R, N]⟩ ![] h0 (constant (F := Ideal) ⟨0, ![]⟩ .f32 0x00000000#32)))
      (broadcastInDim ⟨2, ![R, N]⟩ ![0, 1] hcN (broadcastInDim ⟨2, ![R, 1]⟩ ![0] hc1 (Host.rsqrt dout)))
      = conv1 agg (fun r => din (ix1 r)) (fun r => dout (ix1 r)) W b := by
  rw [conv2_of_host d hrank hsize hl0 hl1 hr0 hr1 h1 h2 h0 hc1 hcK agg din W b]
  exact scaled_of_host hc1 hcN _ dout

/-- The sums divided by max(1, count) laid along the lanes are the means. -/
theorem mean_of_host (s : FVec Ideal ⟨2, ![R, K]⟩ .f32) (cnt : FVec Ideal ⟨1, ![R]⟩ .f32)
    (hs : (⟨0, ![]⟩ : Shape).BroadcastsInDim ⟨1, ![R]⟩ (![] : Fin 0 → Fin 1)) :
    Host.divf s (broadcastInDim ⟨2, ![R, K]⟩ ![0, 1] hcK (broadcastInDim ⟨2, ![R, 1]⟩ ![0] hc1
        (maximumf (broadcastInDim ⟨1, ![R]⟩ ![] hs (id (constant (F := Ideal) ⟨0, ![]⟩ .f32 0x3F800000#32))) cnt)))
      = meanRows s (fun r => cnt (ix1 r)) := by
  funext j
  obtain ⟨p, k, rfl⟩ : ∃ (p : Fin R) (k : Fin K), j = ix2 p k := ⟨j 0, j 1, eq_ix2 j⟩
  show Ideal.div (s (ix2 p k)) (broadcastInDim ⟨2, ![R, K]⟩ ![0, 1] hcK (broadcastInDim ⟨2, ![R, 1]⟩ ![0] hc1
        (maximumf (broadcastInDim ⟨1, ![R]⟩ ![] hs (constant (F := Ideal) ⟨0, ![]⟩ .f32 0x3F800000#32)) cnt)) (ix2 p k)) = _
  rw [col_host _ hc1 hcK p k]
  show Ideal.div (s (ix2 p k)) (max (broadcastInDim ⟨1, ![R]⟩ ![] hs (constant (F := Ideal) ⟨0, ![]⟩ .f32 0x3F800000#32) (ix1 p)) (cnt (ix1 p))) = _
  rw [splat_host, max_comm]
  rfl

end Stages

/-- max is symmetric on arrays of extended reals. -/
theorem maxf_comm {s : Shape} (a b : FVec Ideal s .f32) : maximumf a b = maximumf b a :=
  funext fun i => max_comm (a i) (b i)

end Cert.HostSpell

end
-- ==== Proof.RefValue.lean ====
/-
  What the reference program computes, read as the network on extended reals.

  The run of @main leaves every buffer at the fold of its operations over the launch contents. The fold is read stage
  by stage, for an arbitrary valuation at each stage's entry: the two index vectors, then per layer the neighbour sums
  (kept as the host's own operations: `aggR128`, `aggR64`), the two rectified affine stages (`Cert.Gin.mlp`), the
  column mean and variance (kept as the host's own operations: `meanR`, `varR`), the normalisation and rectifier
  (`Cert.Gin.bnrelu`); then the last affine layer. A layer's four stages compose to `Cert.Gin.layer`, the three layers and
  the last affine layer to `Cert.Gin.net`. No arithmetic law is used beyond reading a broadcast at an index and reading a
  dot_general plus a doubly broadcast bias as the affine layer.
-/
import proofs.«179991_j80487687127440_1_alg».proof.Proof.RefSegs
import proofs.«179991_j80487687127440_1_alg».proof.Proof.LibTypedRefs
import proofs.«179991_j80487687127440_1_alg».proof.Proof.LibHostDense
import proofs.«179991_j80487687127440_1_alg».proof.Proof.LibPlainDot
import proofs.«179991_j80487687127440_1_alg».proof.Proof.LibGinLayers

noncomputable section

namespace Cert.ReferenceIdeal.RefValue

open Cert.ReferenceIdeal Cert.ReferenceIdeal.Gen Cert.ReferenceIdeal.RefRun Cert.ReferenceIdeal.RefSegs Idealize.ShloMosaic Idealize.ShloMosaic.TcCoe Idealize.SL.Sem Idealize.ShloMosaic.StableHlo Idealize.ShloMosaic.ValueIdx

/-! ## The host's own operations kept as they are -/

section Kept

variable {F : FTy → Type} [FloatOps F]

/-- The source indices: row 0 of the edge table as a vector. -/
def srcR (a1 : IVec S2x800000 32) : IVec S800000 32 :=
  shapeCast S800000 (extractStridedSlice S1x800000 ![0, 0] a1 slices_S2x800000_S1x800000_0_0) shapeCasts_S1x800000_S800000

/-- The destination indices: row 1 of the edge table as a vector. -/
def dstR (a1 : IVec S2x800000 32) : IVec S800000 32 :=
  shapeCast S800000 (extractStridedSlice S1x800000 ![1, 0] a1 slices_S2x800000_S1x800000_1_0) shapeCasts_S1x800000_S800000

/-- The neighbour sums of a 128-column matrix: rows gathered at the (wrapped) source indices and scatter-added into
    zeros at the destination indices. -/
def aggR128 (s d : IVec S800000 32) (x : FVec F S50000x128 .f32) : FVec F S50000x128 .f32 :=
  Host.scatterAdd scatter_S50000x128_S800000x1_S800000x128_1_0_0_1 (broadcastInDim S50000x128 ![] bcast_S_S50000x128 (constant S_ .f32 0x00000000#32)) (broadcastInDim S800000x1 ![0] bcast_S800000_S800000x1_0 d) (Host.gather gather_S50000x128_S800000x1_S800000x128_1_0_n_n_0_1_1128 x (broadcastInDim S800000x1 ![0] bcast_S800000_S800000x1_0 (select (cmpi .slt s (broadcastInDim S800000 ![] bcast_S_S800000 (constantI S_ 32 0#32))) (addi s (broadcastInDim S800000 ![] bcast_S_S800000 (constantI S_ 32 50000#32))) s)))

/-- The neighbour sums of a 64-column matrix, the same way. -/
def aggR64 (s d : IVec S800000 32) (x : FVec F S50000x64 .f32) : FVec F S50000x64 .f32 :=
  Host.scatterAdd scatter_S50000x64_S800000x1_S800000x64_1_0_0_1 (broadcastInDim S50000x64 ![] bcast_S_S50000x64 (constant S_ .f32 0x00000000#32)) (broadcastInDim S800000x1 ![0] bcast_S800000_S800000x1_0 d) (Host.gather gather_S50000x64_S800000x1_S800000x64_1_0_n_n_0_1_164 x (broadcastInDim S800000x1 ![0] bcast_S800000_S800000x1_0 (select (cmpi .slt s (broadcastInDim S800000 ![] bcast_S_S800000 (constantI S_ 32 0#32))) (addi s (broadcastInDim S800000 ![] bcast_S_S800000 (constantI S_ 32 50000#32))) s)))

/-- The column means: the column sums divided by the number of rows. -/
def meanR (h : FVec F S50000x64 .f32) : FVec F S64 .f32 :=
  Host.divf (Host.reduceAdd h (constant S_ .f32 0x00000000#32) reducesTo_S50000x64_S64_d0 h_S_) (broadcastInDim S64 ![] bcast_S_S64 (constant S_ .f32 0x47435000#32))

/-- The column variances as the host computes them: the mean of the squared deviations from the column mean, selected
    against a not-a-number vector on the (constant) test that the divisor is positive. -/
def varR (h : FVec F S50000x64 .f32) : FVec F S64 .f32 :=
  select (broadcastInDim S64 ![] bcast_S_S64 (cmpf (F := F) .ogt (subf (constant S_ .f32 0x47435000#32) (sitofp .f32 (constantI S_ 32 0#32))) (constant S_ .f32 0x00000000#32))) (Host.divf (Host.reduceAdd (mulf (subf h (broadcastInDim S50000x64 ![0, 1] bcast_S1x64_S50000x64_0_1 (Host.divf (broadcastInDim S1x64 ![1] bcast_S64_S1x64_1 (Host.reduceAdd h (constant S_ .f32 0x00000000#32) reducesTo_S50000x64_S64_d0 h_S_)) (broadcastInDim S1x64 ![] bcast_S_S1x64 (constant S_ .f32 0x47435000#32))))) (subf h (broadcastInDim S50000x64 ![0, 1] bcast_S1x64_S50000x64_0_1 (Host.divf (broadcastInDim S1x64 ![1] bcast_S64_S1x64_1 (Host.reduceAdd h (constant S_ .f32 0x00000000#32) reducesTo_S50000x64_S64_d0 h_S_)) (broadcastInDim S1x64 ![] bcast_S_S1x64 (constant S_ .f32 0x47435000#32)))))) (constant S_ .f32 0x00000000#32) reducesTo_S50000x64_S64_d0 h_S_) (broadcastInDim S64 ![] bcast_S_S64 (subf (constant S_ .f32 0x47435000#32) (sitofp .f32 (constantI S_ 32 0#32))))) (broadcastInDim S64 ![] bcast_S_S64 (id (constant S_ .f32 0x7FC00000#32)))

end Kept

/-! ## The host's spellings of the dense stages -/

/-- A bias vector broadcast to one row and along the rows, as a function of the index. -/
theorem bias_fun {α : Type} {R n : ℕ} (b : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![R, n]⟩ (![0, 1] : Fin 2 → Fin 2)) :
    broadcastInDim ⟨2, ![R, n]⟩ ![0, 1] h2 (broadcastInDim ⟨2, ![1, n]⟩ ![1] h1 b) = fun i => b (ix1 (i 1)) := by
  funext j
  obtain ⟨r, c, rfl⟩ : ∃ (r : Fin R) (c : Fin n), j = ix2 r c := ⟨j 0, j 1, eq_ix2 j⟩
  exact Cert.HostSpell.bias_any b h1 h2 r c

/-- A scalar broadcast to every entry, as a function of the index. -/
theorem splat_fun {α : Type} {s : Shape} (x : (⟨0, ![]⟩ : Shape).Idx → α)
    (h : (⟨0, ![]⟩ : Shape).BroadcastsInDim s (![] : Fin 0 → Fin s.rank)) :
    broadcastInDim s ![] h x = fun _ => x ix0 :=
  funext fun i => Cert.HostSpell.splat_host x h i

/-- The host's (1 + ε) broadcast, multiplied into x and added to the neighbour sums, is the combination. -/
theorem combine_host {R K : ℕ} (h0 : (⟨0, ![]⟩ : Shape).BroadcastsInDim ⟨2, ![R, K]⟩ (![] : Fin 0 → Fin 2))
    (e : FVec Ideal ⟨0, ![]⟩ .f32) (x agg : FVec Ideal ⟨2, ![R, K]⟩ .f32) :
    addf (mulf (broadcastInDim ⟨2, ![R, K]⟩ ![] h0 (addf (constant (F := Ideal) ⟨0, ![]⟩ .f32 0x3F800000#32) e)) x) agg
      = Cert.Gin.combine (e ix0) x agg := by
  rw [splat_fun]
  rfl

/-- The host's lines of one layer's two rectified affine stages are `mlp`. -/
theorem mlp_host {R K H : ℕ} (h0K : (⟨0, ![]⟩ : Shape).BroadcastsInDim ⟨2, ![R, K]⟩ (![] : Fin 0 → Fin 2))
    (h0H : (⟨0, ![]⟩ : Shape).BroadcastsInDim ⟨2, ![R, H]⟩ (![] : Fin 0 → Fin 2))
    (h1 : (⟨1, ![H]⟩ : Shape).BroadcastsInDim ⟨2, ![1, H]⟩ (![1] : Fin 1 → Fin 2))
    (h2 : (⟨2, ![1, H]⟩ : Shape).BroadcastsInDim ⟨2, ![R, H]⟩ (![0, 1] : Fin 2 → Fin 2))
    (e : FVec Ideal ⟨0, ![]⟩ .f32) (x agg : FVec Ideal ⟨2, ![R, K]⟩ .f32)
    (wa : FVec Ideal ⟨2, ![K, H]⟩ .f32) (ba : FVec Ideal ⟨1, ![H]⟩ .f32)
    (wb : FVec Ideal ⟨2, ![H, H]⟩ .f32) (bb : FVec Ideal ⟨1, ![H]⟩ .f32) :
    maximumf (addf (Host.dotGeneral (DotDims.plain R H H) none
        (maximumf (addf (Host.dotGeneral (DotDims.plain R K H) none
            (addf (mulf (broadcastInDim ⟨2, ![R, K]⟩ ![] h0K (addf (constant (F := Ideal) ⟨0, ![]⟩ .f32 0x3F800000#32) e)) x) agg) wa)
            (broadcastInDim ⟨2, ![R, H]⟩ ![0, 1] h2 (broadcastInDim ⟨2, ![1, H]⟩ ![1] h1 ba)))
          (broadcastInDim ⟨2, ![R, H]⟩ ![] h0H (constant (F := Ideal) ⟨0, ![]⟩ .f32 0x00000000#32))) wb)
        (broadcastInDim ⟨2, ![R, H]⟩ ![0, 1] h2 (broadcastInDim ⟨2, ![1, H]⟩ ![1] h1 bb)))
      (broadcastInDim ⟨2, ![R, H]⟩ ![] h0H (constant (F := Ideal) ⟨0, ![]⟩ .f32 0x00000000#32))
      = Cert.Gin.mlp (e ix0) x agg wa ba wb bb := by
  rw [combine_host,
    Cert.HostSpell.stage1_of_host (DotDims.plain R K H) rfl rfl Cert.LibPlainDot.lhs0 Cert.LibPlainDot.lhs1
      Cert.LibPlainDot.rhs0 Cert.LibPlainDot.rhs1 h1 h2 h0H,
    Cert.HostSpell.stage1_of_host (DotDims.plain R H H) rfl rfl Cert.LibPlainDot.lhs0 Cert.LibPlainDot.lhs1
      Cert.LibPlainDot.rhs0 Cert.LibPlainDot.rhs1 h1 h2 h0H]
  rfl

/-- The host's batch-normalisation lines followed by the rectifier are `bnrelu`. -/
theorem bn_host {R H : ℕ} (h0 : (⟨0, ![]⟩ : Shape).BroadcastsInDim ⟨1, ![H]⟩ (![] : Fin 0 → Fin 1))
    (h0H : (⟨0, ![]⟩ : Shape).BroadcastsInDim ⟨2, ![R, H]⟩ (![] : Fin 0 → Fin 2))
    (h1 : (⟨1, ![H]⟩ : Shape).BroadcastsInDim ⟨2, ![1, H]⟩ (![1] : Fin 1 → Fin 2))
    (h2 : (⟨2, ![1, H]⟩ : Shape).BroadcastsInDim ⟨2, ![R, H]⟩ (![0, 1] : Fin 2 → Fin 2))
    (h : FVec Ideal ⟨2, ![R, H]⟩ .f32) (mean var g be : FVec Ideal ⟨1, ![H]⟩ .f32) :
    maximumf (addf (mulf (mulf (subf h (broadcastInDim ⟨2, ![R, H]⟩ ![0, 1] h2 (broadcastInDim ⟨2, ![1, H]⟩ ![1] h1 mean)))
          (broadcastInDim ⟨2, ![R, H]⟩ ![0, 1] h2 (broadcastInDim ⟨2, ![1, H]⟩ ![1] h1
            (Host.rsqrt (addf var (broadcastInDim ⟨1, ![H]⟩ ![] h0 (constant (F := Ideal) ⟨0, ![]⟩ .f32 0x3727C5AC#32)))))))
          (broadcastInDim ⟨2, ![R, H]⟩ ![0, 1] h2 (broadcastInDim ⟨2, ![1, H]⟩ ![1] h1 g)))
        (broadcastInDim ⟨2, ![R, H]⟩ ![0, 1] h2 (broadcastInDim ⟨2, ![1, H]⟩ ![1] h1 be)))
      (broadcastInDim ⟨2, ![R, H]⟩ ![] h0H (constant (F := Ideal) ⟨0, ![]⟩ .f32 0x00000000#32))
      = Cert.Gin.bnrelu h mean var g be := by
  rw [bias_fun mean h1 h2, bias_fun g h1 h2, bias_fun be h1 h2, bias_fun (Host.rsqrt _) h1 h2, splat_fun _ h0, splat_fun _ h0H]
  rfl

/-- The host's last dot_general plus bias is the affine layer. -/
theorem affine_host {R K N : ℕ}
    (h1 : (⟨1, ![N]⟩ : Shape).BroadcastsInDim ⟨2, ![1, N]⟩ (![1] : Fin 1 → Fin 2))
    (h2 : (⟨2, ![1, N]⟩ : Shape).BroadcastsInDim ⟨2, ![R, N]⟩ (![0, 1] : Fin 2 → Fin 2))
    (h : FVec Ideal ⟨2, ![R, K]⟩ .f32) (W : FVec Ideal ⟨2, ![K, N]⟩ .f32) (b : FVec Ideal ⟨1, ![N]⟩ .f32) :
    addf (Host.dotGeneral (DotDims.plain R K N) none h W)
      (broadcastInDim ⟨2, ![R, N]⟩ ![0, 1] h2 (broadcastInDim ⟨2, ![1, N]⟩ ![1] h1 b)) = Cert.LibDenseLayers.affine h W b :=
  Cert.HostSpell.affine_of_dot_any (DotDims.plain R K N) rfl rfl Cert.LibPlainDot.lhs0 Cert.LibPlainDot.lhs1
    Cert.LibPlainDot.rhs0 Cert.LibPlainDot.rhs1 h1 h2 h W b

/-! ## The stages, for any valuation at their entry -/

theorem A_src (V : Valuation τ sig (Elt Ideal)) :
    after (segA (F := Ideal)) V (Proc.devRef .tc main_v1) = srcR (V (Proc.devRef .tc main_arg1)) := by
  dsimp only [segA]
  after_results_simp
  rfl

theorem A_dst (V : Valuation τ sig (Elt Ideal)) :
    after (segA (F := Ideal)) V (Proc.devRef .tc main_v3) = dstR (V (Proc.devRef .tc main_arg1)) := by
  dsimp only [segA]
  after_results_simp
  rfl

theorem agg1_out (V : Valuation τ sig (Elt Ideal)) :
    after (segB (F := Ideal)) V (Proc.devRef .tc main_v13) = aggR128 (F := Ideal) (V (Proc.devRef .tc main_v1)) (V (Proc.devRef .tc main_v3)) (V (Proc.devRef .tc main_arg0)) := by
  dsimp only [segB]
  after_results_simp
  rfl

theorem mlp1_out (V : Valuation τ sig (Elt Ideal)) :
    after (segC (F := Ideal)) V (Proc.devRef .tc main_v27)
      = Cert.Gin.mlp (R := 50000) (K := 128) (H := 64) (V (Proc.devRef .tc main_arg2) ix0) (V (Proc.devRef .tc main_arg0)) (V (Proc.devRef .tc main_v13)) (V (Proc.devRef .tc main_arg3)) (V (Proc.devRef .tc main_arg4)) (V (Proc.devRef .tc main_arg5)) (V (Proc.devRef .tc main_arg6)) := by
  dsimp only [segC]
  after_results_simp
  simp only [Cert.LibTypedRefs.ofBuf_toBuf]
  exact mlp_host (R := 50000) (K := 128) (H := 64) _ _ _ _ _ _ _ _ _ _ _

theorem mean1_out (V : Valuation τ sig (Elt Ideal)) :
    after (segD (F := Ideal)) V (Proc.devRef .tc main_v30) = meanR (F := Ideal) (V (Proc.devRef .tc main_v27)) := by
  dsimp only [segD]
  after_results_simp
  rfl

theorem var1_out (V : Valuation τ sig (Elt Ideal)) :
    after (segD (F := Ideal)) V (Proc.devRef .tc main_v31) = varR (F := Ideal) (V (Proc.devRef .tc main_v27)) := by
  dsimp only [segD]
  after_results_simp
  simp only [Cert.LibTypedRefs.ofBuf_toBuf]
  rfl

theorem bn1_out (V : Valuation τ sig (Elt Ideal)) :
    after (segE (F := Ideal)) V (Proc.devRef .tc main_v47)
      = Cert.Gin.bnrelu (R := 50000) (H := 64) (V (Proc.devRef .tc main_v27)) (V (Proc.devRef .tc main_v30)) (V (Proc.devRef .tc main_v31)) (V (Proc.devRef .tc main_arg7)) (V (Proc.devRef .tc main_arg8)) := by
  dsimp only [segE]
  after_results_simp
  simp only [Cert.LibTypedRefs.ofBuf_toBuf]
  exact bn_host (R := 50000) (H := 64) _ _ _ _ _ _ _ _ _

/-- Layer 1: its four stages in order are `Cert.Gin.layer` of the entry contents. -/
theorem layer1_out (V : Valuation τ sig (Elt Ideal)) :
    after (lay1 (F := Ideal)) V (Proc.devRef .tc main_v47)
      = Cert.Gin.layer (R := 50000) (K := 128) (H := 64) (aggR128 (F := Ideal) (V (Proc.devRef .tc main_v1)) (V (Proc.devRef .tc main_v3))) (meanR (F := Ideal)) (varR (F := Ideal))
          (V (Proc.devRef .tc main_arg2) ix0) (V (Proc.devRef .tc main_arg0)) (V (Proc.devRef .tc main_arg3)) (V (Proc.devRef .tc main_arg4)) (V (Proc.devRef .tc main_arg5)) (V (Proc.devRef .tc main_arg6)) (V (Proc.devRef .tc main_arg7)) (V (Proc.devRef .tc main_arg8)) := by
  show after (segB ++ (segC ++ (segD ++ segE))) V _ = _
  rw [after_app, after_app, after_app, bn1_out,
    mean1_out, var1_out, keepD _ main_v27 (by decide), keepD _ main_arg7 (by decide), keepD _ main_arg8 (by decide),
    mlp1_out, keepC _ main_arg7 (by decide), keepC _ main_arg8 (by decide),
    agg1_out, keepB _ main_arg2 (by decide), keepB _ main_arg0 (by decide), keepB _ main_arg3 (by decide), keepB _ main_arg4 (by decide), keepB _ main_arg5 (by decide), keepB _ main_arg6 (by decide), keepB _ main_arg7 (by decide), keepB _ main_arg8 (by decide)]
  rfl

theorem agg2_out (V : Valuation τ sig (Elt Ideal)) :
    after (segF (F := Ideal)) V (Proc.devRef .tc main_v57) = aggR64 (F := Ideal) (V (Proc.devRef .tc main_v1)) (V (Proc.devRef .tc main_v3)) (V (Proc.devRef .tc main_v47)) := by
  dsimp only [segF]
  after_results_simp
  rfl

theorem mlp2_out (V : Valuation τ sig (Elt Ideal)) :
    after (segG (F := Ideal)) V (Proc.devRef .tc main_v71)
      = Cert.Gin.mlp (R := 50000) (K := 64) (H := 64) (V (Proc.devRef .tc main_arg9) ix0) (V (Proc.devRef .tc main_v47)) (V (Proc.devRef .tc main_v57)) (V (Proc.devRef .tc main_arg10)) (V (Proc.devRef .tc main_arg11)) (V (Proc.devRef .tc main_arg12)) (V (Proc.devRef .tc main_arg13)) := by
  dsimp only [segG]
  after_results_simp
  simp only [Cert.LibTypedRefs.ofBuf_toBuf]
  exact mlp_host (R := 50000) (K := 64) (H := 64) _ _ _ _ _ _ _ _ _ _ _

theorem mean2_out (V : Valuation τ sig (Elt Ideal)) :
    after (segH (F := Ideal)) V (Proc.devRef .tc main_v74) = meanR (F := Ideal) (V (Proc.devRef .tc main_v71)) := by
  dsimp only [segH]
  after_results_simp
  rfl

theorem var2_out (V : Valuation τ sig (Elt Ideal)) :
    after (segH (F := Ideal)) V (Proc.devRef .tc main_v75) = varR (F := Ideal) (V (Proc.devRef .tc main_v71)) := by
  dsimp only [segH]
  after_results_simp
  simp only [Cert.LibTypedRefs.ofBuf_toBuf]
  rfl

theorem bn2_out (V : Valuation τ sig (Elt Ideal)) :
    after (segI (F := Ideal)) V (Proc.devRef .tc main_v91)
      = Cert.Gin.bnrelu (R := 50000) (H := 64) (V (Proc.devRef .tc main_v71)) (V (Proc.devRef .tc main_v74)) (V (Proc.devRef .tc main_v75)) (V (Proc.devRef .tc main_arg14)) (V (Proc.devRef .tc main_arg15)) := by
  dsimp only [segI]
  after_results_simp
  simp only [Cert.LibTypedRefs.ofBuf_toBuf]
  exact bn_host (R := 50000) (H := 64) _ _ _ _ _ _ _ _ _

/-- Layer 2: its four stages in order are `Cert.Gin.layer` of the entry contents. -/
theorem layer2_out (V : Valuation τ sig (Elt Ideal)) :
    after (lay2 (F := Ideal)) V (Proc.devRef .tc main_v91)
      = Cert.Gin.layer (R := 50000) (K := 64) (H := 64) (aggR64 (F := Ideal) (V (Proc.devRef .tc main_v1)) (V (Proc.devRef .tc main_v3))) (meanR (F := Ideal)) (varR (F := Ideal))
          (V (Proc.devRef .tc main_arg9) ix0) (V (Proc.devRef .tc main_v47)) (V (Proc.devRef .tc main_arg10)) (V (Proc.devRef .tc main_arg11)) (V (Proc.devRef .tc main_arg12)) (V (Proc.devRef .tc main_arg13)) (V (Proc.devRef .tc main_arg14)) (V (Proc.devRef .tc main_arg15)) := by
  show after (segF ++ (segG ++ (segH ++ segI))) V _ = _
  rw [after_app, after_app, after_app, bn2_out,
    mean2_out, var2_out, keepH _ main_v71 (by decide), keepH _ main_arg14 (by decide), keepH _ main_arg15 (by decide),
    mlp2_out, keepG _ main_arg14 (by decide), keepG _ main_arg15 (by decide),
    agg2_out, keepF _ main_arg9 (by decide), keepF _ main_v47 (by decide), keepF _ main_arg10 (by decide), keepF _ main_arg11 (by decide), keepF _ main_arg12 (by decide), keepF _ main_arg13 (by decide), keepF _ main_arg14 (by decide), keepF _ main_arg15 (by decide)]
  rfl

theorem agg3_out (V : Valuation τ sig (Elt Ideal)) :
    after (segJ (F := Ideal)) V (Proc.devRef .tc main_v101) = aggR64 (F := Ideal) (V (Proc.devRef .tc main_v1)) (V (Proc.devRef .tc main_v3)) (V (Proc.devRef .tc main_v91)) := by
  dsimp only [segJ]
  after_results_simp
  rfl

theorem mlp3_out (V : Valuation τ sig (Elt Ideal)) :
    after (segK (F := Ideal)) V (Proc.devRef .tc main_v115)
      = Cert.Gin.mlp (R := 50000) (K := 64) (H := 64) (V (Proc.devRef .tc main_arg16) ix0) (V (Proc.devRef .tc main_v91)) (V (Proc.devRef .tc main_v101)) (V (Proc.devRef .tc main_arg17)) (V (Proc.devRef .tc main_arg18)) (V (Proc.devRef .tc main_arg19)) (V (Proc.devRef .tc main_arg20)) := by
  dsimp only [segK]
  after_results_simp
  simp only [Cert.LibTypedRefs.ofBuf_toBuf]
  exact mlp_host (R := 50000) (K := 64) (H := 64) _ _ _ _ _ _ _ _ _ _ _

theorem mean3_out (V : Valuation τ sig (Elt Ideal)) :
    after (segL (F := Ideal)) V (Proc.devRef .tc main_v118) = meanR (F := Ideal) (V (Proc.devRef .tc main_v115)) := by
  dsimp only [segL]
  after_results_simp
  rfl

theorem var3_out (V : Valuation τ sig (Elt Ideal)) :
    after (segL (F := Ideal)) V (Proc.devRef .tc main_v119) = varR (F := Ideal) (V (Proc.devRef .tc main_v115)) := by
  dsimp only [segL]
  after_results_simp
  simp only [Cert.LibTypedRefs.ofBuf_toBuf]
  rfl

theorem bn3_out (V : Valuation τ sig (Elt Ideal)) :
    after (segM (F := Ideal)) V (Proc.devRef .tc main_v135)
      = Cert.Gin.bnrelu (R := 50000) (H := 64) (V (Proc.devRef .tc main_v115)) (V (Proc.devRef .tc main_v118)) (V (Proc.devRef .tc main_v119)) (V (Proc.devRef .tc main_arg21)) (V (Proc.devRef .tc main_arg22)) := by
  dsimp only [segM]
  after_results_simp
  simp only [Cert.LibTypedRefs.ofBuf_toBuf]
  exact bn_host (R := 50000) (H := 64) _ _ _ _ _ _ _ _ _

/-- Layer 3: its four stages in order are `Cert.Gin.layer` of the entry contents. -/
theorem layer3_out (V : Valuation τ sig (Elt Ideal)) :
    after (lay3 (F := Ideal)) V (Proc.devRef .tc main_v135)
      = Cert.Gin.layer (R := 50000) (K := 64) (H := 64) (aggR64 (F := Ideal) (V (Proc.devRef .tc main_v1)) (V (Proc.devRef .tc main_v3))) (meanR (F := Ideal)) (varR (F := Ideal))
          (V (Proc.devRef .tc main_arg16) ix0) (V (Proc.devRef .tc main_v91)) (V (Proc.devRef .tc main_arg17)) (V (Proc.devRef .tc main_arg18)) (V (Proc.devRef .tc main_arg19)) (V (Proc.devRef .tc main_arg20)) (V (Proc.devRef .tc main_arg21)) (V (Proc.devRef .tc main_arg22)) := by
  show after (segJ ++ (segK ++ (segL ++ segM))) V _ = _
  rw [after_app, after_app, after_app, bn3_out,
    mean3_out, var3_out, keepL _ main_v115 (by decide), keepL _ main_arg21 (by decide), keepL _ main_arg22 (by decide),
    mlp3_out, keepK _ main_arg21 (by decide), keepK _ main_arg22 (by decide),
    agg3_out, keepJ _ main_arg16 (by decide), keepJ _ main_v91 (by decide), keepJ _ main_arg17 (by decide), keepJ _ main_arg18 (by decide), keepJ _ main_arg19 (by decide), keepJ _ main_arg20 (by decide), keepJ _ main_arg21 (by decide), keepJ _ main_arg22 (by decide)]
  rfl

theorem last_out (V : Valuation τ sig (Elt Ideal)) :
    after (segN (F := Ideal)) V (Proc.devRef .tc main_v139)
      = Cert.LibDenseLayers.affine (R := 50000) (K := 64) (N := 10) (V (Proc.devRef .tc main_v135)) (V (Proc.devRef .tc main_arg23)) (V (Proc.devRef .tc main_arg24)) := by
  dsimp only [segN]
  after_results_simp
  exact affine_host (R := 50000) (K := 64) (N := 10) _ _ _ _ _

/-! ## The whole network -/

/-- The reference's result as a function of its 25 arguments: the network, with the host's own neighbour sums, means and
    variances. -/
def refOut (a0 : FVec Ideal S50000x128 .f32) (a1 : IVec S2x800000 32) (a2 : FVec Ideal S_ .f32) (a3 : FVec Ideal S128x64 .f32) (a4 : FVec Ideal S64 .f32) (a5 : FVec Ideal S64x64 .f32) (a6 : FVec Ideal S64 .f32) (a7 : FVec Ideal S64 .f32) (a8 : FVec Ideal S64 .f32) (a9 : FVec Ideal S_ .f32) (a10 : FVec Ideal S64x64 .f32) (a11 : FVec Ideal S64 .f32) (a12 : FVec Ideal S64x64 .f32) (a13 : FVec Ideal S64 .f32) (a14 : FVec Ideal S64 .f32) (a15 : FVec Ideal S64 .f32) (a16 : FVec Ideal S_ .f32) (a17 : FVec Ideal S64x64 .f32) (a18 : FVec Ideal S64 .f32) (a19 : FVec Ideal S64x64 .f32) (a20 : FVec Ideal S64 .f32) (a21 : FVec Ideal S64 .f32) (a22 : FVec Ideal S64 .f32) (a23 : FVec Ideal S64x10 .f32) (a24 : FVec Ideal S10 .f32) : FVec Ideal S50000x10 .f32 :=
  Cert.Gin.net (R := 50000) (K := 128) (H := 64) (C := 10) (aggR128 (F := Ideal) (srcR a1) (dstR a1)) (aggR64 (F := Ideal) (srcR a1) (dstR a1)) (aggR64 (F := Ideal) (srcR a1) (dstR a1))
    (meanR (F := Ideal)) (varR (F := Ideal))
    a0 (a2 ix0) a3 a4 a5 a6 a7 a8 (a9 ix0) a10 a11 a12 a13 a14 a15 (a16 ix0) a17 a18 a19 a20 a21 a22 a23 a24

/-- The fold of @main's operations at the result buffer is the network of the entry contents at the 25 arguments. -/
theorem out_eq (V : Valuation τ sig (Elt Ideal)) :
    after (ops (F := Ideal)) V (Proc.devRef .tc main_v139) = refOut (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) (V (Proc.devRef .tc main_arg23)) (V (Proc.devRef .tc main_arg24)) := by
  rw [ops_eq]
  show after (segA ++ (lay1 ++ (lay2 ++ (lay3 ++ segN)))) V _ = _
  rw [after_app, after_app, after_app, after_app, last_out,
    layer3_out, keep_lay3 _ main_arg23 (by decide), keep_lay3 _ main_arg24 (by decide),
    layer2_out, keep_lay2 _ main_v1 (by decide), keep_lay2 _ main_v3 (by decide), keep_lay2 _ main_arg16 (by decide), keep_lay2 _ main_arg17 (by decide), keep_lay2 _ main_arg18 (by decide), keep_lay2 _ main_arg19 (by decide), keep_lay2 _ main_arg20 (by decide), keep_lay2 _ main_arg21 (by decide), keep_lay2 _ main_arg22 (by decide), keep_lay2 _ main_arg23 (by decide), keep_lay2 _ main_arg24 (by decide),
    layer1_out, keep_lay1 _ main_v1 (by decide), keep_lay1 _ main_v3 (by decide), keep_lay1 _ main_arg9 (by decide), keep_lay1 _ main_arg10 (by decide), keep_lay1 _ main_arg11 (by decide), keep_lay1 _ main_arg12 (by decide), keep_lay1 _ main_arg13 (by decide), keep_lay1 _ main_arg14 (by decide), keep_lay1 _ main_arg15 (by decide), keep_lay1 _ main_arg16 (by decide), keep_lay1 _ main_arg17 (by decide), keep_lay1 _ main_arg18 (by decide), keep_lay1 _ main_arg19 (by decide), keep_lay1 _ main_arg20 (by decide), keep_lay1 _ main_arg21 (by decide), keep_lay1 _ main_arg22 (by decide), keep_lay1 _ main_arg23 (by decide), keep_lay1 _ main_arg24 (by decide),
    A_src, A_dst, keepA _ main_arg0 (by decide), keepA _ main_arg2 (by decide), keepA _ main_arg3 (by decide), keepA _ main_arg4 (by decide), keepA _ main_arg5 (by decide), keepA _ main_arg6 (by decide), keepA _ main_arg7 (by decide), keepA _ main_arg8 (by decide), keepA _ main_arg9 (by decide), keepA _ main_arg10 (by decide), keepA _ main_arg11 (by decide), keepA _ main_arg12 (by decide), keepA _ main_arg13 (by decide), keepA _ main_arg14 (by decide), keepA _ main_arg15 (by decide), keepA _ main_arg16 (by decide), keepA _ main_arg17 (by decide), keepA _ main_arg18 (by decide), keepA _ main_arg19 (by decide), keepA _ main_arg20 (by decide), keepA _ main_arg21 (by decide), keepA _ main_arg22 (by decide), keepA _ main_arg23 (by decide), keepA _ main_arg24 (by decide)]
  rfl

/-- The fold leaves every argument as launched. -/
theorem arg_eq (V : Valuation τ sig (Elt Ideal)) (r : Ref sig .tc) (hr : r ∉ WopsS) :
    after (ops (F := Ideal)) V (Proc.devRef .tc r) = V (Proc.devRef .tc r) := by
  rw [ops_eq]
  exact keep_opsS V r hr

/-- On every device, from any memory with zero counters: every weakly fair execution of the reference's @main
    terminates with the result buffer at the network of the 25 arguments' launch contents, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v139) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24) :=
  (θ_run defs _ _).mono (fun _ h c => ⟨(h c main_v139).trans (out_eq _),
      (h c main_arg0).trans (arg_eq _ main_arg0 (by decide)),
      (h c main_arg1).trans (arg_eq _ main_arg1 (by decide)),
      (h c main_arg2).trans (arg_eq _ main_arg2 (by decide)),
      (h c main_arg3).trans (arg_eq _ main_arg3 (by decide)),
      (h c main_arg4).trans (arg_eq _ main_arg4 (by decide)),
      (h c main_arg5).trans (arg_eq _ main_arg5 (by decide)),
      (h c main_arg6).trans (arg_eq _ main_arg6 (by decide)),
      (h c main_arg7).trans (arg_eq _ main_arg7 (by decide)),
      (h c main_arg8).trans (arg_eq _ main_arg8 (by decide)),
      (h c main_arg9).trans (arg_eq _ main_arg9 (by decide)),
      (h c main_arg10).trans (arg_eq _ main_arg10 (by decide)),
      (h c main_arg11).trans (arg_eq _ main_arg11 (by decide)),
      (h c main_arg12).trans (arg_eq _ main_arg12 (by decide)),
      (h c main_arg13).trans (arg_eq _ main_arg13 (by decide)),
      (h c main_arg14).trans (arg_eq _ main_arg14 (by decide)),
      (h c main_arg15).trans (arg_eq _ main_arg15 (by decide)),
      (h c main_arg16).trans (arg_eq _ main_arg16 (by decide)),
      (h c main_arg17).trans (arg_eq _ main_arg17 (by decide)),
      (h c main_arg18).trans (arg_eq _ main_arg18 (by decide)),
      (h c main_arg19).trans (arg_eq _ main_arg19 (by decide)),
      (h c main_arg20).trans (arg_eq _ main_arg20 (by decide)),
      (h c main_arg21).trans (arg_eq _ main_arg21 (by decide)),
      (h c main_arg22).trans (arg_eq _ main_arg22 (by decide)),
      (h c main_arg23).trans (arg_eq _ main_arg23 (by decide)),
      (h c main_arg24).trans (arg_eq _ main_arg24 (by decide))⟩)
    (RefRun.run (F := Ideal) m ρ)

end Cert.ReferenceIdeal.RefValue

end
-- ==== Proof.lean ====
/-
  The certificate's five claims.

  Both programs compute a three-layer graph-isomorphism network and a last affine layer on 50000 nodes. On extended reals
  the idealized kernel and the idealized reference agree entry by entry, and no law of arithmetic beyond reading the
  same sums in two layouts is needed: a layer's neighbour sums, column means and column variances are the SAME host
  operations in both programs (the six functions of `KerChains`, term for term the reference's), and where the kernel has
  a pipelined region the reference has host lines that compute the same whole-array function — a matrix product into a
  zero accumulator against a dot_general, a bias kept as a one-row block against a vector broadcast twice, the scalar
  1 + ε as a 1 × 1 block against a broadcast scalar, the rectifier as a maximum with zero on both sides. So both runs end
  at `Cert.Gin.net` of the argument arrays with the same six host functions, and the two results are one term once the
  reference's arguments are rewritten to the kernel's.

  The kernel's side: `KerRun.run_value` (the run, the result buffer at the last boundary's contents), `KerFold.W20_out`
  (those contents as the network, from the seven regions' whole-array facts `RegionValue.arr0` … `arr6`). The reference's
  side: `RefValue.run`. The frames of the two kernel programs are the frame certificates'; the reference's is its run with
  the result dropped. The idealization rewrote nothing, so `preserves` has nothing to state.
-/
import proofs.«179991_j80487687127440_1_alg».proof.Defs
import proofs.«179991_j80487687127440_1_alg».proof.Proof.Gen.Kernel
import proofs.«179991_j80487687127440_1_alg».proof.Proof.Gen.Kernel.Skeleton
import proofs.«179991_j80487687127440_1_alg».proof.Proof.Gen.Kernel.Launch
import proofs.«179991_j80487687127440_1_alg».proof.Proof.Gen.Kernel.Points
import proofs.«179991_j80487687127440_1_alg».proof.Proof.Gen.Kernel.Frame
import proofs.«179991_j80487687127440_1_alg».proof.Proof.Gen.KernelIdeal
import proofs.«179991_j80487687127440_1_alg».proof.Proof.Gen.KernelIdeal.Skeleton
import proofs.«179991_j80487687127440_1_alg».proof.Proof.Gen.KernelIdeal.Launch
import proofs.«179991_j80487687127440_1_alg».proof.Proof.Gen.KernelIdeal.Points
import proofs.«179991_j80487687127440_1_alg».proof.Proof.Gen.KernelIdeal.Frame
import proofs.«179991_j80487687127440_1_alg».proof.Proof.Gen.ReferenceIdeal
import proofs.«179991_j80487687127440_1_alg».proof.Proof.Gen.Pre_finite_inputs
import proofs.«179991_j80487687127440_1_alg».proof.Proof.KerRun
import proofs.«179991_j80487687127440_1_alg».proof.Proof.KerFold
import proofs.«179991_j80487687127440_1_alg».proof.Proof.RegionValue
import proofs.«179991_j80487687127440_1_alg».proof.Proof.RefValue
import Idealize.ShloMosaic.Adequacy
import Idealize.ShloMosaic.Init

noncomputable section

namespace Cert.Proof

open Idealize.ShloMosaic Idealize.ShloMosaic.TcCoe Idealize.SL.Sem

/-! ## The seven regions -/

/-- Each region's output array is the specification's stage of the arrays it was entered with. -/
theorem regionFacts : Cert.KernelIdeal.KerFold.RegionFacts :=
  ⟨fun V c => Cert.KernelIdeal.RegionValue.arr0 V c, fun V c => Cert.KernelIdeal.RegionValue.arr1 V c,
   fun V c => Cert.KernelIdeal.RegionValue.arr2 V c, fun V c => Cert.KernelIdeal.RegionValue.arr3 V c,
   fun V c => Cert.KernelIdeal.RegionValue.arr4 V c, fun V c => Cert.KernelIdeal.RegionValue.arr5 V c,
   fun V c => Cert.KernelIdeal.RegionValue.arr6 V c⟩

/-! ## The shared host computations are the same functions in both programs -/

theorem srcR_eq : Cert.ReferenceIdeal.RefValue.srcR = Cert.KernelIdeal.KerChains.src := rfl
theorem dstR_eq : Cert.ReferenceIdeal.RefValue.dstR = Cert.KernelIdeal.KerChains.dst := rfl
theorem aggR128_eq : Cert.ReferenceIdeal.RefValue.aggR128 (F := Ideal) = Cert.KernelIdeal.KerChains.agg128 := rfl
theorem aggR64_eq : Cert.ReferenceIdeal.RefValue.aggR64 (F := Ideal) = Cert.KernelIdeal.KerChains.agg64 := rfl
theorem meanR_eq : Cert.ReferenceIdeal.RefValue.meanR (F := Ideal) = Cert.KernelIdeal.KerChains.mean := rfl
theorem varR_eq : Cert.ReferenceIdeal.RefValue.varR (F := Ideal) = Cert.KernelIdeal.KerChains.var := rfl

/-! ## The claims -/

theorem frame_k : Cert.frame_Kernel := fun m ρ _ => Cert.Kernel.Gen.frame m ρ

theorem frame_ki : Cert.frame_KernelIdeal := fun m ρ _ => Cert.KernelIdeal.Gen.frame m ρ

/-- The reference's run with the result dropped. -/
theorem frame_ri : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

open Cert.KernelIdeal Cert.KernelIdeal.KerChains in
/-- Both runs end at the specification's network of the argument arrays. -/
theorem algebraic : Cert.algebraic_KernelIdeal_ReferenceIdeal := by
  intro m ρ m' ρ' _ hagree
  refine ⟨fun c => Cert.Gin.net (agg128 (src (m ((c : Thread nD τ).loc main_arg1))) (dst (m ((c : Thread nD τ).loc main_arg1)))) (agg64 (src (m ((c : Thread nD τ).loc main_arg1))) (dst (m ((c : Thread nD τ).loc main_arg1)))) (agg64 (src (m ((c : Thread nD τ).loc main_arg1))) (dst (m ((c : Thread nD τ).loc main_arg1)))) mean var (m ((c : Thread nD τ).loc main_arg0))
        ((m ((c : Thread nD τ).loc main_arg2)) ValueIdx.ix0) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
        ((m ((c : Thread nD τ).loc main_arg9)) ValueIdx.ix0) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15))
        ((m ((c : Thread nD τ).loc main_arg16)) ValueIdx.ix0) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22))
        (m ((c : Thread nD τ).loc main_arg23)) (m ((c : Thread nD τ).loc main_arg24)), ?_, ?_⟩
  · exact (θ_run Cert.KernelIdeal.defs _ _).mono
      (fun r h c => ⟨(h c).1.trans (Cert.KernelIdeal.KerFold.W20_out m ρ regionFacts c), (h c).2⟩)
      (Cert.KernelIdeal.KerRun.run_value m ρ)
  · refine (θ_run Cert.ReferenceIdeal.defs _ _).mono (fun r h c => ⟨(h c).1.trans ?_, (h c).2⟩)
      (Cert.ReferenceIdeal.RefValue.run m' ρ')
    obtain ⟨h0, h1, h2, h3, h4, h5, h6, h7, h8, h9, h10, h11, h12, h13, h14, h15, h16, h17, h18, h19, h20, h21, h22, h23, h24⟩ := hagree c
    rw [h0, h1, h2, h3, h4, h5, h6, h7, h8, h9, h10, h11, h12, h13, h14, h15, h16, h17, h18, h19, h20, h21, h22, h23, h24]
    unfold Cert.ReferenceIdeal.RefValue.refOut
    rw [aggR128_eq, aggR64_eq, meanR_eq, varR_eq, srcR_eq, dstR_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
